-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)
  ∧ IdealRules.named_const.Statement Cert.KernelIdeal.κ "inv_50" .f32 0x3CA3D70A#32 ((1 / 50 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x50 : Shape := ⟨2, ![4096, 50]⟩
abbrev S100000x128 : Shape := ⟨2, ![100000, 128]⟩
abbrev S128x512 : Shape := ⟨2, ![128, 512]⟩
abbrev S512 : Shape := ⟨1, ![512]⟩
abbrev S512x1000 : Shape := ⟨2, ![512, 1000]⟩
abbrev S1000 : Shape := ⟨1, ![1000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x512 : S_.BroadcastsInDim S128x512 (![] : Fin 0 → Fin S128x512.rank)
  reducesTo_S128x512_S_d0_1 : S128x512.ReducesTo [0, 1] S_
  bcast_S_S512 : S_.BroadcastsInDim S512 (![] : Fin 0 → Fin S512.rank)
  reducesTo_S512_S_d0 : S512.ReducesTo [0] S_
  bcast_S_S512x1000 : S_.BroadcastsInDim S512x1000 (![] : Fin 0 → Fin S512x1000.rank)
  reducesTo_S512x1000_S_d0_1 : S512x1000.ReducesTo [0, 1] S_
  bcast_S_S1000 : S_.BroadcastsInDim S1000 (![] : Fin 0 → Fin S1000.rank)
  reducesTo_S1000_S_d0 : S1000.ReducesTo [0] S_
  bcast_S_S4096x50 : S_.BroadcastsInDim S4096x50 (![] : Fin 0 → Fin S4096x50.rank)
  reducesTo_S4096x50_S_d0_1 : S4096x50.ReducesTo [0, 1] S_

variable [Facts]

def fn_part1 {F : FTy → Type} [FloatOps F] (main_arg0 : IVec S4096x50 32) (main_arg5 : FVec F S1000 .f32) (main_v13 : IVec S_ 1) (main_v16 : IVec S512x1000 1) : IVec S_ 1 :=
  let main_c_5 : IVec S_ 1 := constantI S_ 1 1#1
  let main_v17 : IVec S_ 1 := (fun x v => Host.reduce IntOp.andi x v reducesTo_S512x1000_S_d0_1 h_S_) main_v16 main_c_5
  let main_v18 : IVec S_ 1 := andi main_v13 main_v17
  let main_v19 : FVec F S1000 .f32 := Host.absf main_arg5
  let main_cst_6 : FVec F S_ .f32 := constant S_ .f32 0x7F800000#32
  let main_v20 : FVec F S1000 .f32 := broadcastInDim S1000 ![] bcast_S_S1000 main_cst_6
  let main_v21 : IVec S1000 1 := cmpf .olt main_v19 main_v20
  let main_c_7 : IVec S_ 1 := constantI S_ 1 1#1
  let main_v22 : IVec S_ 1 := (fun x v => Host.reduce IntOp.andi x v reducesTo_S1000_S_d0 h_S_) main_v21 main_c_7
  let main_v23 : IVec S_ 1 := andi main_v18 main_v22
  let main_c_8 : IVec S_ 32 := constantI S_ 32 0#32
  let main_v24 : IVec S4096x50 32 := broadcastInDim S4096x50 ![] bcast_S_S4096x50 main_c_8
  let main_v25 : IVec S4096x50 1 := cmpi .sge main_arg0 main_v24
  let main_c_9 : IVec S_ 32 := constantI S_ 32 99999#32
  let main_v26 : IVec S4096x50 32 := broadcastInDim S4096x50 ![] bcast_S_S4096x50 main_c_9
  let main_v27 : IVec S4096x50 1 := cmpi .sle main_arg0 main_v26
  let main_v28 : IVec S4096x50 1 := andi main_v25 main_v27
  let main_c_10 : IVec S_ 1 := constantI S_ 1 1#1
  let main_v29 : IVec S_ 1 := (fun x v => Host.reduce IntOp.andi x v reducesTo_S4096x50_S_d0_1 h_S_) main_v28 main_c_10
  let main_v30 : IVec S_ 1 := andi main_v23 main_v29
  main_v30

def fn {F : FTy → Type} [FloatOps F] (main_arg0 : IVec S4096x50 32) (main_arg1 : FVec F S100000x128 .f32) (main_arg2 : FVec F S128x512 .f32) (main_arg3 : FVec F S512 .f32) (main_arg4 : FVec F S512x1000 .f32) (main_arg5 : FVec F S1000 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x512 .f32 := Host.absf main_arg2
  let main_cst_0 : FVec F S_ .f32 := constant S_ .f32 0x7F800000#32
  let main_v5 : FVec F S128x512 .f32 := broadcastInDim S128x512 ![] bcast_S_S128x512 main_cst_0
  let main_v6 : IVec S128x512 1 := cmpf .olt main_v4 main_v5
  let main_c_1 : IVec S_ 1 := constantI S_ 1 1#1
  let main_v7 : IVec S_ 1 := (fun x v => Host.reduce IntOp.andi x v reducesTo_S128x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1000 .f32 := Host.absf main_arg4
  let main_cst_4 : FVec F S_ .f32 := constant S_ .f32 0x7F800000#32
  let main_v15 : FVec F S512x1000 .f32 := broadcastInDim S512x1000 ![] bcast_S_S512x1000 main_cst_4
  let main_v16 : IVec S512x1000 1 := cmpf .olt main_v14 main_v15
  fn_part1 (F := F) main_arg0 main_arg5 main_v13 main_v16
-- ==== Kernel.lean ====
abbrev S4096x50 : Shape := ⟨2, ![4096, 50]⟩
abbrev S100000x128 : Shape := ⟨2, ![100000, 128]⟩
abbrev S128x512 : Shape := ⟨2, ![128, 512]⟩
abbrev S512 : Shape := ⟨1, ![512]⟩
abbrev S512x1000 : Shape := ⟨2, ![512, 1000]⟩
abbrev S1000 : Shape := ⟨1, ![1000]⟩
abbrev S2048x100 : Shape := ⟨2, ![2048, 100]⟩
abbrev S4096x128 : Shape := ⟨2, ![4096, 128]⟩
abbrev S100 : Shape := ⟨1, ![100]⟩
abbrev S100x128 : Shape := ⟨2, ![100, 128]⟩
abbrev S128x128 : Shape := ⟨2, ![128, 128]⟩
abbrev S_ : Shape := ⟨0, ![]⟩
abbrev S1x100 : Shape := ⟨2, ![1, 100]⟩
abbrev S16 : Shape := ⟨1, ![16]⟩
abbrev S1x16 : Shape := ⟨2, ![1, 16]⟩
abbrev S1x512 : Shape := ⟨2, ![1, 512]⟩
abbrev S1x1000 : Shape := ⟨2, ![1, 1000]⟩
abbrev S4096x1000 : Shape := ⟨2, ![4096, 1000]⟩
abbrev S512x128 : Shape := ⟨2, ![512, 128]⟩
abbrev S512x512 : Shape := ⟨2, ![512, 512]⟩

abbrev nBuf : Table → Nat
  | .hbm => 13
  | .local .tc .vmem => 8
  | .local .scVector .vmem => 9
  | _ => 0

abbrev bufTy : (tb : Table) → Fin (nBuf tb) → BufTy
  | .hbm, ⟨0, _⟩ => ⟨S4096x50, .i32⟩
  | .hbm, ⟨1, _⟩ => ⟨S100000x128, .f32⟩
  | .hbm, ⟨2, _⟩ => ⟨S128x512, .f32⟩
  | .hbm, ⟨3, _⟩ => ⟨S512, .f32⟩
  | .hbm, ⟨4, _⟩ => ⟨S512x1000, .f32⟩
  | .hbm, ⟨5, _⟩ => ⟨S1000, .f32⟩
  | .hbm, ⟨6, _⟩ => ⟨S2048x100, .i32⟩
  | .hbm, ⟨7, _⟩ => ⟨S4096x128, .f32⟩
  | .hbm, ⟨8, _⟩ => ⟨S128x512, .bf16⟩
  | .hbm, ⟨9, _⟩ => ⟨S1x512, .f32⟩
  | .hbm, ⟨10, _⟩ => ⟨S512x1000, .bf16⟩
  | .hbm, ⟨11, _⟩ => ⟨S1x1000, .f32⟩
  | .hbm, ⟨12, _⟩ => ⟨S4096x1000, .f32⟩
  | .local .tc .vmem, ⟨0, _⟩ => ⟨S512x128, .f32⟩
  | .local .tc .vmem, ⟨1, _⟩ => ⟨S512x128, .f32⟩
  | .local .tc .vmem, ⟨2, _⟩ => ⟨S128x512, .bf16⟩
  | .local .tc .vmem, ⟨3, _⟩ => ⟨S1x512, .f32⟩
  | .local .tc .vmem, ⟨4, _⟩ => ⟨S512x1000, .bf16⟩
  | .local .tc .vmem, ⟨5, _⟩ => ⟨S1x1000, .f32⟩
  | .local .tc .vmem, ⟨6, _⟩ => ⟨S512x1000, .f32⟩
  | .local .tc .vmem, ⟨7, _⟩ => ⟨S512x1000, .f32⟩
  | .local .scVector .vmem, ⟨0, _⟩ => ⟨S100, .i32⟩
  | .local .scVector .vmem, ⟨1, _⟩ => ⟨S100, .i32⟩
  | .local .scVector .vmem, ⟨2, _⟩ => ⟨S100, .i32⟩
  | .local .scVector .vmem, ⟨3, _⟩ => ⟨S100, .i32⟩
  | .local .scVector .vmem, ⟨4, _⟩ => ⟨S100x128, .f32⟩
  | .local .scVector .vmem, ⟨5, _⟩ => ⟨S100x128, .f32⟩
  | .local .scVector .vmem, ⟨6, _⟩ => ⟨S100x128, .f32⟩
  | .local .scVector .vmem, ⟨7, _⟩ => ⟨S100x128, .f32⟩
  | .local .scVector .vmem, ⟨8, _⟩ => ⟨S128x128, .f32⟩
  | _, _ => ⟨S4096x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v0_scv : Ref sig .scVector := ⟨.hbm, 6, rfl⟩
abbrev main_arg1_scv : Ref sig .scVector := ⟨.hbm, 1, rfl⟩
abbrev main_v1_scv : Ref sig .scVector := ⟨.hbm, 7, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg4_0 : Ref sig .tc := ⟨.vmem, 5, rfl⟩
abbrev cc1_stg5_0 : Ref sig .tc := ⟨.vmem, 6, rfl⟩
abbrev cc1_stg5_1 : Ref sig .tc := ⟨.vmem, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  let c0_i32_0 : BitVec 32 := 0#32
  ![v3.toNat, 0]
@[reducible] def k0_t1_loop : Scf.Loop 32 :=
  let c0_i32_30 : BitVec 32 := 0#32
  let c16_i32 : BitVec 32 := 16#32
  let v47 : BitVec 32 := Scalar.addi c0_i32_30 c16_i32
  let c1_i32_31 : BitVec 32 := 1#32
  ⟨c0_i32_30, v47, c1_i32_31⟩
def k0_cond1 (k0_t1 : Fin k0_t1_loop.trips) : BitVec 1 :=
  let c0_i32_30 : BitVec 32 := 0#32
  let c1_i32_31 : BitVec 32 := 1#32
  let arg22 : BitVec 32 := Scf.iv c0_i32_30 c1_i32_31 k0_t1
  let c4_i32 : BitVec 32 := 4#32
  let v49 : BitVec 32 := Scalar.muli arg22 c4_i32
  let c0_i32_33 : BitVec 32 := 0#32
  let v50 : BitVec 32 := Scalar.addi v49 c0_i32_33
  let c4_i32_36 : BitVec 32 := 4#32
  let v52 : BitVec 32 := Scalar.addi v50 c4_i32_36
  let c64_i32_37 : BitVec 32 := 64#32
  let v53 : BitVec 1 := Scalar.cmpi .slt v52 c64_i32_37
  let v54 : BitVec 32 := Scalar.extui v53
  let c0_i32_38 : BitVec 32 := 0#32
  let v55 : BitVec 1 := Scalar.cmpi .ne v54 c0_i32_38
  v55

def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_30 : BitVec 32 := 0#32
  let c1_i32_31 : BitVec 32 := 1#32
  let arg22 : BitVec 32 := Scf.iv c0_i32_30 c1_i32_31 k0_t1
  let c4_i32 : BitVec 32 := 4#32
  let v49 : BitVec 32 := Scalar.muli arg22 c4_i32
  let c0_i32_33 : BitVec 32 := 0#32
  let v50 : BitVec 32 := Scalar.addi v49 c0_i32_33
  let v562 : BitVec 32 := Scalar.addi v2 v50
  let c4_i32_283 : BitVec 32 := 4#32
  let v563 : BitVec 32 := Scalar.addi v562 c4_i32_283
  let c0_i32_284 : BitVec 32 := 0#32
  ![v563.toNat, 0]
@[reducible] def k0_t2_loop : Scf.Loop 32 :=
  let c0_i32_54 : BitVec 32 := 0#32
  let c25_i32 : BitVec 32 := 25#32
  let v72 : BitVec 32 := Scalar.addi c0_i32_54 c25_i32
  let c1_i32_55 : BitVec 32 := 1#32
  ⟨c0_i32_54, v72, c1_i32_55⟩
def k0_off3 (k0_t2 : Fin k0_t2_loop.trips) (c0_i32_285 : BitVec 32) (c0_i32_284 : BitVec 32) : Fin 2 → Nat :=
  let c0_i32_54 : BitVec 32 := 0#32
  let c1_i32_55 : BitVec 32 := 1#32
  let arg23 : BitVec 32 := Scf.iv c0_i32_54 c1_i32_55 k0_t2
  let c2_i32_283 : BitVec 32 := 2#32
  let v562 : BitVec 32 := Scalar.muli arg23 c2_i32_283
  let v563 : BitVec 32 := Scalar.addi v562 c0_i32_284
  let v564 : BitVec 32 := Scalar.addi c0_i32_285 v563
  let v565 : Index := Scalar.indexCast v564
  let c0_286 : Index := 0#32
  ![v565.toNat, 0]
def k0_off4 (k0_t2 : Fin k0_t2_loop.trips) (c0_i32_287 : BitVec 32) (c0_i32_284 : BitVec 32) : Fin 2 → Nat :=
  let c0_i32_54 : BitVec 32 := 0#32
  let c1_i32_55 : BitVec 32 := 1#32
  let arg23 : BitVec 32 := Scf.iv c0_i32_54 c1_i32_55 k0_t2
  let c2_i32_283 : BitVec 32 := 2#32
  let v562 : BitVec 32 := Scalar.muli arg23 c2_i32_283
  let v563 : BitVec 32 := Scalar.addi v562 c0_i32_284
  let v569 : BitVec 32 := Scalar.addi c0_i32_287 v563
  let v570 : Index := Scalar.indexCast v569
  let c16_288 : Index := 16#32
  ![v570.toNat, 16]
def k0_off5 (k0_t2 : Fin k0_t2_loop.trips) (c0_i32_289 : BitVec 32) (c0_i32_284 : BitVec 32) : Fin 2 → Nat :=
  let c0_i32_54 : BitVec 32 := 0#32
  let c1_i32_55 : BitVec 32 := 1#32
  let arg23 : BitVec 32 := Scf.iv c0_i32_54 c1_i32_55 k0_t2
  let c2_i32_283 : BitVec 32 := 2#32
  let v562 : BitVec 32 := Scalar.muli arg23 c2_i32_283
  let v563 : BitVec 32 := Scalar.addi v562 c0_i32_284
  let v574 : BitVec 32 := Scalar.addi c0_i32_289 v563
  let v575 : Index := Scalar.indexCast v574
  let c32_290 : Index := 32#32
  ![v575.toNat, 32]
def k0_off6 (k0_t2 : Fin k0_t2_loop.trips) (c0_i32_291 : BitVec 32) (c0_i32_284 : BitVec 32) : Fin 2 → Nat :=
  let c0_i32_54 : BitVec 32 := 0#32
  let c1_i32_55 : BitVec 32 := 1#32
  let arg23 : BitVec 32 := Scf.iv c0_i32_54 c1_i32_55 k0_t2
  let c2_i32_283 : BitVec 32 := 2#32
  let v562 : BitVec 32 := Scalar.muli arg23 c2_i32_283
  let v563 : BitVec 32 := Scalar.addi v562 c0_i32_284
  let v579 : BitVec 32 := Scalar.addi c0_i32_291 v563
  let v580 : Index := Scalar.indexCast v579
  let c48_292 : Index := 48#32
  ![v580.toNat, 48]
def k0_off7 (k0_t2 : Fin k0_t2_loop.trips) (c0_i32_293 : BitVec 32) (c0_i32_284 : BitVec 32) : Fin 2 → Nat :=
  let c0_i32_54 : BitVec 32 := 0#32
  let c1_i32_55 : BitVec 32 := 1#32
  let arg23 : BitVec 32 := Scf.iv c0_i32_54 c1_i32_55 k0_t2
  let c2_i32_283 : BitVec 32 := 2#32
  let v562 : BitVec 32 := Scalar.muli arg23 c2_i32_283
  let v563 : BitVec 32 := Scalar.addi v562 c0_i32_284
  let v584 : BitVec 32 := Scalar.addi c0_i32_293 v563
  let v585 : Index := Scalar.indexCast v584
  let c64_294 : Index := 64#32
  ![v585.toNat, 64]
def k0_off8 (k0_t2 : Fin k0_t2_loop.trips) (c0_i32_295 : BitVec 32) (c0_i32_284 : BitVec 32) : Fin 2 → Nat :=
  let c0_i32_54 : BitVec 32 := 0#32
  let c1_i32_55 : BitVec 32 := 1#32
  let arg23 : BitVec 32 := Scf.iv c0_i32_54 c1_i32_55 k0_t2
  let c2_i32_283 : BitVec 32 := 2#32
  let v562 : BitVec 32 := Scalar.muli arg23 c2_i32_283
  let v563 : BitVec 32 := Scalar.addi v562 c0_i32_284
  let v589 : BitVec 32 := Scalar.addi c0_i32_295 v563
  let v590 : Index := Scalar.indexCast v589
  let c80_296 : Index := 80#32
  ![v590.toNat, 80]
def k0_off9 (k0_t2 : Fin k0_t2_loop.trips) (c0_i32_297 : BitVec 32) (c0_i32_284 : BitVec 32) : Fin 2 → Nat :=
  let c0_i32_54 : BitVec 32 := 0#32
  let c1_i32_55 : BitVec 32 := 1#32
  let arg23 : BitVec 32 := Scf.iv c0_i32_54 c1_i32_55 k0_t2
  let c2_i32_283 : BitVec 32 := 2#32
  let v562 : BitVec 32 := Scalar.muli arg23 c2_i32_283
  let v563 : BitVec 32 := Scalar.addi v562 c0_i32_284
  let v594 : BitVec 32 := Scalar.addi c0_i32_297 v563
  let v595 : Index := Scalar.indexCast v594
  let c96_298 : Index := 96#32
  ![v595.toNat, 96]
def k0_off10 (k0_t2 : Fin k0_t2_loop.trips) (c0_i32_299 : BitVec 32) (c0_i32_284 : BitVec 32) : Fin 2 → Nat :=
  let c0_i32_54 : BitVec 32 := 0#32
  let c1_i32_55 : BitVec 32 := 1#32
  let arg23 : BitVec 32 := Scf.iv c0_i32_54 c1_i32_55 k0_t2
  let c2_i32_283 : BitVec 32 := 2#32
  let v562 : BitVec 32 := Scalar.muli arg23 c2_i32_283
  let v563 : BitVec 32 := Scalar.addi v562 c0_i32_284
  let v599 : BitVec 32 := Scalar.addi c0_i32_299 v563
  let v600 : Index := Scalar.indexCast v599
  let c112_300 : Index := 112#32
  ![v600.toNat, 112]
def k0_off11 (k0_t1 : Fin k0_t1_loop.trips) (c0_i32_33 : BitVec 32) (c0_i32_58 : BitVec 32) : Fin 2 → Nat :=
  let c0_i32_30 : BitVec 32 := 0#32
  let c1_i32_31 : BitVec 32 := 1#32
  let arg22 : BitVec 32 := Scf.iv c0_i32_30 c1_i32_31 k0_t1
  let c4_i32 : BitVec 32 := 4#32
  let v49 : BitVec 32 := Scalar.muli arg22 c4_i32
  let v50 : BitVec 32 := Scalar.addi v49 c0_i32_33
  let c2_i32_57 : BitVec 32 := 2#32
  let v74 : BitVec 32 := Scalar.muli v50 c2_i32_57
  let v75 : BitVec 32 := Scalar.addi v74 c0_i32_58
  let v78 : Index := Scalar.indexCast v75
  let c0 : Index := 0#32
  ![v78.toNat, 0]
def k0_off12 (k0_t1 : Fin k0_t1_loop.trips) (c0_i32_33 : BitVec 32) (c0_i32_58 : BitVec 32) : Fin 2 → Nat :=
  let c0_i32_30 : BitVec 32 := 0#32
  let c1_i32_31 : BitVec 32 := 1#32
  let arg22 : BitVec 32 := Scf.iv c0_i32_30 c1_i32_31 k0_t1
  let c4_i32 : BitVec 32 := 4#32
  let v49 : BitVec 32 := Scalar.muli arg22 c4_i32
  let v50 : BitVec 32 := Scalar.addi v49 c0_i32_33
  let c2_i32_57 : BitVec 32 := 2#32
  let v74 : BitVec 32 := Scalar.muli v50 c2_i32_57
  let v75 : BitVec 32 := Scalar.addi v74 c0_i32_58
  let v84 : Index := Scalar.indexCast v75
  let c16 : Index := 16#32
  ![v84.toNat, 16]
def k0_off13 (k0_t1 : Fin k0_t1_loop.trips) (c0_i32_33 : BitVec 32) (c0_i32_58 : BitVec 32) : Fin 2 → Nat :=
  let c0_i32_30 : BitVec 32 := 0#32
  let c1_i32_31 : BitVec 32 := 1#32
  let arg22 : BitVec 32 := Scf.iv c0_i32_30 c1_i32_31 k0_t1
  let c4_i32 : BitVec 32 := 4#32
  let v49 : BitVec 32 := Scalar.muli arg22 c4_i32
  let v50 : BitVec 32 := Scalar.addi v49 c0_i32_33
  let c2_i32_57 : BitVec 32 := 2#32
  let v74 : BitVec 32 := Scalar.muli v50 c2_i32_57
  let v75 : BitVec 32 := Scalar.addi v74 c0_i32_58
  let v90 : Index := Scalar.indexCast v75
  let c32 : Index := 32#32
  ![v90.toNat, 32]
def k0_off14 (k0_t1 : Fin k0_t1_loop.trips) (c0_i32_33 : BitVec 32) (c0_i32_58 : BitVec 32) : Fin 2 → Nat :=
  let c0_i32_30 : BitVec 32 := 0#32
  let c1_i32_31 : BitVec 32 := 1#32
  let arg22 : BitVec 32 := Scf.iv c0_i32_30 c1_i32_31 k0_t1
  let c4_i32 : BitVec 32 := 4#32
  let v49 : BitVec 32 := Scalar.muli arg22 c4_i32
  let v50 : BitVec 32 := Scalar.addi v49 c0_i32_33
  let c2_i32_57 : BitVec 32 := 2#32
  let v74 : BitVec 32 := Scalar.muli v50 c2_i32_57
  let v75 : BitVec 32 := Scalar.addi v74 c0_i32_58
  let v96 : Index := Scalar.indexCast v75
  let c48 : Index := 48#32
  ![v96.toNat, 48]
def k0_off15 (k0_t1 : Fin k0_t1_loop.trips) (c0_i32_33 : BitVec 32) (c0_i32_58 : BitVec 32) : Fin 2 → Nat :=
  let c0_i32_30 : BitVec 32 := 0#32
  let c1_i32_31 : BitVec 32 := 1#32
  let arg22 : BitVec 32 := Scf.iv c0_i32_30 c1_i32_31 k0_t1
  let c4_i32 : BitVec 32 := 4#32
  let v49 : BitVec 32 := Scalar.muli arg22 c4_i32
  let v50 : BitVec 32 := Scalar.addi v49 c0_i32_33
  let c2_i32_57 : BitVec 32 := 2#32
  let v74 : BitVec 32 := Scalar.muli v50 c2_i32_57
  let v75 : BitVec 32 := Scalar.addi v74 c0_i32_58
  let v102 : Index := Scalar.indexCast v75
  let c64 : Index := 64#32
  ![v102.toNat, 64]
def k0_off16 (k0_t1 : Fin k0_t1_loop.trips) (c0_i32_33 : BitVec 32) (c0_i32_58 : BitVec 32) : Fin 2 → Nat :=
  let c0_i32_30 : BitVec 32 := 0#32
  let c1_i32_31 : BitVec 32 := 1#32
  let arg22 : BitVec 32 := Scf.iv c0_i32_30 c1_i32_31 k0_t1
  let c4_i32 : BitVec 32 := 4#32
  let v49 : BitVec 32 := Scalar.muli arg22 c4_i32
  let v50 : BitVec 32 := Scalar.addi v49 c0_i32_33
  let c2_i32_57 : BitVec 32 := 2#32
  let v74 : BitVec 32 := Scalar.muli v50 c2_i32_57
  let v75 : BitVec 32 := Scalar.addi v74 c0_i32_58
  let v108 : Index := Scalar.indexCast v75
  let c80 : Index := 80#32
  ![v108.toNat, 80]
def k0_off17 (k0_t1 : Fin k0_t1_loop.trips) (c0_i32_33 : BitVec 32) (c0_i32_58 : BitVec 32) : Fin 2 → Nat :=
  let c0_i32_30 : BitVec 32 := 0#32
  let c1_i32_31 : BitVec 32 := 1#32
  let arg22 : BitVec 32 := Scf.iv c0_i32_30 c1_i32_31 k0_t1
  let c4_i32 : BitVec 32 := 4#32
  let v49 : BitVec 32 := Scalar.muli arg22 c4_i32
  let v50 : BitVec 32 := Scalar.addi v49 c0_i32_33
  let c2_i32_57 : BitVec 32 := 2#32
  let v74 : BitVec 32 := Scalar.muli v50 c2_i32_57
  let v75 : BitVec 32 := Scalar.addi v74 c0_i32_58
  let v114 : Index := Scalar.indexCast v75
  let c96 : Index := 96#32
  ![v114.toNat, 96]
def k0_off18 (k0_t1 : Fin k0_t1_loop.trips) (c0_i32_33 : BitVec 32) (c0_i32_58 : BitVec 32) : Fin 2 → Nat :=
  let c0_i32_30 : BitVec 32 := 0#32
  let c1_i32_31 : BitVec 32 := 1#32
  let arg22 : BitVec 32 := Scf.iv c0_i32_30 c1_i32_31 k0_t1
  let c4_i32 : BitVec 32 := 4#32
  let v49 : BitVec 32 := Scalar.muli arg22 c4_i32
  let v50 : BitVec 32 := Scalar.addi v49 c0_i32_33
  let c2_i32_57 : BitVec 32 := 2#32
  let v74 : BitVec 32 := Scalar.muli v50 c2_i32_57
  let v75 : BitVec 32 := Scalar.addi v74 c0_i32_58
  let v120 : Index := Scalar.indexCast v75
  let c112 : Index := 112#32
  ![v120.toNat, 112]
def k0_cond2 (k0_t1 : Fin k0_t1_loop.trips) : BitVec 1 :=
  let c0_i32_30 : BitVec 32 := 0#32
  let c1_i32_31 : BitVec 32 := 1#32
  let arg22 : BitVec 32 := Scf.iv c0_i32_30 c1_i32_31 k0_t1
  let c4_i32 : BitVec 32 := 4#32
  let v49 : BitVec 32 := Scalar.muli arg22 c4_i32
  let c0_i32_33 : BitVec 32 := 0#32
  let v50 : BitVec 32 := Scalar.addi v49 c0_i32_33
  let c4_i32_85 : BitVec 32 := 4#32
  let v174 : BitVec 32 := Scalar.addi v50 c4_i32_85
  let c64_i32_86 : BitVec 32 := 64#32
  let v175 : BitVec 1 := Scalar.cmpi .slt v174 c64_i32_86
  let v176 : BitVec 32 := Scalar.extui v175
  let c0_i32_87 : BitVec 32 := 0#32
  let v177 : BitVec 1 := Scalar.cmpi .ne v176 c0_i32_87
  v177

def k0_off19 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_30 : BitVec 32 := 0#32
  let c1_i32_31 : BitVec 32 := 1#32
  let arg22 : BitVec 32 := Scf.iv c0_i32_30 c1_i32_31 k0_t1
  let c4_i32 : BitVec 32 := 4#32
  let v49 : BitVec 32 := Scalar.muli arg22 c4_i32
  let c0_i32_33 : BitVec 32 := 0#32
  let v50 : BitVec 32 := Scalar.addi v49 c0_i32_33
  let v562 : BitVec 32 := Scalar.addi v2 v50
  let c4_i32_283 : BitVec 32 := 4#32
  let v563 : BitVec 32 := Scalar.addi v562 c4_i32_283
  let c0_i32_284 : BitVec 32 := 0#32
  ![v563.toNat, 0]
def k0_cond3 (k0_t1 : Fin k0_t1_loop.trips) : BitVec 1 :=
  let c0_i32_30 : BitVec 32 := 0#32
  let c1_i32_31 : BitVec 32 := 1#32
  let arg22 : BitVec 32 := Scf.iv c0_i32_30 c1_i32_31 k0_t1
  let c4_i32 : BitVec 32 := 4#32
  let v49 : BitVec 32 := Scalar.muli arg22 c4_i32
  let c1_i32_88 : BitVec 32 := 1#32
  let v178 : BitVec 32 := Scalar.addi v49 c1_i32_88
  let c4_i32_91 : BitVec 32 := 4#32
  let v180 : BitVec 32 := Scalar.addi v178 c4_i32_91
  let c64_i32_92 : BitVec 32 := 64#32
  let v181 : BitVec 1 := Scalar.cmpi .slt v180 c64_i32_92
  let v182 : BitVec 32 := Scalar.extui v181
  let c0_i32_93 : BitVec 32 := 0#32
  let v183 : BitVec 1 := Scalar.cmpi .ne v182 c0_i32_93
  v183

def k0_off20 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_30 : BitVec 32 := 0#32
  let c1_i32_31 : BitVec 32 := 1#32
  let arg22 : BitVec 32 := Scf.iv c0_i32_30 c1_i32_31 k0_t1
  let c4_i32 : BitVec 32 := 4#32
  let v49 : BitVec 32 := Scalar.muli arg22 c4_i32
  let c1_i32_88 : BitVec 32 := 1#32
  let v178 : BitVec 32 := Scalar.addi v49 c1_i32_88
  let v562 : BitVec 32 := Scalar.addi v2 v178
  let c4_i32_283 : BitVec 32 := 4#32
  let v563 : BitVec 32 := Scalar.addi v562 c4_i32_283
  let c0_i32_284 : BitVec 32 := 0#32
  ![v563.toNat, 0]
@[reducible] def k0_t3_loop : Scf.Loop 32 :=
  let c0_i32_110 : BitVec 32 := 0#32
  let c25_i32_111 : BitVec 32 := 25#32
  let v200 : BitVec 32 := Scalar.addi c0_i32_110 c25_i32_111
  let c1_i32_112 : BitVec 32 := 1#32
  ⟨c0_i32_110, v200, c1_i32_112⟩
def k0_off21 (k0_t3 : Fin k0_t3_loop.trips) (c0_i32_285 : BitVec 32) (c0_i32_284 : BitVec 32) : Fin 2 → Nat :=
  let c0_i32_110 : BitVec 32 := 0#32
  let c1_i32_112 : BitVec 32 := 1#32
  let arg23 : BitVec 32 := Scf.iv c0_i32_110 c1_i32_112 k0_t3
  let c2_i32_283 : BitVec 32 := 2#32
  let v562 : BitVec 32 := Scalar.muli arg23 c2_i32_283
  let v563 : BitVec 32 := Scalar.addi v562 c0_i32_284
  let v564 : BitVec 32 := Scalar.addi c0_i32_285 v563
  let v565 : Index := Scalar.indexCast v564
  let c0_286 : Index := 0#32
  ![v565.toNat, 0]
def k0_off22 (k0_t3 : Fin k0_t3_loop.trips) (c0_i32_287 : BitVec 32) (c0_i32_284 : BitVec 32) : Fin 2 → Nat :=
  let c0_i32_110 : BitVec 32 := 0#32
  let c1_i32_112 : BitVec 32 := 1#32
  let arg23 : BitVec 32 := Scf.iv c0_i32_110 c1_i32_112 k0_t3
  let c2_i32_283 : BitVec 32 := 2#32
  let v562 : BitVec 32 := Scalar.muli arg23 c2_i32_283
  let v563 : BitVec 32 := Scalar.addi v562 c0_i32_284
  let v569 : BitVec 32 := Scalar.addi c0_i32_287 v563
  let v570 : Index := Scalar.indexCast v569
  let c16_288 : Index := 16#32
  ![v570.toNat, 16]
def k0_off23 (k0_t3 : Fin k0_t3_loop.trips) (c0_i32_289 : BitVec 32) (c0_i32_284 : BitVec 32) : Fin 2 → Nat :=
  let c0_i32_110 : BitVec 32 := 0#32
  let c1_i32_112 : BitVec 32 := 1#32
  let arg23 : BitVec 32 := Scf.iv c0_i32_110 c1_i32_112 k0_t3
  let c2_i32_283 : BitVec 32 := 2#32
  let v562 : BitVec 32 := Scalar.muli arg23 c2_i32_283
  let v563 : BitVec 32 := Scalar.addi v562 c0_i32_284
  let v574 : BitVec 32 := Scalar.addi c0_i32_289 v563
  let v575 : Index := Scalar.indexCast v574
  let c32_290 : Index := 32#32
  ![v575.toNat, 32]
def k0_off24 (k0_t3 : Fin k0_t3_loop.trips) (c0_i32_291 : BitVec 32) (c0_i32_284 : BitVec 32) : Fin 2 → Nat :=
  let c0_i32_110 : BitVec 32 := 0#32
  let c1_i32_112 : BitVec 32 := 1#32
  let arg23 : BitVec 32 := Scf.iv c0_i32_110 c1_i32_112 k0_t3
  let c2_i32_283 : BitVec 32 := 2#32
  let v562 : BitVec 32 := Scalar.muli arg23 c2_i32_283
  let v563 : BitVec 32 := Scalar.addi v562 c0_i32_284
  let v579 : BitVec 32 := Scalar.addi c0_i32_291 v563
  let v580 : Index := Scalar.indexCast v579
  let c48_292 : Index := 48#32
  ![v580.toNat, 48]
def k0_off25 (k0_t3 : Fin k0_t3_loop.trips) (c0_i32_293 : BitVec 32) (c0_i32_284 : BitVec 32) : Fin 2 → Nat :=
  let c0_i32_110 : BitVec 32 := 0#32
  let c1_i32_112 : BitVec 32 := 1#32
  let arg23 : BitVec 32 := Scf.iv c0_i32_110 c1_i32_112 k0_t3
  let c2_i32_283 : BitVec 32 := 2#32
  let v562 : BitVec 32 := Scalar.muli arg23 c2_i32_283
  let v563 : BitVec 32 := Scalar.addi v562 c0_i32_284
  let v584 : BitVec 32 := Scalar.addi c0_i32_293 v563
  let v585 : Index := Scalar.indexCast v584
  let c64_294 : Index := 64#32
  ![v585.toNat, 64]
def k0_off26 (k0_t3 : Fin k0_t3_loop.trips) (c0_i32_295 : BitVec 32) (c0_i32_284 : BitVec 32) : Fin 2 → Nat :=
  let c0_i32_110 : BitVec 32 := 0#32
  let c1_i32_112 : BitVec 32 := 1#32
  let arg23 : BitVec 32 := Scf.iv c0_i32_110 c1_i32_112 k0_t3
  let c2_i32_283 : BitVec 32 := 2#32
  let v562 : BitVec 32 := Scalar.muli arg23 c2_i32_283
  let v563 : BitVec 32 := Scalar.addi v562 c0_i32_284
  let v589 : BitVec 32 := Scalar.addi c0_i32_295 v563
  let v590 : Index := Scalar.indexCast v589
  let c80_296 : Index := 80#32
  ![v590.toNat, 80]
def k0_off27 (k0_t3 : Fin k0_t3_loop.trips) (c0_i32_297 : BitVec 32) (c0_i32_284 : BitVec 32) : Fin 2 → Nat :=
  let c0_i32_110 : BitVec 32 := 0#32
  let c1_i32_112 : BitVec 32 := 1#32
  let arg23 : BitVec 32 := Scf.iv c0_i32_110 c1_i32_112 k0_t3
  let c2_i32_283 : BitVec 32 := 2#32
  let v562 : BitVec 32 := Scalar.muli arg23 c2_i32_283
  let v563 : BitVec 32 := Scalar.addi v562 c0_i32_284
  let v594 : BitVec 32 := Scalar.addi c0_i32_297 v563
  let v595 : Index := Scalar.indexCast v594
  let c96_298 : Index := 96#32
  ![v595.toNat, 96]
def k0_off28 (k0_t3 : Fin k0_t3_loop.trips) (c0_i32_299 : BitVec 32) (c0_i32_284 : BitVec 32) : Fin 2 → Nat :=
  let c0_i32_110 : BitVec 32 := 0#32
  let c1_i32_112 : BitVec 32 := 1#32
  let arg23 : BitVec 32 := Scf.iv c0_i32_110 c1_i32_112 k0_t3
  let c2_i32_283 : BitVec 32 := 2#32
  let v562 : BitVec 32 := Scalar.muli arg23 c2_i32_283
  let v563 : BitVec 32 := Scalar.addi v562 c0_i32_284
  let v599 : BitVec 32 := Scalar.addi c0_i32_299 v563
  let v600 : Index := Scalar.indexCast v599
  let c112_300 : Index := 112#32
  ![v600.toNat, 112]
def k0_cond4 (k0_t1 : Fin k0_t1_loop.trips) : BitVec 1 :=
  let c0_i32_30 : BitVec 32 := 0#32
  let c1_i32_31 : BitVec 32 := 1#32
  let arg22 : BitVec 32 := Scf.iv c0_i32_30 c1_i32_31 k0_t1
  let c4_i32 : BitVec 32 := 4#32
  let v49 : BitVec 32 := Scalar.muli arg22 c4_i32
  let c1_i32_88 : BitVec 32 := 1#32
  let v178 : BitVec 32 := Scalar.addi v49 c1_i32_88
  let c4_i32_150 : BitVec 32 := 4#32
  let v302 : BitVec 32 := Scalar.addi v178 c4_i32_150
  let c64_i32_151 : BitVec 32 := 64#32
  let v303 : BitVec 1 := Scalar.cmpi .slt v302 c64_i32_151
  let v304 : BitVec 32 := Scalar.extui v303
  let c0_i32_152 : BitVec 32 := 0#32
  let v305 : BitVec 1 := Scalar.cmpi .ne v304 c0_i32_152
  v305

def k0_off29 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_30 : BitVec 32 := 0#32
  let c1_i32_31 : BitVec 32 := 1#32
  let arg22 : BitVec 32 := Scf.iv c0_i32_30 c1_i32_31 k0_t1
  let c4_i32 : BitVec 32 := 4#32
  let v49 : BitVec 32 := Scalar.muli arg22 c4_i32
  let c1_i32_88 : BitVec 32 := 1#32
  let v178 : BitVec 32 := Scalar.addi v49 c1_i32_88
  let v562 : BitVec 32 := Scalar.addi v2 v178
  let c4_i32_283 : BitVec 32 := 4#32
  let v563 : BitVec 32 := Scalar.addi v562 c4_i32_283
  let c0_i32_284 : BitVec 32 := 0#32
  ![v563.toNat, 0]
def k0_cond5 (k0_t1 : Fin k0_t1_loop.trips) : BitVec 1 :=
  let c0_i32_30 : BitVec 32 := 0#32
  let c1_i32_31 : BitVec 32 := 1#32
  let arg22 : BitVec 32 := Scf.iv c0_i32_30 c1_i32_31 k0_t1
  let c4_i32 : BitVec 32 := 4#32
  let v49 : BitVec 32 := Scalar.muli arg22 c4_i32
  let c2_i32_153 : BitVec 32 := 2#32
  let v306 : BitVec 32 := Scalar.addi v49 c2_i32_153
  let c4_i32_156 : BitVec 32 := 4#32
  let v308 : BitVec 32 := Scalar.addi v306 c4_i32_156
  let c64_i32_157 : BitVec 32 := 64#32
  let v309 : BitVec 1 := Scalar.cmpi .slt v308 c64_i32_157
  let v310 : BitVec 32 := Scalar.extui v309
  let c0_i32_158 : BitVec 32 := 0#32
  let v311 : BitVec 1 := Scalar.cmpi .ne v310 c0_i32_158
  v311

def k0_off30 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_30 : BitVec 32 := 0#32
  let c1_i32_31 : BitVec 32 := 1#32
  let arg22 : BitVec 32 := Scf.iv c0_i32_30 c1_i32_31 k0_t1
  let c4_i32 : BitVec 32 := 4#32
  let v49 : BitVec 32 := Scalar.muli arg22 c4_i32
  let c2_i32_153 : BitVec 32 := 2#32
  let v306 : BitVec 32 := Scalar.addi v49 c2_i32_153
  let v562 : BitVec 32 := Scalar.addi v2 v306
  let c4_i32_283 : BitVec 32 := 4#32
  let v563 : BitVec 32 := Scalar.addi v562 c4_i32_283
  let c0_i32_284 : BitVec 32 := 0#32
  ![v563.toNat, 0]
@[reducible] def k0_t4_loop : Scf.Loop 32 :=
  let c0_i32_175 : BitVec 32 := 0#32
  let c25_i32_176 : BitVec 32 := 25#32
  let v328 : BitVec 32 := Scalar.addi c0_i32_175 c25_i32_176
  let c1_i32_177 : BitVec 32 := 1#32
  ⟨c0_i32_175, v328, c1_i32_177⟩
def k0_off31 (k0_t4 : Fin k0_t4_loop.trips) (c0_i32_285 : BitVec 32) (c0_i32_284 : BitVec 32) : Fin 2 → Nat :=
  let c0_i32_175 : BitVec 32 := 0#32
  let c1_i32_177 : BitVec 32 := 1#32
  let arg23 : BitVec 32 := Scf.iv c0_i32_175 c1_i32_177 k0_t4
  let c2_i32_283 : BitVec 32 := 2#32
  let v562 : BitVec 32 := Scalar.muli arg23 c2_i32_283
  let v563 : BitVec 32 := Scalar.addi v562 c0_i32_284
  let v564 : BitVec 32 := Scalar.addi c0_i32_285 v563
  let v565 : Index := Scalar.indexCast v564
  let c0_286 : Index := 0#32
  ![v565.toNat, 0]
def k0_off32 (k0_t4 : Fin k0_t4_loop.trips) (c0_i32_287 : BitVec 32) (c0_i32_284 : BitVec 32) : Fin 2 → Nat :=
  let c0_i32_175 : BitVec 32 := 0#32
  let c1_i32_177 : BitVec 32 := 1#32
  let arg23 : BitVec 32 := Scf.iv c0_i32_175 c1_i32_177 k0_t4
  let c2_i32_283 : BitVec 32 := 2#32
  let v562 : BitVec 32 := Scalar.muli arg23 c2_i32_283
  let v563 : BitVec 32 := Scalar.addi v562 c0_i32_284
  let v569 : BitVec 32 := Scalar.addi c0_i32_287 v563
  let v570 : Index := Scalar.indexCast v569
  let c16_288 : Index := 16#32
  ![v570.toNat, 16]
def k0_off33 (k0_t4 : Fin k0_t4_loop.trips) (c0_i32_289 : BitVec 32) (c0_i32_284 : BitVec 32) : Fin 2 → Nat :=
  let c0_i32_175 : BitVec 32 := 0#32
  let c1_i32_177 : BitVec 32 := 1#32
  let arg23 : BitVec 32 := Scf.iv c0_i32_175 c1_i32_177 k0_t4
  let c2_i32_283 : BitVec 32 := 2#32
  let v562 : BitVec 32 := Scalar.muli arg23 c2_i32_283
  let v563 : BitVec 32 := Scalar.addi v562 c0_i32_284
  let v574 : BitVec 32 := Scalar.addi c0_i32_289 v563
  let v575 : Index := Scalar.indexCast v574
  let c32_290 : Index := 32#32
  ![v575.toNat, 32]
def k0_off34 (k0_t4 : Fin k0_t4_loop.trips) (c0_i32_291 : BitVec 32) (c0_i32_284 : BitVec 32) : Fin 2 → Nat :=
  let c0_i32_175 : BitVec 32 := 0#32
  let c1_i32_177 : BitVec 32 := 1#32
  let arg23 : BitVec 32 := Scf.iv c0_i32_175 c1_i32_177 k0_t4
  let c2_i32_283 : BitVec 32 := 2#32
  let v562 : BitVec 32 := Scalar.muli arg23 c2_i32_283
  let v563 : BitVec 32 := Scalar.addi v562 c0_i32_284
  let v579 : BitVec 32 := Scalar.addi c0_i32_291 v563
  let v580 : Index := Scalar.indexCast v579
  let c48_292 : Index := 48#32
  ![v580.toNat, 48]
def k0_off35 (k0_t4 : Fin k0_t4_loop.trips) (c0_i32_293 : BitVec 32) (c0_i32_284 : BitVec 32) : Fin 2 → Nat :=
  let c0_i32_175 : BitVec 32 := 0#32
  let c1_i32_177 : BitVec 32 := 1#32
  let arg23 : BitVec 32 := Scf.iv c0_i32_175 c1_i32_177 k0_t4
  let c2_i32_283 : BitVec 32 := 2#32
  let v562 : BitVec 32 := Scalar.muli arg23 c2_i32_283
  let v563 : BitVec 32 := Scalar.addi v562 c0_i32_284
  let v584 : BitVec 32 := Scalar.addi c0_i32_293 v563
  let v585 : Index := Scalar.indexCast v584
  let c64_294 : Index := 64#32
  ![v585.toNat, 64]
def k0_off36 (k0_t4 : Fin k0_t4_loop.trips) (c0_i32_295 : BitVec 32) (c0_i32_284 : BitVec 32) : Fin 2 → Nat :=
  let c0_i32_175 : BitVec 32 := 0#32
  let c1_i32_177 : BitVec 32 := 1#32
  let arg23 : BitVec 32 := Scf.iv c0_i32_175 c1_i32_177 k0_t4
  let c2_i32_283 : BitVec 32 := 2#32
  let v562 : BitVec 32 := Scalar.muli arg23 c2_i32_283
  let v563 : BitVec 32 := Scalar.addi v562 c0_i32_284
  let v589 : BitVec 32 := Scalar.addi c0_i32_295 v563
  let v590 : Index := Scalar.indexCast v589
  let c80_296 : Index := 80#32
  ![v590.toNat, 80]
def k0_off37 (k0_t4 : Fin k0_t4_loop.trips) (c0_i32_297 : BitVec 32) (c0_i32_284 : BitVec 32) : Fin 2 → Nat :=
  let c0_i32_175 : BitVec 32 := 0#32
  let c1_i32_177 : BitVec 32 := 1#32
  let arg23 : BitVec 32 := Scf.iv c0_i32_175 c1_i32_177 k0_t4
  let c2_i32_283 : BitVec 32 := 2#32
  let v562 : BitVec 32 := Scalar.muli arg23 c2_i32_283
  let v563 : BitVec 32 := Scalar.addi v562 c0_i32_284
  let v594 : BitVec 32 := Scalar.addi c0_i32_297 v563
  let v595 : Index := Scalar.indexCast v594
  let c96_298 : Index := 96#32
  ![v595.toNat, 96]
def k0_off38 (k0_t4 : Fin k0_t4_loop.trips) (c0_i32_299 : BitVec 32) (c0_i32_284 : BitVec 32) : Fin 2 → Nat :=
  let c0_i32_175 : BitVec 32 := 0#32
  let c1_i32_177 : BitVec 32 := 1#32
  let arg23 : BitVec 32 := Scf.iv c0_i32_175 c1_i32_177 k0_t4
  let c2_i32_283 : BitVec 32 := 2#32
  let v562 : BitVec 32 := Scalar.muli arg23 c2_i32_283
  let v563 : BitVec 32 := Scalar.addi v562 c0_i32_284
  let v599 : BitVec 32 := Scalar.addi c0_i32_299 v563
  let v600 : Index := Scalar.indexCast v599
  let c112_300 : Index := 112#32
  ![v600.toNat, 112]
def k0_cond6 (k0_t1 : Fin k0_t1_loop.trips) : BitVec 1 :=
  let c0_i32_30 : BitVec 32 := 0#32
  let c1_i32_31 : BitVec 32 := 1#32
  let arg22 : BitVec 32 := Scf.iv c0_i32_30 c1_i32_31 k0_t1
  let c4_i32 : BitVec 32 := 4#32
  let v49 : BitVec 32 := Scalar.muli arg22 c4_i32
  let c2_i32_153 : BitVec 32 := 2#32
  let v306 : BitVec 32 := Scalar.addi v49 c2_i32_153
  let c4_i32_215 : BitVec 32 := 4#32
  let v430 : BitVec 32 := Scalar.addi v306 c4_i32_215
  let c64_i32_216 : BitVec 32 := 64#32
  let v431 : BitVec 1 := Scalar.cmpi .slt v430 c64_i32_216
  let v432 : BitVec 32 := Scalar.extui v431
  let c0_i32_217 : BitVec 32 := 0#32
  let v433 : BitVec 1 := Scalar.cmpi .ne v432 c0_i32_217
  v433

def k0_off39 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_30 : BitVec 32 := 0#32
  let c1_i32_31 : BitVec 32 := 1#32
  let arg22 : BitVec 32 := Scf.iv c0_i32_30 c1_i32_31 k0_t1
  let c4_i32 : BitVec 32 := 4#32
  let v49 : BitVec 32 := Scalar.muli arg22 c4_i32
  let c2_i32_153 : BitVec 32 := 2#32
  let v306 : BitVec 32 := Scalar.addi v49 c2_i32_153
  let v562 : BitVec 32 := Scalar.addi v2 v306
  let c4_i32_283 : BitVec 32 := 4#32
  let v563 : BitVec 32 := Scalar.addi v562 c4_i32_283
  let c0_i32_284 : BitVec 32 := 0#32
  ![v563.toNat, 0]
def k0_cond7 (k0_t1 : Fin k0_t1_loop.trips) : BitVec 1 :=
  let c0_i32_30 : BitVec 32 := 0#32
  let c1_i32_31 : BitVec 32 := 1#32
  let arg22 : BitVec 32 := Scf.iv c0_i32_30 c1_i32_31 k0_t1
  let c4_i32 : BitVec 32 := 4#32
  let v49 : BitVec 32 := Scalar.muli arg22 c4_i32
  let c3_i32_218 : BitVec 32 := 3#32
  let v434 : BitVec 32 := Scalar.addi v49 c3_i32_218
  let c4_i32_221 : BitVec 32 := 4#32
  let v436 : BitVec 32 := Scalar.addi v434 c4_i32_221
  let c64_i32_222 : BitVec 32 := 64#32
  let v437 : BitVec 1 := Scalar.cmpi .slt v436 c64_i32_222
  let v438 : BitVec 32 := Scalar.extui v437
  let c0_i32_223 : BitVec 32 := 0#32
  let v439 : BitVec 1 := Scalar.cmpi .ne v438 c0_i32_223
  v439

def k0_off40 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_30 : BitVec 32 := 0#32
  let c1_i32_31 : BitVec 32 := 1#32
  let arg22 : BitVec 32 := Scf.iv c0_i32_30 c1_i32_31 k0_t1
  let c4_i32 : BitVec 32 := 4#32
  let v49 : BitVec 32 := Scalar.muli arg22 c4_i32
  let c3_i32_218 : BitVec 32 := 3#32
  let v434 : BitVec 32 := Scalar.addi v49 c3_i32_218
  let v562 : BitVec 32 := Scalar.addi v2 v434
  let c4_i32_283 : BitVec 32 := 4#32
  let v563 : BitVec 32 := Scalar.addi v562 c4_i32_283
  let c0_i32_284 : BitVec 32 := 0#32
  ![v563.toNat, 0]
@[reducible] def k0_t5_loop : Scf.Loop 32 :=
  let c0_i32_240 : BitVec 32 := 0#32
  let c25_i32_241 : BitVec 32 := 25#32
  let v456 : BitVec 32 := Scalar.addi c0_i32_240 c25_i32_241
  let c1_i32_242 : BitVec 32 := 1#32
  ⟨c0_i32_240, v456, c1_i32_242⟩
def k0_off41 (k0_t5 : Fin k0_t5_loop.trips) (c0_i32_285 : BitVec 32) (c0_i32_284 : BitVec 32) : Fin 2 → Nat :=
  let c0_i32_240 : BitVec 32 := 0#32
  let c1_i32_242 : BitVec 32 := 1#32
  let arg23 : BitVec 32 := Scf.iv c0_i32_240 c1_i32_242 k0_t5
  let c2_i32_283 : BitVec 32 := 2#32
  let v562 : BitVec 32 := Scalar.muli arg23 c2_i32_283
  let v563 : BitVec 32 := Scalar.addi v562 c0_i32_284
  let v564 : BitVec 32 := Scalar.addi c0_i32_285 v563
  let v565 : Index := Scalar.indexCast v564
  let c0_286 : Index := 0#32
  ![v565.toNat, 0]
def k0_off42 (k0_t5 : Fin k0_t5_loop.trips) (c0_i32_287 : BitVec 32) (c0_i32_284 : BitVec 32) : Fin 2 → Nat :=
  let c0_i32_240 : BitVec 32 := 0#32
  let c1_i32_242 : BitVec 32 := 1#32
  let arg23 : BitVec 32 := Scf.iv c0_i32_240 c1_i32_242 k0_t5
  let c2_i32_283 : BitVec 32 := 2#32
  let v562 : BitVec 32 := Scalar.muli arg23 c2_i32_283
  let v563 : BitVec 32 := Scalar.addi v562 c0_i32_284
  let v569 : BitVec 32 := Scalar.addi c0_i32_287 v563
  let v570 : Index := Scalar.indexCast v569
  let c16_288 : Index := 16#32
  ![v570.toNat, 16]
def k0_off43 (k0_t5 : Fin k0_t5_loop.trips) (c0_i32_289 : BitVec 32) (c0_i32_284 : BitVec 32) : Fin 2 → Nat :=
  let c0_i32_240 : BitVec 32 := 0#32
  let c1_i32_242 : BitVec 32 := 1#32
  let arg23 : BitVec 32 := Scf.iv c0_i32_240 c1_i32_242 k0_t5
  let c2_i32_283 : BitVec 32 := 2#32
  let v562 : BitVec 32 := Scalar.muli arg23 c2_i32_283
  let v563 : BitVec 32 := Scalar.addi v562 c0_i32_284
  let v574 : BitVec 32 := Scalar.addi c0_i32_289 v563
  let v575 : Index := Scalar.indexCast v574
  let c32_290 : Index := 32#32
  ![v575.toNat, 32]
def k0_off44 (k0_t5 : Fin k0_t5_loop.trips) (c0_i32_291 : BitVec 32) (c0_i32_284 : BitVec 32) : Fin 2 → Nat :=
  let c0_i32_240 : BitVec 32 := 0#32
  let c1_i32_242 : BitVec 32 := 1#32
  let arg23 : BitVec 32 := Scf.iv c0_i32_240 c1_i32_242 k0_t5
  let c2_i32_283 : BitVec 32 := 2#32
  let v562 : BitVec 32 := Scalar.muli arg23 c2_i32_283
  let v563 : BitVec 32 := Scalar.addi v562 c0_i32_284
  let v579 : BitVec 32 := Scalar.addi c0_i32_291 v563
  let v580 : Index := Scalar.indexCast v579
  let c48_292 : Index := 48#32
  ![v580.toNat, 48]
def k0_off45 (k0_t5 : Fin k0_t5_loop.trips) (c0_i32_293 : BitVec 32) (c0_i32_284 : BitVec 32) : Fin 2 → Nat :=
  let c0_i32_240 : BitVec 32 := 0#32
  let c1_i32_242 : BitVec 32 := 1#32
  let arg23 : BitVec 32 := Scf.iv c0_i32_240 c1_i32_242 k0_t5
  let c2_i32_283 : BitVec 32 := 2#32
  let v562 : BitVec 32 := Scalar.muli arg23 c2_i32_283
  let v563 : BitVec 32 := Scalar.addi v562 c0_i32_284
  let v584 : BitVec 32 := Scalar.addi c0_i32_293 v563
  let v585 : Index := Scalar.indexCast v584
  let c64_294 : Index := 64#32
  ![v585.toNat, 64]
def k0_off46 (k0_t5 : Fin k0_t5_loop.trips) (c0_i32_295 : BitVec 32) (c0_i32_284 : BitVec 32) : Fin 2 → Nat :=
  let c0_i32_240 : BitVec 32 := 0#32
  let c1_i32_242 : BitVec 32 := 1#32
  let arg23 : BitVec 32 := Scf.iv c0_i32_240 c1_i32_242 k0_t5
  let c2_i32_283 : BitVec 32 := 2#32
  let v562 : BitVec 32 := Scalar.muli arg23 c2_i32_283
  let v563 : BitVec 32 := Scalar.addi v562 c0_i32_284
  let v589 : BitVec 32 := Scalar.addi c0_i32_295 v563
  let v590 : Index := Scalar.indexCast v589
  let c80_296 : Index := 80#32
  ![v590.toNat, 80]
def k0_off47 (k0_t5 : Fin k0_t5_loop.trips) (c0_i32_297 : BitVec 32) (c0_i32_284 : BitVec 32) : Fin 2 → Nat :=
  let c0_i32_240 : BitVec 32 := 0#32
  let c1_i32_242 : BitVec 32 := 1#32
  let arg23 : BitVec 32 := Scf.iv c0_i32_240 c1_i32_242 k0_t5
  let c2_i32_283 : BitVec 32 := 2#32
  let v562 : BitVec 32 := Scalar.muli arg23 c2_i32_283
  let v563 : BitVec 32 := Scalar.addi v562 c0_i32_284
  let v594 : BitVec 32 := Scalar.addi c0_i32_297 v563
  let v595 : Index := Scalar.indexCast v594
  let c96_298 : Index := 96#32
  ![v595.toNat, 96]
def k0_off48 (k0_t5 : Fin k0_t5_loop.trips) (c0_i32_299 : BitVec 32) (c0_i32_284 : BitVec 32) : Fin 2 → Nat :=
  let c0_i32_240 : BitVec 32 := 0#32
  let c1_i32_242 : BitVec 32 := 1#32
  let arg23 : BitVec 32 := Scf.iv c0_i32_240 c1_i32_242 k0_t5
  let c2_i32_283 : BitVec 32 := 2#32
  let v562 : BitVec 32 := Scalar.muli arg23 c2_i32_283
  let v563 : BitVec 32 := Scalar.addi v562 c0_i32_284
  let v599 : BitVec 32 := Scalar.addi c0_i32_299 v563
  let v600 : Index := Scalar.indexCast v599
  let c112_300 : Index := 112#32
  ![v600.toNat, 112]
def k0_cond8 (k0_t1 : Fin k0_t1_loop.trips) : BitVec 1 :=
  let c0_i32_30 : BitVec 32 := 0#32
  let c1_i32_31 : BitVec 32 := 1#32
  let arg22 : BitVec 32 := Scf.iv c0_i32_30 c1_i32_31 k0_t1
  let c4_i32 : BitVec 32 := 4#32
  let v49 : BitVec 32 := Scalar.muli arg22 c4_i32
  let c3_i32_218 : BitVec 32 := 3#32
  let v434 : BitVec 32 := Scalar.addi v49 c3_i32_218
  let c4_i32_280 : BitVec 32 := 4#32
  let v558 : BitVec 32 := Scalar.addi v434 c4_i32_280
  let c64_i32_281 : BitVec 32 := 64#32
  let v559 : BitVec 1 := Scalar.cmpi .slt v558 c64_i32_281
  let v560 : BitVec 32 := Scalar.extui v559
  let c0_i32_282 : BitVec 32 := 0#32
  let v561 : BitVec 1 := Scalar.cmpi .ne v560 c0_i32_282
  v561

def k0_off49 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let c0_i32_30 : BitVec 32 := 0#32
  let c1_i32_31 : BitVec 32 := 1#32
  let arg22 : BitVec 32 := Scf.iv c0_i32_30 c1_i32_31 k0_t1
  let c4_i32 : BitVec 32 := 4#32
  let v49 : BitVec 32 := Scalar.muli arg22 c4_i32
  let c3_i32_218 : BitVec 32 := 3#32
  let v434 : BitVec 32 := Scalar.addi v49 c3_i32_218
  let v562 : BitVec 32 := Scalar.addi v2 v434
  let c4_i32_283 : BitVec 32 := 4#32
  let v563 : BitVec 32 := Scalar.addi v562 c4_i32_283
  let c0_i32_284 : BitVec 32 := 0#32
  ![v563.toNat, 0]
def k0_off50 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v48 : BitVec 32 := Scalar.muli v1 c128_i32
  let c0_i32_33_r0 : BitVec 32 := 0#32
  ![v48.toNat, 0]
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x1000 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1000 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1000 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x50_S2048x100 : S4096x50.ShapeCasts S2048x100
  squeezes_S1x100_S100 : S1x100.Squeezes S100
  inb_S100000x128_S100000x128_0_0 : ∀ a, (![0, 0] : Fin 2 → Nat) a + S100000x128.size a ≤ S100000x128.size a
  gathers_S100000x128_S100x128 : S100000x128.Gathers 0 S100x128
  h_S1x16 : 0 < S1x16.numel
  shapeCasts_S1x16_S16 : S1x16.ShapeCasts S16
  shapeCasts_S16_S1x16 : S16.ShapeCasts S1x16
  bitsLt_bf16_f32 : FTy.bits .bf16 < FTy.bits .f32
  shapeCasts_S512_S1x512 : S512.ShapeCasts S1x512
  shapeCasts_S1000_S1x1000 : S1000.ShapeCasts S1x1000
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x1000_S512x1000_0_0 : ∀ a, (![0, 0] : Fin 2 → Nat) a + S512x1000.size a ≤ S512x1000.size a
  h_S512x1000 : 0 < S512x1000.numel
  shapeCasts_S512x1000_S512x1000 : S512x1000.ShapeCasts S512x1000
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S512x1000 : S1x1000.Broadcasts S512x1000
  dot_S512x128_S128x512_S512x512_1_0_0_1_n_n_wf : DotDims.WF S512x128 S128x512 S512x512 [1] [0] [0] [1] [] []
  dot_S512x512_S512x1000_S512x1000_1_0_0_1_n_n_wf : DotDims.WF S512x512 S512x1000 S512x1000 [1] [0] [0] [1] [] []
  hcc0_scratch9 : 0 + S_.numel ≤ 17
  hcc0_scratch10 : 1 + S_.numel ≤ 17
  hcc0_scratch11 : 2 + S_.numel ≤ 17
  hcc0_scratch12 : 3 + S_.numel ≤ 17
  hcc0_scratch13 : 4 + S_.numel ≤ 17
  hcc0_scratch14 : 5 + S_.numel ≤ 17
  hcc0_scratch15 : 6 + S_.numel ≤ 17
  hcc0_scratch16 : 7 + S_.numel ≤ 17
  hcc0_scoped0 : 8 + S_.numel ≤ 17
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ (r : Fin 4), ∀ a, (k0_off1 i (BitVec.ofNat 32 r.val)) a + S1x100.size a ≤ S2048x100.size a
  k0_t1_ok : k0_t1_loop.OK
  k0_off2_inb : ∀ (i : grid0.Coords) (k0_t1 : Fin k0_t1_loop.trips), ∀ (k0_h1 : k0_cond1 k0_t1 = 1#1), ∀ a, (k0_off2 i k0_t1) a + S1x100.size a ≤ S2048x100.size a
  k0_t2_ok : k0_t2_loop.OK
  k0_off3_inb : ∀ k0_t2 : Fin k0_t2_loop.trips, ∀ (r₁ : Fin 2) (r₂ : Fin 2), ∀ a, (k0_off3 k0_t2 (BitVec.ofNat 32 (50 * r₁.val)) (BitVec.ofNat 32 r₂.val)) a + S1x16.size a ≤ S100x128.size a
  k0_off4_inb : ∀ k0_t2 : Fin k0_t2_loop.trips, ∀ (r₁ : Fin 2) (r₂ : Fin 2), ∀ a, (k0_off4 k0_t2 (BitVec.ofNat 32 (50 * r₁.val)) (BitVec.ofNat 32 r₂.val)) a + S1x16.size a ≤ S100x128.size a
  k0_off5_inb : ∀ k0_t2 : Fin k0_t2_loop.trips, ∀ (r₁ : Fin 2) (r₂ : Fin 2), ∀ a, (k0_off5 k0_t2 (BitVec.ofNat 32 (50 * r₁.val)) (BitVec.ofNat 32 r₂.val)) a + S1x16.size a ≤ S100x128.size a
  k0_off6_inb : ∀ k0_t2 : Fin k0_t2_loop.trips, ∀ (r₁ : Fin 2) (r₂ : Fin 2), ∀ a, (k0_off6 k0_t2 (BitVec.ofNat 32 (50 * r₁.val)) (BitVec.ofNat 32 r₂.val)) a + S1x16.size a ≤ S100x128.size a
  k0_off7_inb : ∀ k0_t2 : Fin k0_t2_loop.trips, ∀ (r₁ : Fin 2) (r₂ : Fin 2), ∀ a, (k0_off7 k0_t2 (BitVec.ofNat 32 (50 * r₁.val)) (BitVec.ofNat 32 r₂.val)) a + S1x16.size a ≤ S100x128.size a
  k0_off8_inb : ∀ k0_t2 : Fin k0_t2_loop.trips, ∀ (r₁ : Fin 2) (r₂ : Fin 2), ∀ a, (k0_off8 k0_t2 (BitVec.ofNat 32 (50 * r₁.val)) (BitVec.ofNat 32 r₂.val)) a + S1x16.size a ≤ S100x128.size a
  k0_off9_inb : ∀ k0_t2 : Fin k0_t2_loop.trips, ∀ (r₁ : Fin 2) (r₂ : Fin 2), ∀ a, (k0_off9 k0_t2 (BitVec.ofNat 32 (50 * r₁.val)) (BitVec.ofNat 32 r₂.val)) a + S1x16.size a ≤ S100x128.size a
  k0_off10_inb : ∀ k0_t2 : Fin k0_t2_loop.trips, ∀ (r₁ : Fin 2) (r₂ : Fin 2), ∀ a, (k0_off10 k0_t2 (BitVec.ofNat 32 (50 * r₁.val)) (BitVec.ofNat 32 r₂.val)) a + S1x16.size a ≤ S100x128.size a
  k0_off11_inb : ∀ k0_t1 : Fin k0_t1_loop.trips, ∀ (r₁ : Fin 4) (r₂ : Fin 2), ∀ a, (k0_off11 k0_t1 (BitVec.ofNat 32 r₁.val) (BitVec.ofNat 32 r₂.val)) a + S1x16.size a ≤ S128x128.size a
  k0_off12_inb : ∀ k0_t1 : Fin k0_t1_loop.trips, ∀ (r₁ : Fin 4) (r₂ : Fin 2), ∀ a, (k0_off12 k0_t1 (BitVec.ofNat 32 r₁.val) (BitVec.ofNat 32 r₂.val)) a + S1x16.size a ≤ S128x128.size a
  k0_off13_inb : ∀ k0_t1 : Fin k0_t1_loop.trips, ∀ (r₁ : Fin 4) (r₂ : Fin 2), ∀ a, (k0_off13 k0_t1 (BitVec.ofNat 32 r₁.val) (BitVec.ofNat 32 r₂.val)) a + S1x16.size a ≤ S128x128.size a
  k0_off14_inb : ∀ k0_t1 : Fin k0_t1_loop.trips, ∀ (r₁ : Fin 4) (r₂ : Fin 2), ∀ a, (k0_off14 k0_t1 (BitVec.ofNat 32 r₁.val) (BitVec.ofNat 32 r₂.val)) a + S1x16.size a ≤ S128x128.size a
  k0_off15_inb : ∀ k0_t1 : Fin k0_t1_loop.trips, ∀ (r₁ : Fin 4) (r₂ : Fin 2), ∀ a, (k0_off15 k0_t1 (BitVec.ofNat 32 r₁.val) (BitVec.ofNat 32 r₂.val)) a + S1x16.size a ≤ S128x128.size a
  k0_off16_inb : ∀ k0_t1 : Fin k0_t1_loop.trips, ∀ (r₁ : Fin 4) (r₂ : Fin 2), ∀ a, (k0_off16 k0_t1 (BitVec.ofNat 32 r₁.val) (BitVec.ofNat 32 r₂.val)) a + S1x16.size a ≤ S128x128.size a
  k0_off17_inb : ∀ k0_t1 : Fin k0_t1_loop.trips, ∀ (r₁ : Fin 4) (r₂ : Fin 2), ∀ a, (k0_off17 k0_t1 (BitVec.ofNat 32 r₁.val) (BitVec.ofNat 32 r₂.val)) a + S1x16.size a ≤ S128x128.size a
  k0_off18_inb : ∀ k0_t1 : Fin k0_t1_loop.trips, ∀ (r₁ : Fin 4) (r₂ : Fin 2), ∀ a, (k0_off18 k0_t1 (BitVec.ofNat 32 r₁.val) (BitVec.ofNat 32 r₂.val)) a + S1x16.size a ≤ S128x128.size a
  k0_off19_inb : ∀ (i : grid0.Coords) (k0_t1 : Fin k0_t1_loop.trips), ∀ (k0_h2 : k0_cond2 k0_t1 = 1#1), ∀ a, (k0_off19 i k0_t1) a + S1x100.size a ≤ S2048x100.size a
  k0_off20_inb : ∀ (i : grid0.Coords) (k0_t1 : Fin k0_t1_loop.trips), ∀ (k0_h3 : k0_cond3 k0_t1 = 1#1), ∀ a, (k0_off20 i k0_t1) a + S1x100.size a ≤ S2048x100.size a
  k0_t3_ok : k0_t3_loop.OK
  k0_off21_inb : ∀ k0_t3 : Fin k0_t3_loop.trips, ∀ (r₁ : Fin 2) (r₂ : Fin 2), ∀ a, (k0_off21 k0_t3 (BitVec.ofNat 32 (50 * r₁.val)) (BitVec.ofNat 32 r₂.val)) a + S1x16.size a ≤ S100x128.size a
  k0_off22_inb : ∀ k0_t3 : Fin k0_t3_loop.trips, ∀ (r₁ : Fin 2) (r₂ : Fin 2), ∀ a, (k0_off22 k0_t3 (BitVec.ofNat 32 (50 * r₁.val)) (BitVec.ofNat 32 r₂.val)) a + S1x16.size a ≤ S100x128.size a
  k0_off23_inb : ∀ k0_t3 : Fin k0_t3_loop.trips, ∀ (r₁ : Fin 2) (r₂ : Fin 2), ∀ a, (k0_off23 k0_t3 (BitVec.ofNat 32 (50 * r₁.val)) (BitVec.ofNat 32 r₂.val)) a + S1x16.size a ≤ S100x128.size a
  k0_off24_inb : ∀ k0_t3 : Fin k0_t3_loop.trips, ∀ (r₁ : Fin 2) (r₂ : Fin 2), ∀ a, (k0_off24 k0_t3 (BitVec.ofNat 32 (50 * r₁.val)) (BitVec.ofNat 32 r₂.val)) a + S1x16.size a ≤ S100x128.size a
  k0_off25_inb : ∀ k0_t3 : Fin k0_t3_loop.trips, ∀ (r₁ : Fin 2) (r₂ : Fin 2), ∀ a, (k0_off25 k0_t3 (BitVec.ofNat 32 (50 * r₁.val)) (BitVec.ofNat 32 r₂.val)) a + S1x16.size a ≤ S100x128.size a
  k0_off26_inb : ∀ k0_t3 : Fin k0_t3_loop.trips, ∀ (r₁ : Fin 2) (r₂ : Fin 2), ∀ a, (k0_off26 k0_t3 (BitVec.ofNat 32 (50 * r₁.val)) (BitVec.ofNat 32 r₂.val)) a + S1x16.size a ≤ S100x128.size a
  k0_off27_inb : ∀ k0_t3 : Fin k0_t3_loop.trips, ∀ (r₁ : Fin 2) (r₂ : Fin 2), ∀ a, (k0_off27 k0_t3 (BitVec.ofNat 32 (50 * r₁.val)) (BitVec.ofNat 32 r₂.val)) a + S1x16.size a ≤ S100x128.size a
  k0_off28_inb : ∀ k0_t3 : Fin k0_t3_loop.trips, ∀ (r₁ : Fin 2) (r₂ : Fin 2), ∀ a, (k0_off28 k0_t3 (BitVec.ofNat 32 (50 * r₁.val)) (BitVec.ofNat 32 r₂.val)) a + S1x16.size a ≤ S100x128.size a
  k0_off29_inb : ∀ (i : grid0.Coords) (k0_t1 : Fin k0_t1_loop.trips), ∀ (k0_h4 : k0_cond4 k0_t1 = 1#1), ∀ a, (k0_off29 i k0_t1) a + S1x100.size a ≤ S2048x100.size a
  k0_off30_inb : ∀ (i : grid0.Coords) (k0_t1 : Fin k0_t1_loop.trips), ∀ (k0_h5 : k0_cond5 k0_t1 = 1#1), ∀ a, (k0_off30 i k0_t1) a + S1x100.size a ≤ S2048x100.size a
  k0_t4_ok : k0_t4_loop.OK
  k0_off31_inb : ∀ k0_t4 : Fin k0_t4_loop.trips, ∀ (r₁ : Fin 2) (r₂ : Fin 2), ∀ a, (k0_off31 k0_t4 (BitVec.ofNat 32 (50 * r₁.val)) (BitVec.ofNat 32 r₂.val)) a + S1x16.size a ≤ S100x128.size a
  k0_off32_inb : ∀ k0_t4 : Fin k0_t4_loop.trips, ∀ (r₁ : Fin 2) (r₂ : Fin 2), ∀ a, (k0_off32 k0_t4 (BitVec.ofNat 32 (50 * r₁.val)) (BitVec.ofNat 32 r₂.val)) a + S1x16.size a ≤ S100x128.size a
  k0_off33_inb : ∀ k0_t4 : Fin k0_t4_loop.trips, ∀ (r₁ : Fin 2) (r₂ : Fin 2), ∀ a, (k0_off33 k0_t4 (BitVec.ofNat 32 (50 * r₁.val)) (BitVec.ofNat 32 r₂.val)) a + S1x16.size a ≤ S100x128.size a
  k0_off34_inb : ∀ k0_t4 : Fin k0_t4_loop.trips, ∀ (r₁ : Fin 2) (r₂ : Fin 2), ∀ a, (k0_off34 k0_t4 (BitVec.ofNat 32 (50 * r₁.val)) (BitVec.ofNat 32 r₂.val)) a + S1x16.size a ≤ S100x128.size a
  k0_off35_inb : ∀ k0_t4 : Fin k0_t4_loop.trips, ∀ (r₁ : Fin 2) (r₂ : Fin 2), ∀ a, (k0_off35 k0_t4 (BitVec.ofNat 32 (50 * r₁.val)) (BitVec.ofNat 32 r₂.val)) a + S1x16.size a ≤ S100x128.size a
  k0_off36_inb : ∀ k0_t4 : Fin k0_t4_loop.trips, ∀ (r₁ : Fin 2) (r₂ : Fin 2), ∀ a, (k0_off36 k0_t4 (BitVec.ofNat 32 (50 * r₁.val)) (BitVec.ofNat 32 r₂.val)) a + S1x16.size a ≤ S100x128.size a
  k0_off37_inb : ∀ k0_t4 : Fin k0_t4_loop.trips, ∀ (r₁ : Fin 2) (r₂ : Fin 2), ∀ a, (k0_off37 k0_t4 (BitVec.ofNat 32 (50 * r₁.val)) (BitVec.ofNat 32 r₂.val)) a + S1x16.size a ≤ S100x128.size a
  k0_off38_inb : ∀ k0_t4 : Fin k0_t4_loop.trips, ∀ (r₁ : Fin 2) (r₂ : Fin 2), ∀ a, (k0_off38 k0_t4 (BitVec.ofNat 32 (50 * r₁.val)) (BitVec.ofNat 32 r₂.val)) a + S1x16.size a ≤ S100x128.size a
  k0_off39_inb : ∀ (i : grid0.Coords) (k0_t1 : Fin k0_t1_loop.trips), ∀ (k0_h6 : k0_cond6 k0_t1 = 1#1), ∀ a, (k0_off39 i k0_t1) a + S1x100.size a ≤ S2048x100.size a
  k0_off40_inb : ∀ (i : grid0.Coords) (k0_t1 : Fin k0_t1_loop.trips), ∀ (k0_h7 : k0_cond7 k0_t1 = 1#1), ∀ a, (k0_off40 i k0_t1) a + S1x100.size a ≤ S2048x100.size a
  k0_t5_ok : k0_t5_loop.OK
  k0_off41_inb : ∀ k0_t5 : Fin k0_t5_loop.trips, ∀ (r₁ : Fin 2) (r₂ : Fin 2), ∀ a, (k0_off41 k0_t5 (BitVec.ofNat 32 (50 * r₁.val)) (BitVec.ofNat 32 r₂.val)) a + S1x16.size a ≤ S100x128.size a
  k0_off42_inb : ∀ k0_t5 : Fin k0_t5_loop.trips, ∀ (r₁ : Fin 2) (r₂ : Fin 2), ∀ a, (k0_off42 k0_t5 (BitVec.ofNat 32 (50 * r₁.val)) (BitVec.ofNat 32 r₂.val)) a + S1x16.size a ≤ S100x128.size a
  k0_off43_inb : ∀ k0_t5 : Fin k0_t5_loop.trips, ∀ (r₁ : Fin 2) (r₂ : Fin 2), ∀ a, (k0_off43 k0_t5 (BitVec.ofNat 32 (50 * r₁.val)) (BitVec.ofNat 32 r₂.val)) a + S1x16.size a ≤ S100x128.size a
  k0_off44_inb : ∀ k0_t5 : Fin k0_t5_loop.trips, ∀ (r₁ : Fin 2) (r₂ : Fin 2), ∀ a, (k0_off44 k0_t5 (BitVec.ofNat 32 (50 * r₁.val)) (BitVec.ofNat 32 r₂.val)) a + S1x16.size a ≤ S100x128.size a
  k0_off45_inb : ∀ k0_t5 : Fin k0_t5_loop.trips, ∀ (r₁ : Fin 2) (r₂ : Fin 2), ∀ a, (k0_off45 k0_t5 (BitVec.ofNat 32 (50 * r₁.val)) (BitVec.ofNat 32 r₂.val)) a + S1x16.size a ≤ S100x128.size a
  k0_off46_inb : ∀ k0_t5 : Fin k0_t5_loop.trips, ∀ (r₁ : Fin 2) (r₂ : Fin 2), ∀ a, (k0_off46 k0_t5 (BitVec.ofNat 32 (50 * r₁.val)) (BitVec.ofNat 32 r₂.val)) a + S1x16.size a ≤ S100x128.size a
  k0_off47_inb : ∀ k0_t5 : Fin k0_t5_loop.trips, ∀ (r₁ : Fin 2) (r₂ : Fin 2), ∀ a, (k0_off47 k0_t5 (BitVec.ofNat 32 (50 * r₁.val)) (BitVec.ofNat 32 r₂.val)) a + S1x16.size a ≤ S100x128.size a
  k0_off48_inb : ∀ k0_t5 : Fin k0_t5_loop.trips, ∀ (r₁ : Fin 2) (r₂ : Fin 2), ∀ a, (k0_off48 k0_t5 (BitVec.ofNat 32 (50 * r₁.val)) (BitVec.ofNat 32 r₂.val)) a + S1x16.size a ≤ S100x128.size a
  k0_off49_inb : ∀ (i : grid0.Coords) (k0_t1 : Fin k0_t1_loop.trips), ∀ (k0_h8 : k0_cond8 k0_t1 = 1#1), ∀ a, (k0_off49 i k0_t1) a + S1x100.size a ≤ S2048x100.size a
  k0_off50_inb : ∀ i : grid0.Coords, ∀ a, (k0_off50 i) a + S128x128.size a ≤ S4096x128.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x128.size a ≤ S4096x128.size a
  hwx1_0 : ∀ i : grid1.Coords, EltTy.bits .f32 = 32 ∨ (Rect.block (s := S4096x128) S512x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .bf16 = 32 ∨ (Rect.block (s := S128x512) S128x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x1000.size a ≤ S512x1000.size a
  hwx1_3 : ∀ i : grid1.Coords, EltTy.bits .bf16 = 32 ∨ (Rect.block (s := S512x1000) S512x1000.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1000.size a ≤ S1x1000.size a
  hwx1_4 : ∀ i : grid1.Coords, EltTy.bits .f32 = 32 ∨ (Rect.block (s := S1x1000) S1x1000.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1000.size a ≤ S4096x1000.size a
  hwx1_5 : ∀ i : grid1.Coords, EltTy.bits .f32 = 32 ∨ (Rect.block (s := S4096x1000) S512x1000.size (cc1_transform_5 i) (hinb1_5 i)).WholeWords (EltTy.packing .f32)

variable [Facts₀]

abbrev cc0_scratch9 : DmaSems sig S_ := SemArray.consecutive 0 S_ hcc0_scratch9
abbrev cc0_scratch10 : DmaSems sig S_ := SemArray.consecutive 1 S_ hcc0_scratch10
abbrev cc0_scratch11 : DmaSems sig S_ := SemArray.consecutive 2 S_ hcc0_scratch11
abbrev cc0_scratch12 : DmaSems sig S_ := SemArray.consecutive 3 S_ hcc0_scratch12
abbrev cc0_scratch13 : DmaSems sig S_ := SemArray.consecutive 4 S_ hcc0_scratch13
abbrev cc0_scratch14 : DmaSems sig S_ := SemArray.consecutive 5 S_ hcc0_scratch14
abbrev cc0_scratch15 : DmaSems sig S_ := SemArray.consecutive 6 S_ hcc0_scratch15
abbrev cc0_scratch16 : DmaSems sig S_ := SemArray.consecutive 7 S_ hcc0_scratch16
abbrev cc0_scoped0 : DmaSems sig S_ := SemArray.consecutive 8 S_ hcc0_scoped0
def dot_S512x128_S128x512_S512x512_1_0_0_1_n_n : DotDims S512x128 S128x512 S512x512 where
  lhsContracting := [1]
  rhsContracting := [0]
  lhsNonContracting := [0]
  rhsNonContracting := [1]
  lhsBatch := []
  rhsBatch := []
  wf := dot_S512x128_S128x512_S512x512_1_0_0_1_n_n_wf
def dot_S512x512_S512x1000_S512x1000_1_0_0_1_n_n : DotDims S512x512 S512x1000 S512x1000 where
  lhsContracting := [1]
  rhsContracting := [0]
  lhsNonContracting := [0]
  rhsNonContracting := [1]
  lhsBatch := []
  rhsBatch := []
  wf := dot_S512x512_S512x1000_S512x1000_1_0_0_1_n_n_wf

abbrev win1_0 : Pipeline.Window sig grid1 :=
  Pipeline.Window.ofSpec (Memref.whole main_v1) S512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x1000.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S1x1000.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v6) S512x1000.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4096x50 : Shape := ⟨2, ![4096, 50]⟩
abbrev S100000x128 : Shape := ⟨2, ![100000, 128]⟩
abbrev S128x512 : Shape := ⟨2, ![128, 512]⟩
abbrev S512 : Shape := ⟨1, ![512]⟩
abbrev S512x1000 : Shape := ⟨2, ![512, 1000]⟩
abbrev S1000 : Shape := ⟨1, ![1000]⟩
abbrev S_ : Shape := ⟨0, ![]⟩
abbrev S4096x50x1 : Shape := ⟨3, ![4096, 50, 1]⟩
abbrev S1 : Shape := ⟨1, ![1]⟩
abbrev S1x1x1 : Shape := ⟨3, ![1, 1, 1]⟩
abbrev S4096x50x128 : Shape := ⟨3, ![4096, 50, 128]⟩
abbrev S4096x128 : Shape := ⟨2, ![4096, 128]⟩
abbrev S4096x512 : Shape := ⟨2, ![4096, 512]⟩
abbrev S1x512 : Shape := ⟨2, ![1, 512]⟩
abbrev S4096x1000 : Shape := ⟨2, ![4096, 1000]⟩
abbrev S1x1000 : Shape := ⟨2, ![1, 1000]⟩

abbrev nBuf : Space → Nat
  | .hbm => 45
  | .vmem => 0
  | .smem => 0
  | _ => 0

abbrev bufTy : (tb : Table) → Fin (tcTables nBuf tb) → BufTy
  | .hbm, ⟨0, _⟩ => ⟨S4096x50, .i32⟩
  | .hbm, ⟨1, _⟩ => ⟨S100000x128, .f32⟩
  | .hbm, ⟨2, _⟩ => ⟨S128x512, .f32⟩
  | .hbm, ⟨3, _⟩ => ⟨S512, .f32⟩
  | .hbm, ⟨4, _⟩ => ⟨S512x1000, .f32⟩
  | .hbm, ⟨5, _⟩ => ⟨S1000, .f32⟩
  | .hbm, ⟨6, _⟩ => ⟨S_, .i32⟩
  | .hbm, ⟨7, _⟩ => ⟨S4096x50, .i32⟩
  | .hbm, ⟨8, _⟩ => ⟨S4096x50, .i1⟩
  | .hbm, ⟨9, _⟩ => ⟨S_, .i32⟩
  | .hbm, ⟨10, _⟩ => ⟨S4096x50, .i32⟩
  | .hbm, ⟨11, _⟩ => ⟨S4096x50, .i32⟩
  | .hbm, ⟨12, _⟩ => ⟨S4096x50, .i32⟩
  | .hbm, ⟨13, _⟩ => ⟨S4096x50x1, .i32⟩
  | .hbm, ⟨14, _⟩ => ⟨S1, .i32⟩
  | .hbm, ⟨15, _⟩ => ⟨S_, .i32⟩
  | .hbm, ⟨16, _⟩ => ⟨S4096x50x1, .i32⟩
  | .hbm, ⟨17, _⟩ => ⟨S4096x50x1, .i1⟩
  | .hbm, ⟨18, _⟩ => ⟨S1x1x1, .i32⟩
  | .hbm, ⟨19, _⟩ => ⟨S4096x50x1, .i32⟩
  | .hbm, ⟨20, _⟩ => ⟨S4096x50x1, .i1⟩
  | .hbm, ⟨21, _⟩ => ⟨S4096x50x1, .i1⟩
  | .hbm, ⟨22, _⟩ => ⟨S_, .i1⟩
  | .hbm, ⟨23, _⟩ => ⟨S4096x50, .i1⟩
  | .hbm, ⟨24, _⟩ => ⟨S4096x50x128, .f32⟩
  | .hbm, ⟨25, _⟩ => ⟨S4096x50x128, .i1⟩
  | .hbm, ⟨26, _⟩ => ⟨S_, .f32⟩
  | .hbm, ⟨27, _⟩ => ⟨S4096x50x128, .f32⟩
  | .hbm, ⟨28, _⟩ => ⟨S4096x50x128, .f32⟩
  | .hbm, ⟨29, _⟩ => ⟨S_, .f32⟩
  | .hbm, ⟨30, _⟩ => ⟨S4096x128, .f32⟩
  | .hbm, ⟨31, _⟩ => ⟨S_, .f32⟩
  | .hbm, ⟨32, _⟩ => ⟨S4096x128, .f32⟩
  | .hbm, ⟨33, _⟩ => ⟨S4096x128, .f32⟩
  | .hbm, ⟨34, _⟩ => ⟨S4096x512, .f32⟩
  | .hbm, ⟨35, _⟩ => ⟨S1x512, .f32⟩
  | .hbm, ⟨36, _⟩ => ⟨S4096x512, .f32⟩
  | .hbm, ⟨37, _⟩ => ⟨S4096x512, .f32⟩
  | .hbm, ⟨38, _⟩ => ⟨S_, .f32⟩
  | .hbm, ⟨39, _⟩ => ⟨S4096x512, .f32⟩
  | .hbm, ⟨40, _⟩ => ⟨S4096x512, .f32⟩
  | .hbm, ⟨41, _⟩ => ⟨S4096x1000, .f32⟩
  | .hbm, ⟨42, _⟩ => ⟨S1x1000, .f32⟩
  | .hbm, ⟨43, _⟩ => ⟨S4096x1000, .f32⟩
  | .hbm, ⟨44, _⟩ => ⟨S4096x1000, .f32⟩
  | _, _ => ⟨S4096x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_cst_1 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩

abbrev nD : Nat := 1
abbrev τ : Topo := Topo.v7x

variable {F : FTy → Type} [FloatOps F]

class Facts₀ : Prop where
  bcast_S_S4096x50 : S_.BroadcastsInDim S4096x50 (![] : Fin 0 → Fin S4096x50.rank)
  bcast_S4096x50_S4096x50x1_0_1 : S4096x50.BroadcastsInDim S4096x50x1 (![0, 1] : Fin 2 → Fin S4096x50x1.rank)
  bcast_S_S4096x50x1 : S_.BroadcastsInDim S4096x50x1 (![] : Fin 0 → Fin S4096x50x1.rank)
  bcast_S1_S1x1x1_2 : S1.BroadcastsInDim S1x1x1 (![2] : Fin 1 → Fin S1x1x1.rank)
  bcast_S1x1x1_S4096x50x1_0_1_2 : S1x1x1.BroadcastsInDim S4096x50x1 (![0, 1, 2] : Fin 3 → Fin S4096x50x1.rank)
  reducesTo_S4096x50x1_S4096x50_d2 : S4096x50x1.ReducesTo [2] S4096x50
  h_S_ : 0 < S_.numel
  bcast_S4096x50_S4096x50x128_0_1 : S4096x50.BroadcastsInDim S4096x50x128 (![0, 1] : Fin 2 → Fin S4096x50x128.rank)
  bcast_S_S4096x50x128 : S_.BroadcastsInDim S4096x50x128 (![] : Fin 0 → Fin S4096x50x128.rank)
  reducesTo_S4096x50x128_S4096x128_d1 : S4096x50x128.ReducesTo [1] S4096x128
  bcast_S_S4096x128 : S_.BroadcastsInDim S4096x128 (![] : Fin 0 → Fin S4096x128.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  bcast_S1000_S1x1000_1 : S1000.BroadcastsInDim S1x1000 (![1] : Fin 1 → Fin S1x1000.rank)
  bcast_S1x1000_S4096x1000_0_1 : S1x1000.BroadcastsInDim S4096x1000 (![0, 1] : Fin 2 → Fin S4096x1000.rank)
  gather_S100000x128_S4096x50x1_S4096x50x128_2_0_n_n_0_2_1128_wf : GatherDims.WF S100000x128 S4096x50x1 S4096x50x128 [2] [0] [] [0] [] 2 ![1, 128]
  dot_S4096x128_S128x512_S4096x512_1_0_0_1_n_n_wf : DotDims.WF S4096x128 S128x512 S4096x512 [1] [0] [0] [1] [] []
  dot_S4096x512_S512x1000_S4096x1000_1_0_0_1_n_n_wf : DotDims.WF S4096x512 S512x1000 S4096x1000 [1] [0] [0] [1] [] []

variable [Facts₀]

def gather_S100000x128_S4096x50x1_S4096x50x128_2_0_n_n_0_2_1128 : GatherDims S100000x128 S4096x50x1 S4096x50x128 where
  offsetDims := [2]
  collapsedSliceDims := [0]
  operandBatchingDims := []
  startIndicesBatchingDims := []
  startIndexMap := [0]
  indexVectorDim := 2
  sliceSizes := ![1, 128]
  wf := gather_S100000x128_S4096x50x1_S4096x50x128_2_0_n_n_0_2_1128_wf
def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf
def dot_S4096x512_S512x1000_S4096x1000_1_0_0_1_n_n : DotDims S4096x512 S512x1000 S4096x1000 where
  lhsContracting := [1]
  rhsContracting := [0]
  lhsNonContracting := [0]
  rhsNonContracting := [1]
  lhsBatch := []
  rhsBatch := []
  wf := dot_S4096x512_S512x1000_S4096x1000_1_0_0_1_n_n_wf

class Facts : Prop extends Facts₀ where

variable [Facts]
-- ==== Proof.PreRange.lean ====
/-
  From the input-domain predicate to the range of the index words.

  The predicate is a conjunction of scalar truth words; its last conjunct is the conjunction, over every position of the
  4096 × 50 index array, of the two signed comparisons 0 ≤ w and w ≤ 99999. When the predicate is the all-ones word, every
  index word therefore reads, signed, as an integer of [0, 99999], and its unsigned reading is below 100000. The float
  arguments play no part, so the statement holds at every float instance.
-/
import proofs.«207455_g33174327394824_cont_8to1_b_592_21_alg».proof.Pre_input_domain
import Idealize.ShloMosaic.Lib.ReduceAll
import Idealize.ShloMosaic.Lib.ValueIdx
import Idealize.ShloMosaic.Lib.Affine

namespace Cert.PreRange

open Idealize.ShloMosaic Cert.Pre_input_domain

instance : Subsingleton S_.Idx := ⟨fun a b => funext fun d => d.elim0⟩

/-- A 32-bit word whose signed reading lies in [0, 99999] reads the same unsigned. -/
theorem toNat_lt_of_toInt {w : BitVec 32} (h0 : 0 ≤ w.toInt) (h1 : w.toInt ≤ 99999) : w.toNat < 100000 := by
  have hc := BitVec.toInt_eq_toNat_cond w
  have hl := w.isLt
  split at hc <;> omega

variable {F : FTy → Type} [FloatOps F] [Facts]

/-- Under the predicate every index word reads, signed, in [0, 99999]. -/
theorem ids_int (ids : IVec S4096x50 32) (tbl : FVec F S100000x128 .f32) (W1 : FVec F S128x512 .f32)
    (b1 : FVec F S512 .f32) (W2 : FVec F S512x1000 .f32) (b2 : FVec F S1000 .f32)
    (h : fn (F := F) ids tbl W1 b1 W2 b2 = fun _ => 1#1) :
    ∀ j, 0 ≤ (ids j).toInt ∧ (ids j).toInt ≤ 99999 := by
  intro j
  have h0 := congrFun h ValueIdx.ix0
  dsimp only [fn, fn_part1] at h0
  have h1 := (IntOp.andi_eq_one.1 h0).2
  have h2 := Host.reduce_andi_all _ _ _ _ _ h1 j
  obtain ⟨h3, h4⟩ := IntOp.andi_eq_one.1 h2
  have h5 := IntOp.cmpi_sge.1 h3
  have h6 := IntOp.cmpi_sle.1 h4
  exact ⟨h5, h6⟩

/-- Under the predicate every index word reads, unsigned, below the table's extent. -/
theorem ids_lt (ids : IVec S4096x50 32) (tbl : FVec F S100000x128 .f32) (W1 : FVec F S128x512 .f32)
    (b1 : FVec F S512 .f32) (W2 : FVec F S512x1000 .f32) (b2 : FVec F S1000 .f32)
    (h : fn (F := F) ids tbl W1 b1 W2 b2 = fun _ => 1#1) :
    ∀ j, (ids j).toNat < 100000 := fun j =>
  toNat_lt_of_toInt (ids_int ids tbl W1 b1 W2 b2 h j).1 (ids_int ids tbl W1 b1 W2 b2 h j).2

end Cert.PreRange
-- ==== Proof.KCommon.lean ====
/-
  What the two parts of the program's proof share: the program as a SparseCore launch, and the ghost state — the
  launch handshakes' rounds, the rounds of the dense layers' staging semaphores, and the counters of the lookup
  kernel's own copies, side by side.
-/
import proofs.«207455_g33174327394824_cont_8to1_b_592_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«207455_g33174327394824_cont_8to1_b_592_21_alg».proof.Proof.Gen.Kernel
import proofs.«207455_g33174327394824_cont_8to1_b_592_21_alg».proof.Proof.Gen.Kernel.Skeleton
import proofs.«207455_g33174327394824_cont_8to1_b_592_21_alg».proof.Proof.Gen.Kernel.Launch
import proofs.«207455_g33174327394824_cont_8to1_b_592_21_alg».proof.Proof.Gen.Kernel.Points

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds, the left factor. -/
abbrev EH : Emb UH (MT nD τ sig (HIx 1) (Elt F) ℕ UU ℕ) := embL
/-- The staging semaphores' rounds, the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

end Cert.Kernel.Hand

end
-- ==== Proof.KShares.lean ====
/-
  How the lookup kernel's three arrays are dealt: the index array and the table are only read, so each SparseCore gets a
  read share of both and each of its sixteen vector subcores a share of that; the result array is written by rows, the
  vector subcore with coordinates (c, s) owning the 128 rows from 256·s + 128·c on.
-/
import proofs.«207455_g33174327394824_cont_8to1_b_592_21_alg».proof.Proof.KCommon

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

/-- The index array (reshaped), the table and the mean rows, as locations of device `d`. -/
abbrev idsLoc (d : Dev nD) : Loc nD τ sig := (SparseCore.T d).loc main_v0
abbrev tblLoc (d : Dev nD) : Loc nD τ sig := (SparseCore.T d).loc main_arg1
abbrev outLoc (d : Dev nD) : Loc nD τ sig := (SparseCore.T d).loc main_v1

/-- A vector subcore's grid coordinates. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
/-- The thread of the vector subcore at coordinates `L` on device `d`. -/
abbrev thr (d : Dev nD) (L : grid0.Coords) : Thread nD τ := V d (cV L) (jV L)

/-- The 128 rows of the result the subcore at `L` writes, as the kernel slices them. -/
abbrev outSlice (L : grid0.Coords) : Memref sig .scVector .hbm S128x128 .f32 :=
  (Memref.whole main_v1_scv).slice (Rect.unit (s := S4096x128) (k0_off50 L) S128x128.size (k0_off50_inb L)) (fun _ => rfl)
abbrev slab (L : grid0.Coords) : Finset S4096x128.Idx := (outSlice L).view.set
/-- The rows of the result written by SparseCore `c`'s subcores together. -/
def coreSlabs (c : Fin (grid0.bound 0)) : Finset S4096x128.Idx := Finset.univ.biUnion fun s : Fin (grid0.bound 1) => slab (coordsV c s)

/-- SparseCore `c`'s read share, and subcore `(c, i)`'s share of it. -/
def qC (c : Fin 2) : PosShare TreeShare := Transfers.shareTok fullShare 2 c
def qT (c : Fin 2) (i : Fin 16) : PosShare TreeShare := Transfers.shareTok (qC c) 16 i

theorem bound_zero : grid0.bound 0 = 2 := rfl
theorem bound_one : grid0.bound 1 = 16 := rfl

/-- What a vector subcore is handed: its shares of the index array and the table, its rows of the result. -/
def goRes (d : Dev nD) (I : Buf (Elt F) (idsLoc d)) (Tb : Buf (Elt F) (tblLoc d)) (O0 : Buf (Elt F) (outLoc d)) (c : Fin 2) (i : Fin 16) : sProp 𝕄 :=
  iprop((idsLoc d ↦{qT c i} I) ∗ (tblLoc d ↦{qT c i} Tb) ∗ (outLoc d ↦[slab (coordsV (Fin.cast bound_zero.symm c) (Fin.cast bound_one.symm i))]{fullShare} O0))
/-- What it hands back: the shares, and its rows at contents every entry of which satisfies `Gd`. -/
def tdRes (Gd : S4096x128.Idx → Elt F .f32 → Prop) (d : Dev nD) (I : Buf (Elt F) (idsLoc d)) (Tb : Buf (Elt F) (tblLoc d)) (c : Fin 2) (i : Fin 16) : sProp 𝕄 :=
  iprop((idsLoc d ↦{qT c i} I) ∗ (tblLoc d ↦{qT c i} Tb)
    ∗ ∃ f : Buf (Elt F) (outLoc d), ⌜∀ j ∈ slab (coordsV (Fin.cast bound_zero.symm c) (Fin.cast bound_one.symm i)), Gd j (f j)⌝
        ∗ (outLoc d ↦[slab (coordsV (Fin.cast bound_zero.symm c) (Fin.cast bound_one.symm i))]{fullShare} f))
/-- What a SparseCore is handed and hands back. -/
def stRes (d : Dev nD) (I : Buf (Elt F) (idsLoc d)) (Tb : Buf (Elt F) (tblLoc d)) (O0 : Buf (Elt F) (outLoc d)) (c : Fin 2) : sProp 𝕄 :=
  iprop((idsLoc d ↦{qC c} I) ∗ (tblLoc d ↦{qC c} Tb) ∗ (outLoc d ↦[coreSlabs (Fin.cast bound_zero.symm c)]{fullShare} O0))
def dnRes (Gd : S4096x128.Idx → Elt F .f32 → Prop) (d : Dev nD) (I : Buf (Elt F) (idsLoc d)) (Tb : Buf (Elt F) (tblLoc d)) (c : Fin 2) : sProp 𝕄 :=
  iprop((idsLoc d ↦{qC c} I) ∗ (tblLoc d ↦{qC c} Tb)
    ∗ ∃ f : Buf (Elt F) (outLoc d), ⌜∀ j ∈ coreSlabs (Fin.cast bound_zero.symm c), Gd j (f j)⌝ ∗ (outLoc d ↦[coreSlabs (Fin.cast bound_zero.symm c)]{fullShare} f))

end Cert.Kernel.Hand

end
-- ==== Proof.KTrip.lean ====
/-
  One trip of the lookup kernel's chunk loop, on one vector subcore.

  Between two trips the subcore holds its arrays and, while trips remain, four gathers in flight, one per slot: each is to
  deliver its slot's rows scratch written whole, the slot's index list, and the slot's read token of the table. A trip
  waits for the four in turn, sums each slot's rows into the accumulator scratch, and — except on the last trips —
  copies the next index lists in and starts the next gathers. Either way it takes the state before it to the state after.
-/
import proofs.«207455_g33174327394824_cont_8to1_b_592_21_alg».proof.Proof.KShares
noncomputable section
namespace Cert.Kernel.Hand
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "idsW" => (Memref.whole Cert.Kernel.main_v0_scv : Memref Cert.Kernel.sig Kind.scVector Space.hbm Cert.Kernel.S2048x100 EltTy.i32)
local notation "tblW" => (Memref.whole Cert.Kernel.main_arg1_scv : Memref Cert.Kernel.sig Kind.scVector Space.hbm Cert.Kernel.S100000x128 EltTy.f32)
local notation "outW" => (Memref.whole Cert.Kernel.main_v1_scv : Memref Cert.Kernel.sig Kind.scVector Space.hbm Cert.Kernel.S4096x128 EltTy.f32)
local notation "sI0" => (Memref.whole Cert.Kernel.cc0_scratch0 : Memref Cert.Kernel.sig Kind.scVector Space.vmem Cert.Kernel.S100 EltTy.i32)
local notation "sI1" => (Memref.whole Cert.Kernel.cc0_scratch1 : Memref Cert.Kernel.sig Kind.scVector Space.vmem Cert.Kernel.S100 EltTy.i32)
local notation "sI2" => (Memref.whole Cert.Kernel.cc0_scratch2 : Memref Cert.Kernel.sig Kind.scVector Space.vmem Cert.Kernel.S100 EltTy.i32)
local notation "sI3" => (Memref.whole Cert.Kernel.cc0_scratch3 : Memref Cert.Kernel.sig Kind.scVector Space.vmem Cert.Kernel.S100 EltTy.i32)
local notation "sR0" => (Memref.whole Cert.Kernel.cc0_scratch4 : Memref Cert.Kernel.sig Kind.scVector Space.vmem Cert.Kernel.S100x128 EltTy.f32)
local notation "sR1" => (Memref.whole Cert.Kernel.cc0_scratch5 : Memref Cert.Kernel.sig Kind.scVector Space.vmem Cert.Kernel.S100x128 EltTy.f32)
local notation "sR2" => (Memref.whole Cert.Kernel.cc0_scratch6 : Memref Cert.Kernel.sig Kind.scVector Space.vmem Cert.Kernel.S100x128 EltTy.f32)
local notation "sR3" => (Memref.whole Cert.Kernel.cc0_scratch7 : Memref Cert.Kernel.sig Kind.scVector Space.vmem Cert.Kernel.S100x128 EltTy.f32)
local notation "sA" => (Memref.whole Cert.Kernel.cc0_scratch8 : Memref Cert.Kernel.sig Kind.scVector Space.vmem Cert.Kernel.S128x128 EltTy.f32)
abbrev tblS : Memref sig .scVector .hbm S100000x128 .f32 := (Memref.whole main_arg1_scv).slice (Rect.unit (s := S100000x128) ![0, 0] S100000x128.size inb_S100000x128_S100000x128_0_0) (fun _ => rfl)

/-- What a tile holds between two trips of the chunk loop: its arrays; while trips remain, the four gathers in flight, each to
    deliver its rows scratch written whole, its index list and its read token of the table; after the last trip the
    scratches idle and the tokens whole. -/
def inv (d : Dev nD) (L : grid0.Coords) (q : PosShare TreeShare) (fi : Buf (Elt F) ((idsW).view.loc (thr d L))) (ft : Buf (Elt F) ((tblW).view.loc (thr d L)))
    (O : CellTallies nD τ sig (HIx 1)) (W : Waits sig (HIx 1)) (k : Nat) (_ : PUnit) : sProp 𝕄 :=
  iprop(Transfers.MayWaits (thr d L) (none : HIx 1) O ∗ ((idsW).view.loc (thr d L) ↦{q} fi)
    ∗ ((tblW).view.loc (thr d L) ↦{Transfers.shareDrop q 4} ft)
    ∗ (∃ a, (sA).view.loc (thr d L) ↦{fullShare} a)
    ∗ semVal (thr d L, SemLoc.dma cc0_scratch13.sem) 0 ∗ semVal (thr d L, SemLoc.dma cc0_scratch14.sem) 0
    ∗ semVal (thr d L, SemLoc.dma cc0_scratch15.sem) 0 ∗ semVal (thr d L, SemLoc.dma cc0_scratch16.sem) 0
    ∗ (if k < 16 then
        iprop(((tblW).view.loc (thr d L) ↦[Finset.univ \ (tblS).view.set]{Transfers.shareTok q 4 0} ft)
          ∗ ((tblW).view.loc (thr d L) ↦[Finset.univ \ (tblS).view.set]{Transfers.shareTok q 4 1} ft)
          ∗ ((tblW).view.loc (thr d L) ↦[Finset.univ \ (tblS).view.set]{Transfers.shareTok q 4 2} ft)
          ∗ ((tblW).view.loc (thr d L) ↦[Finset.univ \ (tblS).view.set]{Transfers.shareTok q 4 3} ft)
          ∗ (∃ r0 g0 i0, (Transfers.Flight Idealize.ShloMosaic.countersEmb (thr d L) (SemLoc.dma cc0_scratch9.sem) (default : HIx 1) 409600
        iprop((((sR0).view.loc (thr d L) ↦{fullShare} (sR0).view.writes (Elt F) r0 [⟨Rect.whole _, g0⟩])
            ∗ ((sI0).view.loc (thr d L) ↦{fullShare} i0))
          ∗ ((tblW).view.loc (thr d L) ↦[(tblS).view.set]{Transfers.shareTok q 4 0} ft)))) ∗ (∃ r1 g1 i1, (Transfers.Flight Idealize.ShloMosaic.countersEmb (thr d L) (SemLoc.dma cc0_scratch10.sem) (default : HIx 1) 409600
        iprop((((sR1).view.loc (thr d L) ↦{fullShare} (sR1).view.writes (Elt F) r1 [⟨Rect.whole _, g1⟩])
            ∗ ((sI1).view.loc (thr d L) ↦{fullShare} i1))
          ∗ ((tblW).view.loc (thr d L) ↦[(tblS).view.set]{Transfers.shareTok q 4 1} ft))))
          ∗ (∃ r2 g2 i2, (Transfers.Flight Idealize.ShloMosaic.countersEmb (thr d L) (SemLoc.dma cc0_scratch11.sem) (default : HIx 1) 409600
        iprop((((sR2).view.loc (thr d L) ↦{fullShare} (sR2).view.writes (Elt F) r2 [⟨Rect.whole _, g2⟩])
            ∗ ((sI2).view.loc (thr d L) ↦{fullShare} i2))
          ∗ ((tblW).view.loc (thr d L) ↦[(tblS).view.set]{Transfers.shareTok q 4 2} ft)))) ∗ (∃ r3 g3 i3, (Transfers.Flight Idealize.ShloMosaic.countersEmb (thr d L) (SemLoc.dma cc0_scratch12.sem) (default : HIx 1) 409600
        iprop((((sR3).view.loc (thr d L) ↦{fullShare} (sR3).view.writes (Elt F) r3 [⟨Rect.whole _, g3⟩])
            ∗ ((sI3).view.loc (thr d L) ↦{fullShare} i3))
          ∗ ((tblW).view.loc (thr d L) ↦[(tblS).view.set]{Transfers.shareTok q 4 3} ft)))))
      else
        iprop(((∃ r, (sR0).view.loc (thr d L) ↦{fullShare} r) ∗ (∃ i, (sI0).view.loc (thr d L) ↦{fullShare} i) ∗ semVal (thr d L, SemLoc.dma cc0_scratch9.sem) 0 ∗ ((tblW).view.loc (thr d L) ↦{Transfers.shareTok q 4 0} ft))
          ∗ ((∃ r, (sR1).view.loc (thr d L) ↦{fullShare} r) ∗ (∃ i, (sI1).view.loc (thr d L) ↦{fullShare} i) ∗ semVal (thr d L, SemLoc.dma cc0_scratch10.sem) 0 ∗ ((tblW).view.loc (thr d L) ↦{Transfers.shareTok q 4 1} ft))
          ∗ ((∃ r, (sR2).view.loc (thr d L) ↦{fullShare} r) ∗ (∃ i, (sI2).view.loc (thr d L) ↦{fullShare} i) ∗ semVal (thr d L, SemLoc.dma cc0_scratch11.sem) 0 ∗ ((tblW).view.loc (thr d L) ↦{Transfers.shareTok q 4 2} ft))
          ∗ ((∃ r, (sR3).view.loc (thr d L) ↦{fullShare} r) ∗ (∃ i, (sI3).view.loc (thr d L) ↦{fullShare} i) ∗ semVal (thr d L, SemLoc.dma cc0_scratch12.sem) 0 ∗ ((tblW).view.loc (thr d L) ↦{Transfers.shareTok q 4 3} ft))))
    ∗ ∃ W', ⌜∀ p ∈ W', p ∈ W ∨ p.2 = none⌝ ∗ owes (thr d L) O W')

theorem waits_insert {W W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.mp hp with rfl | hp
  · exact .inr rfl
  · exact h p hp

/-- During slot 0's reduction loop the rows scratch stays as the gather left it. -/
def rinv0 (d : Dev nD) (L : grid0.Coords) (X : Buf (Elt F) ((sR0).view.loc (thr d L))) (_ : Nat) (_ : (FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32)) : sProp 𝕄 :=
  (sR0).view.loc (thr d L) ↦{fullShare} X

/-- During slot 1's reduction loop the rows scratch stays as the gather left it. -/
def rinv1 (d : Dev nD) (L : grid0.Coords) (X : Buf (Elt F) ((sR1).view.loc (thr d L))) (_ : Nat) (_ : (FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32)) : sProp 𝕄 :=
  (sR1).view.loc (thr d L) ↦{fullShare} X

/-- During slot 2's reduction loop the rows scratch stays as the gather left it. -/
def rinv2 (d : Dev nD) (L : grid0.Coords) (X : Buf (Elt F) ((sR2).view.loc (thr d L))) (_ : Nat) (_ : (FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32)) : sProp 𝕄 :=
  (sR2).view.loc (thr d L) ↦{fullShare} X

/-- During slot 3's reduction loop the rows scratch stays as the gather left it. -/
def rinv3 (d : Dev nD) (L : grid0.Coords) (X : Buf (Elt F) ((sR3).view.loc (thr d L))) (_ : Nat) (_ : (FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32)) : sProp 𝕄 :=
  (sR3).view.loc (thr d L) ↦{fullShare} X

set_option maxHeartbeats 4000000 in
theorem trip_lt (d : Dev nD) (L : grid0.Coords) (q : PosShare TreeShare) (fi : Buf (Elt F) ((idsW).view.loc (thr d L))) (ft : Buf (Elt F) ((tblW).view.loc (thr d L)))
    (hin : ∀ j, (fi j).toNat < 100000)
    (O : CellTallies nD τ sig (HIx 1)) (W : Waits sig (HIx 1)) (v2 : BitVec 32) (k : Fin k0_t1_loop.trips) (hk : k.val < 15) :
    inv d L q fi ft O W k.val ⟨⟩
      ⊢ wp frame (wpE (defs₀ (F := F)) 𝒱₀ (thr d L) none) Set.univ
          (k0_t1_body L idsW (Memref.isWhole_whole _) tblW (Memref.isWhole_whole _) outW (Memref.isWhole_whole _)
            sI0 (Memref.isWhole_whole _) sI1 (Memref.isWhole_whole _) sI2 (Memref.isWhole_whole _) sI3 (Memref.isWhole_whole _)
            sR0 (Memref.isWhole_whole _) sR1 (Memref.isWhole_whole _) sR2 (Memref.isWhole_whole _) sR3 (Memref.isWhole_whole _)
            sA (Memref.isWhole_whole _) cc0_scratch9 cc0_scratch10 cc0_scratch11 cc0_scratch12 cc0_scratch13 cc0_scratch14 cc0_scratch15 cc0_scratch16 cc0_scoped0 v2 k ⟨⟩)
          (fun _ => inv d L q fi ft O W (k.val + 1) ⟨⟩) := by
  have hk16 : k.val < 16 := k.isLt
  have k0_h1 : k0_cond1 k = 1#1 := by revert k; decide
  have k0_h2 : k0_cond2 k = 1#1 := by revert k; decide
  have k0_h3 : k0_cond3 k = 1#1 := by revert k; decide
  have k0_h4 : k0_cond4 k = 1#1 := by revert k; decide
  have k0_h5 : k0_cond5 k = 1#1 := by revert k; decide
  have k0_h6 : k0_cond6 k = 1#1 := by revert k; decide
  have k0_h7 : k0_cond7 k = 1#1 := by revert k; decide
  have k0_h8 : k0_cond8 k = 1#1 := by revert k; decide
  have hL0 : ∀ (off : Fin 2 → Nat) (hoff : ∀ a, off a + S1x100.size a ≤ S2048x100.size a) (g : Buf (Elt F) ((sI0).view.loc (thr d L))) (x : cc0_scratch0.ty.shape.Idx),
      BitVec.toNat (View.read (Elt F) (sI0).view (View.write (Elt F) (sI0).view g
        (ReadAs.same.apply (View.read (Elt F) (((idsW).slice (Rect.unit (s := S2048x100) off S1x100.size hoff) (fun _ => rfl)).squeeze S100 squeezes_S1x100_S100).view fi)) Finset.univ) x) < 100000 := by
    intro off hoff g x
    simp only [Memref.view_whole, View.write_whole_univ, View.read_whole, ReadAs.apply_same, View.read_apply]
    exact hin _
  have hL1 : ∀ (off : Fin 2 → Nat) (hoff : ∀ a, off a + S1x100.size a ≤ S2048x100.size a) (g : Buf (Elt F) ((sI1).view.loc (thr d L))) (x : cc0_scratch1.ty.shape.Idx),
      BitVec.toNat (View.read (Elt F) (sI1).view (View.write (Elt F) (sI1).view g
        (ReadAs.same.apply (View.read (Elt F) (((idsW).slice (Rect.unit (s := S2048x100) off S1x100.size hoff) (fun _ => rfl)).squeeze S100 squeezes_S1x100_S100).view fi)) Finset.univ) x) < 100000 := by
    intro off hoff g x
    simp only [Memref.view_whole, View.write_whole_univ, View.read_whole, ReadAs.apply_same, View.read_apply]
    exact hin _
  have hL2 : ∀ (off : Fin 2 → Nat) (hoff : ∀ a, off a + S1x100.size a ≤ S2048x100.size a) (g : Buf (Elt F) ((sI2).view.loc (thr d L))) (x : cc0_scratch2.ty.shape.Idx),
      BitVec.toNat (View.read (Elt F) (sI2).view (View.write (Elt F) (sI2).view g
        (ReadAs.same.apply (View.read (Elt F) (((idsW).slice (Rect.unit (s := S2048x100) off S1x100.size hoff) (fun _ => rfl)).squeeze S100 squeezes_S1x100_S100).view fi)) Finset.univ) x) < 100000 := by
    intro off hoff g x
    simp only [Memref.view_whole, View.write_whole_univ, View.read_whole, ReadAs.apply_same, View.read_apply]
    exact hin _
  have hL3 : ∀ (off : Fin 2 → Nat) (hoff : ∀ a, off a + S1x100.size a ≤ S2048x100.size a) (g : Buf (Elt F) ((sI3).view.loc (thr d L))) (x : cc0_scratch3.ty.shape.Idx),
      BitVec.toNat (View.read (Elt F) (sI3).view (View.write (Elt F) (sI3).view g
        (ReadAs.same.apply (View.read (Elt F) (((idsW).slice (Rect.unit (s := S2048x100) off S1x100.size hoff) (fun _ => rfl)).squeeze S100 squeezes_S1x100_S100).view fi)) Finset.univ) x) < 100000 := by
    intro off hoff g x
    simp only [Memref.view_whole, View.write_whole_univ, View.read_whole, ReadAs.apply_same, View.read_apply]
    exact hin _
  unfold inv
  rw [if_pos hk16]
  iintro ⟨#Hmw, Hi, Htr, ⟨%a, A⟩, I0, I1, I2, I3, ⟨Hz0, Hz1, Hz2, Hz3, ⟨%r0, %g0, %i0, G0⟩, ⟨%r1, %g1, %i1, G1⟩, ⟨%r2, %g2, %i2, G2⟩, ⟨%r3, %g3, %i3, G3⟩⟩, %W', %hW', HO⟩
  unfold k0_t1_body
  sl_exec (disch := exact View.amount_pos _ _ (show 0 < S100.numel by decide))
  sl_for (rinv0 d L ((sR0).view.writes (Elt F) (sR0).view.junk [⟨Rect.whole _, g0⟩])) $$ [G0_dst]
  case region =>
    intro j acc
    unfold rinv0
    iintro HR
    sl_exec
    sl_step
    iexact HR
  · unfold rinv0; iexact G0_dst
  iintro %acc0 HR0
  unfold rinv0
  obtain ⟨w0, w1, w2, w3, w4, w5, w6, w7, w8, w9, w10, w11, w12, w13, w14, w15⟩ := acc0
  sl_exec (disch := exact View.amount_pos _ _ (show 0 < S100.numel by decide))
  sl_for (rinv1 d L ((sR1).view.writes (Elt F) (sR1).view.junk [⟨Rect.whole _, g1⟩])) $$ [G1_dst]
  case region =>
    intro j acc
    unfold rinv1
    iintro HR
    sl_exec
    sl_step
    iexact HR
  · unfold rinv1; iexact G1_dst
  iintro %acc1 HR1
  unfold rinv1
  obtain ⟨w0, w1, w2, w3, w4, w5, w6, w7, w8, w9, w10, w11, w12, w13, w14, w15⟩ := acc1
  sl_exec (disch := exact View.amount_pos _ _ (show 0 < S100.numel by decide))
  sl_for (rinv2 d L ((sR2).view.writes (Elt F) (sR2).view.junk [⟨Rect.whole _, g2⟩])) $$ [G2_dst]
  case region =>
    intro j acc
    unfold rinv2
    iintro HR
    sl_exec
    sl_step
    iexact HR
  · unfold rinv2; iexact G2_dst
  iintro %acc2 HR2
  unfold rinv2
  obtain ⟨w0, w1, w2, w3, w4, w5, w6, w7, w8, w9, w10, w11, w12, w13, w14, w15⟩ := acc2
  sl_exec (disch := exact View.amount_pos _ _ (show 0 < S100.numel by decide))
  sl_for (rinv3 d L ((sR3).view.writes (Elt F) (sR3).view.junk [⟨Rect.whole _, g3⟩])) $$ [G3_dst]
  case region =>
    intro j acc
    unfold rinv3
    iintro HR
    sl_exec
    sl_step
    iexact HR
  · unfold rinv3; iexact G3_dst
  iintro %acc3 HR3
  unfold rinv3
  obtain ⟨w0, w1, w2, w3, w4, w5, w6, w7, w8, w9, w10, w11, w12, w13, w14, w15⟩ := acc3
  sl_exec (disch := exact View.amount_pos _ _ (show 0 < S100.numel by decide))
  sl_step
  have hk1 : k.val + 1 < 16 := by omega
  rw [if_pos hk1]
  isplitr; · iexact Hmw
  isplitl [Hi]; · iexact Hi
  isplitl [Htr]; · iexact Htr
  isplitl [A]; · iexists _; iexact A
  isplitl [I0]; · iexact I0
  isplitl [I1]; · iexact I1
  isplitl [I2]; · iexact I2
  isplitl [I3]; · iexact I3
  isplitl [Hz0 Hz1 Hz2 Hz3 G0 G1 G2 G3]
  · isplitl [Hz0]; · iexact Hz0
    isplitl [Hz1]; · iexact Hz1
    isplitl [Hz2]; · iexact Hz2
    isplitl [Hz3]; · iexact Hz3
    isplitl [G0]; · iexists ((sR0).view.writes (Elt F) (sR0).view.junk [⟨Rect.whole _, g0⟩]), _, _; iexact G0
    isplitl [G1]; · iexists ((sR1).view.writes (Elt F) (sR1).view.junk [⟨Rect.whole _, g1⟩]), _, _; iexact G1
    isplitl [G2]; · iexists ((sR2).view.writes (Elt F) (sR2).view.junk [⟨Rect.whole _, g2⟩]), _, _; iexact G2
    iexists ((sR3).view.writes (Elt F) (sR3).view.junk [⟨Rect.whole _, g3⟩]), _, _; iexact G3
  iexists _; isplitr
  rotate_left
  · iexact HO
  · ipureintro
    exact waits_insert (waits_insert (waits_insert (waits_insert (waits_insert (waits_insert (waits_insert (waits_insert hW' _) _) _) _) _) _) _) _

set_option maxHeartbeats 4000000 in
theorem trip_last (d : Dev nD) (L : grid0.Coords) (q : PosShare TreeShare) (fi : Buf (Elt F) ((idsW).view.loc (thr d L))) (ft : Buf (Elt F) ((tblW).view.loc (thr d L)))
    (hin : ∀ j, (fi j).toNat < 100000)
    (O : CellTallies nD τ sig (HIx 1)) (W : Waits sig (HIx 1)) (v2 : BitVec 32) (k : Fin k0_t1_loop.trips) (hk : k.val = 15) :
    inv d L q fi ft O W k.val ⟨⟩
      ⊢ wp frame (wpE (defs₀ (F := F)) 𝒱₀ (thr d L) none) Set.univ
          (k0_t1_body L idsW (Memref.isWhole_whole _) tblW (Memref.isWhole_whole _) outW (Memref.isWhole_whole _)
            sI0 (Memref.isWhole_whole _) sI1 (Memref.isWhole_whole _) sI2 (Memref.isWhole_whole _) sI3 (Memref.isWhole_whole _)
            sR0 (Memref.isWhole_whole _) sR1 (Memref.isWhole_whole _) sR2 (Memref.isWhole_whole _) sR3 (Memref.isWhole_whole _)
            sA (Memref.isWhole_whole _) cc0_scratch9 cc0_scratch10 cc0_scratch11 cc0_scratch12 cc0_scratch13 cc0_scratch14 cc0_scratch15 cc0_scratch16 cc0_scoped0 v2 k ⟨⟩)
          (fun _ => inv d L q fi ft O W (k.val + 1) ⟨⟩) := by
  have hk16 : k.val < 16 := k.isLt
  have k0_h1 : ¬ k0_cond1 k = 1#1 := by revert k; decide
  have k0_h2 : ¬ k0_cond2 k = 1#1 := by revert k; decide
  have k0_h3 : ¬ k0_cond3 k = 1#1 := by revert k; decide
  have k0_h4 : ¬ k0_cond4 k = 1#1 := by revert k; decide
  have k0_h5 : ¬ k0_cond5 k = 1#1 := by revert k; decide
  have k0_h6 : ¬ k0_cond6 k = 1#1 := by revert k; decide
  have k0_h7 : ¬ k0_cond7 k = 1#1 := by revert k; decide
  have k0_h8 : ¬ k0_cond8 k = 1#1 := by revert k; decide
  have hL0 : ∀ (off : Fin 2 → Nat) (hoff : ∀ a, off a + S1x100.size a ≤ S2048x100.size a) (g : Buf (Elt F) ((sI0).view.loc (thr d L))) (x : cc0_scratch0.ty.shape.Idx),
      BitVec.toNat (View.read (Elt F) (sI0).view (View.write (Elt F) (sI0).view g
        (ReadAs.same.apply (View.read (Elt F) (((idsW).slice (Rect.unit (s := S2048x100) off S1x100.size hoff) (fun _ => rfl)).squeeze S100 squeezes_S1x100_S100).view fi)) Finset.univ) x) < 100000 := by
    intro off hoff g x
    simp only [Memref.view_whole, View.write_whole_univ, View.read_whole, ReadAs.apply_same, View.read_apply]
    exact hin _
  have hL1 : ∀ (off : Fin 2 → Nat) (hoff : ∀ a, off a + S1x100.size a ≤ S2048x100.size a) (g : Buf (Elt F) ((sI1).view.loc (thr d L))) (x : cc0_scratch1.ty.shape.Idx),
      BitVec.toNat (View.read (Elt F) (sI1).view (View.write (Elt F) (sI1).view g
        (ReadAs.same.apply (View.read (Elt F) (((idsW).slice (Rect.unit (s := S2048x100) off S1x100.size hoff) (fun _ => rfl)).squeeze S100 squeezes_S1x100_S100).view fi)) Finset.univ) x) < 100000 := by
    intro off hoff g x
    simp only [Memref.view_whole, View.write_whole_univ, View.read_whole, ReadAs.apply_same, View.read_apply]
    exact hin _
  have hL2 : ∀ (off : Fin 2 → Nat) (hoff : ∀ a, off a + S1x100.size a ≤ S2048x100.size a) (g : Buf (Elt F) ((sI2).view.loc (thr d L))) (x : cc0_scratch2.ty.shape.Idx),
      BitVec.toNat (View.read (Elt F) (sI2).view (View.write (Elt F) (sI2).view g
        (ReadAs.same.apply (View.read (Elt F) (((idsW).slice (Rect.unit (s := S2048x100) off S1x100.size hoff) (fun _ => rfl)).squeeze S100 squeezes_S1x100_S100).view fi)) Finset.univ) x) < 100000 := by
    intro off hoff g x
    simp only [Memref.view_whole, View.write_whole_univ, View.read_whole, ReadAs.apply_same, View.read_apply]
    exact hin _
  have hL3 : ∀ (off : Fin 2 → Nat) (hoff : ∀ a, off a + S1x100.size a ≤ S2048x100.size a) (g : Buf (Elt F) ((sI3).view.loc (thr d L))) (x : cc0_scratch3.ty.shape.Idx),
      BitVec.toNat (View.read (Elt F) (sI3).view (View.write (Elt F) (sI3).view g
        (ReadAs.same.apply (View.read (Elt F) (((idsW).slice (Rect.unit (s := S2048x100) off S1x100.size hoff) (fun _ => rfl)).squeeze S100 squeezes_S1x100_S100).view fi)) Finset.univ) x) < 100000 := by
    intro off hoff g x
    simp only [Memref.view_whole, View.write_whole_univ, View.read_whole, ReadAs.apply_same, View.read_apply]
    exact hin _
  unfold inv
  rw [if_pos hk16]
  iintro ⟨#Hmw, Hi, Htr, ⟨%a, A⟩, I0, I1, I2, I3, ⟨Hz0, Hz1, Hz2, Hz3, ⟨%r0, %g0, %i0, G0⟩, ⟨%r1, %g1, %i1, G1⟩, ⟨%r2, %g2, %i2, G2⟩, ⟨%r3, %g3, %i3, G3⟩⟩, %W', %hW', HO⟩
  unfold k0_t1_body
  sl_exec (disch := exact View.amount_pos _ _ (show 0 < S100.numel by decide))
  sl_for (rinv0 d L ((sR0).view.writes (Elt F) (sR0).view.junk [⟨Rect.whole _, g0⟩])) $$ [G0_dst]
  case region =>
    intro j acc
    unfold rinv0
    iintro HR
    sl_exec
    sl_step
    iexact HR
  · unfold rinv0; iexact G0_dst
  iintro %acc0 HR0
  unfold rinv0
  obtain ⟨w0, w1, w2, w3, w4, w5, w6, w7, w8, w9, w10, w11, w12, w13, w14, w15⟩ := acc0
  sl_exec (disch := exact View.amount_pos _ _ (show 0 < S100.numel by decide))
  sl_for (rinv1 d L ((sR1).view.writes (Elt F) (sR1).view.junk [⟨Rect.whole _, g1⟩])) $$ [G1_dst]
  case region =>
    intro j acc
    unfold rinv1
    iintro HR
    sl_exec
    sl_step
    iexact HR
  · unfold rinv1; iexact G1_dst
  iintro %acc1 HR1
  unfold rinv1
  obtain ⟨w0, w1, w2, w3, w4, w5, w6, w7, w8, w9, w10, w11, w12, w13, w14, w15⟩ := acc1
  sl_exec (disch := exact View.amount_pos _ _ (show 0 < S100.numel by decide))
  sl_for (rinv2 d L ((sR2).view.writes (Elt F) (sR2).view.junk [⟨Rect.whole _, g2⟩])) $$ [G2_dst]
  case region =>
    intro j acc
    unfold rinv2
    iintro HR
    sl_exec
    sl_step
    iexact HR
  · unfold rinv2; iexact G2_dst
  iintro %acc2 HR2
  unfold rinv2
  obtain ⟨w0, w1, w2, w3, w4, w5, w6, w7, w8, w9, w10, w11, w12, w13, w14, w15⟩ := acc2
  sl_exec (disch := exact View.amount_pos _ _ (show 0 < S100.numel by decide))
  sl_for (rinv3 d L ((sR3).view.writes (Elt F) (sR3).view.junk [⟨Rect.whole _, g3⟩])) $$ [G3_dst]
  case region =>
    intro j acc
    unfold rinv3
    iintro HR
    sl_exec
    sl_step
    iexact HR
  · unfold rinv3; iexact G3_dst
  iintro %acc3 HR3
  unfold rinv3
  obtain ⟨w0, w1, w2, w3, w4, w5, w6, w7, w8, w9, w10, w11, w12, w13, w14, w15⟩ := acc3
  sl_exec (disch := exact View.amount_pos _ _ (show 0 < S100.numel by decide))
  sl_step
  have hk1 : ¬ (k.val + 1 < 16) := by omega
  rw [if_neg hk1]
  isplitr; · iexact Hmw
  isplitl [Hi]; · iexact Hi
  isplitl [Htr]; · iexact Htr
  isplitl [A]; · iexists _; iexact A
  isplitl [I0]; · iexact I0
  isplitl [I1]; · iexact I1
  isplitl [I2]; · iexact I2
  isplitl [I3]; · iexact I3
  isplitl [HR0 HR1 HR2 HR3 G0_dst_and G1_dst_and G2_dst_and G3_dst_and Hz0 Hz1 Hz2 Hz3 G0 G1 G2 G3]
  · isplitl [HR0 G0_dst_and Hz0 G0]
    · isplitl [HR0]; · iexists _; iexact HR0
      isplitl [G0_dst_and]; · iexists _; iexact G0_dst_and
      isplitl [G0]; · iexact G0
      iexact Hz0
    isplitl [HR1 G1_dst_and Hz1 G1]
    · isplitl [HR1]; · iexists _; iexact HR1
      isplitl [G1_dst_and]; · iexists _; iexact G1_dst_and
      isplitl [G1]; · iexact G1
      iexact Hz1
    isplitl [HR2 G2_dst_and Hz2 G2]
    · isplitl [HR2]; · iexists _; iexact HR2
      isplitl [G2_dst_and]; · iexists _; iexact G2_dst_and
      isplitl [G2]; · iexact G2
      iexact Hz2
    isplitl [HR3]; · iexists _; iexact HR3
    isplitl [G3_dst_and]; · iexists _; iexact G3_dst_and
    isplitl [G3]; · iexact G3
    iexact Hz3
  iexists _; isplitr
  rotate_left
  · iexact HO
  · ipureintro
    exact waits_insert (waits_insert (waits_insert (waits_insert hW' _) _) _) _

end Cert.Kernel.Hand
end
-- ==== Proof.KTile.lean ====
/-
  One vector subcore's whole task of the lookup kernel.

  The prologue copies the first four index lists in and starts their four gathers, which sets up the state the chunk loop
  keeps; sixteen trips of the loop follow, each taking that state to the next; the epilogue copies the 128 accumulated
  rows out to the subcore's rows of the result. The read shares of the index array and the table come back as they
  were handed in, and the completion counters end at zero.
-/
import proofs.«207455_g33174327394824_cont_8to1_b_592_21_alg».proof.Proof.KTrip
noncomputable section
namespace Cert.Kernel.Hand
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "idsW" => (Memref.whole Cert.Kernel.main_v0_scv : Memref Cert.Kernel.sig Kind.scVector Space.hbm Cert.Kernel.S2048x100 EltTy.i32)
local notation "tblW" => (Memref.whole Cert.Kernel.main_arg1_scv : Memref Cert.Kernel.sig Kind.scVector Space.hbm Cert.Kernel.S100000x128 EltTy.f32)
local notation "outW" => (Memref.whole Cert.Kernel.main_v1_scv : Memref Cert.Kernel.sig Kind.scVector Space.hbm Cert.Kernel.S4096x128 EltTy.f32)
local notation "sI0" => (Memref.whole Cert.Kernel.cc0_scratch0 : Memref Cert.Kernel.sig Kind.scVector Space.vmem Cert.Kernel.S100 EltTy.i32)
local notation "sI1" => (Memref.whole Cert.Kernel.cc0_scratch1 : Memref Cert.Kernel.sig Kind.scVector Space.vmem Cert.Kernel.S100 EltTy.i32)
local notation "sI2" => (Memref.whole Cert.Kernel.cc0_scratch2 : Memref Cert.Kernel.sig Kind.scVector Space.vmem Cert.Kernel.S100 EltTy.i32)
local notation "sI3" => (Memref.whole Cert.Kernel.cc0_scratch3 : Memref Cert.Kernel.sig Kind.scVector Space.vmem Cert.Kernel.S100 EltTy.i32)
local notation "sR0" => (Memref.whole Cert.Kernel.cc0_scratch4 : Memref Cert.Kernel.sig Kind.scVector Space.vmem Cert.Kernel.S100x128 EltTy.f32)
local notation "sR1" => (Memref.whole Cert.Kernel.cc0_scratch5 : Memref Cert.Kernel.sig Kind.scVector Space.vmem Cert.Kernel.S100x128 EltTy.f32)
local notation "sR2" => (Memref.whole Cert.Kernel.cc0_scratch6 : Memref Cert.Kernel.sig Kind.scVector Space.vmem Cert.Kernel.S100x128 EltTy.f32)
local notation "sR3" => (Memref.whole Cert.Kernel.cc0_scratch7 : Memref Cert.Kernel.sig Kind.scVector Space.vmem Cert.Kernel.S100x128 EltTy.f32)
local notation "sA" => (Memref.whole Cert.Kernel.cc0_scratch8 : Memref Cert.Kernel.sig Kind.scVector Space.vmem Cert.Kernel.S128x128 EltTy.f32)

set_option maxHeartbeats 4000000 in
/-- One vector subcore's whole task, from its shares of the two read arrays, its rows of the result, its nine scratch buffers
    and nine semaphores at zero: the prologue starts the first four gathers, the chunk loop keeps four in flight, the
    epilogue copies the accumulated rows out. -/
theorem tile_run (d : Dev nD) (L : grid0.Coords) (q : PosShare TreeShare) (fi : Buf (Elt F) ((idsW).view.loc (thr d L))) (ft : Buf (Elt F) ((tblW).view.loc (thr d L)))
    (fo : Buf (Elt F) ((outSlice L).view.loc (thr d L))) (hin : ∀ j, (fi j).toNat < 100000)
    (O : CellTallies nD τ sig (HIx 1)) (W : Waits sig (HIx 1)) :
    (iprop(Transfers.MayWaits (thr d L) (none : HIx 1) O
        ∗ ((idsW).view.loc (thr d L) ↦{q} fi) ∗ ((tblW).view.loc (thr d L) ↦{q} ft)
        ∗ ((outSlice L).view.loc (thr d L) ↦[(outSlice L).view.set]{fullShare} fo)
        ∗ (∃ f, (sI0).view.loc (thr d L) ↦{fullShare} f) ∗ (∃ f, (sI1).view.loc (thr d L) ↦{fullShare} f) ∗ (∃ f, (sI2).view.loc (thr d L) ↦{fullShare} f) ∗ (∃ f, (sI3).view.loc (thr d L) ↦{fullShare} f) ∗ (∃ f, (sR0).view.loc (thr d L) ↦{fullShare} f) ∗ (∃ f, (sR1).view.loc (thr d L) ↦{fullShare} f) ∗ (∃ f, (sR2).view.loc (thr d L) ↦{fullShare} f) ∗ (∃ f, (sR3).view.loc (thr d L) ↦{fullShare} f) ∗ (∃ f, (sA).view.loc (thr d L) ↦{fullShare} f)
        ∗ semVal (thr d L, SemLoc.dma cc0_scratch9.sem) 0 ∗ semVal (thr d L, SemLoc.dma cc0_scratch10.sem) 0 ∗ semVal (thr d L, SemLoc.dma cc0_scratch11.sem) 0 ∗ semVal (thr d L, SemLoc.dma cc0_scratch12.sem) 0 ∗ semVal (thr d L, SemLoc.dma cc0_scratch13.sem) 0 ∗ semVal (thr d L, SemLoc.dma cc0_scratch14.sem) 0 ∗ semVal (thr d L, SemLoc.dma cc0_scratch15.sem) 0 ∗ semVal (thr d L, SemLoc.dma cc0_scratch16.sem) 0 ∗ semVal (thr d L, SemLoc.dma cc0_scoped0.sem) 0
        ∗ owes (thr d L) O W) : sProp 𝕄)
      ⊢ wp frame (wpE (defs₀ (F := F)) 𝒱₀ (thr d L) none) Set.univ
          (cc0__sc_mean_pool L idsW (Memref.isWhole_whole _) tblW (Memref.isWhole_whole _) outW (Memref.isWhole_whole _)
            sI0 (Memref.isWhole_whole _) sI1 (Memref.isWhole_whole _) sI2 (Memref.isWhole_whole _) sI3 (Memref.isWhole_whole _)
            sR0 (Memref.isWhole_whole _) sR1 (Memref.isWhole_whole _) sR2 (Memref.isWhole_whole _) sR3 (Memref.isWhole_whole _)
            sA (Memref.isWhole_whole _) cc0_scratch9 cc0_scratch10 cc0_scratch11 cc0_scratch12 cc0_scratch13 cc0_scratch14 cc0_scratch15 cc0_scratch16 cc0_scoped0)
          (fun _ => iprop(((idsW).view.loc (thr d L) ↦{q} fi) ∗ ((tblW).view.loc (thr d L) ↦{q} ft)
            ∗ (∃ f, (outSlice L).view.loc (thr d L) ↦[(outSlice L).view.set]{fullShare} f)
            ∗ (∃ f, (sI0).view.loc (thr d L) ↦{fullShare} f) ∗ (∃ f, (sI1).view.loc (thr d L) ↦{fullShare} f) ∗ (∃ f, (sI2).view.loc (thr d L) ↦{fullShare} f) ∗ (∃ f, (sI3).view.loc (thr d L) ↦{fullShare} f) ∗ (∃ f, (sR0).view.loc (thr d L) ↦{fullShare} f) ∗ (∃ f, (sR1).view.loc (thr d L) ↦{fullShare} f) ∗ (∃ f, (sR2).view.loc (thr d L) ↦{fullShare} f) ∗ (∃ f, (sR3).view.loc (thr d L) ↦{fullShare} f) ∗ (∃ f, (sA).view.loc (thr d L) ↦{fullShare} f)
            ∗ semVal (thr d L, SemLoc.dma cc0_scratch9.sem) 0 ∗ semVal (thr d L, SemLoc.dma cc0_scratch10.sem) 0 ∗ semVal (thr d L, SemLoc.dma cc0_scratch11.sem) 0 ∗ semVal (thr d L, SemLoc.dma cc0_scratch12.sem) 0 ∗ semVal (thr d L, SemLoc.dma cc0_scratch13.sem) 0 ∗ semVal (thr d L, SemLoc.dma cc0_scratch14.sem) 0 ∗ semVal (thr d L, SemLoc.dma cc0_scratch15.sem) 0 ∗ semVal (thr d L, SemLoc.dma cc0_scratch16.sem) 0 ∗ semVal (thr d L, SemLoc.dma cc0_scoped0.sem) 0
            ∗ ∃ W', ⌜∀ p ∈ W', p ∈ W ∨ p.2 = none⌝ ∗ owes (thr d L) O W')) := by
  have htr : k0_t1_loop.trips = 16 := by decide
  sl_unfold [cc0__sc_mean_pool]
  iintro ⟨#Hmw, Hi, Ht, Ho, ⟨%f0, H0⟩, ⟨%f1, H1⟩, ⟨%f2, H2⟩, ⟨%f3, H3⟩, ⟨%r0, R0⟩, ⟨%r1, R1⟩, ⟨%r2, R2⟩, ⟨%r3, R3⟩, ⟨%a0, A⟩,
    G0, G1, G2, G3, I0, I1, I2, I3, Sc, HO⟩
  have hL0 : ∀ (off : Fin 2 → Nat) (hoff : ∀ a, off a + S1x100.size a ≤ S2048x100.size a) (g : Buf (Elt F) ((sI0).view.loc (thr d L))) (x : cc0_scratch0.ty.shape.Idx),
      BitVec.toNat (View.read (Elt F) (sI0).view (View.write (Elt F) (sI0).view g
        (ReadAs.same.apply (View.read (Elt F) (((idsW).slice (Rect.unit (s := S2048x100) off S1x100.size hoff) (fun _ => rfl)).squeeze S100 squeezes_S1x100_S100).view fi)) Finset.univ) x) < 100000 := by
    intro off hoff g x
    simp only [Memref.view_whole, View.write_whole_univ, View.read_whole, ReadAs.apply_same, View.read_apply]
    exact hin _
  have hL1 : ∀ (off : Fin 2 → Nat) (hoff : ∀ a, off a + S1x100.size a ≤ S2048x100.size a) (g : Buf (Elt F) ((sI1).view.loc (thr d L))) (x : cc0_scratch1.ty.shape.Idx),
      BitVec.toNat (View.read (Elt F) (sI1).view (View.write (Elt F) (sI1).view g
        (ReadAs.same.apply (View.read (Elt F) (((idsW).slice (Rect.unit (s := S2048x100) off S1x100.size hoff) (fun _ => rfl)).squeeze S100 squeezes_S1x100_S100).view fi)) Finset.univ) x) < 100000 := by
    intro off hoff g x
    simp only [Memref.view_whole, View.write_whole_univ, View.read_whole, ReadAs.apply_same, View.read_apply]
    exact hin _
  have hL2 : ∀ (off : Fin 2 → Nat) (hoff : ∀ a, off a + S1x100.size a ≤ S2048x100.size a) (g : Buf (Elt F) ((sI2).view.loc (thr d L))) (x : cc0_scratch2.ty.shape.Idx),
      BitVec.toNat (View.read (Elt F) (sI2).view (View.write (Elt F) (sI2).view g
        (ReadAs.same.apply (View.read (Elt F) (((idsW).slice (Rect.unit (s := S2048x100) off S1x100.size hoff) (fun _ => rfl)).squeeze S100 squeezes_S1x100_S100).view fi)) Finset.univ) x) < 100000 := by
    intro off hoff g x
    simp only [Memref.view_whole, View.write_whole_univ, View.read_whole, ReadAs.apply_same, View.read_apply]
    exact hin _
  have hL3 : ∀ (off : Fin 2 → Nat) (hoff : ∀ a, off a + S1x100.size a ≤ S2048x100.size a) (g : Buf (Elt F) ((sI3).view.loc (thr d L))) (x : cc0_scratch3.ty.shape.Idx),
      BitVec.toNat (View.read (Elt F) (sI3).view (View.write (Elt F) (sI3).view g
        (ReadAs.same.apply (View.read (Elt F) (((idsW).slice (Rect.unit (s := S2048x100) off S1x100.size hoff) (fun _ => rfl)).squeeze S100 squeezes_S1x100_S100).view fi)) Finset.univ) x) < 100000 := by
    intro off hoff g x
    simp only [Memref.view_whole, View.write_whole_univ, View.read_whole, ReadAs.apply_same, View.read_apply]
    exact hin _
  ihave Ht' := ((Transfers.pointsTo_toks_split (Ix := HIx 1) (Name := ℕ) (U := UU) (Lvl := ℕ) q 4).trans
    (show _ ⊢ iprop(((tblW).view.loc (thr d L) ↦{Transfers.shareDrop q 4} ft) ∗ ((tblW).view.loc (thr d L) ↦{Transfers.shareTok q 4 0} ft)
        ∗ ((tblW).view.loc (thr d L) ↦{Transfers.shareTok q 4 1} ft) ∗ ((tblW).view.loc (thr d L) ↦{Transfers.shareTok q 4 2} ft)
        ∗ ((tblW).view.loc (thr d L) ↦{Transfers.shareTok q 4 3} ft))
      from Entails.of_eq (by rw [bigSep_univ_eq_bigSepL [(0 : Fin 4), 1, 2, 3] (by decide) (by decide)]; rfl))) $$ Ht
  icases Ht' with ⟨Htr, Ht0, Ht1, Ht2, Ht3⟩
  sl_exec (disch := exact View.amount_pos _ _ (show 0 < S100.numel by decide))
  sl_for (inv d L q fi ft O W) $$ [Hi Htr A I0 I1 I2 I3 Ht0 Ht1 Ht2 Ht3 G0 G1 G2 G3 HO]
  case region =>
    intro k _
    by_cases hk : k.val < 15
    · exact trip_lt d L q fi ft hin O W _ k hk
    · exact trip_last d L q fi ft hin O W _ k (by have h : k.val < 16 := lt_of_lt_of_eq k.isLt htr; omega)
  · unfold inv
    rw [if_pos (by decide : (0 : ℕ) < 16)]
    isplitr; · iexact Hmw
    isplitl [Hi]; · iexact Hi
    isplitl [Htr]; · iexact Htr
    isplitl [A]; · iexists _; iexact A
    isplitl [I0]; · iexact I0
    isplitl [I1]; · iexact I1
    isplitl [I2]; · iexact I2
    isplitl [I3]; · iexact I3
    isplitl [Ht0 Ht1 Ht2 Ht3 G0 G1 G2 G3]
    · isplitl [Ht0]; · iexact Ht0
      isplitl [Ht1]; · iexact Ht1
      isplitl [Ht2]; · iexact Ht2
      isplitl [Ht3]; · iexact Ht3
      isplitl [G0]; · iexists _, _, _; iexact G0
      isplitl [G1]; · iexists _, _, _; iexact G1
      isplitl [G2]; · iexists _, _, _; iexact G2
      iexists _, _, _; iexact G3
    iexists _; isplitr
    rotate_left
    · iexact HO
    · ipureintro
      exact waits_insert (waits_insert (waits_insert (waits_insert (fun p hp => Or.inl hp) _) _) _) _
  iintro %_ HI
  unfold inv
  rw [if_neg (by rw [show Scf.trips k0_t1_loop.lb k0_t1_loop.ub k0_t1_loop.st = 16 from htr]; decide)]
  icases HI with ⟨-, Hi, Htr, ⟨%a, A⟩, I0, I1, I2, I3, ⟨⟨⟨%r0', R0⟩, ⟨%i0', H0⟩, G0, Ht0⟩, ⟨⟨%r1', R1⟩, ⟨%i1', H1⟩, G1, Ht1⟩, ⟨⟨%r2', R2⟩, ⟨%i2', H2⟩, G2, Ht2⟩, ⟨%r3', R3⟩, ⟨%i3', H3⟩, G3, Ht3⟩, %W', %hW', HO⟩
  sl_exec (disch := exact View.amount_pos _ _ (show 0 < S128x128.numel by decide))
  sl_step
  isplitl [Hi]; · iexact Hi
  isplitl [Htr Ht0 Ht1 Ht2 Ht3]
  · iapply ((show iprop(((tblW).view.loc (thr d L) ↦{Transfers.shareDrop q 4} ft) ∗ ((tblW).view.loc (thr d L) ↦{Transfers.shareTok q 4 0} ft)
        ∗ ((tblW).view.loc (thr d L) ↦{Transfers.shareTok q 4 1} ft) ∗ ((tblW).view.loc (thr d L) ↦{Transfers.shareTok q 4 2} ft)
        ∗ ((tblW).view.loc (thr d L) ↦{Transfers.shareTok q 4 3} ft)) ⊢ _
        from Entails.of_eq (by rw [bigSep_univ_eq_bigSepL [(0 : Fin 4), 1, 2, 3] (by decide) (by decide)]; rfl)).trans
      (Transfers.pointsTo_toks_join (Ix := HIx 1) (Name := ℕ) (U := UU) (Lvl := ℕ) q 4))
    isplitl [Htr]; · iexact Htr
    isplitl [Ht0]; · iexact Ht0
    isplitl [Ht1]; · iexact Ht1
    isplitl [Ht2]; · iexact Ht2
    iexact Ht3
  isplitl [Ho]; · iexists _; iexact Ho
  isplitl [H0]; · iexists _; iexact H0
  isplitl [H1]; · iexists _; iexact H1
  isplitl [H2]; · iexists _; iexact H2
  isplitl [H3]; · iexists _; iexact H3
  isplitl [R0]; · iexists _; iexact R0
  isplitl [R1]; · iexists _; iexact R1
  isplitl [R2]; · iexists _; iexact R2
  isplitl [R3]; · iexists _; iexact R3
  isplitl [A]; · iexists _; iexact A
  isplitl [G0]; · iexact G0
  isplitl [G1]; · iexact G1
  isplitl [G2]; · iexact G2
  isplitl [G3]; · iexact G3
  isplitl [I0]; · iexact I0
  isplitl [I1]; · iexact I1
  isplitl [I2]; · iexact I2
  isplitl [I3]; · iexact I3
  isplitl [Sc]; · iexact Sc
  iexists _; isplitr
  rotate_left
  · iexact HO
  · ipureintro
    exact waits_insert hW' _

end Cert.Kernel.Hand
end
-- ==== Proof.KLaunchParts3.lean ====
/-
  A vector subcore's own storage, the kernel's part named: its nine scratch buffers, each at some contents, beside the
  rest of its buffers; and its nine completion counters at zero beside the rest of its counters.
-/
import proofs.«207455_g33174327394824_cont_8to1_b_592_21_alg».proof.Proof.KShares

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

/-- The nine scratch buffers are among the subcore's own: its buffers are they, each at some contents, and the rest. -/
theorem ownBufs_V9 (d : Dev nD) (L : grid0.Coords) :
    (ownBufs (thr d L) : sProp 𝕄)
      = iprop((∃ f, (thr d L).loc cc0_scratch0 ↦{fullShare} f)
          ∗ (∃ f, (thr d L).loc cc0_scratch1 ↦{fullShare} f)
          ∗ (∃ f, (thr d L).loc cc0_scratch2 ↦{fullShare} f)
          ∗ (∃ f, (thr d L).loc cc0_scratch3 ↦{fullShare} f)
          ∗ (∃ f, (thr d L).loc cc0_scratch4 ↦{fullShare} f)
          ∗ (∃ f, (thr d L).loc cc0_scratch5 ↦{fullShare} f)
          ∗ (∃ f, (thr d L).loc cc0_scratch6 ↦{fullShare} f)
          ∗ (∃ f, (thr d L).loc cc0_scratch7 ↦{fullShare} f)
          ∗ (∃ f, (thr d L).loc cc0_scratch8 ↦{fullShare} f)
          ∗ bigSep ((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := (Proc.scVector (cV L) (jV L)).devRef cc0_scratch6) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := (Proc.scVector (cV L) (jV L)).devRef cc0_scratch7) rfl⟩⟩⟩⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch6 by decide), Finset.mem_erase.mpr ⟨fun e => absurd (Proc.devRef_injective _ e) (show (cc0_scratch8 : Ref sig .scVector) ≠ cc0_scratch5 by decide), Finset.mem_erase.mpr ⟨fun e => absurd (Proc.devRef_injective _ e) (show (cc0_scratch8 : Ref sig .scVector) ≠ cc0_scratch4 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := Proc.scVector (cV L) (jV L)) (b := (Proc.scVector (cV L) (jV L)).devRef cc0_scratch8) rfl⟩⟩⟩⟩⟩⟩⟩⟩)]

/-- The nine completion counters are among the subcore's own: its counters at zero are they and the rest. -/
theorem ownSems0_V9 (d : Dev nD) (L : grid0.Coords) :
    (ownSems0 (thr d L) : sProp 𝕄)
      = iprop(semVal (thr d L, SemLoc.dma cc0_scratch9.sem) 0
          ∗ semVal (thr d L, SemLoc.dma cc0_scratch10.sem) 0
          ∗ semVal (thr d L, SemLoc.dma cc0_scratch11.sem) 0
          ∗ semVal (thr d L, SemLoc.dma cc0_scratch12.sem) 0
          ∗ semVal (thr d L, SemLoc.dma cc0_scratch13.sem) 0
          ∗ semVal (thr d L, SemLoc.dma cc0_scratch14.sem) 0
          ∗ semVal (thr d L, SemLoc.dma cc0_scratch15.sem) 0
          ∗ semVal (thr d L, SemLoc.dma cc0_scratch16.sem) 0
          ∗ semVal (thr d L, SemLoc.dma cc0_scoped0.sem) 0
          ∗ bigSep ((((((((((ownCells (thr d L)).erase ((thr d L, SemLoc.dma cc0_scratch9.sem) : GSem nD τ sig)).erase ((thr d L, SemLoc.dma cc0_scratch10.sem) : GSem nD τ sig)).erase ((thr d L, SemLoc.dma cc0_scratch11.sem) : GSem nD τ sig)).erase ((thr d L, SemLoc.dma cc0_scratch12.sem) : GSem nD τ sig)).erase ((thr d L, SemLoc.dma cc0_scratch13.sem) : GSem nD τ sig)).erase ((thr d L, SemLoc.dma cc0_scratch14.sem) : GSem nD τ sig)).erase ((thr d L, SemLoc.dma cc0_scratch15.sem) : GSem nD τ sig)).erase ((thr d L, SemLoc.dma cc0_scratch16.sem) : GSem nD τ sig)).erase ((thr d L, SemLoc.dma cc0_scoped0.sem) : GSem nD τ sig))
              fun g => semVal g 0) := by
  unfold SparseCore.Cfg.ownSems0
  rw [SparseCore.bigSep_erase' ((mem_ownCells (g := ((thr d L, SemLoc.dma cc0_scratch9.sem) : GSem nD τ sig))).mpr ⟨rfl, by show (SemLoc.dma cc0_scratch9.sem : SemLoc sig).isScoped .scVector = true; decide⟩),
    SparseCore.bigSep_erase' (Finset.mem_erase.mpr ⟨fun e => absurd (Prod.mk.inj e).2 (show (SemLoc.dma cc0_scratch10.sem : SemLoc sig) ≠ SemLoc.dma cc0_scratch9.sem by decide), (mem_ownCells (g := ((thr d L, SemLoc.dma cc0_scratch10.sem) : GSem nD τ sig))).mpr ⟨rfl, by show (SemLoc.dma cc0_scratch10.sem : SemLoc sig).isScoped .scVector = true; decide⟩⟩),
    SparseCore.bigSep_erase' (Finset.mem_erase.mpr ⟨fun e => absurd (Prod.mk.inj e).2 (show (SemLoc.dma cc0_scratch11.sem : SemLoc sig) ≠ SemLoc.dma cc0_scratch10.sem by decide), Finset.mem_erase.mpr ⟨fun e => absurd (Prod.mk.inj e).2 (show (SemLoc.dma cc0_scratch11.sem : SemLoc sig) ≠ SemLoc.dma cc0_scratch9.sem by decide), (mem_ownCells (g := ((thr d L, SemLoc.dma cc0_scratch11.sem) : GSem nD τ sig))).mpr ⟨rfl, by show (SemLoc.dma cc0_scratch11.sem : SemLoc sig).isScoped .scVector = true; decide⟩⟩⟩),
    SparseCore.bigSep_erase' (Finset.mem_erase.mpr ⟨fun e => absurd (Prod.mk.inj e).2 (show (SemLoc.dma cc0_scratch12.sem : SemLoc sig) ≠ SemLoc.dma cc0_scratch11.sem by decide), Finset.mem_erase.mpr ⟨fun e => absurd (Prod.mk.inj e).2 (show (SemLoc.dma cc0_scratch12.sem : SemLoc sig) ≠ SemLoc.dma cc0_scratch10.sem by decide), Finset.mem_erase.mpr ⟨fun e => absurd (Prod.mk.inj e).2 (show (SemLoc.dma cc0_scratch12.sem : SemLoc sig) ≠ SemLoc.dma cc0_scratch9.sem by decide), (mem_ownCells (g := ((thr d L, SemLoc.dma cc0_scratch12.sem) : GSem nD τ sig))).mpr ⟨rfl, by show (SemLoc.dma cc0_scratch12.sem : SemLoc sig).isScoped .scVector = true; decide⟩⟩⟩⟩),
    SparseCore.bigSep_erase' (Finset.mem_erase.mpr ⟨fun e => absurd (Prod.mk.inj e).2 (show (SemLoc.dma cc0_scratch13.sem : SemLoc sig) ≠ SemLoc.dma cc0_scratch12.sem by decide), Finset.mem_erase.mpr ⟨fun e => absurd (Prod.mk.inj e).2 (show (SemLoc.dma cc0_scratch13.sem : SemLoc sig) ≠ SemLoc.dma cc0_scratch11.sem by decide), Finset.mem_erase.mpr ⟨fun e => absurd (Prod.mk.inj e).2 (show (SemLoc.dma cc0_scratch13.sem : SemLoc sig) ≠ SemLoc.dma cc0_scratch10.sem by decide), Finset.mem_erase.mpr ⟨fun e => absurd (Prod.mk.inj e).2 (show (SemLoc.dma cc0_scratch13.sem : SemLoc sig) ≠ SemLoc.dma cc0_scratch9.sem by decide), (mem_ownCells (g := ((thr d L, SemLoc.dma cc0_scratch13.sem) : GSem nD τ sig))).mpr ⟨rfl, by show (SemLoc.dma cc0_scratch13.sem : SemLoc sig).isScoped .scVector = true; decide⟩⟩⟩⟩⟩),
    SparseCore.bigSep_erase' (Finset.mem_erase.mpr ⟨fun e => absurd (Prod.mk.inj e).2 (show (SemLoc.dma cc0_scratch14.sem : SemLoc sig) ≠ SemLoc.dma cc0_scratch13.sem by decide), Finset.mem_erase.mpr ⟨fun e => absurd (Prod.mk.inj e).2 (show (SemLoc.dma cc0_scratch14.sem : SemLoc sig) ≠ SemLoc.dma cc0_scratch12.sem by decide), Finset.mem_erase.mpr ⟨fun e => absurd (Prod.mk.inj e).2 (show (SemLoc.dma cc0_scratch14.sem : SemLoc sig) ≠ SemLoc.dma cc0_scratch11.sem by decide), Finset.mem_erase.mpr ⟨fun e => absurd (Prod.mk.inj e).2 (show (SemLoc.dma cc0_scratch14.sem : SemLoc sig) ≠ SemLoc.dma cc0_scratch10.sem by decide), Finset.mem_erase.mpr ⟨fun e => absurd (Prod.mk.inj e).2 (show (SemLoc.dma cc0_scratch14.sem : SemLoc sig) ≠ SemLoc.dma cc0_scratch9.sem by decide), (mem_ownCells (g := ((thr d L, SemLoc.dma cc0_scratch14.sem) : GSem nD τ sig))).mpr ⟨rfl, by show (SemLoc.dma cc0_scratch14.sem : SemLoc sig).isScoped .scVector = true; decide⟩⟩⟩⟩⟩⟩),
    SparseCore.bigSep_erase' (Finset.mem_erase.mpr ⟨fun e => absurd (Prod.mk.inj e).2 (show (SemLoc.dma cc0_scratch15.sem : SemLoc sig) ≠ SemLoc.dma cc0_scratch14.sem by decide), Finset.mem_erase.mpr ⟨fun e => absurd (Prod.mk.inj e).2 (show (SemLoc.dma cc0_scratch15.sem : SemLoc sig) ≠ SemLoc.dma cc0_scratch13.sem by decide), Finset.mem_erase.mpr ⟨fun e => absurd (Prod.mk.inj e).2 (show (SemLoc.dma cc0_scratch15.sem : SemLoc sig) ≠ SemLoc.dma cc0_scratch12.sem by decide), Finset.mem_erase.mpr ⟨fun e => absurd (Prod.mk.inj e).2 (show (SemLoc.dma cc0_scratch15.sem : SemLoc sig) ≠ SemLoc.dma cc0_scratch11.sem by decide), Finset.mem_erase.mpr ⟨fun e => absurd (Prod.mk.inj e).2 (show (SemLoc.dma cc0_scratch15.sem : SemLoc sig) ≠ SemLoc.dma cc0_scratch10.sem by decide), Finset.mem_erase.mpr ⟨fun e => absurd (Prod.mk.inj e).2 (show (SemLoc.dma cc0_scratch15.sem : SemLoc sig) ≠ SemLoc.dma cc0_scratch9.sem by decide), (mem_ownCells (g := ((thr d L, SemLoc.dma cc0_scratch15.sem) : GSem nD τ sig))).mpr ⟨rfl, by show (SemLoc.dma cc0_scratch15.sem : SemLoc sig).isScoped .scVector = true; decide⟩⟩⟩⟩⟩⟩⟩),
    SparseCore.bigSep_erase' (Finset.mem_erase.mpr ⟨fun e => absurd (Prod.mk.inj e).2 (show (SemLoc.dma cc0_scratch16.sem : SemLoc sig) ≠ SemLoc.dma cc0_scratch15.sem by decide), Finset.mem_erase.mpr ⟨fun e => absurd (Prod.mk.inj e).2 (show (SemLoc.dma cc0_scratch16.sem : SemLoc sig) ≠ SemLoc.dma cc0_scratch14.sem by decide), Finset.mem_erase.mpr ⟨fun e => absurd (Prod.mk.inj e).2 (show (SemLoc.dma cc0_scratch16.sem : SemLoc sig) ≠ SemLoc.dma cc0_scratch13.sem by decide), Finset.mem_erase.mpr ⟨fun e => absurd (Prod.mk.inj e).2 (show (SemLoc.dma cc0_scratch16.sem : SemLoc sig) ≠ SemLoc.dma cc0_scratch12.sem by decide), Finset.mem_erase.mpr ⟨fun e => absurd (Prod.mk.inj e).2 (show (SemLoc.dma cc0_scratch16.sem : SemLoc sig) ≠ SemLoc.dma cc0_scratch11.sem by decide), Finset.mem_erase.mpr ⟨fun e => absurd (Prod.mk.inj e).2 (show (SemLoc.dma cc0_scratch16.sem : SemLoc sig) ≠ SemLoc.dma cc0_scratch10.sem by decide), Finset.mem_erase.mpr ⟨fun e => absurd (Prod.mk.inj e).2 (show (SemLoc.dma cc0_scratch16.sem : SemLoc sig) ≠ SemLoc.dma cc0_scratch9.sem by decide), (mem_ownCells (g := ((thr d L, SemLoc.dma cc0_scratch16.sem) : GSem nD τ sig))).mpr ⟨rfl, by show (SemLoc.dma cc0_scratch16.sem : SemLoc sig).isScoped .scVector = true; decide⟩⟩⟩⟩⟩⟩⟩⟩),
    SparseCore.bigSep_erase' (Finset.mem_erase.mpr ⟨fun e => absurd (Prod.mk.inj e).2 (show (SemLoc.dma cc0_scoped0.sem : SemLoc sig) ≠ SemLoc.dma cc0_scratch16.sem by decide), Finset.mem_erase.mpr ⟨fun e => absurd (Prod.mk.inj e).2 (show (SemLoc.dma cc0_scoped0.sem : SemLoc sig) ≠ SemLoc.dma cc0_scratch15.sem by decide), Finset.mem_erase.mpr ⟨fun e => absurd (Prod.mk.inj e).2 (show (SemLoc.dma cc0_scoped0.sem : SemLoc sig) ≠ SemLoc.dma cc0_scratch14.sem by decide), Finset.mem_erase.mpr ⟨fun e => absurd (Prod.mk.inj e).2 (show (SemLoc.dma cc0_scoped0.sem : SemLoc sig) ≠ SemLoc.dma cc0_scratch13.sem by decide), Finset.mem_erase.mpr ⟨fun e => absurd (Prod.mk.inj e).2 (show (SemLoc.dma cc0_scoped0.sem : SemLoc sig) ≠ SemLoc.dma cc0_scratch12.sem by decide), Finset.mem_erase.mpr ⟨fun e => absurd (Prod.mk.inj e).2 (show (SemLoc.dma cc0_scoped0.sem : SemLoc sig) ≠ SemLoc.dma cc0_scratch11.sem by decide), Finset.mem_erase.mpr ⟨fun e => absurd (Prod.mk.inj e).2 (show (SemLoc.dma cc0_scoped0.sem : SemLoc sig) ≠ SemLoc.dma cc0_scratch10.sem by decide), Finset.mem_erase.mpr ⟨fun e => absurd (Prod.mk.inj e).2 (show (SemLoc.dma cc0_scoped0.sem : SemLoc sig) ≠ SemLoc.dma cc0_scratch9.sem by decide), (mem_ownCells (g := ((thr d L, SemLoc.dma cc0_scoped0.sem) : GSem nD τ sig))).mpr ⟨rfl, by show (SemLoc.dma cc0_scoped0.sem : SemLoc sig).isScoped .scVector = true; decide⟩⟩⟩⟩⟩⟩⟩⟩⟩)]

end Cert.Kernel.Hand

end
-- ==== Proof.KTileBody.lean ====
/-
  The subcore's task as the launch asks for it.

  The subcore's scoped storage is opened into the kernel's nine scratch buffers, each at some contents, and nine
  completion counters at zero, beside the rest; the task runs on them; and they are closed into the scoped storage again,
  the buffers at whatever the task left and the counters back at zero.
-/
import proofs.«207455_g33174327394824_cont_8to1_b_592_21_alg».proof.Proof.KTile
import proofs.«207455_g33174327394824_cont_8to1_b_592_21_alg».proof.Proof.KLaunchParts3
noncomputable section
namespace Cert.Kernel.Hand
open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

local notation "idsW" => (Memref.whole Cert.Kernel.main_v0_scv : Memref Cert.Kernel.sig Kind.scVector Space.hbm Cert.Kernel.S2048x100 EltTy.i32)
local notation "tblW" => (Memref.whole Cert.Kernel.main_arg1_scv : Memref Cert.Kernel.sig Kind.scVector Space.hbm Cert.Kernel.S100000x128 EltTy.f32)
local notation "outW" => (Memref.whole Cert.Kernel.main_v1_scv : Memref Cert.Kernel.sig Kind.scVector Space.hbm Cert.Kernel.S4096x128 EltTy.f32)
local notation "sI0" => (Memref.whole Cert.Kernel.cc0_scratch0 : Memref Cert.Kernel.sig Kind.scVector Space.vmem Cert.Kernel.S100 EltTy.i32)
local notation "sI1" => (Memref.whole Cert.Kernel.cc0_scratch1 : Memref Cert.Kernel.sig Kind.scVector Space.vmem Cert.Kernel.S100 EltTy.i32)
local notation "sI2" => (Memref.whole Cert.Kernel.cc0_scratch2 : Memref Cert.Kernel.sig Kind.scVector Space.vmem Cert.Kernel.S100 EltTy.i32)
local notation "sI3" => (Memref.whole Cert.Kernel.cc0_scratch3 : Memref Cert.Kernel.sig Kind.scVector Space.vmem Cert.Kernel.S100 EltTy.i32)
local notation "sR0" => (Memref.whole Cert.Kernel.cc0_scratch4 : Memref Cert.Kernel.sig Kind.scVector Space.vmem Cert.Kernel.S100x128 EltTy.f32)
local notation "sR1" => (Memref.whole Cert.Kernel.cc0_scratch5 : Memref Cert.Kernel.sig Kind.scVector Space.vmem Cert.Kernel.S100x128 EltTy.f32)
local notation "sR2" => (Memref.whole Cert.Kernel.cc0_scratch6 : Memref Cert.Kernel.sig Kind.scVector Space.vmem Cert.Kernel.S100x128 EltTy.f32)
local notation "sR3" => (Memref.whole Cert.Kernel.cc0_scratch7 : Memref Cert.Kernel.sig Kind.scVector Space.vmem Cert.Kernel.S100x128 EltTy.f32)
local notation "sA" => (Memref.whole Cert.Kernel.cc0_scratch8 : Memref Cert.Kernel.sig Kind.scVector Space.vmem Cert.Kernel.S128x128 EltTy.f32)

/-- The task as the launch theorem asks for it: the subcore's scoped storage opened into its nine scratch buffers and nine
    semaphores, the task run, the storage closed again. -/
theorem tile_body (hF : (K (F := F)).Facts) (d : Dev nD) (L : grid0.Coords) (q : PosShare TreeShare) (fi : Buf (Elt F) (idsLoc d)) (ft : Buf (Elt F) (tblLoc d))
    (fo : Buf (Elt F) (outLoc d)) (hin : ∀ j, (fi j).toNat < 100000) (O : CellTallies nD τ sig (HIx 1)) (W : Waits sig (HIx 1)) (hO : ∀ g, O g none = 0) :
    (iprop(levAts (K (F := F)).L (K (F := F)).lev ∗ emp ∗ ((idsLoc d ↦{q} fi) ∗ (tblLoc d ↦{q} ft) ∗ (outLoc d ↦[slab L]{fullShare} fo))
        ∗ scopedBufs (thr d L) ∗ scopedSems0 (thr d L) ∗ owes (thr d L) O W) : sProp 𝕄)
      ⊢ wp frame (wpE (defs₀ (F := F)) 𝒱₀ (thr d L) none) Set.univ
          (cc0__sc_mean_pool L idsW (Memref.isWhole_whole _) tblW (Memref.isWhole_whole _) outW (Memref.isWhole_whole _)
            sI0 (Memref.isWhole_whole _) sI1 (Memref.isWhole_whole _) sI2 (Memref.isWhole_whole _) sI3 (Memref.isWhole_whole _)
            sR0 (Memref.isWhole_whole _) sR1 (Memref.isWhole_whole _) sR2 (Memref.isWhole_whole _) sR3 (Memref.isWhole_whole _)
            sA (Memref.isWhole_whole _) cc0_scratch9 cc0_scratch10 cc0_scratch11 cc0_scratch12 cc0_scratch13 cc0_scratch14 cc0_scratch15 cc0_scratch16 cc0_scoped0)
          fun _ => iprop(((idsLoc d ↦{q} fi) ∗ (tblLoc d ↦{q} ft) ∗ ∃ f : Buf (Elt F) (outLoc d), ⌜∀ j ∈ slab L, (fun _ _ => True : S4096x128.Idx → Elt F .f32 → Prop) j (f j)⌝ ∗ (outLoc d ↦[slab L]{fullShare} f))
            ∗ scopedBufs (thr d L) ∗ scopedSems0 (thr d L) ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V9, ownBufs_V9]
  iintro ⟨#Hlv, -, ⟨Hi, Ht, Ho⟩, ⟨B0, B1, B2, B3, B4, B5, B6, B7, B8, Hbufs⟩, ⟨S0, S1, S2, S3, S4, S5, S6, S7, S8, Hsems⟩, HO⟩
  ihave Hmw := ((K (F := F)).mayWaits_none (thr := thr d L) hO) $$ Hlv
  iapply (wp_wand_r frame _ _)
  isplitr [Hbufs Hsems]
  · iapply (tile_run d L q fi ft fo hin O W)
    isplitl [Hmw]; · iexact Hmw
    isplitl [Hi]; · iexact Hi
    isplitl [Ht]; · iexact Ht
    isplitl [Ho]; · iexact Ho
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact HO
  · iintro %_ ⟨Hi, Ht, ⟨%f, Ho⟩, B0, B1, B2, B3, B4, B5, B6, B7, B8, S0, S1, S2, S3, S4, S5, S6, S7, S8, HO⟩
    isplitl [Hi Ht Ho]
    · isplitl [Hi]; · iexact Hi
      isplitl [Ht]; · iexact Ht
      iexists f; isplitr
      · ipureintro; intro _ _; trivial
      · iexact Ho
    isplitl [B0 B1 B2 B3 B4 B5 B6 B7 B8 Hbufs]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      iexact Hbufs
    isplitl [S0 S1 S2 S3 S4 S5 S6 S7 S8 Hsems]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact Hsems
    iexact HO

end Cert.Kernel.Hand
end
-- ==== Proof.KLaunchParts.lean ====
/-
  The lookup kernel's launch: what the handshakes carry, and the wrapper that turns a statement about one vector
  subcore's run of the kernel body into the launch theorem's obligation for that subcore.

  The index array the kernel reads is the launch index array in its second shape (2048 rows of 100 words). Each
  SparseCore is handed a read share of the index array and of the table and the result rows of its sixteen subcores;
  each subcore a share of that share and its own 128 result rows, which it hands back holding entries that satisfy the
  stated predicate.
-/
import proofs.«207455_g33174327394824_cont_8to1_b_592_21_alg».proof.Proof.KCommon
import proofs.«207455_g33174327394824_cont_8to1_b_592_21_alg».proof.Proof.KShares

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

/-! ## What the handshakes carry -/

/-- The index array as the kernel reads it: the launch index array in its second shape. -/
def idsC (m : (ℓ : Loc nD τ sig) → Buf (Elt F) ℓ) (d : Dev nD) : Buf (Elt F) (idsLoc d) :=
  shapeCast S2048x100 (m ((SparseCore.T d).loc main_arg0)) shapeCasts_S4096x50_S2048x100

/-- The one call hands each SparseCore its shares and rows, each subcore its shares and rows, and takes them back with
    the rows at entries satisfying `Gd`; the kernel has no cells of its own to be dealt. -/
def P (Gd : S4096x128.Idx → Elt F .f32 → Prop) (m : (ℓ : Loc nD τ sig) → Buf (Elt F) ℓ) :
    (K (F := F)).Pay (nD := nD) (Val := Elt F) (Name := ℕ) (U := UU) where
  st := fun q d c => match q with
    | 0 => stRes d (idsC m d) (m (tblLoc d)) (m (outLoc d)) (Fin.cast nCore_zero c)
  dn := fun q d c => match q with
    | 0 => dnRes Gd d (idsC m d) (m (tblLoc d)) (Fin.cast nCore_zero c)
  go := fun q d c i => match q with
    | 0 => goRes d (idsC m d) (m (tblLoc d)) (m (outLoc d)) (Fin.cast nCore_zero c) (Fin.cast nSub_zero i)
  td := fun q d c i => match q with
    | 0 => tdRes Gd d (idsC m d) (m (tblLoc d)) (Fin.cast nCore_zero c) (Fin.cast nSub_zero i)
  x := fun _ _ => iprop(emp)

instance P_storable (Gd : S4096x128.Idx → Elt F .f32 → Prop) (m : (ℓ : Loc nD τ sig) → Buf (Elt F) ℓ) :
    (P (F := F) Gd m).IsStorable where
  st q d c := match q with
    | 0 => by
      show BI.Storable (upEmb : UEmb _ 𝕄) (stRes d (idsC m d) (m (tblLoc d)) (m (outLoc d)) (Fin.cast nCore_zero c))
      unfold stRes; infer_instance
  dn q d c := match q with
    | 0 => by
      show BI.Storable (upEmb : UEmb _ 𝕄) (dnRes Gd d (idsC m d) (m (tblLoc d)) (Fin.cast nCore_zero c))
      unfold dnRes; infer_instance
  go q d c i := match q with
    | 0 => by
      show BI.Storable (upEmb : UEmb _ 𝕄) (goRes d (idsC m d) (m (tblLoc d)) (m (outLoc d)) (Fin.cast nCore_zero c) (Fin.cast nSub_zero i))
      unfold goRes; infer_instance
  td q d c i := match q with
    | 0 => by
      show BI.Storable (upEmb : UEmb _ 𝕄) (tdRes Gd d (idsC m d) (m (tblLoc d)) (Fin.cast nCore_zero c) (Fin.cast nSub_zero i))
      unfold tdRes; infer_instance

/-! ## The launch theorem's obligation for one vector subcore -/

theorem defs₀_vector (c : Fin τ.nSC) (s : Fin τ.nSub) :
    defs₀ (F := F) (.scVector c s) 0 ()
      = SparseCore.onTile hcore0 hsub0 (fun c s => cc0__sc_mean_pool (coordsV c s) (Memref.whole main_v0_scv) (Memref.isWhole_whole _) (Memref.whole main_arg1_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scoped0) ⟨⟩ c s := rfl

omit [FloatOps F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- From the body's run on every subcore — for any shares and contents of the two read arrays whose index words name
    table rows, and the subcore's own result rows — to the launch theorem's obligation. -/
theorem tileObl_of (Gd : S4096x128.Idx → Elt F .f32 → Prop) (m : (ℓ : Loc nD τ sig) → Buf (Elt F) ℓ) (hF : (K (F := F)).Facts)
    (hpre : ∀ (d : Dev nD) j, (idsC m d j).toNat < 100000)
    (hbody : ∀ (d : Dev nD) (L : grid0.Coords) (q : PosShare TreeShare) (fi : Buf (Elt F) (idsLoc d)) (ft : Buf (Elt F) (tblLoc d))
        (fo : Buf (Elt F) (outLoc d)), (∀ j, (fi j).toNat < 100000) →
        ∀ (O : CellTallies nD τ sig (HIx 1)) (W : Waits sig (HIx 1)), (∀ g, O g none = 0) →
          (iprop(levAts (K (F := F)).L (K (F := F)).lev ∗ emp
              ∗ ((idsLoc d ↦{q} fi) ∗ (tblLoc d ↦{q} ft) ∗ (outLoc d ↦[slab L]{fullShare} fo))
              ∗ scopedBufs (thr d L) ∗ scopedSems0 (thr d L) ∗ owes (thr d L) O W) : sProp 𝕄)
            ⊢ wp frame (wpE (defs₀ (F := F)) 𝒱₀ (thr d L) none) Set.univ
                (cc0__sc_mean_pool L (Memref.whole main_v0_scv) (Memref.isWhole_whole _) (Memref.whole main_arg1_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scoped0)
                fun _ => iprop(((idsLoc d ↦{q} fi) ∗ (tblLoc d ↦{q} ft)
                    ∗ ∃ f : Buf (Elt F) (outLoc d), ⌜∀ j ∈ slab L, Gd j (f j)⌝ ∗ (outLoc d ↦[slab L]{fullShare} f))
                  ∗ scopedBufs (thr d L) ∗ scopedSems0 (thr d L)
                  ∗ ∃ W', ⌜∀ p ∈ W', p ∈ W ∨ p.2 = none⌝ ∗ owes (thr d L) O W')) :
    (K (F := F)).TileObl (D (F := F)) 𝒱 (P Gd m) v₀ 0 := by
  intro d c i O W hO _ _
  simp only [show (P Gd m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) (qT (Fin.cast nCore_zero c) (Fin.cast nSub_zero i)) (idsC m d) (m (tblLoc d))
    (m (outLoc d)) (hpre d) O W hO).trans (wp_mono frame _ _ fun _ => obl_post)

end Cert.Kernel.Hand

end
-- ==== Proof.KLaunchParts2.lean ====
/-
  One SparseCore's operands dealt to its sixteen vector subcores and gathered back.

  The SparseCore's read share of the index array and of the table is cut into sixteen subcore shares and a remainder;
  the remainder waits, and rejoins the sixteen when they come back. The SparseCore's result rows are the union of its
  subcores' slabs: subcore s of SparseCore c owns rows 256·s + 128·c to 256·s + 128·c + 127, so two slabs of one
  SparseCore are at least 256 rows apart and never meet; held slab by slab at contents whose entries satisfy the
  predicate, they join into the union at contents that agree with each slab's on that slab, so every entry of the union
  satisfies it.
-/
import proofs.«207455_g33174327394824_cont_8to1_b_592_21_alg».proof.Proof.KLaunchParts

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

/-! ## The slabs of one SparseCore -/

/-- The result rows of subcore `i` of SparseCore `c`. -/
abbrev slabOf (c : Fin 2) (i : Fin 16) : Finset S4096x128.Idx :=
  slab (coordsV (Fin.cast bound_zero.symm c) (Fin.cast bound_one.symm i))

omit [FloatOps F] in
/-- A slab is the rectangle of 128 whole rows at the kernel's row offset. -/
theorem slab_eq (L : grid0.Coords) :
    slab L = (Rect.unit (s := S4096x128) (k0_off50 L) S128x128.size (k0_off50_inb L)).set :=
  View.set_slice_whole _ _

omit [FloatOps F] in
/-- Two different subcores of one SparseCore own rows at least 256 apart: their slabs are disjoint. -/
theorem slabOf_disjoint (c : Fin 2) :
    ∀ i ∈ (Finset.univ : Finset (Fin 16)), ∀ i' ∈ (Finset.univ : Finset (Fin 16)), i ≠ i' → Disjoint (slabOf c i) (slabOf c i') := by
  intro i _ i' _ h
  unfold slabOf
  rw [slab_eq, slab_eq]
  refine Rect.disjoint_of_separated _ _ 0 ?_
  simp only [Rect.off_unit, Rect.size_unit, Rect.stride_unit, Nat.one_mul, k0_off50_eq]
  have hs : i.val ≠ i'.val := fun e => h (Fin.ext e)
  show (128 = 0 ∨ 256 * i.val + 128 * c.val + (128 - 1) < 256 * i'.val + 128 * c.val)
    ∨ (128 = 0 ∨ 256 * i'.val + 128 * c.val + (128 - 1) < 256 * i.val + 128 * c.val)
  omega

omit [FloatOps F] in
/-- A SparseCore's rows are the union of its subcores' slabs. -/
theorem coreSlabs_eq (c : Fin 2) : coreSlabs (Fin.cast bound_zero.symm c) = Finset.univ.biUnion (slabOf c) := rfl

omit [FloatOps F] in
/-- The tasks of the call are the sixteen subcores. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- A SparseCore's rows held at one contents are its subcores' slabs held at it. -/
theorem out_rows (d : Dev nD) (f : Buf (Elt F) (outLoc d)) (c : Fin 2) :
    (outLoc d ↦[coreSlabs (Fin.cast bound_zero.symm c)]{fullShare} f : sProp 𝕄)
      = bigSep Finset.univ fun i : Fin 16 => outLoc d ↦[slabOf c i]{fullShare} f := by
  rw [coreSlabs_eq, pointsTo_biUnion Finset.univ (ℓ := outLoc d) (slabOf c) (slabOf_disjoint c)]

/-- The slabs, each held at contents whose entries on it satisfy `Gd`, join into the SparseCore's rows held at
    contents whose entries on them all satisfy `Gd`. -/
theorem out_join (Gd : S4096x128.Idx → Elt F .f32 → Prop) (d : Dev nD) (c : Fin 2) :
    (bigSep Finset.univ fun i : Fin 16 =>
        iprop(∃ f : Buf (Elt F) (outLoc d), ⌜∀ j ∈ slabOf c i, Gd j (f j)⌝ ∗ (outLoc d ↦[slabOf c i]{fullShare} f)))
      ⊢ (iprop(∃ f : Buf (Elt F) (outLoc d), ⌜∀ j ∈ coreSlabs (Fin.cast bound_zero.symm c), Gd j (f j)⌝
          ∗ (outLoc d ↦[coreSlabs (Fin.cast bound_zero.symm c)]{fullShare} f)) : sProp 𝕄) := by
  refine (bigSep_exists_pi Finset.univ (fun (i : Fin 16) (f : Buf (Elt F) (outLoc d)) =>
    iprop(⌜∀ j ∈ slabOf c i, Gd j (f j)⌝ ∗ (outLoc d ↦[slabOf c i]{fullShare} f)))).trans ?_
  iintro ⟨%fs, H⟩
  ihave H' := (bigSep_pure_sep Finset.univ (fun i : Fin 16 => ∀ j ∈ slabOf c i, Gd j (fs i j))
    (fun i : Fin 16 => (outLoc d ↦[slabOf c i]{fullShare} fs i : sProp 𝕄))) $$ H
  icases H' with ⟨%hG, H⟩
  ihave H'' := (pointsTo_biUnion_join Finset.univ (slabOf c) fs (fs 0) (slabOf_disjoint c)) $$ H
  icases H'' with ⟨%g, %hg, Hg⟩
  iexists g
  isplitr
  · ipureintro
    intro j hj
    rw [coreSlabs_eq] at hj
    obtain ⟨i, hi, hji⟩ := Finset.mem_biUnion.mp hj
    rw [hg i hi j hji]
    exact hG i hi j hji
  · rw [coreSlabs_eq]; iexact Hg

/-! ## The split -/

/-- One SparseCore's operands to its sixteen subcores, and back. -/
theorem split16 (Gd : S4096x128.Idx → Elt F .f32 → Prop) (d : Dev nD) (I : Buf (Elt F) (idsLoc d)) (Tb : Buf (Elt F) (tblLoc d))
    (O0 : Buf (Elt F) (outLoc d)) (c : Fin 2) :
    (stRes d I Tb O0 c : sProp 𝕄) ⊢ |={Set.univ}=> iprop((bigSep Finset.univ fun i : Fin 16 => goRes d I Tb O0 c i)
      ∗ ((bigSep Finset.univ fun i : Fin 16 => tdRes Gd d I Tb c i) -∗ dnRes Gd d I Tb c)) := by
  unfold stRes goRes tdRes dnRes qT
  rw [bigSep_sep', bigSep_sep', bigSep_sep', bigSep_sep']
  iintro ⟨Hi, Ht, Ho⟩
  ihave Hi' := (Transfers.pointsTo_toks_split (qC c) 16) $$ Hi
  icases Hi' with ⟨Hir, Hit⟩
  ihave Ht' := (Transfers.pointsTo_toks_split (qC c) 16) $$ Ht
  icases Ht' with ⟨Htr, Htt⟩
  ihave Ho' := (Entails.of_eq (out_rows (F := F) d O0 c)) $$ Ho
  imodintro
  isplitl [Hit Htt Ho']
  · isplitl [Hit]; · iexact Hit
    isplitl [Htt]; · iexact Htt
    iexact Ho'
  iintro ⟨Hit, Htt, Ho⟩
  isplitl [Hir Hit]
  · iapply (Transfers.pointsTo_toks_join (qC c) 16)
    isplitl [Hir]; · iexact Hir
    iexact Hit
  isplitl [Htr Htt]
  · iapply (Transfers.pointsTo_toks_join (qC c) 16)
    isplitl [Htr]; · iexact Htr
    iexact Htt
  iapply (out_join Gd d c); iexact Ho

theorem vecSplit (Gd : S4096x128.Idx → Elt F .f32 → Prop) (m : (ℓ : Loc nD τ sig) → Buf (Elt F) ℓ) :
    (K (F := F)).VecSplit' (P Gd m) 0 := by
  intro d c
  show (stRes d (idsC m d) (m (tblLoc d)) (m (outLoc d)) (Fin.cast nCore_zero c) : sProp 𝕄) ⊢ |={Set.univ}=> iprop(
      (bigSep Finset.univ fun i : Fin ((K (F := F)).nSub 0) =>
        goRes d (idsC m d) (m (tblLoc d)) (m (outLoc d)) (Fin.cast nCore_zero c) (Fin.cast nSub_zero i))
      ∗ ((bigSep Finset.univ fun i : Fin ((K (F := F)).nSub 0) =>
          tdRes Gd d (idsC m d) (m (tblLoc d)) (Fin.cast nCore_zero c) (Fin.cast nSub_zero i))
        -∗ dnRes Gd d (idsC m d) (m (tblLoc d)) (Fin.cast nCore_zero c)))
  rw [bigSep_tasks (F := F) (fun i => goRes d (idsC m d) (m (tblLoc d)) (m (outLoc d)) (Fin.cast nCore_zero c) i),
    bigSep_tasks (F := F) (fun i => tdRes Gd d (idsC m d) (m (tblLoc d)) (Fin.cast nCore_zero c) i)]
  exact split16 Gd d _ _ _ _

end Cert.Kernel.Hand

end
-- ==== Proof.KRows.lean ====
/-
  The result rows of the lookup, dealt between the two SparseCores and gathered back.

  Subcore s of SparseCore c owns rows 256·s + 128·c to 256·s + 128·c + 127: the thirty-two slabs are the thirty-two
  runs of 128 rows, pairwise disjoint, and together every row. So the two SparseCores' row sets are disjoint and cover
  the array; held at one contents the array is the two row sets held at it, and the two row sets, each held at contents
  whose entries on it satisfy the predicate, join into the whole array at contents all of whose entries satisfy it.
-/
import proofs.«207455_g33174327394824_cont_8to1_b_592_21_alg».proof.Proof.KLaunchParts2

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

/-! ## The thirty-two slabs -/

omit [FloatOps F] in
/-- Two different subcores, of one SparseCore or of two, own disjoint rows. -/
theorem slabOf_disjoint_all (c c' : Fin 2) (i i' : Fin 16) (h : c ≠ c' ∨ i ≠ i') : Disjoint (slabOf c i) (slabOf c' i') := by
  unfold slabOf
  rw [slab_eq, slab_eq]
  refine Rect.disjoint_of_separated _ _ 0 ?_
  simp only [Rect.off_unit, Rect.size_unit, Rect.stride_unit, Nat.one_mul, k0_off50_eq]
  have hs : c.val ≠ c'.val ∨ i.val ≠ i'.val := h.imp (fun h e => h (Fin.ext e)) (fun h e => h (Fin.ext e))
  have hc := c.isLt
  have hc' := c'.isLt
  show (128 = 0 ∨ 256 * i.val + 128 * c.val + (128 - 1) < 256 * i'.val + 128 * c'.val)
    ∨ (128 = 0 ∨ 256 * i'.val + 128 * c'.val + (128 - 1) < 256 * i.val + 128 * c.val)
  omega

omit [FloatOps F] in
/-- Every entry of the array lies in the slab its row number names. -/
theorem exists_mem_slabOf (j : S4096x128.Idx) : ∃ (c : Fin 2) (i : Fin 16), j ∈ slabOf c i := by
  have hr : (j 0).val < 4096 := (j 0).isLt
  have he : (j 1).val < 128 := (j 1).isLt
  refine ⟨⟨(j 0).val % 256 / 128, by omega⟩, ⟨(j 0).val / 256, by omega⟩, ?_⟩
  unfold slabOf
  rw [slab_eq, Rect.mem_set_unit]
  intro a
  rw [k0_off50_eq]
  match a with
  | ⟨0, _⟩ =>
    show 256 * ((j 0).val / 256) + 128 * ((j 0).val % 256 / 128) ≤ (j 0).val
      ∧ (j 0).val < 256 * ((j 0).val / 256) + 128 * ((j 0).val % 256 / 128) + 128
    omega
  | ⟨1, _⟩ =>
    show 0 ≤ (j 1).val ∧ (j 1).val < 0 + 128
    omega

/-- The rows of SparseCore `c`. -/
abbrev coreRows (c : Fin 2) : Finset S4096x128.Idx := coreSlabs (Fin.cast bound_zero.symm c)

omit [FloatOps F] in
theorem coreRows_disjoint :
    ∀ c ∈ (Finset.univ : Finset (Fin 2)), ∀ c' ∈ (Finset.univ : Finset (Fin 2)), c ≠ c' → Disjoint (coreRows c) (coreRows c') := by
  intro c _ c' _ h
  unfold coreRows
  rw [coreSlabs_eq, coreSlabs_eq, Finset.disjoint_biUnion_left]
  intro i _
  rw [Finset.disjoint_biUnion_right]
  intro i' _
  exact slabOf_disjoint_all c c' i i' (.inl h)

omit [FloatOps F] in
theorem coreRows_cover : (Finset.univ : Finset (Fin 2)).biUnion coreRows = Finset.univ := by
  ext j
  simp only [Finset.mem_biUnion, Finset.mem_univ, true_and, iff_true]
  obtain ⟨c, i, h⟩ := exists_mem_slabOf j
  refine ⟨c, ?_⟩
  unfold coreRows
  rw [coreSlabs_eq]
  exact Finset.mem_biUnion.mpr ⟨i, Finset.mem_univ i, h⟩

/-! ## The array between the two SparseCores -/

omit [FloatOps F] in
/-- The whole array held at one contents is the two SparseCores' rows held at it. -/
theorem out_cores (d : Dev nD) (f : Buf (Elt F) (outLoc d)) :
    (outLoc d ↦{fullShare} f : sProp 𝕄) = iprop((outLoc d ↦[coreRows 0]{fullShare} f) ∗ (outLoc d ↦[coreRows 1]{fullShare} f)) := by
  rw [← bigSep_univ_two (fun c : Fin 2 => (outLoc d ↦[coreRows c]{fullShare} f : sProp 𝕄)),
    ← pointsTo_biUnion Finset.univ (ℓ := outLoc d) coreRows coreRows_disjoint, coreRows_cover]

/-- The two SparseCores' rows, each held at contents whose entries on them satisfy `Gd`, join into the whole array held
    at contents all of whose entries satisfy `Gd`. -/
theorem out_cores_join (Gd : S4096x128.Idx → Elt F .f32 → Prop) (d : Dev nD) :
    iprop((∃ f : Buf (Elt F) (outLoc d), ⌜∀ j ∈ coreRows 0, Gd j (f j)⌝ ∗ (outLoc d ↦[coreRows 0]{fullShare} f))
        ∗ (∃ f : Buf (Elt F) (outLoc d), ⌜∀ j ∈ coreRows 1, Gd j (f j)⌝ ∗ (outLoc d ↦[coreRows 1]{fullShare} f)))
      ⊢ (iprop(∃ f : Buf (Elt F) (outLoc d), ⌜∀ j, Gd j (f j)⌝ ∗ (outLoc d ↦{fullShare} f)) : sProp 𝕄) := by
  rw [← bigSep_univ_two (fun c : Fin 2 =>
    (iprop(∃ f : Buf (Elt F) (outLoc d), ⌜∀ j ∈ coreRows c, Gd j (f j)⌝ ∗ (outLoc d ↦[coreRows c]{fullShare} f)) : sProp 𝕄))]
  refine (bigSep_exists_pi Finset.univ (fun (c : Fin 2) (f : Buf (Elt F) (outLoc d)) =>
    iprop(⌜∀ j ∈ coreRows c, Gd j (f j)⌝ ∗ (outLoc d ↦[coreRows c]{fullShare} f)))).trans ?_
  iintro ⟨%fs, H⟩
  ihave H' := (bigSep_pure_sep Finset.univ (fun c : Fin 2 => ∀ j ∈ coreRows c, Gd j (fs c j))
    (fun c : Fin 2 => (outLoc d ↦[coreRows c]{fullShare} fs c : sProp 𝕄))) $$ H
  icases H' with ⟨%hG, H⟩
  ihave H'' := (pointsTo_biUnion_join Finset.univ coreRows fs (fs 0) coreRows_disjoint) $$ H
  icases H'' with ⟨%g, %hg, Hg⟩
  iexists g
  isplitr
  · ipureintro
    intro j
    have hj : j ∈ (Finset.univ : Finset (Fin 2)).biUnion coreRows := by rw [coreRows_cover]; exact Finset.mem_univ j
    obtain ⟨c, hc, hjc⟩ := Finset.mem_biUnion.mp hj
    rw [hg c hc j hjc]
    exact hG c hc j hjc
  · rw [coreRows_cover]; iexact Hg

end Cert.Kernel.Hand

end
-- ==== Proof.KLaunchParts4.lean ====
/-
  The launch element of the ghost state, and what it is dealt into.

  The element is a triple: the handshakes' rounds at their launch cells and tokens, the staging semaphores' rounds at
  theirs, and the unit of the counters. Owning it is owning each part through its own embedding; the handshakes' part is
  handed on as it is, the staging part is spent for every device's staging cells and launch tokens, and the lookup kernel
  is dealt nothing, having no cells of its own.
-/
import proofs.«207455_g33174327394824_cont_8to1_b_592_21_alg».proof.Proof.KLaunchParts

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

/-- The launch element: handshakes, staging semaphores, counters. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

omit [FloatOps F] in
theorem bigSep_emp' {I : Type} (s : Finset I) : (bigSep s fun _ => iprop(emp)) = (iprop(emp) : sProp 𝕄) := bigSep_emp_const s

omit [FloatOps F] in
/-- The staging part of the launch element, owned through the right factor's left injection, is owned through the
    staging embedding: the two embeddings are one function. -/
theorem ownP_eq (b : UP) :
    (BI.own (((Emb.inl : Emb UP (UP × Counters)).trans
        (embR : Emb (UP × Counters) (MT nD τ sig (HIx 1) (Elt F) ℕ UU ℕ))) b) : sProp 𝕄) = BI.own ((EP (F := F)) b) := rfl

omit [FloatOps F] in
/-- The staging part is spent for every device's staging cells and launch tokens. -/
theorem ghost_deal :
    (BI.own ((EP (F := F)) (initOf (Pipeline.cells (nD := nD) (τ := τ) cfgs cellOf_inj) (Pipeline.launchToks (nD := nD) (τ := τ) cfgs cellOf_inj))) : sProp 𝕄)
      ⊢ iprop(|==> bigSep Finset.univ fun d : Dev nD => iprop(Pipeline.cellsGhost cfgs EP 0 d ∗ Pipeline.toksInit cfgs EP 0 d)) := by
  refine (Pipeline.fund_ghost cfgs (EP (F := F)) cellOf_inj).trans (bupd_mono ?_)
  rw [bigSep_sep',
    bigSep_congr (s := (Finset.univ : Finset (Dev nD))) (Φ := fun c => bigSep Finset.univ fun p : Fin 1 => Pipeline.cellsGhost cfgs (EP (F := F)) p c)
      fun d _ => bigSep_univ_of_subsingleton (0 : Fin 1),
    bigSep_congr (s := (Finset.univ : Finset (Dev nD))) (Φ := fun c => bigSep Finset.univ fun p : Fin 1 => (Pipeline.toksInit cfgs (EP (F := F)) p c : sProp 𝕄))
      fun d _ => bigSep_univ_of_subsingleton (0 : Fin 1)]
  exact .refl _

omit [FloatOps F] in
theorem ghost_deal' :
    (BI.own (((Emb.inl : Emb UP (UP × Counters)).trans (embR : Emb (UP × Counters) (MT nD τ sig (HIx 1) (Elt F) ℕ UU ℕ)))
        (initOf (Pipeline.cells (nD := nD) (τ := τ) cfgs cellOf_inj) (Pipeline.launchToks (nD := nD) (τ := τ) cfgs cellOf_inj))) : sProp 𝕄)
      ⊢ iprop(|==> bigSep Finset.univ fun d : Dev nD => iprop(Pipeline.cellsGhost cfgs EP 0 d ∗ Pipeline.toksInit cfgs EP 0 d)) :=
  (Entails.of_eq (ownP_eq (F := F) _)).trans ghost_deal

theorem hu₀ (Gd : S4096x128.Idx → Elt F .f32 → Prop) (m : (ℓ : Loc nD τ sig) → Buf (Elt F) ℓ) :
    (ownU (u₀ (F := F)) : sProp 𝕄)
      ⊢ |={Set.univ}=> iprop(BI.own (EH (initOf (K (F := F)).hsCells (K (F := F)).hsToks))
          ∗ (bigSep Finset.univ fun d : Dev nD => iprop(Pipeline.cellsGhost cfgs EP 0 d ∗ Pipeline.toksInit cfgs EP 0 d))
          ∗ bigSep Finset.univ fun thr : Thread nD τ => bigSep Finset.univ fun q : Fin 1 => (P Gd m).x q thr) := by
  unfold u₀
  iintro Hu
  ihave H := (ownU_pair _ _) $$ Hu
  icases H with ⟨HH, HR⟩
  ihave HR' := (own_pair_emb embR _ _) $$ HR
  icases HR' with ⟨HP, -⟩
  imod (ghost_deal' (F := F)) $$ HP with Hg
  imodintro
  isplitl [HH]; · iexact HH
  isplitl [Hg]; · iexact Hg
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.Kernel.Hand

end
-- ==== Proof.KMain.lean ====
/-
  @main on the TensorCore, around the lookup call and the dense region.

  @main reshapes the index array, calls the lookup on the two SparseCores, converts and reshapes the dense layers'
  weights and biases, and runs the dense region. The thirteen arrays it names are held whole throughout, at a valuation
  each host operation updates at its result. For the call the reshaped index array and the table are lent as read shares
  to the two SparseCores and the result array by row sets; they come back whole, the result at contents every entry of
  which satisfies the stated predicate. The dense region is taken as a hypothesis about its own step.
-/
import proofs.«207455_g33174327394824_cont_8to1_b_592_21_alg».proof.Proof.KRows
import proofs.«207455_g33174327394824_cont_8to1_b_592_21_alg».proof.Proof.KLaunchParts4

noncomputable section

namespace Cert.Kernel.Hand

open Cert.Kernel Cert.Kernel.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ
open Idealize.ShloMosaic.StableHlo (held held_split held_sdiff_result held_sub_split held_congr wp_hlo_within)

/-! ## The arrays and the host operations -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)

/-- The TensorCore's thirteen arrays, all unscoped. -/
abbrev S13 : Finset (DevRef τ sig) := {a0', a1', a2', a3', a4', a5', v0', v1', v2', v3', v4', v5', v6'}
/-- The three the lookup call takes. -/
abbrev T3 : Finset (DevRef τ sig) := {v0', a1', v1'}

abbrev op0 : HloOp τ sig (Elt F) := StableHlo.reshape main_arg0 main_v0 rfl shapeCasts_S4096x50_S2048x100
abbrev op2 : HloOp τ sig (Elt F) :=
  StableHlo.unary main_arg2 main_v2 ((truncf .bf16 · bitsLt_bf16_f32) : (⟨S128x512, .f32⟩ : BufTy).Contents (Elt F) → (⟨S128x512, .bf16⟩ : BufTy).Contents (Elt F))
abbrev op3 : HloOp τ sig (Elt F) := StableHlo.reshape main_arg3 main_v3 rfl shapeCasts_S512_S1x512
abbrev op4 : HloOp τ sig (Elt F) :=
  StableHlo.unary main_arg4 main_v4 ((truncf .bf16 · bitsLt_bf16_f32) : (⟨S512x1000, .f32⟩ : BufTy).Contents (Elt F) → (⟨S512x1000, .bf16⟩ : BufTy).Contents (Elt F))
abbrev op5 : HloOp τ sig (Elt F) := StableHlo.reshape main_arg5 main_v5 rfl shapeCasts_S1000_S1x1000

theorem h0 : (op0 (F := F)).bufs ⊆ S13 := show ({a0', v0'} : Finset (DevRef τ sig)) ⊆ S13 by decide
theorem h2 : (op2 (F := F)).bufs ⊆ S13 := show ({a2', v2'} : Finset (DevRef τ sig)) ⊆ S13 by decide
theorem h3 : (op3 (F := F)).bufs ⊆ S13 := show ({a3', v3'} : Finset (DevRef τ sig)) ⊆ S13 by decide
theorem h4 : (op4 (F := F)).bufs ⊆ S13 := show ({a4', v4'} : Finset (DevRef τ sig)) ⊆ S13 by decide
theorem h5 : (op5 (F := F)).bufs ⊆ S13 := show ({a5', v5'} : Finset (DevRef τ sig)) ⊆ S13 by decide

/-- What the four host operations after the call write: the weights converted, the biases reshaped. -/
abbrev w2 (m : (ℓ : Loc nD τ sig) → Buf (Elt F) ℓ) (d : Dev nD) : Buf (Elt F) ((SparseCore.T d : Thread nD τ).loc main_v2) :=
  truncf .bf16 (m ((SparseCore.T d : Thread nD τ).loc main_arg2) : FVec F S128x512 .f32) bitsLt_bf16_f32
abbrev w3 (m : (ℓ : Loc nD τ sig) → Buf (Elt F) ℓ) (d : Dev nD) : Buf (Elt F) ((SparseCore.T d : Thread nD τ).loc main_v3) :=
  shapeCast S1x512 (m ((SparseCore.T d : Thread nD τ).loc main_arg3) : FVec F S512 .f32) shapeCasts_S512_S1x512
abbrev w4 (m : (ℓ : Loc nD τ sig) → Buf (Elt F) ℓ) (d : Dev nD) : Buf (Elt F) ((SparseCore.T d : Thread nD τ).loc main_v4) :=
  truncf .bf16 (m ((SparseCore.T d : Thread nD τ).loc main_arg4) : FVec F S512x1000 .f32) bitsLt_bf16_f32
abbrev w5 (m : (ℓ : Loc nD τ sig) → Buf (Elt F) ℓ) (d : Dev nD) : Buf (Elt F) ((SparseCore.T d : Thread nD τ).loc main_v5) :=
  shapeCast S1x1000 (m ((SparseCore.T d : Thread nD τ).loc main_arg5) : FVec F S1000 .f32) shapeCasts_S1000_S1x1000

/-! ## The valuations -/

section Vals

variable (m : (ℓ : Loc nD τ sig) → Buf (Elt F) ℓ)

/-- At launch; after the reshape; after the call, the result at what the lookup left; after the four host operations. -/
abbrev V0 (d : Dev nD) : Valuation τ sig (Elt F) := fun b => m (d, b)
abbrev V1 (d : Dev nD) : Valuation τ sig (Elt F) := (op0 (F := F)).result (V0 m d)
abbrev V2 (d : Dev nD) (f : Buf (Elt F) (outLoc d)) : Valuation τ sig (Elt F) := Function.update (V1 m d) v1' f
abbrev V6 (d : Dev nD) (f : Buf (Elt F) (outLoc d)) : Valuation τ sig (Elt F) :=
  (op5 (F := F)).result ((op4 (F := F)).result ((op3 (F := F)).result ((op2 (F := F)).result (V2 m d f))))

theorem V1_v0 (d : Dev nD) : V1 m d v0' = idsC m d := by
  unfold V1
  rw [StableHlo.reshape_result]
  rfl
theorem V1_ne (d : Dev nD) {r : Ref sig .tc} (h : r ≠ main_v0) : V1 m d (Proc.devRef .tc r) = m ((SparseCore.T d : Thread nD τ).loc r) := by
  unfold V1
  rw [StableHlo.reshape_result_ne _ _ _ _ _ _ _ h]
theorem V2_v1 (d : Dev nD) (f : Buf (Elt F) (outLoc d)) : V2 m d f v1' = f := Function.update_self _ _ _
theorem V2_v0 (d : Dev nD) (f : Buf (Elt F) (outLoc d)) : V2 m d f v0' = idsC m d := by
  unfold V2
  rw [Function.update_of_ne (show v0' ≠ v1' by decide), V1_v0]
theorem V2_ne (d : Dev nD) (f : Buf (Elt F) (outLoc d)) {r : Ref sig .tc} (h : r ≠ main_v1) (h' : r ≠ main_v0) :
    V2 m d f (Proc.devRef .tc r) = m ((SparseCore.T d : Thread nD τ).loc r) := by
  unfold V2
  rw [Function.update_of_ne (StableHlo.devRef_ne_of_ne h), V1_ne m d h']

/-! ## The call's operands between the two SparseCores -/

omit [FloatOps F] in
theorem out_cores' (d : Dev nD) (f : Buf (Elt F) (outLoc d)) :
    (outLoc d ↦{fullShare} f : sProp 𝕄) = bigSep Finset.univ fun c : Fin 2 => outLoc d ↦[coreRows c]{fullShare} f := by
  rw [bigSep_univ_two]; exact out_cores d f

theorem out_cores_join' (Gd : S4096x128.Idx → Elt F .f32 → Prop) (d : Dev nD) :
    (bigSep Finset.univ fun c : Fin 2 =>
        iprop(∃ f : Buf (Elt F) (outLoc d), ⌜∀ j ∈ coreRows c, Gd j (f j)⌝ ∗ (outLoc d ↦[coreRows c]{fullShare} f)))
      ⊢ (iprop(∃ f : Buf (Elt F) (outLoc d), ⌜∀ j, Gd j (f j)⌝ ∗ (outLoc d ↦{fullShare} f)) : sProp 𝕄) := by
  rw [bigSep_univ_two]; exact out_cores_join Gd d

/-- The three arrays of the call, whole, to the two SparseCores' shares and row sets, and back: the remainder of each
    read share waits inside, and the result comes back whole at contents all of whose entries satisfy `Gd`. -/
theorem cores_split (Gd : S4096x128.Idx → Elt F .f32 → Prop) (d : Dev nD) (I : Buf (Elt F) (idsLoc d)) (Tb : Buf (Elt F) (tblLoc d))
    (O0 : Buf (Elt F) (outLoc d)) :
    (iprop((idsLoc d ↦{fullShare} I) ∗ (tblLoc d ↦{fullShare} Tb) ∗ (outLoc d ↦{fullShare} O0)) : sProp 𝕄)
      ⊢ iprop((bigSep Finset.univ fun c : Fin 2 => stRes d I Tb O0 c)
          ∗ ((bigSep Finset.univ fun c : Fin 2 => dnRes Gd d I Tb c)
            -∗ iprop((idsLoc d ↦{fullShare} I) ∗ (tblLoc d ↦{fullShare} Tb)
                ∗ ∃ f : Buf (Elt F) (outLoc d), ⌜∀ j, Gd j (f j)⌝ ∗ (outLoc d ↦{fullShare} f)))) := by
  unfold stRes dnRes qC
  rw [bigSep_sep', bigSep_sep', bigSep_sep', bigSep_sep']
  iintro ⟨Hi, Ht, Ho⟩
  ihave Hi' := (Transfers.pointsTo_toks_split fullShare 2) $$ Hi
  icases Hi' with ⟨Hir, Hit⟩
  ihave Ht' := (Transfers.pointsTo_toks_split fullShare 2) $$ Ht
  icases Ht' with ⟨Htr, Htt⟩
  ihave Ho' := (Entails.of_eq (out_cores' (F := F) d O0)) $$ Ho
  isplitl [Hit Htt Ho']
  · isplitl [Hit]; · iexact Hit
    isplitl [Htt]; · iexact Htt
    iexact Ho'
  iintro ⟨Hit, Htt, Ho⟩
  isplitl [Hir Hit]
  · iapply (Transfers.pointsTo_toks_join fullShare 2)
    isplitl [Hir]; · iexact Hir
    iexact Hit
  isplitl [Htr Htt]
  · iapply (Transfers.pointsTo_toks_join fullShare 2)
    isplitl [Htr]; · iexact Htr
    iexact Htt
  iapply (out_cores_join' Gd d); iexact Ho

/-- The call's SparseCores are the two. -/
theorem st0_eq (Gd : S4096x128.Idx → Elt F .f32 → Prop) (d : Dev nD) :
    (bigSep Finset.univ fun c : Fin ((K (F := F)).nCore 0) => (P Gd m).st 0 d c)
      = bigSep Finset.univ fun c : Fin 2 => stRes d (idsC m d) (m (tblLoc d)) (m (outLoc d)) c :=
  bigSep_congr fun _ _ => rfl
theorem dn0_eq (Gd : S4096x128.Idx → Elt F .f32 → Prop) (d : Dev nD) :
    (bigSep Finset.univ fun c : Fin ((K (F := F)).nCore 0) => (P Gd m).dn 0 d c)
      = bigSep Finset.univ fun c : Fin 2 => dnRes Gd d (idsC m d) (m (tblLoc d)) c :=
  bigSep_congr fun _ _ => rfl

/-! ## The thirteen arrays held, and parts of them taken out -/

abbrev R6 : Finset (DevRef τ sig) := {v1', v2', v3', v4', v5', v6'}
abbrev A6 : Finset (DevRef τ sig) := {a0', a1', a2', a3', a4', a5'}

omit [FloatOps F] in
theorem held_T3 (d : Dev nD) (W : Valuation τ sig (Elt F)) :
    (held (SparseCore.T d) T3 W : sProp 𝕄)
      = iprop((idsLoc d ↦{fullShare} W v0') ∗ (tblLoc d ↦{fullShare} W a1') ∗ (outLoc d ↦{fullShare} W v1')) := by
  unfold held T3
  rw [SparseCore.bigSep_insert' (by decide), SparseCore.bigSep_insert' (by decide), bigSep_singleton]

omit [FloatOps F] in
theorem held_R6 (d : Dev nD) (W : Valuation τ sig (Elt F)) :
    (held (SparseCore.T d) R6 W : sProp 𝕄)
      = iprop(((SparseCore.T d : Thread nD τ).loc main_v1 ↦{fullShare} W v1') ∗ ((SparseCore.T d : Thread nD τ).loc main_v2 ↦{fullShare} W v2') ∗ ((SparseCore.T d : Thread nD τ).loc main_v3 ↦{fullShare} W v3')
          ∗ ((SparseCore.T d : Thread nD τ).loc main_v4 ↦{fullShare} W v4') ∗ ((SparseCore.T d : Thread nD τ).loc main_v5 ↦{fullShare} W v5') ∗ ((SparseCore.T d : Thread nD τ).loc main_v6 ↦{fullShare} W v6')) := by
  unfold held R6
  rw [SparseCore.bigSep_insert' (by decide), SparseCore.bigSep_insert' (by decide), SparseCore.bigSep_insert' (by decide), SparseCore.bigSep_insert' (by decide), SparseCore.bigSep_insert' (by decide), bigSep_singleton]

omit [FloatOps F] in
theorem held_A6 (d : Dev nD) (W : Valuation τ sig (Elt F)) :
    (held (SparseCore.T d) A6 W : sProp 𝕄)
      = iprop(((SparseCore.T d : Thread nD τ).loc main_arg0 ↦{fullShare} W a0') ∗ ((SparseCore.T d : Thread nD τ).loc main_arg1 ↦{fullShare} W a1') ∗ ((SparseCore.T d : Thread nD τ).loc main_arg2 ↦{fullShare} W a2')
          ∗ ((SparseCore.T d : Thread nD τ).loc main_arg3 ↦{fullShare} W a3') ∗ ((SparseCore.T d : Thread nD τ).loc main_arg4 ↦{fullShare} W a4') ∗ ((SparseCore.T d : Thread nD τ).loc main_arg5 ↦{fullShare} W a5')) := by
  unfold held A6
  rw [SparseCore.bigSep_insert' (by decide), SparseCore.bigSep_insert' (by decide), SparseCore.bigSep_insert' (by decide), SparseCore.bigSep_insert' (by decide), SparseCore.bigSep_insert' (by decide), bigSep_singleton]

omit [FloatOps F] in
/-- What the launch hands the TensorCore of its arrays is the thirteen held at the launch valuation. -/
theorem unscoped_held (d : Dev nD) :
    (unscopedBufs d (fun b => m ((SparseCore.T d : Thread nD τ).loc b)) : sProp 𝕄) = held (SparseCore.T d) S13 (V0 m d) := by
  unfold unscopedBufs held S13
  rw [show (Finset.univ.filter fun b : Ref sig .tc => ¬ b.isScoped) = {main_arg0, main_arg1, main_arg2, main_arg3, main_arg4, main_arg5, main_v0, main_v1, main_v2, main_v3, main_v4, main_v5, main_v6} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- Before the call: the call's three arrays out of the thirteen. -/
theorem held_before_call (d : Dev nD) :
    (held (SparseCore.T d) S13 (V1 m d) : sProp 𝕄)
      = iprop(((idsLoc d ↦{fullShare} idsC m d) ∗ (tblLoc d ↦{fullShare} m (tblLoc d)) ∗ (outLoc d ↦{fullShare} m (outLoc d)))
          ∗ held (SparseCore.T d) (S13 \ T3) (V1 m d)) := by
  rw [held_sub_split (SparseCore.T d) (show T3 ⊆ S13 by decide) (V1 m d), held_T3, V1_v0,
    V1_ne m d (r := main_arg1) (by decide), V1_ne m d (r := main_v1) (by decide)]

theorem held_rest_V2 (d : Dev nD) (f : Buf (Elt F) (outLoc d)) :
    (held (SparseCore.T d) (S13 \ T3) (V2 m d f) : sProp 𝕄) = held (SparseCore.T d) (S13 \ T3) (V1 m d) :=
  held_congr (SparseCore.T d) fun b hb => by
    unfold V2
    refine Function.update_of_ne (fun e => (Finset.mem_sdiff.mp hb).2 ?_) _ _
    rw [e]; decide

/-- After the call: the three back among the thirteen, the result at what the lookup left. -/
theorem held_after_call (d : Dev nD) (f : Buf (Elt F) (outLoc d)) :
    (held (SparseCore.T d) S13 (V2 m d f) : sProp 𝕄)
      = iprop(((idsLoc d ↦{fullShare} idsC m d) ∗ (tblLoc d ↦{fullShare} m (tblLoc d)) ∗ (outLoc d ↦{fullShare} f))
          ∗ held (SparseCore.T d) (S13 \ T3) (V1 m d)) := by
  rw [held_sub_split (SparseCore.T d) (show T3 ⊆ S13 by decide) (V2 m d f), held_T3, V2_v0, V2_v1,
    V2_ne m d f (r := main_arg1) (by decide) (by decide), held_rest_V2]

/-! ## What the arrays hold after the four host operations -/

theorem V6_eq (d : Dev nD) (f : Buf (Elt F) (outLoc d)) :
    V6 m d f = StableHlo.after [op2 (F := F), op3, op4, op5] (V2 m d f) := rfl

theorem V6_v1 (d : Dev nD) (f : Buf (Elt F) (outLoc d)) : V6 m d f v1' = f := by
  rw [V6_eq]; after_results; exact V2_v1 m d f
theorem V6_v2 (d : Dev nD) (f : Buf (Elt F) (outLoc d)) : V6 m d f v2' = w2 m d := by
  rw [V6_eq]; after_results; rw [V2_ne m d f (r := main_arg2) (by decide) (by decide)]
theorem V6_v3 (d : Dev nD) (f : Buf (Elt F) (outLoc d)) : V6 m d f v3' = w3 m d := by
  rw [V6_eq]; after_results; rw [V2_ne m d f (r := main_arg3) (by decide) (by decide)]; rfl
theorem V6_v4 (d : Dev nD) (f : Buf (Elt F) (outLoc d)) : V6 m d f v4' = w4 m d := by
  rw [V6_eq]; after_results; rw [V2_ne m d f (r := main_arg4) (by decide) (by decide)]
theorem V6_v5 (d : Dev nD) (f : Buf (Elt F) (outLoc d)) : V6 m d f v5' = w5 m d := by
  rw [V6_eq]; after_results; rw [V2_ne m d f (r := main_arg5) (by decide) (by decide)]; rfl
theorem V6_v6 (d : Dev nD) (f : Buf (Elt F) (outLoc d)) : V6 m d f v6' = m ((SparseCore.T d : Thread nD τ).loc main_v6) := by
  rw [V6_eq]; after_results; exact V2_ne m d f (r := main_v6) (by decide) (by decide)
theorem V6_a0 (d : Dev nD) (f : Buf (Elt F) (outLoc d)) : V6 m d f a0' = m ((SparseCore.T d : Thread nD τ).loc main_arg0) := by
  rw [V6_eq]; after_results; exact V2_ne m d f (r := main_arg0) (by decide) (by decide)
theorem V6_a1 (d : Dev nD) (f : Buf (Elt F) (outLoc d)) : V6 m d f a1' = m ((SparseCore.T d : Thread nD τ).loc main_arg1) := by
  rw [V6_eq]; after_results; exact V2_ne m d f (r := main_arg1) (by decide) (by decide)
theorem V6_a2 (d : Dev nD) (f : Buf (Elt F) (outLoc d)) : V6 m d f a2' = m ((SparseCore.T d : Thread nD τ).loc main_arg2) := by
  rw [V6_eq]; after_results; exact V2_ne m d f (r := main_arg2) (by decide) (by decide)
theorem V6_a3 (d : Dev nD) (f : Buf (Elt F) (outLoc d)) : V6 m d f a3' = m ((SparseCore.T d : Thread nD τ).loc main_arg3) := by
  rw [V6_eq]; after_results; exact V2_ne m d f (r := main_arg3) (by decide) (by decide)
theorem V6_a4 (d : Dev nD) (f : Buf (Elt F) (outLoc d)) : V6 m d f a4' = m ((SparseCore.T d : Thread nD τ).loc main_arg4) := by
  rw [V6_eq]; after_results; exact V2_ne m d f (r := main_arg4) (by decide) (by decide)
theorem V6_a5 (d : Dev nD) (f : Buf (Elt F) (outLoc d)) : V6 m d f a5' = m ((SparseCore.T d : Thread nD τ).loc main_arg5) := by
  rw [V6_eq]; after_results; exact V2_ne m d f (r := main_arg5) (by decide) (by decide)

/-- After the host operations: the dense region's six arrays and the six arguments out of the thirteen. -/
theorem held_final (d : Dev nD) (f : Buf (Elt F) (outLoc d)) :
    (held (SparseCore.T d) S13 (V6 m d f) : sProp 𝕄)
      = iprop((((SparseCore.T d : Thread nD τ).loc main_v1 ↦{fullShare} f) ∗ ((SparseCore.T d : Thread nD τ).loc main_v2 ↦{fullShare} w2 m d) ∗ ((SparseCore.T d : Thread nD τ).loc main_v3 ↦{fullShare} w3 m d) ∗ ((SparseCore.T d : Thread nD τ).loc main_v4 ↦{fullShare} w4 m d) ∗ ((SparseCore.T d : Thread nD τ).loc main_v5 ↦{fullShare} w5 m d) ∗ ((SparseCore.T d : Thread nD τ).loc main_v6 ↦{fullShare} m ((SparseCore.T d : Thread nD τ).loc main_v6)))
          ∗ (((SparseCore.T d : Thread nD τ).loc main_arg0 ↦{fullShare} m ((SparseCore.T d : Thread nD τ).loc main_arg0)) ∗ ((SparseCore.T d : Thread nD τ).loc main_arg1 ↦{fullShare} m ((SparseCore.T d : Thread nD τ).loc main_arg1)) ∗ ((SparseCore.T d : Thread nD τ).loc main_arg2 ↦{fullShare} m ((SparseCore.T d : Thread nD τ).loc main_arg2)) ∗ ((SparseCore.T d : Thread nD τ).loc main_arg3 ↦{fullShare} m ((SparseCore.T d : Thread nD τ).loc main_arg3)) ∗ ((SparseCore.T d : Thread nD τ).loc main_arg4 ↦{fullShare} m ((SparseCore.T d : Thread nD τ).loc main_arg4)) ∗ ((SparseCore.T d : Thread nD τ).loc main_arg5 ↦{fullShare} m ((SparseCore.T d : Thread nD τ).loc main_arg5)))
          ∗ held (SparseCore.T d) ((S13 \ R6) \ A6) (V6 m d f)) := by
  rw [held_sub_split (SparseCore.T d) (show R6 ⊆ S13 by decide) (V6 m d f),
    held_sub_split (SparseCore.T d) (show A6 ⊆ S13 \ R6 by decide) (V6 m d f), held_R6, held_A6,
    V6_v1, V6_v2, V6_v3, V6_v4, V6_v5, V6_v6, V6_a0, V6_a1, V6_a2, V6_a3, V6_a4, V6_a5]

end Vals

/-! ## @main -/

/-- What @main leaves the claim: the six arguments at their launch contents, and the result at the dense region's value
    of the lookup's result — some contents all of whose entries satisfy `Gd` — and the converted weights and biases. -/
def FIN (Gd : S4096x128.Idx → Elt F .f32 → Prop) (m : (ℓ : Loc nD τ sig) → Buf (Elt F) ℓ)
    (mlp : ∀ d : Dev nD, Buf (Elt F) ((SparseCore.T d : Thread nD τ).loc main_v1) → Buf (Elt F) ((SparseCore.T d : Thread nD τ).loc main_v2) → Buf (Elt F) ((SparseCore.T d : Thread nD τ).loc main_v3) → Buf (Elt F) ((SparseCore.T d : Thread nD τ).loc main_v4) → Buf (Elt F) ((SparseCore.T d : Thread nD τ).loc main_v5) → Buf (Elt F) ((SparseCore.T d : Thread nD τ).loc main_v6))
    (d : Dev nD) : sProp 𝕄 :=
  iprop(((SparseCore.T d : Thread nD τ).loc main_arg0 ↦{fullShare} m ((SparseCore.T d : Thread nD τ).loc main_arg0))
    ∗ ((SparseCore.T d : Thread nD τ).loc main_arg1 ↦{fullShare} m ((SparseCore.T d : Thread nD τ).loc main_arg1))
    ∗ ((SparseCore.T d : Thread nD τ).loc main_arg2 ↦{fullShare} m ((SparseCore.T d : Thread nD τ).loc main_arg2))
    ∗ ((SparseCore.T d : Thread nD τ).loc main_arg3 ↦{fullShare} m ((SparseCore.T d : Thread nD τ).loc main_arg3))
    ∗ ((SparseCore.T d : Thread nD τ).loc main_arg4 ↦{fullShare} m ((SparseCore.T d : Thread nD τ).loc main_arg4))
    ∗ ((SparseCore.T d : Thread nD τ).loc main_arg5 ↦{fullShare} m ((SparseCore.T d : Thread nD τ).loc main_arg5))
    ∗ ∃ f : Buf (Elt F) (outLoc d), ⌜∀ j, Gd j (f j)⌝
        ∗ ((SparseCore.T d : Thread nD τ).loc main_v6 ↦{fullShare} mlp d f (w2 m d) (w3 m d) (w4 m d) (w5 m d)))

omit [FloatOps F] in
/-- The TensorCore's state after the one call: it owes nothing more. -/
theorem tcSt_one (d : Dev nD) : ∃ R : sProp 𝕄, (K (F := F)).tcSt EH d ((0 : Fin 1).val + 1)
    = iprop((∃ W, ⌜(K (F := F)).WBelow (SparseCore.T d) W (8 * ((0 : Fin 1).val + 1))⌝ ∗ owes (SparseCore.T d) 0 W) ∗ R) :=
  ⟨_, by unfold SparseCore.Cfg.tcSt; rw [(K (F := F)).Otc_end d (n := (0 : Fin 1).val + 1) le_rfl]⟩

/-- The dense region's step, as @main needs it: from the six arrays the region names, whole, the TensorCore owing nothing,
    the staging cells and tokens of the launch — to the result array at `mlp` of the other five, the five unchanged, the
    waits it records all at the index of no call. -/
abbrev RegionHyp (mlp : ∀ d : Dev nD, Buf (Elt F) ((SparseCore.T d : Thread nD τ).loc main_v1) → Buf (Elt F) ((SparseCore.T d : Thread nD τ).loc main_v2) → Buf (Elt F) ((SparseCore.T d : Thread nD τ).loc main_v3) → Buf (Elt F) ((SparseCore.T d : Thread nD τ).loc main_v4) → Buf (Elt F) ((SparseCore.T d : Thread nD τ).loc main_v5) → Buf (Elt F) ((SparseCore.T d : Thread nD τ).loc main_v6)) : Prop :=
  ∀ (d : Dev nD) (x1 : Buf (Elt F) ((SparseCore.T d : Thread nD τ).loc main_v1)) (x2 : Buf (Elt F) ((SparseCore.T d : Thread nD τ).loc main_v2)) (x3 : Buf (Elt F) ((SparseCore.T d : Thread nD τ).loc main_v3)) (x4 : Buf (Elt F) ((SparseCore.T d : Thread nD τ).loc main_v4)) (x5 : Buf (Elt F) ((SparseCore.T d : Thread nD τ).loc main_v5)) (x6 : Buf (Elt F) ((SparseCore.T d : Thread nD τ).loc main_v6))
    (W0 : Waits sig (HIx 1)) (Q : PUnit → sProp 𝕄),
    (iprop(((boundary (SparseCore.T d) ∗ ((SparseCore.T d : Thread nD τ).loc main_v1 ↦{fullShare} x1) ∗ ((SparseCore.T d : Thread nD τ).loc main_v2 ↦{fullShare} x2) ∗ ((SparseCore.T d : Thread nD τ).loc main_v3 ↦{fullShare} x3) ∗ ((SparseCore.T d : Thread nD τ).loc main_v4 ↦{fullShare} x4) ∗ ((SparseCore.T d : Thread nD τ).loc main_v5 ↦{fullShare} x5) ∗ ((SparseCore.T d : Thread nD τ).loc main_v6 ↦{fullShare} mlp d x1 x2 x3 x4 x5)
              ∗ ∃ W, ⌜∀ p ∈ W, p ∈ W0 ∨ p.2 = none⌝ ∗ owes (SparseCore.T d) 0 W) -∗ Q ⟨⟩)
          ∗ boundary (SparseCore.T d) ∗ ((SparseCore.T d : Thread nD τ).loc main_v1 ↦{fullShare} x1) ∗ ((SparseCore.T d : Thread nD τ).loc main_v2 ↦{fullShare} x2) ∗ ((SparseCore.T d : Thread nD τ).loc main_v3 ↦{fullShare} x3) ∗ ((SparseCore.T d : Thread nD τ).loc main_v4 ↦{fullShare} x4) ∗ ((SparseCore.T d : Thread nD τ).loc main_v5 ↦{fullShare} x5) ∗ ((SparseCore.T d : Thread nD τ).loc main_v6 ↦{fullShare} x6)
          ∗ owes (SparseCore.T d) 0 W0
          ∗ levAts (K (F := F)).L (K (F := F)).lev ∗ Pipeline.cellsGhost cfgs EP 0 d ∗ Pipeline.toksInit cfgs EP 0 d) : sProp 𝕄)
      ⊢ wp frame (wpE (D (F := F)) 𝒱 (SparseCore.T d) none) Set.univ (.op (.customCall (Pipeline.entry 0) ()) fun _ => .ret ⟨⟩) Q

/-- The same step under the launch's extended body table, as @main's last statement spells it. -/
theorem region_step (mlp : ∀ d : Dev nD, Buf (Elt F) ((SparseCore.T d : Thread nD τ).loc main_v1) → Buf (Elt F) ((SparseCore.T d : Thread nD τ).loc main_v2) → Buf (Elt F) ((SparseCore.T d : Thread nD τ).loc main_v3) → Buf (Elt F) ((SparseCore.T d : Thread nD τ).loc main_v4) → Buf (Elt F) ((SparseCore.T d : Thread nD τ).loc main_v5) → Buf (Elt F) ((SparseCore.T d : Thread nD τ).loc main_v6)) (hregion : RegionHyp (F := F) mlp)
    (d : Dev nD) (x1 : Buf (Elt F) ((SparseCore.T d : Thread nD τ).loc main_v1)) (x2 : Buf (Elt F) ((SparseCore.T d : Thread nD τ).loc main_v2)) (x3 : Buf (Elt F) ((SparseCore.T d : Thread nD τ).loc main_v3)) (x4 : Buf (Elt F) ((SparseCore.T d : Thread nD τ).loc main_v4)) (x5 : Buf (Elt F) ((SparseCore.T d : Thread nD τ).loc main_v5)) (x6 : Buf (Elt F) ((SparseCore.T d : Thread nD τ).loc main_v6))
    (W0 : Waits sig (HIx 1)) (Q : PUnit → sProp 𝕄) :
    (iprop(((boundary (SparseCore.T d) ∗ ((SparseCore.T d : Thread nD τ).loc main_v1 ↦{fullShare} x1) ∗ ((SparseCore.T d : Thread nD τ).loc main_v2 ↦{fullShare} x2) ∗ ((SparseCore.T d : Thread nD τ).loc main_v3 ↦{fullShare} x3) ∗ ((SparseCore.T d : Thread nD τ).loc main_v4 ↦{fullShare} x4) ∗ ((SparseCore.T d : Thread nD τ).loc main_v5 ↦{fullShare} x5) ∗ ((SparseCore.T d : Thread nD τ).loc main_v6 ↦{fullShare} mlp d x1 x2 x3 x4 x5)
              ∗ ∃ W, ⌜∀ p ∈ W, p ∈ W0 ∨ p.2 = none⌝ ∗ owes (SparseCore.T d) 0 W) -∗ Q ⟨⟩)
          ∗ boundary (SparseCore.T d) ∗ ((SparseCore.T d : Thread nD τ).loc main_v1 ↦{fullShare} x1) ∗ ((SparseCore.T d : Thread nD τ).loc main_v2 ↦{fullShare} x2) ∗ ((SparseCore.T d : Thread nD τ).loc main_v3 ↦{fullShare} x3) ∗ ((SparseCore.T d : Thread nD τ).loc main_v4 ↦{fullShare} x4) ∗ ((SparseCore.T d : Thread nD τ).loc main_v5 ↦{fullShare} x5) ∗ ((SparseCore.T d : Thread nD τ).loc main_v6 ↦{fullShare} x6)
          ∗ owes (SparseCore.T d) 0 W0
          ∗ levAts (K (F := F)).L (K (F := F)).lev ∗ Pipeline.cellsGhost cfgs EP 0 d ∗ Pipeline.toksInit cfgs EP 0 d) : sProp 𝕄)
      ⊢ wp frame (wpE ((K (F := F)).defs (D (F := F))) 𝒱 (SparseCore.T d) none) Set.univ
          (Prog.lift (TpuEff.customCall (SparseCore.inner (Pipeline.entry 0)) ())) Q :=
  (hregion d x1 x2 x3 x4 x5 x6 W0 Q).trans ((K (F := F)).wp_liftProg (D (F := F)) 𝒱 (SparseCore.T d) Set.univ none _ Q)

theorem hmain_of (Gd : S4096x128.Idx → Elt F .f32 → Prop) (m : (ℓ : Loc nD τ sig) → Buf (Elt F) ℓ) (ρ : Dev nD → PrngReg)
    (mlp : ∀ d : Dev nD, Buf (Elt F) ((SparseCore.T d : Thread nD τ).loc main_v1) → Buf (Elt F) ((SparseCore.T d : Thread nD τ).loc main_v2) → Buf (Elt F) ((SparseCore.T d : Thread nD τ).loc main_v3) → Buf (Elt F) ((SparseCore.T d : Thread nD τ).loc main_v4) → Buf (Elt F) ((SparseCore.T d : Thread nD τ).loc main_v5) → Buf (Elt F) ((SparseCore.T d : Thread nD τ).loc main_v6))
    (hregion : RegionHyp (F := F) mlp)
    (κ : GSem nD τ sig → ℕ) (d : Dev nD) :
    iprop((K (F := F)).ctx EH (P Gd m) κ ∗ (K (F := F)).tcSt EH d 0 ∗ (K (F := F)).tcRes m ρ d
        ∗ iprop(Pipeline.cellsGhost cfgs EP 0 d ∗ Pipeline.toksInit cfgs EP 0 d))
      ⊢ wp frame (wpE ((K (F := F)).defs (D (F := F))) 𝒱 (SparseCore.T d) none) Set.univ (main d)
          fun _ => iprop((K (F := F)).tcSt EH d 1 ∗ FIN Gd m mlp d) := by
  obtain ⟨R1, hR1⟩ := tcSt_one (F := F) d
  unfold SparseCore.Cfg.tcRes
  rw [unscoped_held]
  simp only [main, wp_bind, wp_pure]
  iintro ⟨#Hctx, Hst, ⟨Hb, Hheld, -, -⟩, ⟨Hcg, Hti⟩⟩
  iapply (wp_hlo_within 𝒱 (SparseCore.T d) none Set.univ (op := op0) (S := S13) h0 (V := V0 m d)) $$ [Hb Hheld]
  · isplitl [Hb]; · iexact Hb
    iexact Hheld
  iintro ⟨Hb, Hheld⟩
  rw [wp_ret]; imodintro
  -- the call: the reshaped index array, the table and the result array lent to the two SparseCores and taken back
  ihave Hh := (Entails.of_eq (held_before_call (F := F) m d)) $$ Hheld
  icases Hh with ⟨⟨Hi, Ht, Ho⟩, Hrest⟩
  ihave Hsp := (cores_split Gd d (idsC m d) (m (tblLoc d)) (m (outLoc d))) $$ [Hi Ht Ho]
  · isplitl [Hi]; · iexact Hi
    isplitl [Ht]; · iexact Ht
    iexact Ho
  icases Hsp with ⟨Hst2, Hback⟩
  iapply ((K (F := F)).wp_run (D (F := F)) 𝒱 (EH := EH) (P := P Gd m) κ d 0) $$ [Hst Hst2 Hback Hb Hrest Hcg Hti]
  isplitr; · iexact Hctx
  isplitl [Hst]; · iexact Hst
  isplitl [Hst2]
  · rw [st0_eq]; iexact Hst2
  iintro ⟨Hst, Hdn⟩
  ihave Hdn' := (Entails.of_eq (dn0_eq (F := F) m Gd d)) $$ Hdn
  ispecialize Hback $$ Hdn'
  icases Hback with ⟨Hi, Ht, %f, %hG, Ho⟩
  ihave Hheld := (Entails.of_eq (held_after_call (F := F) m d f).symm) $$ [Hi Ht Ho Hrest]
  · isplitl [Hi Ht Ho]
    · isplitl [Hi]; · iexact Hi
      isplitl [Ht]; · iexact Ht
      iexact Ho
    iexact Hrest
  -- the four host operations: the weights converted, the biases reshaped
  iapply (wp_hlo_within 𝒱 (SparseCore.T d) none Set.univ (op := op2) (S := S13) h2 (V := V2 m d f)) $$ [Hb Hheld]
  · isplitl [Hb]; · iexact Hb
    iexact Hheld
  iintro ⟨Hb, Hheld⟩
  rw [wp_ret]; imodintro
  iapply (wp_hlo_within 𝒱 (SparseCore.T d) none Set.univ (op := op3) (S := S13) h3 (V := (op2 (F := F)).result (V2 m d f))) $$ [Hb Hheld]
  · isplitl [Hb]; · iexact Hb
    iexact Hheld
  iintro ⟨Hb, Hheld⟩
  rw [wp_ret]; imodintro
  iapply (wp_hlo_within 𝒱 (SparseCore.T d) none Set.univ (op := op4) (S := S13) h4 (V := (op3 (F := F)).result ((op2 (F := F)).result (V2 m d f)))) $$ [Hb Hheld]
  · isplitl [Hb]; · iexact Hb
    iexact Hheld
  iintro ⟨Hb, Hheld⟩
  rw [wp_ret]; imodintro
  iapply (wp_hlo_within 𝒱 (SparseCore.T d) none Set.univ (op := op5) (S := S13) h5 (V := (op4 (F := F)).result ((op3 (F := F)).result ((op2 (F := F)).result (V2 m d f))))) $$ [Hb Hheld]
  · isplitl [Hb]; · iexact Hb
    iexact Hheld
  iintro ⟨Hb, Hheld⟩
  rw [wp_ret]; imodintro
  -- the dense region, on the six arrays it names; the TensorCore owes nothing more
  ihave Hh := (Entails.of_eq (held_final (F := F) m d f)) $$ Hheld
  icases Hh with ⟨⟨H1, H2, H3, H4, H5, H6⟩, ⟨Ha0, Ha1, Ha2, Ha3, Ha4, Ha5⟩, -⟩
  ihave Hst' := (Entails.of_eq hR1) $$ Hst
  icases Hst' with ⟨⟨%W0, %hW0, HO⟩, HR⟩
  ihave Hlev := ((K (F := F)).ctx_levAts κ) $$ Hctx
  have hR1' : (K (F := F)).tcSt EH d 1
      = iprop((∃ W, ⌜(K (F := F)).WBelow (SparseCore.T d) W (8 * 1)⌝ ∗ owes (SparseCore.T d) 0 W) ∗ R1) := hR1
  iapply (region_step mlp hregion d f (w2 m d) (w3 m d) (w4 m d) (w5 m d) (m ((SparseCore.T d : Thread nD τ).loc main_v6)) W0 _) $$ [Hcg Hti Hb H1 H2 H3 H4 H5 H6 Ha0 Ha1 Ha2 Ha3 Ha4 Ha5 HO HR]
  isplitl [Ha0 Ha1 Ha2 Ha3 Ha4 Ha5 HR]
  · iintro ⟨Hb, H1, H2, H3, H4, H5, H6, %W, %hW, HO⟩
    imodintro
    isplitl [HO HR]
    · iapply (Entails.of_eq hR1'.symm)
      isplitl [HO]
      · iexists W; isplitr
        · ipureintro
          intro p hp
          rcases hW p hp with h | h
          · exact hW0 p h
          · show (K (F := F)).lev _ p.2 ≤ _
            rw [h]; exact Nat.zero_le _
        · iexact HO
      · iexact HR
    · unfold FIN
      isplitl [Ha0]; · iexact Ha0
      isplitl [Ha1]; · iexact Ha1
      isplitl [Ha2]; · iexact Ha2
      isplitl [Ha3]; · iexact Ha3
      isplitl [Ha4]; · iexact Ha4
      isplitl [Ha5]; · iexact Ha5
      iexists f; isplitr
      · ipureintro; exact hG
      · iexact H6
  isplitl [Hb]; · iexact Hb
  isplitl [H1]; · iexact H1
  isplitl [H2]; · iexact H2
  isplitl [H3]; · iexact H3
  isplitl [H4]; · iexact H4
  isplitl [H5]; · iexact H5
  isplitl [H6]; · iexact H6
  isplitl [HO]; · iexact HO
  isplitr; · iexact Hlev
  isplitl [Hcg]; · iexact Hcg
  iexact Hti

/-- What the claim reads off the final state: the six arguments unchanged, the result the dense region's value. -/
def fq (Gd : S4096x128.Idx → Elt F .f32 → Prop) (m : (ℓ : Loc nD τ sig) → Buf (Elt F) ℓ)
    (mlp : ∀ d : Dev nD, Buf (Elt F) ((SparseCore.T d : Thread nD τ).loc main_v1) → Buf (Elt F) ((SparseCore.T d : Thread nD τ).loc main_v2) → Buf (Elt F) ((SparseCore.T d : Thread nD τ).loc main_v3) → Buf (Elt F) ((SparseCore.T d : Thread nD τ).loc main_v4) → Buf (Elt F) ((SparseCore.T d : Thread nD τ).loc main_v5) → Buf (Elt F) ((SparseCore.T d : Thread nD τ).loc main_v6))
    (d : Dev nD) (s' : Phys nD τ sig (Elt F)) : Prop :=
  s'.mem.mem ((SparseCore.T d : Thread nD τ).loc main_arg0) = m ((SparseCore.T d : Thread nD τ).loc main_arg0)
  ∧ s'.mem.mem ((SparseCore.T d : Thread nD τ).loc main_arg1) = m ((SparseCore.T d : Thread nD τ).loc main_arg1)
  ∧ s'.mem.mem ((SparseCore.T d : Thread nD τ).loc main_arg2) = m ((SparseCore.T d : Thread nD τ).loc main_arg2)
  ∧ s'.mem.mem ((SparseCore.T d : Thread nD τ).loc main_arg3) = m ((SparseCore.T d : Thread nD τ).loc main_arg3)
  ∧ s'.mem.mem ((SparseCore.T d : Thread nD τ).loc main_arg4) = m ((SparseCore.T d : Thread nD τ).loc main_arg4)
  ∧ s'.mem.mem ((SparseCore.T d : Thread nD τ).loc main_arg5) = m ((SparseCore.T d : Thread nD τ).loc main_arg5)
  ∧ ∃ f : Buf (Elt F) (outLoc d), (∀ j, Gd j (f j))
      ∧ s'.mem.mem ((SparseCore.T d : Thread nD τ).loc main_v6) = mlp d f (w2 m d) (w3 m d) (w4 m d) (w5 m d)

theorem hfin_of (Gd : S4096x128.Idx → Elt F .f32 → Prop) (m : (ℓ : Loc nD τ sig) → Buf (Elt F) ℓ)
    (mlp : ∀ d : Dev nD, Buf (Elt F) ((SparseCore.T d : Thread nD τ).loc main_v1) → Buf (Elt F) ((SparseCore.T d : Thread nD τ).loc main_v2) → Buf (Elt F) ((SparseCore.T d : Thread nD τ).loc main_v3) → Buf (Elt F) ((SparseCore.T d : Thread nD τ).loc main_v4) → Buf (Elt F) ((SparseCore.T d : Thread nD τ).loc main_v5) → Buf (Elt F) ((SparseCore.T d : Thread nD τ).loc main_v6))
    (d : Dev nD) (s' : Phys nD τ sig (Elt F)) :
    iprop(FIN Gd m mlp d ∗ SI s') ⊢ (⌜fq Gd m mlp d s'⌝ : sProp 𝕄) := by
  unfold FIN
  iintro ⟨⟨Ha0, Ha1, Ha2, Ha3, Ha4, Ha5, %f, %hG, H6⟩, HSI⟩
  ihave H := (persistent_entails_right (SI_pointsTo_agree (st := s') (ℓ := (SparseCore.T d : Thread nD τ).loc main_arg0) (I := Finset.univ) (q := fullShare)
    (f := m ((SparseCore.T d : Thread nD τ).loc main_arg0)))) $$ [HSI Ha0]
  · isplitl [HSI] <;> iassumption
  icases H with ⟨%h0, HSI, -⟩
  ihave H := (persistent_entails_right (SI_pointsTo_agree (st := s') (ℓ := (SparseCore.T d : Thread nD τ).loc main_arg1) (I := Finset.univ) (q := fullShare)
    (f := m ((SparseCore.T d : Thread nD τ).loc main_arg1)))) $$ [HSI Ha1]
  · isplitl [HSI] <;> iassumption
  icases H with ⟨%h1, HSI, -⟩
  ihave H := (persistent_entails_right (SI_pointsTo_agree (st := s') (ℓ := (SparseCore.T d : Thread nD τ).loc main_arg2) (I := Finset.univ) (q := fullShare)
    (f := m ((SparseCore.T d : Thread nD τ).loc main_arg2)))) $$ [HSI Ha2]
  · isplitl [HSI] <;> iassumption
  icases H with ⟨%h2, HSI, -⟩
  ihave H := (persistent_entails_right (SI_pointsTo_agree (st := s') (ℓ := (SparseCore.T d : Thread nD τ).loc main_arg3) (I := Finset.univ) (q := fullShare)
    (f := m ((SparseCore.T d : Thread nD τ).loc main_arg3)))) $$ [HSI Ha3]
  · isplitl [HSI] <;> iassumption
  icases H with ⟨%h3, HSI, -⟩
  ihave H := (persistent_entails_right (SI_pointsTo_agree (st := s') (ℓ := (SparseCore.T d : Thread nD τ).loc main_arg4) (I := Finset.univ) (q := fullShare)
    (f := m ((SparseCore.T d : Thread nD τ).loc main_arg4)))) $$ [HSI Ha4]
  · isplitl [HSI] <;> iassumption
  icases H with ⟨%h4, HSI, -⟩
  ihave H := (persistent_entails_right (SI_pointsTo_agree (st := s') (ℓ := (SparseCore.T d : Thread nD τ).loc main_arg5) (I := Finset.univ) (q := fullShare)
    (f := m ((SparseCore.T d : Thread nD τ).loc main_arg5)))) $$ [HSI Ha5]
  · isplitl [HSI] <;> iassumption
  icases H with ⟨%h5, HSI, -⟩
  ihave H := (SI_pointsTo_agree (st := s') (ℓ := (SparseCore.T d : Thread nD τ).loc main_v6) (I := Finset.univ) (q := fullShare)
    (f := mlp d f (w2 m d) (w3 m d) (w4 m d) (w5 m d))) $$ [HSI H6]
  · isplitl [HSI] <;> iassumption
  icases H with %h6
  ipureintro
  exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i),
    f, hG, funext fun i => h6 i (Finset.mem_univ i)⟩

end Cert.Kernel.Hand

end
-- ==== Proof.KRegionBody.lean ====
/-
  The dense layers' kernel body as a function of the blocks it reads.

  The body loads its five input blocks whole — a 512 × 128 block of mean rows, the 128 × 512 first-layer weights, the
  1 × 512 first-layer bias row, the 512 × 1000 second-layer weights and the 1 × 1000 second-layer bias row — and stores
  one 512 × 1000 block over the whole output buffer. `outBlk` is what the output buffer then holds, as the canonical
  form of that one store over its payload; the triple says the body, run on whole staging memrefs holding the five
  blocks, leaves the inputs as they were and the output at `outBlk` of them, whatever the output buffer held before.
-/
import proofs.«207455_g33174327394824_cont_8to1_b_592_21_alg».proof.Proof.KCommon
import Idealize.ShloMosaic.Lib.Pipeline.FrameBody
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F]

local notation "𝕄" => MT nD τ sig (HIx 1) (Elt F) ℕ UU ℕ

/-! ## The body's accesses: each the whole of its buffer -/

abbrev rb0 : Rect S512x128 := Rect.unit (s := S512x128) ![0, 0] S512x128.size inb_S512x128_S512x128_0_0
abbrev rb1 : Rect S128x512 := Rect.unit (s := S128x512) ![0, 0] S128x512.size inb_S128x512_S128x512_0_0
abbrev rb2 : Rect S1x512 := Rect.unit (s := S1x512) ![0, 0] S1x512.size inb_S1x512_S1x512_0_0
abbrev rb3 : Rect S512x1000 := Rect.unit (s := S512x1000) ![0, 0] S512x1000.size inb_S512x1000_S512x1000_0_0
abbrev rb4 : Rect S1x1000 := Rect.unit (s := S1x1000) ![0, 0] S1x1000.size inb_S1x1000_S1x1000_0_0

/-! ## What the body leaves in the output buffer -/

/-- The output buffer after the body, from the five input blocks: its one store as a piece over the whole buffer,
    the stored value the payload at the blocks as loaded. -/
def outBlk (x0 : Vec F S512x128 .f32) (x1 : Vec F S128x512 .bf16) (x2 : Vec F S1x512 .f32)
    (x3 : Vec F S512x1000 .bf16) (x4 : Vec F S1x1000 .f32) : Vec F S512x1000 .f32 :=
  View.canon [⟨rb3, k1_pay1 (View.ld x0 rb0) (View.ld x1 rb1) (View.ld x2 rb2) (View.ld x3 rb3) (View.ld x4 rb4)⟩]

/-- The one store covers the buffer. -/
theorem cover_out (p0 : Vec F S512x1000 .f32) (y : S512x1000.Idx) :
    ∃ pc ∈ ([⟨rb3, p0⟩] : List (View.Piece (Elt F) S512x1000 .f32)), y ∈ pc.1.set :=
  View.cover_of_tiled [⟨rb3, p0⟩] S512x1000.size (by rfl) y

/-! ## The body's triple -/

set_option maxHeartbeats 1000000 in
/-- The body on whole staging memrefs, the inputs' at contents `x0 … x4` and the output's at anything, runs to the
    continuation holding the inputs' as they were and the output's at `outBlk` of them. -/
theorem sound_kernel (c : Dev nD) (E : Set ℕ) (i : grid1.Coords)
    (arg1 : Memref sig .tc .vmem S512x128 .f32) (harg1 : arg1.IsWhole)
    (arg2 : Memref sig .tc .vmem S128x512 .bf16) (harg2 : arg2.IsWhole)
    (arg3 : Memref sig .tc .vmem S1x512 .f32) (harg3 : arg3.IsWhole)
    (arg4 : Memref sig .tc .vmem S512x1000 .bf16) (harg4 : arg4.IsWhole)
    (arg5 : Memref sig .tc .vmem S1x1000 .f32) (harg5 : arg5.IsWhole)
    (arg6 : Memref sig .tc .vmem S512x1000 .f32) (harg6 : arg6.IsWhole)
    (x0 : Vec F S512x128 .f32) (x1 : Vec F S128x512 .bf16) (x2 : Vec F S1x512 .f32)
    (x3 : Vec F S512x1000 .bf16) (x4 : Vec F S1x1000 .f32) (Q : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (outBlk x0 x1 x2 x3 x4)) -∗ Q ⟨⟩))
      ⊢ wp frame (wpE (defs₀ (F := F)) 𝒱₀ c none) E
          (cc1__mlp_body i arg1 harg1 arg2 harg2 arg3 harg3 arg4 harg4 arg5 harg5 arg6 harg6) Q := by
  simp only [cc1__mlp_body_eq_skeleton]; unfold cc1__mlp_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

end Cert.Kernel.Hand

end
-- ==== Proof.KRegionData.lean ====
/-
  The dense layers' pipeline: its proof data and body obligation.

  The pipeline has six windows over a grid of eight points: the mean rows (blocks of 512 rows, one per point), the two
  weight matrices and the two bias rows (each whole, the same block at every point), and the output (blocks of 512
  rows, one per point, written back at every point). The arrays' contents when the region is entered are parameters
  `x1 … x6`. After the body at point `t` each input's staging buffer holds its block of the entry contents and the
  output's holds `outBlk` of the five input blocks; nothing is owed and every array is held whole.
-/
import proofs.«207455_g33174327394824_cont_8to1_b_592_21_alg».proof.Proof.KRegionBody

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

/- The entry contents are stated at their literal shapes: an array's contents are a function of its indices alone,
   the same type on every core. -/
variable (c : Dev nD)
  (x1 : Vec F S4096x128 .f32) (x2 : Vec F S128x512 .bf16) (x3 : Vec F S1x512 .f32)
  (x4 : Vec F S512x1000 .bf16) (x5 : Vec F S1x1000 .f32) (x6 : Vec F S4096x1000 .f32)
  (W0 : Waits sig (HIx 1))

/-! ## The arrays at entry and the windows' blocks -/

/-- The six windowed arrays' contents when the region is entered, by window. -/
def entryArr : (w : Fin cfg1.W) → Buf (Elt F) ((cfg1.win w).arr.view.loc (c.tc : Thread nD τ))
  | ⟨0, _⟩ => x1
  | ⟨1, _⟩ => x2
  | ⟨2, _⟩ => x3
  | ⟨3, _⟩ => x4
  | ⟨4, _⟩ => x5
  | ⟨5, _⟩ => x6

/-- Window `w`'s block at point `t`, read off its array as the region finds it. -/
def iblk (w : Fin cfg1.W) (t : Fin cfg1.N) : ((cfg1.win w).xblock (cfg1.grid.coords t)).Idx → Elt F (cfg1.win w).elt :=
  ((cfg1.win w).blk t).view.read (Elt F) (entryArr c x1 x2 x3 x4 x5 x6 w)

/-! ## The proof data -/

/-- The proof data on core `c`: the arrays as the region finds them; after the body at point `t` each input's buffer
    at its block and the output's at `outBlk` of the input blocks; the invariant the scoped buffers no window stages,
    untouched; nothing owed; full shares; the pairs the core's waits have recorded, the loop's own apart, are those
    recorded before the region, `W0` (the body waits on nothing). -/
def dats : Dat τ (Elt F) (HIx 1) ℕ UU ℕ cfg1 c where
  A := entryArr c x1 x2 x3 x4 x5 x6
  after w t := match w with
    | ⟨0, _⟩ => iblk c x1 x2 x3 x4 x5 x6 0 t
    | ⟨1, _⟩ => iblk c x1 x2 x3 x4 x5 x6 1 t
    | ⟨2, _⟩ => iblk c x1 x2 x3 x4 x5 x6 2 t
    | ⟨3, _⟩ => iblk c x1 x2 x3 x4 x5 x6 3 t
    | ⟨4, _⟩ => iblk c x1 x2 x3 x4 x5 x6 4 t
    | ⟨5, _⟩ => outBlk (iblk c x1 x2 x3 x4 x5 x6 0 t) (iblk c x1 x2 x3 x4 x5 x6 1 t) (iblk c x1 x2 x3 x4 x5 x6 2 t)
        (iblk c x1 x2 x3 x4 x5 x6 3 t) (iblk c x1 x2 x3 x4 x5 x6 4 t)
  Φ _ := Pipeline.scopedRest (Ix := HIx 1) (Name := ℕ) (U := UU) (Lvl := ℕ) (Val := Elt F) spec1 c
  q _ := fullShare
  owed _ := 0
  recorded _ := (↑W0 : Set (SemLoc sig × HIx 1))

theorem A_eq (w : Fin cfg1.W) : (dats c x1 x2 x3 x4 x5 x6 W0).A w = entryArr c x1 x2 x3 x4 x5 x6 w := by
  dsimp only [dats]

theorem after_0 (t : Fin cfg1.N) : (dats c x1 x2 x3 x4 x5 x6 W0).after 0 t = iblk c x1 x2 x3 x4 x5 x6 0 t := by dsimp only [dats]
theorem after_1 (t : Fin cfg1.N) : (dats c x1 x2 x3 x4 x5 x6 W0).after 1 t = iblk c x1 x2 x3 x4 x5 x6 1 t := by dsimp only [dats]
theorem after_2 (t : Fin cfg1.N) : (dats c x1 x2 x3 x4 x5 x6 W0).after 2 t = iblk c x1 x2 x3 x4 x5 x6 2 t := by dsimp only [dats]
theorem after_3 (t : Fin cfg1.N) : (dats c x1 x2 x3 x4 x5 x6 W0).after 3 t = iblk c x1 x2 x3 x4 x5 x6 3 t := by dsimp only [dats]
theorem after_4 (t : Fin cfg1.N) : (dats c x1 x2 x3 x4 x5 x6 W0).after 4 t = iblk c x1 x2 x3 x4 x5 x6 4 t := by dsimp only [dats]
theorem after_5 (t : Fin cfg1.N) : (dats c x1 x2 x3 x4 x5 x6 W0).after 5 t
    = outBlk (iblk c x1 x2 x3 x4 x5 x6 0 t) (iblk c x1 x2 x3 x4 x5 x6 1 t) (iblk c x1 x2 x3 x4 x5 x6 2 t)
        (iblk c x1 x2 x3 x4 x5 x6 3 t) (iblk c x1 x2 x3 x4 x5 x6 4 t) := by dsimp only [dats]

/-! ## What each input's staging buffer holds when the body runs

An input window's current buffer holds its block at every point, fetched there or not: where the pipeline does not
fetch, the block index has not moved and the body left the block in place. -/

theorem before_0 (t : Fin cfg1.N) (d) : (dats c x1 x2 x3 x4 x5 x6 W0).before 0 t d = iblk c x1 x2 x3 x4 x5 x6 0 t :=
  ((dats c x1 x2 x3 x4 x5 x6 W0).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (t : Fin cfg1.N) (d) : (dats c x1 x2 x3 x4 x5 x6 W0).before 1 t d = iblk c x1 x2 x3 x4 x5 x6 1 t :=
  ((dats c x1 x2 x3 x4 x5 x6 W0).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (t : Fin cfg1.N) (d) : (dats c x1 x2 x3 x4 x5 x6 W0).before 2 t d = iblk c x1 x2 x3 x4 x5 x6 2 t :=
  ((dats c x1 x2 x3 x4 x5 x6 W0).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (t : Fin cfg1.N) (d) : (dats c x1 x2 x3 x4 x5 x6 W0).before 3 t d = iblk c x1 x2 x3 x4 x5 x6 3 t :=
  ((dats c x1 x2 x3 x4 x5 x6 W0).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (t : Fin cfg1.N) (d) : (dats c x1 x2 x3 x4 x5 x6 W0).before 4 t d = iblk c x1 x2 x3 x4 x5 x6 4 t :=
  ((dats c x1 x2 x3 x4 x5 x6 W0).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)

/-! ## The body obligation -/

/-- What the body is called with at point `t`, the windows one by one, -/
def bodyPre (t : Fin cfg1.N) : sProp 𝕄 :=
  iprop((dats c x1 x2 x3 x4 x5 x6 W0).Φ t.castSucc ∗ (dats c x1 x2 x3 x4 x5 x6 W0).owesAt (none : HIx 1) t.castSucc
    ∗ (∃ d, owns (c : Thread nD τ) (st1_0 t) fullShare ((dats c x1 x2 x3 x4 x5 x6 W0).before 0 t d))
    ∗ (∃ d, owns (c : Thread nD τ) (st1_1 t) fullShare ((dats c x1 x2 x3 x4 x5 x6 W0).before 1 t d))
    ∗ (∃ d, owns (c : Thread nD τ) (st1_2 t) fullShare ((dats c x1 x2 x3 x4 x5 x6 W0).before 2 t d))
    ∗ (∃ d, owns (c : Thread nD τ) (st1_3 t) fullShare ((dats c x1 x2 x3 x4 x5 x6 W0).before 3 t d))
    ∗ (∃ d, owns (c : Thread nD τ) (st1_4 t) fullShare ((dats c x1 x2 x3 x4 x5 x6 W0).before 4 t d))
    ∗ (∃ d, owns (c : Thread nD τ) (st1_5 t) fullShare ((dats c x1 x2 x3 x4 x5 x6 W0).before 5 t d)))

/-- and what it returns. -/
def bodyPost (t : Fin cfg1.N) : sProp 𝕄 :=
  iprop((dats c x1 x2 x3 x4 x5 x6 W0).Φ t.succ ∗ (dats c x1 x2 x3 x4 x5 x6 W0).owesAt (none : HIx 1) t.succ
    ∗ owns (c : Thread nD τ) (st1_0 t) fullShare ((dats c x1 x2 x3 x4 x5 x6 W0).after 0 t)
    ∗ owns (c : Thread nD τ) (st1_1 t) fullShare ((dats c x1 x2 x3 x4 x5 x6 W0).after 1 t)
    ∗ owns (c : Thread nD τ) (st1_2 t) fullShare ((dats c x1 x2 x3 x4 x5 x6 W0).after 2 t)
    ∗ owns (c : Thread nD τ) (st1_3 t) fullShare ((dats c x1 x2 x3 x4 x5 x6 W0).after 3 t)
    ∗ owns (c : Thread nD τ) (st1_4 t) fullShare ((dats c x1 x2 x3 x4 x5 x6 W0).after 4 t)
    ∗ owns (c : Thread nD τ) (st1_5 t) fullShare ((dats c x1 x2 x3 x4 x5 x6 W0).after 5 t))

/-- The body at any point: the inputs' memrefs hold their blocks, so the body's triple applies; the invariant and the
    core's `owes` pass through unread. -/
theorem sound_body (t : Fin cfg1.N) :
    bodyPre c x1 x2 x3 x4 x5 x6 W0 t ⊢ wp frame (wpE (defs₀ (F := F)) 𝒱₀ c none) Set.univ (bodyAt1 t)
      (fun _ => bodyPost c x1 x2 x3 x4 x5 x6 W0 t) := by
  unfold bodyPre bodyPost bodyAt1
  simp only [before_0, before_1, before_2, before_3, before_4]
  rw [show (dats c x1 x2 x3 x4 x5 x6 W0).Φ t.succ = (dats c x1 x2 x3 x4 x5 x6 W0).Φ t.castSucc from rfl,
    show (dats c x1 x2 x3 x4 x5 x6 W0).owesAt (none : HIx 1) t.succ = (dats c x1 x2 x3 x4 x5 x6 W0).owesAt (none : HIx 1) t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk c x1 x2 x3 x4 x5 x6 0 t) (iblk c x1 x2 x3 x4 x5 x6 1 t)
    (iblk c x1 x2 x3 x4 x5 x6 2 t) (iblk c x1 x2 x3 x4 x5 x6 3 t) (iblk c x1 x2 x3 x4 x5 x6 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation : BodyObligation (dats c x1 x2 x3 x4 x5 x6 W0) (defs₀ (F := F)) 𝒱₀ (none : HIx 1) Set.univ := fun t => by
  rw [bigSep_W1, bigSep_W1]
  exact sound_body c x1 x2 x3 x4 x5 x6 W0 t

end Cert.Kernel.Hand

end
-- ==== Proof.KRegionArr.lean ====
/-
  The output array after the dense layers' region, as one function of the five input arrays.

  Row r of the output lies in block r / 512, at row r % 512 of that block; block q of the output is the body's result
  on block q of the mean rows (rows 512·q … 512·q + 511) and the whole of the two weight matrices and bias rows. The
  pipeline writes every block back, and the eight blocks tile the array, so after the last point the array holds
  `mlpOut` of the entry contents of the five inputs.
-/
import proofs.«207455_g33174327394824_cont_8to1_b_592_21_alg».proof.Proof.KRegionData
import Idealize.ShloMosaic.Lib.Pipeline.Value
import Idealize.ShloMosaic.Lib.ValueIdx

set_option maxRecDepth 16384

noncomputable section

namespace Cert.Kernel.Hand

open Cert.Kernel Cert.Kernel.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

/-! ## The closed form -/

/-- Block `q` of the mean rows: rows 512·q … 512·q + 511. -/
def rowBlk (x1 : Vec F S4096x128 .f32) (q : Fin 8) : Vec F S512x128 .f32 :=
  fun y => x1 (ix2 (⟨512 * q.val + (y 0).val, by have h1 : (y 0).val < 512 := (y 0).isLt; have h2 : q.val < 8 := q.isLt; omega⟩ : Fin 4096) (y 1))

/-- The block a row of the output lies in, -/
def blkOf (i : S4096x1000.Idx) : Fin 8 := ⟨(i 0).val / 512, by have : (i 0).val < 4096 := (i 0).isLt; omega⟩

/-- and the index inside the block. -/
def inBlk (i : S4096x1000.Idx) : S512x1000.Idx :=
  ix2 (⟨(i 0).val % 512, Nat.mod_lt _ (by decide)⟩ : Fin 512) (i 1)

/-- THE OUTPUT ARRAY after the region, from the five input arrays: at row r, the body's result on block r / 512 of the
    mean rows, at row r % 512. -/
def mlpOut (x1 : Vec F S4096x128 .f32) (x2 : Vec F S128x512 .bf16) (x3 : Vec F S1x512 .f32)
    (x4 : Vec F S512x1000 .bf16) (x5 : Vec F S1x1000 .f32) : Vec F S4096x1000 .f32 :=
  fun i => outBlk (rowBlk x1 (blkOf i)) x2 x3 x4 x5 (inBlk i)

/-- An index of the array at offset `j` inside block `q` reads the body's result on block `q` at `j`. -/
theorem mlpOut_at_blk (x1 : Vec F S4096x128 .f32) (x2 : Vec F S128x512 .bf16) (x3 : Vec F S1x512 .f32)
    (x4 : Vec F S512x1000 .bf16) (x5 : Vec F S1x1000 .f32) (q : Fin 8) (j : S512x1000.Idx) (i : S4096x1000.Idx)
    (h0 : (i 0).val = q.val * 512 + 1 * (j 0).val) (h1 : (i 1).val = 0 * 1000 + 1 * (j 1).val) :
    mlpOut x1 x2 x3 x4 x5 i = outBlk (rowBlk x1 q) x2 x3 x4 x5 j := by
  have hj0 : (j 0).val < 512 := (j 0).isLt
  have hq : blkOf i = q := Fin.ext (by show (i 0).val / 512 = q.val; omega)
  have hj : inBlk i = j := funext fun a => Fin.ext (by
    match a with
    | ⟨0, _⟩ => show (i 0).val % 512 = (j 0).val; omega
    | ⟨1, _⟩ => show (i 1).val = (j 1).val; omega)
  unfold mlpOut; rw [hq, hj]

variable (c : Dev nD)
  (x1 : Vec F S4096x128 .f32) (x2 : Vec F S128x512 .bf16) (x3 : Vec F S1x512 .f32)
  (x4 : Vec F S512x1000 .bf16) (x5 : Vec F S1x1000 .f32) (x6 : Vec F S4096x1000 .f32)
  (W0 : Waits sig (HIx 1))

/-! ## The windows' blocks, read off the entry contents -/

/-- The printed index maps over the grid: the mean rows' and the output's block index is the point, the others' zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 8 := Nat.lt_of_lt_of_eq t.isLt N_1

/-- The mean rows' block at point `t` is block `t` of the entry contents. -/
theorem iblk_0 (t : Fin cfg1.N) : iblk c x1 x2 x3 x4 x5 x6 0 t = rowBlk x1 ⟨t.val, t_lt t⟩ := by
  obtain ⟨e0, e1, -⟩ := idx_facts t
  funext y
  show x1 (((cfg1.win 0).blk t).view.emb y) = x1 _
  refine congrArg x1 (funext fun a => Fin.ext ?_)
  match a with
  | ⟨0, _⟩ => show win1_0.index t (0 : Fin 2) * 512 + 1 * (y 0).val = 512 * t.val + (y 0).val; omega
  | ⟨1, _⟩ => show win1_0.index t (1 : Fin 2) * 128 + 1 * (y 1).val = (y 1).val; omega

/-- The whole-array windows' blocks are the arrays. -/
theorem iblk_1 (t : Fin cfg1.N) : iblk c x1 x2 x3 x4 x5 x6 1 t = x2 := by
  obtain ⟨-, -, e0, e1, -⟩ := idx_facts t
  funext y
  show x2 (((cfg1.win 1).blk t).view.emb y) = x2 y
  refine congrArg x2 (funext fun a => Fin.ext ?_)
  match a with
  | ⟨0, _⟩ => show win1_1.index t (0 : Fin 2) * 128 + 1 * (y 0).val = (y 0).val; omega
  | ⟨1, _⟩ => show win1_1.index t (1 : Fin 2) * 512 + 1 * (y 1).val = (y 1).val; omega
theorem iblk_2 (t : Fin cfg1.N) : iblk c x1 x2 x3 x4 x5 x6 2 t = x3 := by
  obtain ⟨-, -, -, -, e0, e1, -⟩ := idx_facts t
  funext y
  show x3 (((cfg1.win 2).blk t).view.emb y) = x3 y
  refine congrArg x3 (funext fun a => Fin.ext ?_)
  match a with
  | ⟨0, _⟩ => show win1_2.index t (0 : Fin 2) * 1 + 1 * (y 0).val = (y 0).val; omega
  | ⟨1, _⟩ => show win1_2.index t (1 : Fin 2) * 512 + 1 * (y 1).val = (y 1).val; omega
theorem iblk_3 (t : Fin cfg1.N) : iblk c x1 x2 x3 x4 x5 x6 3 t = x4 := by
  obtain ⟨-, -, -, -, -, -, e0, e1, -⟩ := idx_facts t
  funext y
  show x4 (((cfg1.win 3).blk t).view.emb y) = x4 y
  refine congrArg x4 (funext fun a => Fin.ext ?_)
  match a with
  | ⟨0, _⟩ => show win1_3.index t (0 : Fin 2) * 512 + 1 * (y 0).val = (y 0).val; omega
  | ⟨1, _⟩ => show win1_3.index t (1 : Fin 2) * 1000 + 1 * (y 1).val = (y 1).val; omega
theorem iblk_4 (t : Fin cfg1.N) : iblk c x1 x2 x3 x4 x5 x6 4 t = x5 := by
  obtain ⟨-, -, -, -, -, -, -, -, e0, e1, -⟩ := idx_facts t
  funext y
  show x5 (((cfg1.win 4).blk t).view.emb y) = x5 y
  refine congrArg x5 (funext fun a => Fin.ext ?_)
  match a with
  | ⟨0, _⟩ => show win1_4.index t (0 : Fin 2) * 1 + 1 * (y 0).val = (y 0).val; omega
  | ⟨1, _⟩ => show win1_4.index t (1 : Fin 2) * 1000 + 1 * (y 1).val = (y 1).val; omega

/-! ## From blocks to the array -/

/-- The output window is uncut: what a write-back moves of a staging buffer's contents is all of them, -/
theorem cut_out (t : Fin cfg1.N) (A : Vec F S512x1000 .f32) : (cfg1.win 5).cut (grid1.coords t) A = A := rfl

/-- and its block at point `t`, read off an array's contents `G`, is `G` at the block's indices. -/
theorem read_blk_out (t : Fin cfg1.N) (G : Vec F S4096x1000 .f32) (j : S512x1000.Idx) :
    ((cfg1.win 5).blk t).view.read (Elt F) G j = G (((cfg1.win 5).blk t).view.emb j) := rfl

/-- WHAT POINT `t` WRITES BACK is block `t` of `mlpOut` of the entry contents. -/
theorem flushed_eq (t : Fin cfg1.N) :
    (dats c x1 x2 x3 x4 x5 x6 W0).flushed 5 t = ((cfg1.win 5).blk t).view.read (Elt F) (mlpOut x1 x2 x3 x4 x5) := by
  show (cfg1.win 5).cut (grid1.coords t) ((dats c x1 x2 x3 x4 x5 x6 W0).after 5 t) = _
  rw [after_5, iblk_0, iblk_1, iblk_2, iblk_3, iblk_4]
  obtain ⟨-, -, -, -, -, -, -, -, -, -, e0, e1⟩ := idx_facts t
  funext j
  refine (congrFun (cut_out t _) j).trans ?_
  refine Eq.trans ?_ (read_blk_out t (mlpOut x1 x2 x3 x4 x5) j).symm
  refine (mlpOut_at_blk x1 x2 x3 x4 x5 ⟨t.val, t_lt t⟩ j _ ?_ ?_).symm
  · show win1_5.index t (0 : Fin 2) * 512 + 1 * (j 0).val = t.val * 512 + 1 * (j 0).val; rw [e0]
  · show win1_5.index t (1 : Fin 2) * 1000 + 1 * (j 1).val = 0 * 1000 + 1 * (j 1).val; rw [e1]

/-- An index of the array is in point `t`'s block iff each coordinate is in the block's range on its axis. -/
theorem mem_blk (t : Fin cfg1.N) (i : S4096x1000.Idx) :
    i ∈ ((cfg1.win 5).blk t).view.set ↔ ∀ a : Fin 2, win1_5.index t a * S512x1000.size a ≤ (i a).val ∧ (i a).val < win1_5.index t a * S512x1000.size a + S512x1000.size a := by
  show i ∈ ((View.whole main_v6).slice (win1_5.rect t)).set ↔ _
  rw [View.set_slice_whole, Rect.mem_set_unit]
  exact Iff.rfl

/-- Every index of the output array is in the block of the point its row's block names. -/
theorem cover (i : S4096x1000.Idx) : ∃ t : Fin cfg1.N, (cfg1.win 5).flush t = true ∧ i ∈ ((cfg1.win 5).blk t).view.set := by
  have hi0 : (i 0).val < 4096 := (i 0).isLt
  have hi1 : (i 1).val < 1000 := (i 1).isLt
  refine ⟨⟨(i 0).val / 512, by rw [show cfg1.N = 8 from N_1]; omega⟩, flush1_5 _, ?_⟩
  rw [mem_blk]
  obtain ⟨-, -, -, -, -, -, -, -, -, -, e0, e1⟩ := idx_facts ⟨(i 0).val / 512, by rw [show cfg1.N = 8 from N_1]; omega⟩
  intro a
  match a with
  | ⟨0, _⟩ =>
    show win1_5.index _ (0 : Fin 2) * 512 ≤ (i 0).val ∧ (i 0).val < win1_5.index _ (0 : Fin 2) * 512 + 512
    rw [e0]; show (i 0).val / 512 * 512 ≤ (i 0).val ∧ (i 0).val < (i 0).val / 512 * 512 + 512; omega
  | ⟨1, _⟩ =>
    show win1_5.index _ (1 : Fin 2) * 1000 ≤ (i 1).val ∧ (i 1).val < win1_5.index _ (1 : Fin 2) * 1000 + 1000
    rw [e1]; omega

/-- THE OUTPUT ARRAY after the last point: `mlpOut` of the five inputs' entry contents. -/
theorem arrAt_out : (dats c x1 x2 x3 x4 x5 x6 W0).arrAt 5 cfg1.N = mlpOut x1 x2 x3 x4 x5 :=
  (dats c x1 x2 x3 x4 x5 x6 W0).arrAt_eq_of_cover 5 (mlpOut x1 x2 x3 x4 x5) (fun t _ => flushed_eq c x1 x2 x3 x4 x5 x6 W0 t)
    (cover)

end Cert.Kernel.Hand

end
-- ==== Proof.KRegion.lean ====
/-
  The dense layers' region as one step of the program's TensorCore thread.

  From the region boundary, the six windowed arrays held whole at contents `x1 … x6`, the thread owing nothing, the level
  facts and the pipeline's ghost state, the region's call runs to the boundary, the five input arrays as they were, the
  output array at `mlpOut` of the five inputs, and the thread owing nothing. The region record's four entailments sort
  the arrays into the pipeline's proof data at entry and out of it at exit; the kernel has no semaphores of its own, no
  prefetched tables and no scoped buffers besides the staging buffers.
-/
import proofs.«207455_g33174327394824_cont_8to1_b_592_21_alg».proof.Proof.KRegionArr

set_option maxRecDepth 16384

noncomputable section

namespace Cert.Kernel.Hand

open Cert.Kernel Cert.Kernel.Gen

open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F]

local notation "𝕄" => MT nD τ sig (HIx 1) (Elt F) ℕ UU ℕ

variable (x1 : Vec F S4096x128 .f32) (x2 : Vec F S128x512 .bf16) (x3 : Vec F S1x512 .f32)
  (x4 : Vec F S512x1000 .bf16) (x5 : Vec F S1x1000 .f32) (x6 : Vec F S4096x1000 .f32)
  (W0 : Waits sig (HIx 1))

/-! ## The pipeline family and its proof data -/

/-- The one admissible contents of a pipeline without prefetched tables. -/
abbrev adm : (p : Fin 1) → (pcfgs (F := F) p).Adm := fun p => (cfgs p).toPCfg_adm

/-- The proof data of the program's one pipeline, on every core at the same entry contents. -/
def pdats : (p : Fin 1) → (c : Dev nD) → Dat τ (Elt F) (HIx 1) ℕ UU ℕ (Pipeline.pin (pcfgs (F := F)) adm p) c :=
  fun _ c => dats c x1 x2 x3 x4 x5 x6 W0

/-- The six windowed arrays held whole on core `c`. -/
abbrev held (c : Dev nD) (y1 : Vec F S4096x128 .f32) (y2 : Vec F S128x512 .bf16) (y3 : Vec F S1x512 .f32)
    (y4 : Vec F S512x1000 .bf16) (y5 : Vec F S1x1000 .f32) (y6 : Vec F S4096x1000 .f32) : sProp 𝕄 :=
  iprop((((c.tc : Thread nD τ).loc main_v1) ↦{fullShare} y1) ∗ (((c.tc : Thread nD τ).loc main_v2) ↦{fullShare} y2)
    ∗ (((c.tc : Thread nD τ).loc main_v3) ↦{fullShare} y3) ∗ (((c.tc : Thread nD τ).loc main_v4) ↦{fullShare} y4)
    ∗ (((c.tc : Thread nD τ).loc main_v5) ↦{fullShare} y5) ∗ (((c.tc : Thread nD τ).loc main_v6) ↦{fullShare} y6))

theorem share_full (c : Dev nD) (w : Fin cfg1.W) : (dats c x1 x2 x3 x4 x5 x6 W0).share w = fullShare :=
  (dats c x1 x2 x3 x4 x5 x6 W0).share_full (fun _ => rfl) w

/-- The proof data's arrays at contents given window by window are the six arrays held whole at them. -/
theorem arrays_held (c : Dev nD) (y1 : Vec F S4096x128 .f32) (y2 : Vec F S128x512 .bf16) (y3 : Vec F S1x512 .f32)
    (y4 : Vec F S512x1000 .bf16) (y5 : Vec F S1x1000 .f32) (y6 : Vec F S4096x1000 .f32) :
    (dats c x1 x2 x3 x4 x5 x6 W0).arrays (entryArr c y1 y2 y3 y4 y5 y6) = held c y1 y2 y3 y4 y5 y6 := by
  rw [Pipeline.arrays_eq cfgs (fun _ c => dats c x1 x2 x3 x4 x5 x6 W0) 0 c arr_whole1 (share_full x1 x2 x3 x4 x5 x6 W0 c), bigSep_W1]
  rfl

/-- The contents given window by window, at each window. -/
theorem entryArr_0 (c : Dev nD) (y1 : Vec F S4096x128 .f32) (y2 : Vec F S128x512 .bf16) (y3 : Vec F S1x512 .f32)
    (y4 : Vec F S512x1000 .bf16) (y5 : Vec F S1x1000 .f32) (y6 : Vec F S4096x1000 .f32) : entryArr c y1 y2 y3 y4 y5 y6 0 = y1 := rfl
theorem entryArr_1 (c : Dev nD) (y1 : Vec F S4096x128 .f32) (y2 : Vec F S128x512 .bf16) (y3 : Vec F S1x512 .f32)
    (y4 : Vec F S512x1000 .bf16) (y5 : Vec F S1x1000 .f32) (y6 : Vec F S4096x1000 .f32) : entryArr c y1 y2 y3 y4 y5 y6 1 = y2 := rfl
theorem entryArr_2 (c : Dev nD) (y1 : Vec F S4096x128 .f32) (y2 : Vec F S128x512 .bf16) (y3 : Vec F S1x512 .f32)
    (y4 : Vec F S512x1000 .bf16) (y5 : Vec F S1x1000 .f32) (y6 : Vec F S4096x1000 .f32) : entryArr c y1 y2 y3 y4 y5 y6 2 = y3 := rfl
theorem entryArr_3 (c : Dev nD) (y1 : Vec F S4096x128 .f32) (y2 : Vec F S128x512 .bf16) (y3 : Vec F S1x512 .f32)
    (y4 : Vec F S512x1000 .bf16) (y5 : Vec F S1x1000 .f32) (y6 : Vec F S4096x1000 .f32) : entryArr c y1 y2 y3 y4 y5 y6 3 = y4 := rfl
theorem entryArr_4 (c : Dev nD) (y1 : Vec F S4096x128 .f32) (y2 : Vec F S128x512 .bf16) (y3 : Vec F S1x512 .f32)
    (y4 : Vec F S512x1000 .bf16) (y5 : Vec F S1x1000 .f32) (y6 : Vec F S4096x1000 .f32) : entryArr c y1 y2 y3 y4 y5 y6 4 = y5 := rfl
theorem entryArr_5 (c : Dev nD) (y1 : Vec F S4096x128 .f32) (y2 : Vec F S128x512 .bf16) (y3 : Vec F S1x512 .f32)
    (y4 : Vec F S512x1000 .bf16) (y5 : Vec F S1x1000 .f32) (y6 : Vec F S4096x1000 .f32) : entryArr c y1 y2 y3 y4 y5 y6 5 = y6 := rfl

attribute [local irreducible] mlpOut outBlk

/-- The arrays after the last point, window by window: the inputs as entered, the output at `mlpOut` of them. -/
theorem arrAt_last (c : Dev nD) (w : Fin cfg1.W) :
    (dats c x1 x2 x3 x4 x5 x6 W0).arrAt w cfg1.N = entryArr c x1 x2 x3 x4 x5 (mlpOut x1 x2 x3 x4 x5) w := by
  match w with
  | ⟨0, _⟩ => exact (((dats c x1 x2 x3 x4 x5 x6 W0).arrAt_in 0 rfl _).trans (A_eq c x1 x2 x3 x4 x5 x6 W0 0)).trans ((entryArr_0 c x1 x2 x3 x4 x5 x6).trans (entryArr_0 c x1 x2 x3 x4 x5 (mlpOut x1 x2 x3 x4 x5)).symm)
  | ⟨1, _⟩ => exact (((dats c x1 x2 x3 x4 x5 x6 W0).arrAt_in 1 rfl _).trans (A_eq c x1 x2 x3 x4 x5 x6 W0 1)).trans ((entryArr_1 c x1 x2 x3 x4 x5 x6).trans (entryArr_1 c x1 x2 x3 x4 x5 (mlpOut x1 x2 x3 x4 x5)).symm)
  | ⟨2, _⟩ => exact (((dats c x1 x2 x3 x4 x5 x6 W0).arrAt_in 2 rfl _).trans (A_eq c x1 x2 x3 x4 x5 x6 W0 2)).trans ((entryArr_2 c x1 x2 x3 x4 x5 x6).trans (entryArr_2 c x1 x2 x3 x4 x5 (mlpOut x1 x2 x3 x4 x5)).symm)
  | ⟨3, _⟩ => exact (((dats c x1 x2 x3 x4 x5 x6 W0).arrAt_in 3 rfl _).trans (A_eq c x1 x2 x3 x4 x5 x6 W0 3)).trans ((entryArr_3 c x1 x2 x3 x4 x5 x6).trans (entryArr_3 c x1 x2 x3 x4 x5 (mlpOut x1 x2 x3 x4 x5)).symm)
  | ⟨4, _⟩ => exact (((dats c x1 x2 x3 x4 x5 x6 W0).arrAt_in 4 rfl _).trans (A_eq c x1 x2 x3 x4 x5 x6 W0 4)).trans ((entryArr_4 c x1 x2 x3 x4 x5 x6).trans (entryArr_4 c x1 x2 x3 x4 x5 (mlpOut x1 x2 x3 x4 x5)).symm)
  | ⟨5, _⟩ => exact (arrAt_out c x1 x2 x3 x4 x5 x6 W0).trans (entryArr_5 c x1 x2 x3 x4 x5 (mlpOut x1 x2 x3 x4 x5)).symm

/-! ## The region record -/

/-- The dense layers' region: entered with the six arrays held at `x1 … x6` and the thread owing nothing, left with
    the output array at `mlpOut` of the inputs. Nothing enters the invariant, nothing bypasses the region. -/
def seg : Pipeline.RegionSeg (pcfgs (F := F)) adm (pdats x1 x2 x3 x4 x5 x6 W0) (none : HIx 1) (defs₀ (F := F)) 𝒱₀
    (K (F := F)).L (K (F := F)).lev (0 : Fin 1) where
  win := winFacts1.to₀
  block_pos := block_pos1
  stage_whole := stage_whole1
  K := PEmpty
  osem := fun k => k.elim
  ho := Pipeline.OwnSemFacts.none _
  hbody := fun c => (body_obligation c x1 x2 x3 x4 x5 x6 W0).loose
  hwaits := fun c => Pipeline.hwaits_of_owed_zero _ _ _ _ _ _ 0 (fun _ _ => rfl) c
  pre := fun c => iprop(held c x1 x2 x3 x4 x5 x6 ∗ owes (c.tc : Thread nD τ) 0 W0)
  post := fun c => iprop(held c x1 x2 x3 x4 x5 (mlpOut x1 x2 x3 x4 x5)
    ∗ ∃ W : Waits sig (HIx 1), ⌜∀ p ∈ W, p ∈ W0 ∨ p.2 = none⌝ ∗ owes (c.tc : Thread nD τ) (0 : CellTallies nD τ sig (HIx 1)) W)
  X := fun _ => iprop(emp)
  Y := fun _ => iprop(emp)
  Z := fun _ => iprop(emp)
  hentry := fun c => by
    iintro ⟨⟨Ha, Ho⟩, -, -⟩
    imodintro
    isplitl [Ha]
    · iapply (Entails.of_eq (arrays_held x1 x2 x3 x4 x5 x6 W0 c x1 x2 x3 x4 x5 x6).symm)
      iexact Ha
    isplitr
    · unfold Pipeline.prefHeld; rw [Finset.univ_eq_empty, BI.bigSep_empty]; iempintro
    isplitl [Ho]
    · iexists W0; isplitr
      · ipureintro; exact fun _ h => Or.inl h
      iexact Ho
    isplitr <;> iempintro
  hin := fun c => by
    show _ ⊢ Pipeline.scopedRest (Ix := HIx 1) (Name := ℕ) (U := UU) (Lvl := ℕ) (Val := Elt F) spec1 c
    iintro ⟨-, -, H⟩; iexact H
  hout := fun c => by
    rw [Pipeline.ownSems0_none]
    show Pipeline.scopedRest (Ix := HIx 1) (Name := ℕ) (U := UU) (Lvl := ℕ) (Val := Elt F) spec1 c ⊢ _
    iintro H
    isplitr; · iempintro
    isplitr; · iempintro
    iexact H
  hexit := fun c => by
    iintro ⟨Ha, ⟨%W, %hW, Ho⟩, -, -⟩
    imodintro
    isplitl [Ha]
    · iapply (Entails.of_eq (arrays_held x1 x2 x3 x4 x5 x6 W0 c x1 x2 x3 x4 x5 (mlpOut x1 x2 x3 x4 x5)))
      iapply (Entails.of_eq (congrArg (dats c x1 x2 x3 x4 x5 x6 W0).arrays (funext (arrAt_last x1 x2 x3 x4 x5 x6 W0 c))))
      iexact Ha
    iexists W; isplitr
    · ipureintro
      exact fun p hp => (hW (Finset.mem_coe.mpr hp)).elim (fun h => Or.inl (Finset.mem_coe.mp h))
        (fun ⟨_, _, e⟩ => Or.inr (by rw [e]))
    iexact Ho

/-! ## The step -/

/-- The staging cells of the pipeline family at its one admissible contents are the program's, pairwise distinct. -/
theorem cells_inj : Function.Injective (Pipeline.cellOf (nD := nD) (τ := τ) (Pipeline.pin (pcfgs (F := F)) adm)) := cellOf_inj

set_option maxHeartbeats 400000 in
/-- The region's step on core `d`, in the region record's own terms. -/
theorem region_wp_seg (d : Dev nD) (Q : PUnit → sProp 𝕄) :
    iprop((iprop(boundary (d.tc : Thread nD τ) ∗ (seg x1 x2 x3 x4 x5 x6 W0).post d)
            -∗ wp frame (wpE (D (F := F)) 𝒱 (d.tc : Thread nD τ) none) Set.univ (.ret ⟨⟩) Q)
        ∗ boundary (d.tc : Thread nD τ) ∗ (seg x1 x2 x3 x4 x5 x6 W0).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (.op (.customCall (Pipeline.entry 0) ()) fun _ => .ret ⟨⟩) Q :=
  Pipeline.RegionSeg.wp (pcfgs (F := F)) adm (pdats x1 x2 x3 x4 x5 x6 W0) (none : HIx 1) cells_inj EP (defs₀ (F := F)) 𝒱₀
    (K (F := F)).L (K (F := F)).lev (seg x1 x2 x3 x4 x5 x6 W0) d none (fun _ h => nomatch h) (fun _ => .ret ⟨⟩) Q

/-- The region's thread states, spelt out. -/
theorem seg_pre (d : Dev nD) : (seg x1 x2 x3 x4 x5 x6 W0).pre d
    = iprop(held d x1 x2 x3 x4 x5 x6 ∗ owes (d.tc : Thread nD τ) (0 : CellTallies nD τ sig (HIx 1)) W0) := rfl
theorem seg_post (d : Dev nD) : (seg x1 x2 x3 x4 x5 x6 W0).post d
    = iprop(held d x1 x2 x3 x4 x5 (mlpOut x1 x2 x3 x4 x5)
        ∗ ∃ W : Waits sig (HIx 1), ⌜∀ p ∈ W, p ∈ W0 ∨ p.2 = none⌝ ∗ owes (d.tc : Thread nD τ) (0 : CellTallies nD τ sig (HIx 1)) W) := rfl

/-- The pipeline's ghost state at the family is the program's. -/
theorem ghost_eq (d : Dev nD) :
    (iprop(Pipeline.cellsGhost (Pipeline.pin (pcfgs (F := F)) adm) EP 0 d ∗ Pipeline.toksInit (Pipeline.pin (pcfgs (F := F)) adm) EP 0 d) : sProp 𝕄)
      = iprop(Pipeline.cellsGhost cfgs EP 0 d ∗ Pipeline.toksInit cfgs EP 0 d) := rfl

/-- THE REGION'S STEP on core `d`: from the boundary, the six arrays held whole at `x1 … x6`, the thread owing nothing
    with recorded pairs `W0`, the level facts and the pipeline's ghost state, the region's call runs to the boundary, the
    inputs as they were, the output array at `mlpOut` of them and the thread owing nothing, every pair it has recorded
    since being at the index `none`. -/
theorem region_wp (d : Dev nD) (Q : PUnit → sProp 𝕄) :
    iprop((iprop(boundary (SparseCore.T d) ∗ ((SparseCore.T d).loc main_v1 ↦{fullShare} x1) ∗ ((SparseCore.T d).loc main_v2 ↦{fullShare} x2)
              ∗ ((SparseCore.T d).loc main_v3 ↦{fullShare} x3) ∗ ((SparseCore.T d).loc main_v4 ↦{fullShare} x4)
              ∗ ((SparseCore.T d).loc main_v5 ↦{fullShare} x5) ∗ ((SparseCore.T d).loc main_v6 ↦{fullShare} mlpOut x1 x2 x3 x4 x5)
              ∗ ∃ W : Waits sig (HIx 1), ⌜∀ p ∈ W, p ∈ W0 ∨ p.2 = none⌝ ∗ owes (SparseCore.T d) (0 : CellTallies nD τ sig (HIx 1)) W) -∗ Q ⟨⟩)
          ∗ boundary (SparseCore.T d) ∗ ((SparseCore.T d).loc main_v1 ↦{fullShare} x1) ∗ ((SparseCore.T d).loc main_v2 ↦{fullShare} x2)
          ∗ ((SparseCore.T d).loc main_v3 ↦{fullShare} x3) ∗ ((SparseCore.T d).loc main_v4 ↦{fullShare} x4)
          ∗ ((SparseCore.T d).loc main_v5 ↦{fullShare} x5) ∗ ((SparseCore.T d).loc main_v6 ↦{fullShare} x6)
          ∗ owes (SparseCore.T d) (0 : CellTallies nD τ sig (HIx 1)) W0
          ∗ levAts (K (F := F)).L (K (F := F)).lev ∗ Pipeline.cellsGhost cfgs EP 0 d ∗ Pipeline.toksInit cfgs EP 0 d)
      ⊢ wp frame (wpE (D (F := F)) 𝒱 (SparseCore.T d) none) Set.univ (.op (.customCall (Pipeline.entry 0) ()) fun _ => .ret ⟨⟩) Q := by
  refine .trans ?_ (region_wp_seg x1 x2 x3 x4 x5 x6 W0 d Q)
  rw [seg_pre, seg_post]
  iintro ⟨HQ, Hb, H1, H2, H3, H4, H5, H6, Ho, Hl, Hgt⟩
  isplitl [HQ]
  · iintro ⟨Hb, ⟨H1, H2, H3, H4, H5, H6⟩, Ho⟩
    rw [wp_ret]
    imodintro
    iapply HQ
    isplitl [Hb]; · iexact Hb
    isplitl [H1]; · iexact H1
    isplitl [H2]; · iexact H2
    isplitl [H3]; · iexact H3
    isplitl [H4]; · iexact H4
    isplitl [H5]; · iexact H5
    isplitl [H6]; · iexact H6
    iexact Ho
  isplitl [Hb]; · iexact Hb
  isplitl [H1 H2 H3 H4 H5 H6 Ho]
  · isplitr [Ho]
    · isplitl [H1]; · iexact H1
      isplitl [H2]; · iexact H2
      isplitl [H3]; · iexact H3
      isplitl [H4]; · iexact H4
      isplitl [H5]; · iexact H5
      iexact H6
    iexact Ho
  isplitl [Hl]; · iexact Hl
  iapply (Entails.of_eq (ghost_eq d).symm)
  iexact Hgt

end Cert.Kernel.Hand

end
-- ==== Proof.KRun.lean ====
/-
  The whole program's run: the launch theorem applied to the lookup kernel's task, the split of its operands, @main on the
  TensorCore with the dense layers' region, and what the final memory holds.
-/
import proofs.«207455_g33174327394824_cont_8to1_b_592_21_alg».proof.Proof.KTileBody
import proofs.«207455_g33174327394824_cont_8to1_b_592_21_alg».proof.Proof.KLaunchParts2
import proofs.«207455_g33174327394824_cont_8to1_b_592_21_alg».proof.Proof.KMain
import proofs.«207455_g33174327394824_cont_8to1_b_592_21_alg».proof.Proof.KRegion
import proofs.«207455_g33174327394824_cont_8to1_b_592_21_alg».proof.Proof.PreRange

noncomputable section

namespace Cert.Kernel.Hand

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig (HIx 1) (Elt F) ℕ UU ℕ

attribute [local irreducible] mlpOut outBlk

/-- The dense layers' whole-array function at each device's arrays. -/
abbrev mlpD : ∀ d : Dev nD, Buf (Elt F) ((SparseCore.T d : Thread nD τ).loc main_v1) → Buf (Elt F) ((SparseCore.T d : Thread nD τ).loc main_v2) → Buf (Elt F) ((SparseCore.T d : Thread nD τ).loc main_v3) → Buf (Elt F) ((SparseCore.T d : Thread nD τ).loc main_v4) → Buf (Elt F) ((SparseCore.T d : Thread nD τ).loc main_v5) → Buf (Elt F) ((SparseCore.T d : Thread nD τ).loc main_v6) :=
  fun _ x1 x2 x3 x4 x5 => mlpOut x1 x2 x3 x4 x5

theorem regionHyp : RegionHyp (F := F) mlpD := fun d x1 x2 x3 x4 x5 x6 W0 Q => region_wp x1 x2 x3 x4 x5 x6 W0 d Q

/-- No constraint on the mean rows: the frame's reading. -/
abbrev GdT : S4096x128.Idx → Elt F .f32 → Prop := fun _ _ => True

theorem run_main [∀ e, Nonempty (Elt F e)] (m : (ℓ : Loc nD τ sig) → Buf (Elt F) ℓ) (ρ : Dev nD → PrngReg)
    (hpre : ∀ (d : Dev nD) j, (idsC m d j).toNat < 100000) :
    θ_run (Cert.Kernel.defs (F := F)) (Cert.Kernel.threads (F := F)) ⟨m, fun _ => 0, ρ⟩
      (fun r => ∀ d : Dev nD, ∃ s' : Phys nD τ sig (Elt F), s'.mem = r.2 ∧ fq GdT m mlpD d s') :=
  SparseCore.Cfg.θ_run_sc (K := K (F := F)) (D := D (F := F)) (𝒱 := 𝒱) (EH := EH) (P := P GdT m) facts v₀
    (fun q hq => match q with | 0 => nomatch hq)
    (fun q _ => match q with | 0 => tileObl_of GdT m facts hpre (fun d L q fi ft fo hin O W hO => tile_body facts d L q fi ft fo hin O W hO))
    (fun q _ => match q with | 0 => SparseCore.Cfg.VecSplit.of_plain (vecSplit GdT m))
    m ρ main (fun d => iprop(Pipeline.cellsGhost cfgs EP 0 d ∗ Pipeline.toksInit cfgs EP 0 d)) (FIN GdT m mlpD) (u₀ (F := F))
    (sep_elim_left.trans (hu₀ GdT m)) (hmain_of GdT m ρ mlpD regionHyp) (fq GdT m mlpD) (hfin_of GdT m mlpD)
    _ (fun s' h d => ⟨s', rfl, h d⟩)

end Cert.Kernel.Hand

end
-- ==== Proof.KICommon.lean ====
/-
  What the two parts of the program's proof share: the program as a SparseCore launch, and the ghost state — the
  launch handshakes' rounds, the rounds of the dense layers' staging semaphores, and the counters of the lookup
  kernel's own copies, side by side.
-/
import proofs.«207455_g33174327394824_cont_8to1_b_592_21_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import proofs.«207455_g33174327394824_cont_8to1_b_592_21_alg».proof.Proof.Gen.KernelIdeal
import proofs.«207455_g33174327394824_cont_8to1_b_592_21_alg».proof.Proof.Gen.KernelIdeal.Skeleton
import proofs.«207455_g33174327394824_cont_8to1_b_592_21_alg».proof.Proof.Gen.KernelIdeal.Launch
import proofs.«207455_g33174327394824_cont_8to1_b_592_21_alg».proof.Proof.Gen.KernelIdeal.Points

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds, the left factor. -/
abbrev EH : Emb UH (MT nD τ sig (HIx 1) (Elt F) ℕ UU ℕ) := embL
/-- The staging semaphores' rounds, the middle factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

end Cert.KernelIdeal.Hand

end
-- ==== Proof.KIShares.lean ====
/-
  How the lookup kernel's three arrays are dealt: the index array and the table are only read, so each SparseCore gets a
  read share of both and each of its sixteen vector subcores a share of that; the result array is written by rows, the
  vector subcore with coordinates (c, s) owning the 128 rows from 256·s + 128·c on.
-/
import proofs.«207455_g33174327394824_cont_8to1_b_592_21_alg».proof.Proof.KICommon

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

/-- The index array (reshaped), the table and the mean rows, as locations of device `d`. -/
abbrev idsLoc (d : Dev nD) : Loc nD τ sig := (SparseCore.T d).loc main_v0
abbrev tblLoc (d : Dev nD) : Loc nD τ sig := (SparseCore.T d).loc main_arg1
abbrev outLoc (d : Dev nD) : Loc nD τ sig := (SparseCore.T d).loc main_v1

/-- A vector subcore's grid coordinates. -/
def coordsV (c : Fin (grid0.bound 0)) (s : Fin (grid0.bound 1)) : grid0.Coords :=
  fun | 0 => c | 1 => s | ⟨_ + 2, h⟩ => absurd h (Nat.not_lt.2 (Nat.le_add_left _ _))

abbrev cV (L : grid0.Coords) : Fin τ.nSC := (L 0).castLE hcore0
abbrev jV (L : grid0.Coords) : Fin τ.nSub := (L 1).castLE hsub0
/-- The thread of the vector subcore at coordinates `L` on device `d`. -/
abbrev thr (d : Dev nD) (L : grid0.Coords) : Thread nD τ := V d (cV L) (jV L)

/-- The 128 rows of the result the subcore at `L` writes, as the kernel slices them. -/
abbrev outSlice (L : grid0.Coords) : Memref sig .scVector .hbm S128x128 .f32 :=
  (Memref.whole main_v1_scv).slice (Rect.unit (s := S4096x128) (k0_off50 L) S128x128.size (k0_off50_inb L)) (fun _ => rfl)
abbrev slab (L : grid0.Coords) : Finset S4096x128.Idx := (outSlice L).view.set
/-- The rows of the result written by SparseCore `c`'s subcores together. -/
def coreSlabs (c : Fin (grid0.bound 0)) : Finset S4096x128.Idx := Finset.univ.biUnion fun s : Fin (grid0.bound 1) => slab (coordsV c s)

/-- SparseCore `c`'s read share, and subcore `(c, i)`'s share of it. -/
def qC (c : Fin 2) : PosShare TreeShare := Transfers.shareTok fullShare 2 c
def qT (c : Fin 2) (i : Fin 16) : PosShare TreeShare := Transfers.shareTok (qC c) 16 i

theorem bound_zero : grid0.bound 0 = 2 := rfl
theorem bound_one : grid0.bound 1 = 16 := rfl

/-- What a vector subcore is handed: its shares of the index array and the table, its rows of the result. -/
def goRes (d : Dev nD) (I : Buf (Elt F) (idsLoc d)) (Tb : Buf (Elt F) (tblLoc d)) (O0 : Buf (Elt F) (outLoc d)) (c : Fin 2) (i : Fin 16) : sProp 𝕄 :=
  iprop((idsLoc d ↦{qT c i} I) ∗ (tblLoc d ↦{qT c i} Tb) ∗ (outLoc d ↦[slab (coordsV (Fin.cast bound_zero.symm c) (Fin.cast bound_one.symm i))]{fullShare} O0))
/-- What it hands back: the shares, and its rows at contents every entry of which satisfies `Gd`. -/
def tdRes (Gd : S4096x128.Idx → Elt F .f32 → Prop) (d : Dev nD) (I : Buf (Elt F) (idsLoc d)) (Tb : Buf (Elt F) (tblLoc d)) (c : Fin 2) (i : Fin 16) : sProp 𝕄 :=
  iprop((idsLoc d ↦{qT c i} I) ∗ (tblLoc d ↦{qT c i} Tb)
    ∗ ∃ f : Buf (Elt F) (outLoc d), ⌜∀ j ∈ slab (coordsV (Fin.cast bound_zero.symm c) (Fin.cast bound_one.symm i)), Gd j (f j)⌝
        ∗ (outLoc d ↦[slab (coordsV (Fin.cast bound_zero.symm c) (Fin.cast bound_one.symm i))]{fullShare} f))
/-- What a SparseCore is handed and hands back. -/
def stRes (d : Dev nD) (I : Buf (Elt F) (idsLoc d)) (Tb : Buf (Elt F) (tblLoc d)) (O0 : Buf (Elt F) (outLoc d)) (c : Fin 2) : sProp 𝕄 :=
  iprop((idsLoc d ↦{qC c} I) ∗ (tblLoc d ↦{qC c} Tb) ∗ (outLoc d ↦[coreSlabs (Fin.cast bound_zero.symm c)]{fullShare} O0))
def dnRes (Gd : S4096x128.Idx → Elt F .f32 → Prop) (d : Dev nD) (I : Buf (Elt F) (idsLoc d)) (Tb : Buf (Elt F) (tblLoc d)) (c : Fin 2) : sProp 𝕄 :=
  iprop((idsLoc d ↦{qC c} I) ∗ (tblLoc d ↦{qC c} Tb)
    ∗ ∃ f : Buf (Elt F) (outLoc d), ⌜∀ j ∈ coreSlabs (Fin.cast bound_zero.symm c), Gd j (f j)⌝ ∗ (outLoc d ↦[coreSlabs (Fin.cast bound_zero.symm c)]{fullShare} f))

end Cert.KernelIdeal.Hand

end
-- ==== Proof.Spec.lean ====
/-
  The function both programs compute, index by index, on the extended reals.

  A batch of 4096 token rows of length 50 names rows of a 100000 × 128 table. The MEAN row of batch entry r is the sum of
  the 50 named table rows times the exact reciprocal 1/50; the hidden layer is max(mean · W1 + b1, 0) over 512 units; the
  output is hidden · W2 + b2 over 1000 classes. Sums are over explicit finite index types; addition and multiplication
  are those of the extended reals, where sums may be regrouped and reordered freely.
-/
import Idealize.ShloMosaic.PureOps.Ideal
import Idealize.ShloMosaic.Lib.ValueIdx

noncomputable section

namespace Cert.Spec

open Idealize.ShloMosaic Idealize.ShloMosaic.ValueIdx

/-- The table row a 32-bit word names: its unsigned value (reduced below the table's extent, so that the definition is
    total; for a word in range the reduction does nothing). -/
def rowOf (w : BitVec 32) : Fin 100000 := ⟨w.toNat % 100000, Nat.mod_lt _ (by decide)⟩

theorem rowOf_val_of_lt {w : BitVec 32} (h : w.toNat < 100000) : (rowOf w).val = w.toNat := Nat.mod_eq_of_lt h

variable (ids : (⟨2, ![4096, 50]⟩ : Shape).Idx → BitVec 32) (tbl : (⟨2, ![100000, 128]⟩ : Shape).Idx → EReal)
  (W1 : (⟨2, ![128, 512]⟩ : Shape).Idx → EReal) (b1 : (⟨1, ![512]⟩ : Shape).Idx → EReal)
  (W2 : (⟨2, ![512, 1000]⟩ : Shape).Idx → EReal) (b2 : (⟨1, ![1000]⟩ : Shape).Idx → EReal)

/-- Entry e of the sum of the 50 table rows batch entry r names. -/
def rowSum (r : Fin 4096) (e : Fin 128) : EReal := ∑ l : Fin 50, tbl (ix2 (rowOf (ids (ix2 r l))) e)

/-- The mean row: the sum times the exact 1/50. -/
def mean (r : Fin 4096) (e : Fin 128) : EReal := rowSum ids tbl r e * ((1 / 50 : ℝ) : EReal)

/-- The mean rows as an array. -/
def meanArr : (⟨2, ![4096, 128]⟩ : Shape).Idx → EReal := fun j => mean ids tbl (j 0) (j 1)

/-- One hidden unit: max(Σ_k x(r,k) · W1(k,j) + b1(j), 0), for ANY array x of mean rows. -/
def hidOf (x : (⟨2, ![4096, 128]⟩ : Shape).Idx → EReal) (r : Fin 4096) (j : Fin 512) : EReal :=
  max ((∑ k : Fin 128, x (ix2 r k) * W1 (ix2 k j)) + b1 (ix1 j)) 0

/-- One output entry: Σ_j hidden(r,j) · W2(j,n) + b2(n), for ANY array x of mean rows. -/
def outOf (x : (⟨2, ![4096, 128]⟩ : Shape).Idx → EReal) : (⟨2, ![4096, 1000]⟩ : Shape).Idx → EReal :=
  fun i => (∑ j : Fin 512, hidOf W1 b1 x (i 0) j * W2 (ix2 j (i 1))) + b2 (ix1 (i 1))

/-- The whole function of the six argument arrays. -/
def out : (⟨2, ![4096, 1000]⟩ : Shape).Idx → EReal := outOf W1 b1 W2 b2 (meanArr ids tbl)

end Cert.Spec

end
-- ==== Proof.KIVal.lean ====
/-
  The values the lookup kernel computes, as pure functions over any float instance.

  A chunk of the index array names 100 table rows; gathered, they form a 100 × 128 array g. The kernel keeps, per half
  r ∈ {0, 1} of the chunk and per sixteen-lane column group dd ∈ {0..7}, a running sum over the half's 50 rows, adding two
  rows per trip for 25 trips from the zero vector, then multiplies by the reciprocal constant and lays the sixteen lanes out
  as a 1 × 16 row of the accumulator scratch. All of it is stated here with the float operations left abstract.
-/
import proofs.«207455_g33174327394824_cont_8to1_b_592_21_alg».proof.Proof.KICommon
import proofs.«207455_g33174327394824_cont_8to1_b_592_21_alg».proof.Proof.Spec
import Idealize.ShloMosaic.Lib.ValueIdx
import Idealize.ShloMosaic.Lib.ValueLayout

noncomputable section

namespace Cert.KernelIdeal.HandVal

open Cert.KernelIdeal Cert.KernelIdeal.Gen
open Idealize.ShloMosaic Idealize.ShloMosaic.ValueIdx

variable {F : FTy → Type} [FloatOps F] [Named F]

/-- The reciprocal constant as the kernel spells it. -/
def inv50c : F .f32 := Named.named κ "inv_50" 0x3CA3D70A#32

/-- Sixteen accumulators. -/
abbrev Acc16 (F : FTy → Type) : Type := (FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32)

/-- One accumulator's trip: add the two loaded 1 × 16 rows, each cast to sixteen lanes. -/
def step1 (a : FVec F S16 .f32) (v1 v2 : Vec F S1x16 .f32) : FVec F S16 .f32 :=
  addf (addf a (shapeCast S16 v1 shapeCasts_S1x16_S16)) (shapeCast S16 v2 shapeCasts_S1x16_S16)

/-- What is stored for an accumulator: times the reciprocal constant, as a 1 × 16 row. -/
def storeVec (w : FVec F S16 .f32) : FVec F S1x16 .f32 :=
  shapeCast S1x16 (mulf w (broadcast S16 (inv50c (F := F)))) shapeCasts_S16_S1x16

/-- Sixteen lanes of row ρ of a 100 × 128 array, from column 16·dd on (zero outside the array). -/
def rowV (g : S100x128.Idx → F .f32) (ρ dd : ℕ) : FVec F S16 .f32 :=
  fun lane => if h : ρ < 100 ∧ 16 * dd + (lane 0).val < 128 then g (ix2 ⟨ρ, h.1⟩ ⟨16 * dd + (lane 0).val, h.2⟩) else FloatOps.ofBits .f32 0#32

/-- The running sum of half r, column group dd, after n rows. -/
def psumV (g : S100x128.Idx → F .f32) (r dd : ℕ) : ℕ → FVec F S16 .f32
  | 0 => broadcast S16 (FloatOps.ofBits .f32 0#32)
  | n + 1 => addf (psumV g r dd n) (rowV g (50 * r + n) dd)

/-- The gathered rows of chunk n of the index array: row j is the table row the j-th word names. -/
def gath (fi : S2048x100.Idx → BitVec 32) (ft : S100000x128.Idx → F .f32) (n : ℕ) : S100x128.Idx → F .f32 :=
  fun x => if h : n < 2048 then ft (ix2 (Cert.Spec.rowOf (fi (ix2 ⟨n, h⟩ (x 0)))) (x 1)) else FloatOps.ofBits .f32 0#32

/-- The accumulator scratch of the subcore whose first chunk is `base`: row ρ = 2·cc + r holds half r of chunk base + cc. -/
def Macc (fi : S2048x100.Idx → BitVec 32) (ft : S100000x128.Idx → F .f32) (base : ℕ) : S128x128.Idx → F .f32 :=
  fun y => storeVec (psumV (gath fi ft (base + (y 0).val / 2)) ((y 0).val % 2) ((y 1).val / 16) 50)
    (ix2 (0 : Fin 1) ⟨(y 1).val % 16, Nat.mod_lt _ (by decide)⟩)

/-- The index list of chunk n. -/
def IdxIs (fi : S2048x100.Idx → BitVec 32) (n : ℕ) (i : S100.Idx → BitVec 32) : Prop :=
  ∃ h : n < 2048, ∀ x : S100.Idx, i x = fi (ix2 ⟨n, h⟩ (x 0))
/-- The rows a list gathers. -/
def RowsAre (ft : S100000x128.Idx → F .f32) (i : S100.Idx → BitVec 32) (g : S100x128.Idx → F .f32) : Prop :=
  ∀ x : S100x128.Idx, g x = ft (ix2 (Cert.Spec.rowOf (i (ix1 (x 0)))) (x 1))
/-- The accumulator scratch is right on its first 8·k rows. -/
def AOK (fi : S2048x100.Idx → BitVec 32) (ft : S100000x128.Idx → F .f32) (base k : ℕ) (a : S128x128.Idx → F .f32) : Prop :=
  ∀ y : S128x128.Idx, (y 0).val < 8 * k → a y = Macc fi ft base y

end Cert.KernelIdeal.HandVal

end
-- ==== Proof.KIVal2.lean ====
/-
  The sixteen accumulators as one tuple, one trip of a slot's reduction loop over what it loads, and the 64 rows a trip of the
  chunk loop stores into the accumulator scratch, as the list of pieces in the order they are written, last first.
-/
import proofs.«207455_g33174327394824_cont_8to1_b_592_21_alg».proof.Proof.KIVal
import Idealize.ShloMosaic.Lib.Writes

noncomputable section

namespace Cert.KernelIdeal.HandVal

open Cert.KernelIdeal Cert.KernelIdeal.Gen
open Idealize.ShloMosaic Idealize.ShloMosaic.ValueIdx

variable {F : FTy → Type} [FloatOps F] [Named F]

/-- The sixteen running sums after n rows: halves 0 and 1, column groups 0..7. -/
def psumTuple (g : S100x128.Idx → F .f32) (n : ℕ) : Acc16 F :=
  (psumV g 0 0 n, psumV g 0 1 n, psumV g 0 2 n, psumV g 0 3 n, psumV g 0 4 n, psumV g 0 5 n, psumV g 0 6 n, psumV g 0 7 n,
   psumV g 1 0 n, psumV g 1 1 n, psumV g 1 2 n, psumV g 1 3 n, psumV g 1 4 n, psumV g 1 5 n, psumV g 1 6 n, psumV g 1 7 n)

/-- Slot 0: the 1 × 16 row the reduction loop's trip j loads for half r, second-row flag u, column group dd. -/
def ld0 (X : S100x128.Idx → F .f32) (dd : Fin 8) (j : Fin k0_t2_loop.trips) (r u : Fin 2) : Vec F S1x16 .f32 :=
  match dd with
  | ⟨0, _⟩ => View.readAt (Elt F) (Memref.whole cc0_scratch4 : Memref sig .scVector .vmem S100x128 .f32).view (Rect.unit (s := S100x128) (k0_off3 j (BitVec.ofNat 32 (50 * r.val)) (BitVec.ofNat 32 u.val)) S1x16.size (k0_off3_inb j r u)).toLoadRect X
  | ⟨1, _⟩ => View.readAt (Elt F) (Memref.whole cc0_scratch4 : Memref sig .scVector .vmem S100x128 .f32).view (Rect.unit (s := S100x128) (k0_off4 j (BitVec.ofNat 32 (50 * r.val)) (BitVec.ofNat 32 u.val)) S1x16.size (k0_off4_inb j r u)).toLoadRect X
  | ⟨2, _⟩ => View.readAt (Elt F) (Memref.whole cc0_scratch4 : Memref sig .scVector .vmem S100x128 .f32).view (Rect.unit (s := S100x128) (k0_off5 j (BitVec.ofNat 32 (50 * r.val)) (BitVec.ofNat 32 u.val)) S1x16.size (k0_off5_inb j r u)).toLoadRect X
  | ⟨3, _⟩ => View.readAt (Elt F) (Memref.whole cc0_scratch4 : Memref sig .scVector .vmem S100x128 .f32).view (Rect.unit (s := S100x128) (k0_off6 j (BitVec.ofNat 32 (50 * r.val)) (BitVec.ofNat 32 u.val)) S1x16.size (k0_off6_inb j r u)).toLoadRect X
  | ⟨4, _⟩ => View.readAt (Elt F) (Memref.whole cc0_scratch4 : Memref sig .scVector .vmem S100x128 .f32).view (Rect.unit (s := S100x128) (k0_off7 j (BitVec.ofNat 32 (50 * r.val)) (BitVec.ofNat 32 u.val)) S1x16.size (k0_off7_inb j r u)).toLoadRect X
  | ⟨5, _⟩ => View.readAt (Elt F) (Memref.whole cc0_scratch4 : Memref sig .scVector .vmem S100x128 .f32).view (Rect.unit (s := S100x128) (k0_off8 j (BitVec.ofNat 32 (50 * r.val)) (BitVec.ofNat 32 u.val)) S1x16.size (k0_off8_inb j r u)).toLoadRect X
  | ⟨6, _⟩ => View.readAt (Elt F) (Memref.whole cc0_scratch4 : Memref sig .scVector .vmem S100x128 .f32).view (Rect.unit (s := S100x128) (k0_off9 j (BitVec.ofNat 32 (50 * r.val)) (BitVec.ofNat 32 u.val)) S1x16.size (k0_off9_inb j r u)).toLoadRect X
  | ⟨7, _⟩ => View.readAt (Elt F) (Memref.whole cc0_scratch4 : Memref sig .scVector .vmem S100x128 .f32).view (Rect.unit (s := S100x128) (k0_off10 j (BitVec.ofNat 32 (50 * r.val)) (BitVec.ofNat 32 u.val)) S1x16.size (k0_off10_inb j r u)).toLoadRect X
  | ⟨_ + 8, h⟩ => absurd h (by omega)

/-- Slot 0: one trip of the sixteen accumulators. -/
def stepT0 (X : S100x128.Idx → F .f32) (j : Fin k0_t2_loop.trips) (acc : Acc16 F) : Acc16 F :=
  match acc with
  | (a0, a1, a2, a3, a4, a5, a6, a7, a8, a9, a10, a11, a12, a13, a14, a15) =>
    (step1 a0 (ld0 X 0 j 0 0) (ld0 X 0 j 0 1), step1 a1 (ld0 X 1 j 0 0) (ld0 X 1 j 0 1), step1 a2 (ld0 X 2 j 0 0) (ld0 X 2 j 0 1), step1 a3 (ld0 X 3 j 0 0) (ld0 X 3 j 0 1), step1 a4 (ld0 X 4 j 0 0) (ld0 X 4 j 0 1), step1 a5 (ld0 X 5 j 0 0) (ld0 X 5 j 0 1), step1 a6 (ld0 X 6 j 0 0) (ld0 X 6 j 0 1), step1 a7 (ld0 X 7 j 0 0) (ld0 X 7 j 0 1),
     step1 a8 (ld0 X 0 j 1 0) (ld0 X 0 j 1 1), step1 a9 (ld0 X 1 j 1 0) (ld0 X 1 j 1 1), step1 a10 (ld0 X 2 j 1 0) (ld0 X 2 j 1 1), step1 a11 (ld0 X 3 j 1 0) (ld0 X 3 j 1 1), step1 a12 (ld0 X 4 j 1 0) (ld0 X 4 j 1 1), step1 a13 (ld0 X 5 j 1 0) (ld0 X 5 j 1 1), step1 a14 (ld0 X 6 j 1 0) (ld0 X 6 j 1 1), step1 a15 (ld0 X 7 j 1 0) (ld0 X 7 j 1 1))

/-- Slot 1: the 1 × 16 row the reduction loop's trip j loads for half r, second-row flag u, column group dd. -/
def ld1 (X : S100x128.Idx → F .f32) (dd : Fin 8) (j : Fin k0_t3_loop.trips) (r u : Fin 2) : Vec F S1x16 .f32 :=
  match dd with
  | ⟨0, _⟩ => View.readAt (Elt F) (Memref.whole cc0_scratch5 : Memref sig .scVector .vmem S100x128 .f32).view (Rect.unit (s := S100x128) (k0_off21 j (BitVec.ofNat 32 (50 * r.val)) (BitVec.ofNat 32 u.val)) S1x16.size (k0_off21_inb j r u)).toLoadRect X
  | ⟨1, _⟩ => View.readAt (Elt F) (Memref.whole cc0_scratch5 : Memref sig .scVector .vmem S100x128 .f32).view (Rect.unit (s := S100x128) (k0_off22 j (BitVec.ofNat 32 (50 * r.val)) (BitVec.ofNat 32 u.val)) S1x16.size (k0_off22_inb j r u)).toLoadRect X
  | ⟨2, _⟩ => View.readAt (Elt F) (Memref.whole cc0_scratch5 : Memref sig .scVector .vmem S100x128 .f32).view (Rect.unit (s := S100x128) (k0_off23 j (BitVec.ofNat 32 (50 * r.val)) (BitVec.ofNat 32 u.val)) S1x16.size (k0_off23_inb j r u)).toLoadRect X
  | ⟨3, _⟩ => View.readAt (Elt F) (Memref.whole cc0_scratch5 : Memref sig .scVector .vmem S100x128 .f32).view (Rect.unit (s := S100x128) (k0_off24 j (BitVec.ofNat 32 (50 * r.val)) (BitVec.ofNat 32 u.val)) S1x16.size (k0_off24_inb j r u)).toLoadRect X
  | ⟨4, _⟩ => View.readAt (Elt F) (Memref.whole cc0_scratch5 : Memref sig .scVector .vmem S100x128 .f32).view (Rect.unit (s := S100x128) (k0_off25 j (BitVec.ofNat 32 (50 * r.val)) (BitVec.ofNat 32 u.val)) S1x16.size (k0_off25_inb j r u)).toLoadRect X
  | ⟨5, _⟩ => View.readAt (Elt F) (Memref.whole cc0_scratch5 : Memref sig .scVector .vmem S100x128 .f32).view (Rect.unit (s := S100x128) (k0_off26 j (BitVec.ofNat 32 (50 * r.val)) (BitVec.ofNat 32 u.val)) S1x16.size (k0_off26_inb j r u)).toLoadRect X
  | ⟨6, _⟩ => View.readAt (Elt F) (Memref.whole cc0_scratch5 : Memref sig .scVector .vmem S100x128 .f32).view (Rect.unit (s := S100x128) (k0_off27 j (BitVec.ofNat 32 (50 * r.val)) (BitVec.ofNat 32 u.val)) S1x16.size (k0_off27_inb j r u)).toLoadRect X
  | ⟨7, _⟩ => View.readAt (Elt F) (Memref.whole cc0_scratch5 : Memref sig .scVector .vmem S100x128 .f32).view (Rect.unit (s := S100x128) (k0_off28 j (BitVec.ofNat 32 (50 * r.val)) (BitVec.ofNat 32 u.val)) S1x16.size (k0_off28_inb j r u)).toLoadRect X
  | ⟨_ + 8, h⟩ => absurd h (by omega)

/-- Slot 1: one trip of the sixteen accumulators. -/
def stepT1 (X : S100x128.Idx → F .f32) (j : Fin k0_t3_loop.trips) (acc : Acc16 F) : Acc16 F :=
  match acc with
  | (a0, a1, a2, a3, a4, a5, a6, a7, a8, a9, a10, a11, a12, a13, a14, a15) =>
    (step1 a0 (ld1 X 0 j 0 0) (ld1 X 0 j 0 1), step1 a1 (ld1 X 1 j 0 0) (ld1 X 1 j 0 1), step1 a2 (ld1 X 2 j 0 0) (ld1 X 2 j 0 1), step1 a3 (ld1 X 3 j 0 0) (ld1 X 3 j 0 1), step1 a4 (ld1 X 4 j 0 0) (ld1 X 4 j 0 1), step1 a5 (ld1 X 5 j 0 0) (ld1 X 5 j 0 1), step1 a6 (ld1 X 6 j 0 0) (ld1 X 6 j 0 1), step1 a7 (ld1 X 7 j 0 0) (ld1 X 7 j 0 1),
     step1 a8 (ld1 X 0 j 1 0) (ld1 X 0 j 1 1), step1 a9 (ld1 X 1 j 1 0) (ld1 X 1 j 1 1), step1 a10 (ld1 X 2 j 1 0) (ld1 X 2 j 1 1), step1 a11 (ld1 X 3 j 1 0) (ld1 X 3 j 1 1), step1 a12 (ld1 X 4 j 1 0) (ld1 X 4 j 1 1), step1 a13 (ld1 X 5 j 1 0) (ld1 X 5 j 1 1), step1 a14 (ld1 X 6 j 1 0) (ld1 X 6 j 1 1), step1 a15 (ld1 X 7 j 1 0) (ld1 X 7 j 1 1))

/-- Slot 2: the 1 × 16 row the reduction loop's trip j loads for half r, second-row flag u, column group dd. -/
def ld2 (X : S100x128.Idx → F .f32) (dd : Fin 8) (j : Fin k0_t4_loop.trips) (r u : Fin 2) : Vec F S1x16 .f32 :=
  match dd with
  | ⟨0, _⟩ => View.readAt (Elt F) (Memref.whole cc0_scratch6 : Memref sig .scVector .vmem S100x128 .f32).view (Rect.unit (s := S100x128) (k0_off31 j (BitVec.ofNat 32 (50 * r.val)) (BitVec.ofNat 32 u.val)) S1x16.size (k0_off31_inb j r u)).toLoadRect X
  | ⟨1, _⟩ => View.readAt (Elt F) (Memref.whole cc0_scratch6 : Memref sig .scVector .vmem S100x128 .f32).view (Rect.unit (s := S100x128) (k0_off32 j (BitVec.ofNat 32 (50 * r.val)) (BitVec.ofNat 32 u.val)) S1x16.size (k0_off32_inb j r u)).toLoadRect X
  | ⟨2, _⟩ => View.readAt (Elt F) (Memref.whole cc0_scratch6 : Memref sig .scVector .vmem S100x128 .f32).view (Rect.unit (s := S100x128) (k0_off33 j (BitVec.ofNat 32 (50 * r.val)) (BitVec.ofNat 32 u.val)) S1x16.size (k0_off33_inb j r u)).toLoadRect X
  | ⟨3, _⟩ => View.readAt (Elt F) (Memref.whole cc0_scratch6 : Memref sig .scVector .vmem S100x128 .f32).view (Rect.unit (s := S100x128) (k0_off34 j (BitVec.ofNat 32 (50 * r.val)) (BitVec.ofNat 32 u.val)) S1x16.size (k0_off34_inb j r u)).toLoadRect X
  | ⟨4, _⟩ => View.readAt (Elt F) (Memref.whole cc0_scratch6 : Memref sig .scVector .vmem S100x128 .f32).view (Rect.unit (s := S100x128) (k0_off35 j (BitVec.ofNat 32 (50 * r.val)) (BitVec.ofNat 32 u.val)) S1x16.size (k0_off35_inb j r u)).toLoadRect X
  | ⟨5, _⟩ => View.readAt (Elt F) (Memref.whole cc0_scratch6 : Memref sig .scVector .vmem S100x128 .f32).view (Rect.unit (s := S100x128) (k0_off36 j (BitVec.ofNat 32 (50 * r.val)) (BitVec.ofNat 32 u.val)) S1x16.size (k0_off36_inb j r u)).toLoadRect X
  | ⟨6, _⟩ => View.readAt (Elt F) (Memref.whole cc0_scratch6 : Memref sig .scVector .vmem S100x128 .f32).view (Rect.unit (s := S100x128) (k0_off37 j (BitVec.ofNat 32 (50 * r.val)) (BitVec.ofNat 32 u.val)) S1x16.size (k0_off37_inb j r u)).toLoadRect X
  | ⟨7, _⟩ => View.readAt (Elt F) (Memref.whole cc0_scratch6 : Memref sig .scVector .vmem S100x128 .f32).view (Rect.unit (s := S100x128) (k0_off38 j (BitVec.ofNat 32 (50 * r.val)) (BitVec.ofNat 32 u.val)) S1x16.size (k0_off38_inb j r u)).toLoadRect X
  | ⟨_ + 8, h⟩ => absurd h (by omega)

/-- Slot 2: one trip of the sixteen accumulators. -/
def stepT2 (X : S100x128.Idx → F .f32) (j : Fin k0_t4_loop.trips) (acc : Acc16 F) : Acc16 F :=
  match acc with
  | (a0, a1, a2, a3, a4, a5, a6, a7, a8, a9, a10, a11, a12, a13, a14, a15) =>
    (step1 a0 (ld2 X 0 j 0 0) (ld2 X 0 j 0 1), step1 a1 (ld2 X 1 j 0 0) (ld2 X 1 j 0 1), step1 a2 (ld2 X 2 j 0 0) (ld2 X 2 j 0 1), step1 a3 (ld2 X 3 j 0 0) (ld2 X 3 j 0 1), step1 a4 (ld2 X 4 j 0 0) (ld2 X 4 j 0 1), step1 a5 (ld2 X 5 j 0 0) (ld2 X 5 j 0 1), step1 a6 (ld2 X 6 j 0 0) (ld2 X 6 j 0 1), step1 a7 (ld2 X 7 j 0 0) (ld2 X 7 j 0 1),
     step1 a8 (ld2 X 0 j 1 0) (ld2 X 0 j 1 1), step1 a9 (ld2 X 1 j 1 0) (ld2 X 1 j 1 1), step1 a10 (ld2 X 2 j 1 0) (ld2 X 2 j 1 1), step1 a11 (ld2 X 3 j 1 0) (ld2 X 3 j 1 1), step1 a12 (ld2 X 4 j 1 0) (ld2 X 4 j 1 1), step1 a13 (ld2 X 5 j 1 0) (ld2 X 5 j 1 1), step1 a14 (ld2 X 6 j 1 0) (ld2 X 6 j 1 1), step1 a15 (ld2 X 7 j 1 0) (ld2 X 7 j 1 1))

/-- Slot 3: the 1 × 16 row the reduction loop's trip j loads for half r, second-row flag u, column group dd. -/
def ld3 (X : S100x128.Idx → F .f32) (dd : Fin 8) (j : Fin k0_t5_loop.trips) (r u : Fin 2) : Vec F S1x16 .f32 :=
  match dd with
  | ⟨0, _⟩ => View.readAt (Elt F) (Memref.whole cc0_scratch7 : Memref sig .scVector .vmem S100x128 .f32).view (Rect.unit (s := S100x128) (k0_off41 j (BitVec.ofNat 32 (50 * r.val)) (BitVec.ofNat 32 u.val)) S1x16.size (k0_off41_inb j r u)).toLoadRect X
  | ⟨1, _⟩ => View.readAt (Elt F) (Memref.whole cc0_scratch7 : Memref sig .scVector .vmem S100x128 .f32).view (Rect.unit (s := S100x128) (k0_off42 j (BitVec.ofNat 32 (50 * r.val)) (BitVec.ofNat 32 u.val)) S1x16.size (k0_off42_inb j r u)).toLoadRect X
  | ⟨2, _⟩ => View.readAt (Elt F) (Memref.whole cc0_scratch7 : Memref sig .scVector .vmem S100x128 .f32).view (Rect.unit (s := S100x128) (k0_off43 j (BitVec.ofNat 32 (50 * r.val)) (BitVec.ofNat 32 u.val)) S1x16.size (k0_off43_inb j r u)).toLoadRect X
  | ⟨3, _⟩ => View.readAt (Elt F) (Memref.whole cc0_scratch7 : Memref sig .scVector .vmem S100x128 .f32).view (Rect.unit (s := S100x128) (k0_off44 j (BitVec.ofNat 32 (50 * r.val)) (BitVec.ofNat 32 u.val)) S1x16.size (k0_off44_inb j r u)).toLoadRect X
  | ⟨4, _⟩ => View.readAt (Elt F) (Memref.whole cc0_scratch7 : Memref sig .scVector .vmem S100x128 .f32).view (Rect.unit (s := S100x128) (k0_off45 j (BitVec.ofNat 32 (50 * r.val)) (BitVec.ofNat 32 u.val)) S1x16.size (k0_off45_inb j r u)).toLoadRect X
  | ⟨5, _⟩ => View.readAt (Elt F) (Memref.whole cc0_scratch7 : Memref sig .scVector .vmem S100x128 .f32).view (Rect.unit (s := S100x128) (k0_off46 j (BitVec.ofNat 32 (50 * r.val)) (BitVec.ofNat 32 u.val)) S1x16.size (k0_off46_inb j r u)).toLoadRect X
  | ⟨6, _⟩ => View.readAt (Elt F) (Memref.whole cc0_scratch7 : Memref sig .scVector .vmem S100x128 .f32).view (Rect.unit (s := S100x128) (k0_off47 j (BitVec.ofNat 32 (50 * r.val)) (BitVec.ofNat 32 u.val)) S1x16.size (k0_off47_inb j r u)).toLoadRect X
  | ⟨7, _⟩ => View.readAt (Elt F) (Memref.whole cc0_scratch7 : Memref sig .scVector .vmem S100x128 .f32).view (Rect.unit (s := S100x128) (k0_off48 j (BitVec.ofNat 32 (50 * r.val)) (BitVec.ofNat 32 u.val)) S1x16.size (k0_off48_inb j r u)).toLoadRect X
  | ⟨_ + 8, h⟩ => absurd h (by omega)

/-- Slot 3: one trip of the sixteen accumulators. -/
def stepT3 (X : S100x128.Idx → F .f32) (j : Fin k0_t5_loop.trips) (acc : Acc16 F) : Acc16 F :=
  match acc with
  | (a0, a1, a2, a3, a4, a5, a6, a7, a8, a9, a10, a11, a12, a13, a14, a15) =>
    (step1 a0 (ld3 X 0 j 0 0) (ld3 X 0 j 0 1), step1 a1 (ld3 X 1 j 0 0) (ld3 X 1 j 0 1), step1 a2 (ld3 X 2 j 0 0) (ld3 X 2 j 0 1), step1 a3 (ld3 X 3 j 0 0) (ld3 X 3 j 0 1), step1 a4 (ld3 X 4 j 0 0) (ld3 X 4 j 0 1), step1 a5 (ld3 X 5 j 0 0) (ld3 X 5 j 0 1), step1 a6 (ld3 X 6 j 0 0) (ld3 X 6 j 0 1), step1 a7 (ld3 X 7 j 0 0) (ld3 X 7 j 0 1),
     step1 a8 (ld3 X 0 j 1 0) (ld3 X 0 j 1 1), step1 a9 (ld3 X 1 j 1 0) (ld3 X 1 j 1 1), step1 a10 (ld3 X 2 j 1 0) (ld3 X 2 j 1 1), step1 a11 (ld3 X 3 j 1 0) (ld3 X 3 j 1 1), step1 a12 (ld3 X 4 j 1 0) (ld3 X 4 j 1 1), step1 a13 (ld3 X 5 j 1 0) (ld3 X 5 j 1 1), step1 a14 (ld3 X 6 j 1 0) (ld3 X 6 j 1 1), step1 a15 (ld3 X 7 j 1 0) (ld3 X 7 j 1 1))

/-- The 64 pieces one trip k of the chunk loop writes into the 128 × 128 accumulator scratch, last first: slot b, half r,
    column group dd at row 8·k + 2·b + r, columns 16·dd .. 16·dd + 15. -/
def pieceL (k : Fin k0_t1_loop.trips) (Wv : Fin 4 → Fin 2 → Fin 8 → FVec F S16 .f32) : List (View.Piece (Elt F) S128x128 .f32) :=
  [⟨Rect.unit (s := S128x128) (k0_off18 k 3#32 1#32) S1x16.size (k0_off18_inb k 3 1), storeVec (Wv 3 1 7)⟩,
   ⟨Rect.unit (s := S128x128) (k0_off17 k 3#32 1#32) S1x16.size (k0_off17_inb k 3 1), storeVec (Wv 3 1 6)⟩,
   ⟨Rect.unit (s := S128x128) (k0_off16 k 3#32 1#32) S1x16.size (k0_off16_inb k 3 1), storeVec (Wv 3 1 5)⟩,
   ⟨Rect.unit (s := S128x128) (k0_off15 k 3#32 1#32) S1x16.size (k0_off15_inb k 3 1), storeVec (Wv 3 1 4)⟩,
   ⟨Rect.unit (s := S128x128) (k0_off14 k 3#32 1#32) S1x16.size (k0_off14_inb k 3 1), storeVec (Wv 3 1 3)⟩,
   ⟨Rect.unit (s := S128x128) (k0_off13 k 3#32 1#32) S1x16.size (k0_off13_inb k 3 1), storeVec (Wv 3 1 2)⟩,
   ⟨Rect.unit (s := S128x128) (k0_off12 k 3#32 1#32) S1x16.size (k0_off12_inb k 3 1), storeVec (Wv 3 1 1)⟩,
   ⟨Rect.unit (s := S128x128) (k0_off11 k 3#32 1#32) S1x16.size (k0_off11_inb k 3 1), storeVec (Wv 3 1 0)⟩,
   ⟨Rect.unit (s := S128x128) (k0_off18 k 3#32 0#32) S1x16.size (k0_off18_inb k 3 0), storeVec (Wv 3 0 7)⟩,
   ⟨Rect.unit (s := S128x128) (k0_off17 k 3#32 0#32) S1x16.size (k0_off17_inb k 3 0), storeVec (Wv 3 0 6)⟩,
   ⟨Rect.unit (s := S128x128) (k0_off16 k 3#32 0#32) S1x16.size (k0_off16_inb k 3 0), storeVec (Wv 3 0 5)⟩,
   ⟨Rect.unit (s := S128x128) (k0_off15 k 3#32 0#32) S1x16.size (k0_off15_inb k 3 0), storeVec (Wv 3 0 4)⟩,
   ⟨Rect.unit (s := S128x128) (k0_off14 k 3#32 0#32) S1x16.size (k0_off14_inb k 3 0), storeVec (Wv 3 0 3)⟩,
   ⟨Rect.unit (s := S128x128) (k0_off13 k 3#32 0#32) S1x16.size (k0_off13_inb k 3 0), storeVec (Wv 3 0 2)⟩,
   ⟨Rect.unit (s := S128x128) (k0_off12 k 3#32 0#32) S1x16.size (k0_off12_inb k 3 0), storeVec (Wv 3 0 1)⟩,
   ⟨Rect.unit (s := S128x128) (k0_off11 k 3#32 0#32) S1x16.size (k0_off11_inb k 3 0), storeVec (Wv 3 0 0)⟩,
   ⟨Rect.unit (s := S128x128) (k0_off18 k 2#32 1#32) S1x16.size (k0_off18_inb k 2 1), storeVec (Wv 2 1 7)⟩,
   ⟨Rect.unit (s := S128x128) (k0_off17 k 2#32 1#32) S1x16.size (k0_off17_inb k 2 1), storeVec (Wv 2 1 6)⟩,
   ⟨Rect.unit (s := S128x128) (k0_off16 k 2#32 1#32) S1x16.size (k0_off16_inb k 2 1), storeVec (Wv 2 1 5)⟩,
   ⟨Rect.unit (s := S128x128) (k0_off15 k 2#32 1#32) S1x16.size (k0_off15_inb k 2 1), storeVec (Wv 2 1 4)⟩,
   ⟨Rect.unit (s := S128x128) (k0_off14 k 2#32 1#32) S1x16.size (k0_off14_inb k 2 1), storeVec (Wv 2 1 3)⟩,
   ⟨Rect.unit (s := S128x128) (k0_off13 k 2#32 1#32) S1x16.size (k0_off13_inb k 2 1), storeVec (Wv 2 1 2)⟩,
   ⟨Rect.unit (s := S128x128) (k0_off12 k 2#32 1#32) S1x16.size (k0_off12_inb k 2 1), storeVec (Wv 2 1 1)⟩,
   ⟨Rect.unit (s := S128x128) (k0_off11 k 2#32 1#32) S1x16.size (k0_off11_inb k 2 1), storeVec (Wv 2 1 0)⟩,
   ⟨Rect.unit (s := S128x128) (k0_off18 k 2#32 0#32) S1x16.size (k0_off18_inb k 2 0), storeVec (Wv 2 0 7)⟩,
   ⟨Rect.unit (s := S128x128) (k0_off17 k 2#32 0#32) S1x16.size (k0_off17_inb k 2 0), storeVec (Wv 2 0 6)⟩,
   ⟨Rect.unit (s := S128x128) (k0_off16 k 2#32 0#32) S1x16.size (k0_off16_inb k 2 0), storeVec (Wv 2 0 5)⟩,
   ⟨Rect.unit (s := S128x128) (k0_off15 k 2#32 0#32) S1x16.size (k0_off15_inb k 2 0), storeVec (Wv 2 0 4)⟩,
   ⟨Rect.unit (s := S128x128) (k0_off14 k 2#32 0#32) S1x16.size (k0_off14_inb k 2 0), storeVec (Wv 2 0 3)⟩,
   ⟨Rect.unit (s := S128x128) (k0_off13 k 2#32 0#32) S1x16.size (k0_off13_inb k 2 0), storeVec (Wv 2 0 2)⟩,
   ⟨Rect.unit (s := S128x128) (k0_off12 k 2#32 0#32) S1x16.size (k0_off12_inb k 2 0), storeVec (Wv 2 0 1)⟩,
   ⟨Rect.unit (s := S128x128) (k0_off11 k 2#32 0#32) S1x16.size (k0_off11_inb k 2 0), storeVec (Wv 2 0 0)⟩,
   ⟨Rect.unit (s := S128x128) (k0_off18 k 1#32 1#32) S1x16.size (k0_off18_inb k 1 1), storeVec (Wv 1 1 7)⟩,
   ⟨Rect.unit (s := S128x128) (k0_off17 k 1#32 1#32) S1x16.size (k0_off17_inb k 1 1), storeVec (Wv 1 1 6)⟩,
   ⟨Rect.unit (s := S128x128) (k0_off16 k 1#32 1#32) S1x16.size (k0_off16_inb k 1 1), storeVec (Wv 1 1 5)⟩,
   ⟨Rect.unit (s := S128x128) (k0_off15 k 1#32 1#32) S1x16.size (k0_off15_inb k 1 1), storeVec (Wv 1 1 4)⟩,
   ⟨Rect.unit (s := S128x128) (k0_off14 k 1#32 1#32) S1x16.size (k0_off14_inb k 1 1), storeVec (Wv 1 1 3)⟩,
   ⟨Rect.unit (s := S128x128) (k0_off13 k 1#32 1#32) S1x16.size (k0_off13_inb k 1 1), storeVec (Wv 1 1 2)⟩,
   ⟨Rect.unit (s := S128x128) (k0_off12 k 1#32 1#32) S1x16.size (k0_off12_inb k 1 1), storeVec (Wv 1 1 1)⟩,
   ⟨Rect.unit (s := S128x128) (k0_off11 k 1#32 1#32) S1x16.size (k0_off11_inb k 1 1), storeVec (Wv 1 1 0)⟩,
   ⟨Rect.unit (s := S128x128) (k0_off18 k 1#32 0#32) S1x16.size (k0_off18_inb k 1 0), storeVec (Wv 1 0 7)⟩,
   ⟨Rect.unit (s := S128x128) (k0_off17 k 1#32 0#32) S1x16.size (k0_off17_inb k 1 0), storeVec (Wv 1 0 6)⟩,
   ⟨Rect.unit (s := S128x128) (k0_off16 k 1#32 0#32) S1x16.size (k0_off16_inb k 1 0), storeVec (Wv 1 0 5)⟩,
   ⟨Rect.unit (s := S128x128) (k0_off15 k 1#32 0#32) S1x16.size (k0_off15_inb k 1 0), storeVec (Wv 1 0 4)⟩,
   ⟨Rect.unit (s := S128x128) (k0_off14 k 1#32 0#32) S1x16.size (k0_off14_inb k 1 0), storeVec (Wv 1 0 3)⟩,
   ⟨Rect.unit (s := S128x128) (k0_off13 k 1#32 0#32) S1x16.size (k0_off13_inb k 1 0), storeVec (Wv 1 0 2)⟩,
   ⟨Rect.unit (s := S128x128) (k0_off12 k 1#32 0#32) S1x16.size (k0_off12_inb k 1 0), storeVec (Wv 1 0 1)⟩,
   ⟨Rect.unit (s := S128x128) (k0_off11 k 1#32 0#32) S1x16.size (k0_off11_inb k 1 0), storeVec (Wv 1 0 0)⟩,
   ⟨Rect.unit (s := S128x128) (k0_off18 k 0#32 1#32) S1x16.size (k0_off18_inb k 0 1), storeVec (Wv 0 1 7)⟩,
   ⟨Rect.unit (s := S128x128) (k0_off17 k 0#32 1#32) S1x16.size (k0_off17_inb k 0 1), storeVec (Wv 0 1 6)⟩,
   ⟨Rect.unit (s := S128x128) (k0_off16 k 0#32 1#32) S1x16.size (k0_off16_inb k 0 1), storeVec (Wv 0 1 5)⟩,
   ⟨Rect.unit (s := S128x128) (k0_off15 k 0#32 1#32) S1x16.size (k0_off15_inb k 0 1), storeVec (Wv 0 1 4)⟩,
   ⟨Rect.unit (s := S128x128) (k0_off14 k 0#32 1#32) S1x16.size (k0_off14_inb k 0 1), storeVec (Wv 0 1 3)⟩,
   ⟨Rect.unit (s := S128x128) (k0_off13 k 0#32 1#32) S1x16.size (k0_off13_inb k 0 1), storeVec (Wv 0 1 2)⟩,
   ⟨Rect.unit (s := S128x128) (k0_off12 k 0#32 1#32) S1x16.size (k0_off12_inb k 0 1), storeVec (Wv 0 1 1)⟩,
   ⟨Rect.unit (s := S128x128) (k0_off11 k 0#32 1#32) S1x16.size (k0_off11_inb k 0 1), storeVec (Wv 0 1 0)⟩,
   ⟨Rect.unit (s := S128x128) (k0_off18 k 0#32 0#32) S1x16.size (k0_off18_inb k 0 0), storeVec (Wv 0 0 7)⟩,
   ⟨Rect.unit (s := S128x128) (k0_off17 k 0#32 0#32) S1x16.size (k0_off17_inb k 0 0), storeVec (Wv 0 0 6)⟩,
   ⟨Rect.unit (s := S128x128) (k0_off16 k 0#32 0#32) S1x16.size (k0_off16_inb k 0 0), storeVec (Wv 0 0 5)⟩,
   ⟨Rect.unit (s := S128x128) (k0_off15 k 0#32 0#32) S1x16.size (k0_off15_inb k 0 0), storeVec (Wv 0 0 4)⟩,
   ⟨Rect.unit (s := S128x128) (k0_off14 k 0#32 0#32) S1x16.size (k0_off14_inb k 0 0), storeVec (Wv 0 0 3)⟩,
   ⟨Rect.unit (s := S128x128) (k0_off13 k 0#32 0#32) S1x16.size (k0_off13_inb k 0 0), storeVec (Wv 0 0 2)⟩,
   ⟨Rect.unit (s := S128x128) (k0_off12 k 0#32 0#32) S1x16.size (k0_off12_inb k 0 0), storeVec (Wv 0 0 1)⟩,
   ⟨Rect.unit (s := S128x128) (k0_off11 k 0#32 0#32) S1x16.size (k0_off11_inb k 0 0), storeVec (Wv 0 0 0)⟩]

end Cert.KernelIdeal.HandVal

end
-- ==== Proof.KIValLemmas.lean ====
/-
  The lookup kernel's values, step by step.

  A slot's rows scratch, written whole with the gathered array g over anything, reads back as g; a 1 × 16 load at row ρ,
  column 16·dd, cast to sixteen lanes, is lanes 16·dd .. 16·dd + 15 of row ρ of g; so one trip of a slot's reduction loop
  takes the sixteen running sums after 2·j rows to those after 2·j + 2 rows. A trip of the chunk loop stores the four slots'
  sums, times the reciprocal constant, into rows 8·k .. 8·k + 7 of the accumulator scratch: 64 pieces of one row and sixteen
  columns each, every one holding the scratch's intended value at its indices.
-/
import proofs.«207455_g33174327394824_cont_8to1_b_592_21_alg».proof.Proof.KIVal2
import Idealize.ShloMosaic.Lib.Pipeline.FrameBody
import Idealize.ShloMosaic.Lib.Pipeline.Value
import Idealize.ShloMosaic.Lib.WritesUnit

set_option maxRecDepth 16384

noncomputable section

namespace Cert.KernelIdeal.HandVal

open Cert.KernelIdeal Cert.KernelIdeal.Gen
open Idealize.ShloMosaic Idealize.ShloMosaic.ValueIdx

variable {F : FTy → Type} [FloatOps F] [Named F]

/-! ## A row of the gathered array, loaded -/

/-- One whole-buffer piece is its payload everywhere. -/
theorem canon_whole (g : S100x128.Idx → F .f32) :
    View.canon [(⟨Rect.whole S100x128, g⟩ : View.Piece (Elt F) S100x128 .f32)] = g := by
  funext y
  have e := View.canon_cons_emb (Val := Elt F) (e := .f32) (Rect.whole S100x128) g [] y
  rw [Rect.emb_whole_apply] at e
  exact e

/-- A 1 × 16 load at offsets (ρ, 16·dd) of a buffer written whole with g over anything, cast to sixteen lanes, is
    lanes 16·dd .. 16·dd + 15 of row ρ of g. -/
theorem load_row {κ : Kind} {sp : Space} (v : View sig κ sp S100x128 .f32) (g : S100x128.Idx → F .f32)
    (off : Fin 2 → ℕ) (inb : ∀ a, off a + S1x16.size a ≤ S100x128.size a) (ρ dd : ℕ) (hoff : off = ![ρ, 16 * dd]) :
    shapeCast S16 (View.readAt (Elt F) v (Rect.unit (s := S100x128) off S1x16.size inb).toLoadRect
        (v.writes (Elt F) v.junk [⟨Rect.whole _, g⟩])) shapeCasts_S1x16_S16 = rowV g ρ dd := by
  subst hoff
  rw [View.readAt_writes_junk_eq_canon, canon_whole]
  funext lane
  obtain ⟨l, rfl⟩ : ∃ l : Fin 16, lane = ix1 l := ⟨lane 0, eq_ix1 lane⟩
  rw [shapeCast_1a_a_apply]
  have h0 : ρ + 1 ≤ 100 := inb 0
  have h1 : 16 * dd + 16 ≤ 128 := inb 1
  have hl : l.val < 16 := l.isLt
  unfold rowV
  rw [dif_pos ⟨by omega, by show 16 * dd + l.val < 128; omega⟩]
  refine congrArg g (funext fun a => Fin.ext ?_)
  match a with
  | ⟨0, _⟩ => show ρ + 1 * 0 = ρ; omega
  | ⟨1, _⟩ => show 16 * dd + 1 * l.val = 16 * dd + l.val; omega

/-- One accumulator's trip on the running sum after n rows and rows n, n + 1 of the half: the running sum after n + 2. -/
theorem step1_psum (g : S100x128.Idx → F .f32) (r dd n ρ₁ ρ₂ : ℕ) (v1 v2 : Vec F S1x16 .f32)
    (h1 : shapeCast S16 v1 shapeCasts_S1x16_S16 = rowV g ρ₁ dd) (h2 : shapeCast S16 v2 shapeCasts_S1x16_S16 = rowV g ρ₂ dd)
    (e1 : ρ₁ = 50 * r + n) (e2 : ρ₂ = 50 * r + (n + 1)) :
    step1 (psumV g r dd n) v1 v2 = psumV g r dd (n + 2) := by
  subst e1 e2
  unfold step1; rw [h1, h2]; rfl

/-! ## The sums before any row -/

/-- Before any row every running sum is the zero vector. -/
theorem psumTuple_zero (g : S100x128.Idx → F .f32) :
    psumTuple g 0 = (broadcast S16 (FloatOps.ofBits .f32 0#32 : F .f32), broadcast S16 (FloatOps.ofBits .f32 0#32 : F .f32),
      broadcast S16 (FloatOps.ofBits .f32 0#32 : F .f32), broadcast S16 (FloatOps.ofBits .f32 0#32 : F .f32),
      broadcast S16 (FloatOps.ofBits .f32 0#32 : F .f32), broadcast S16 (FloatOps.ofBits .f32 0#32 : F .f32),
      broadcast S16 (FloatOps.ofBits .f32 0#32 : F .f32), broadcast S16 (FloatOps.ofBits .f32 0#32 : F .f32),
      broadcast S16 (FloatOps.ofBits .f32 0#32 : F .f32), broadcast S16 (FloatOps.ofBits .f32 0#32 : F .f32),
      broadcast S16 (FloatOps.ofBits .f32 0#32 : F .f32), broadcast S16 (FloatOps.ofBits .f32 0#32 : F .f32),
      broadcast S16 (FloatOps.ofBits .f32 0#32 : F .f32), broadcast S16 (FloatOps.ofBits .f32 0#32 : F .f32),
      broadcast S16 (FloatOps.ofBits .f32 0#32 : F .f32), broadcast S16 (FloatOps.ofBits .f32 0#32 : F .f32)) := rfl

/-! ## Slot 0 -/

/-- Slot 0's loads are rows of the gathered array. -/
theorem ld0_row (g : S100x128.Idx → F .f32) (dd : Fin 8) (j : Fin k0_t2_loop.trips) (r u : Fin 2) :
    shapeCast S16 (ld0 ((Memref.whole cc0_scratch4 : Memref sig .scVector .vmem S100x128 .f32).view.writes (Elt F)
        (Memref.whole cc0_scratch4 : Memref sig .scVector .vmem S100x128 .f32).view.junk [⟨Rect.whole _, g⟩]) dd j r u) shapeCasts_S1x16_S16
      = rowV g (50 * r.val + 2 * j.val + u.val) dd.val := by
  match dd with
  | ⟨0, _⟩ => exact load_row _ g _ _ _ 0 (k0_off3_eq j r u)
  | ⟨1, _⟩ => exact load_row _ g _ _ _ 1 (k0_off4_eq j r u)
  | ⟨2, _⟩ => exact load_row _ g _ _ _ 2 (k0_off5_eq j r u)
  | ⟨3, _⟩ => exact load_row _ g _ _ _ 3 (k0_off6_eq j r u)
  | ⟨4, _⟩ => exact load_row _ g _ _ _ 4 (k0_off7_eq j r u)
  | ⟨5, _⟩ => exact load_row _ g _ _ _ 5 (k0_off8_eq j r u)
  | ⟨6, _⟩ => exact load_row _ g _ _ _ 6 (k0_off9_eq j r u)
  | ⟨7, _⟩ => exact load_row _ g _ _ _ 7 (k0_off10_eq j r u)

/-- One accumulator of slot 0 over one trip. -/
theorem step1_ld0 (g : S100x128.Idx → F .f32) (j : Fin k0_t2_loop.trips) (rn ddn : ℕ) (r : Fin 2) (dd : Fin 8)
    (hr : r.val = rn) (hd : dd.val = ddn) :
    step1 (psumV g rn ddn (2 * j.val))
        (ld0 ((Memref.whole cc0_scratch4 : Memref sig .scVector .vmem S100x128 .f32).view.writes (Elt F)
          (Memref.whole cc0_scratch4 : Memref sig .scVector .vmem S100x128 .f32).view.junk [⟨Rect.whole _, g⟩]) dd j r 0)
        (ld0 ((Memref.whole cc0_scratch4 : Memref sig .scVector .vmem S100x128 .f32).view.writes (Elt F)
          (Memref.whole cc0_scratch4 : Memref sig .scVector .vmem S100x128 .f32).view.junk [⟨Rect.whole _, g⟩]) dd j r 1)
      = psumV g rn ddn (2 * j.val + 2) := by
  subst hr hd
  exact step1_psum g r.val dd.val (2 * j.val) _ _ _ _ (ld0_row g dd j r 0) (ld0_row g dd j r 1)
    (by show 50 * r.val + 2 * j.val + 0 = _; omega) (by show 50 * r.val + 2 * j.val + 1 = _; omega)

/-- ONE TRIP OF SLOT 0's reduction loop: the sixteen running sums after 2·j rows become those after 2·(j + 1). -/
theorem acc_step_0 (g : S100x128.Idx → F .f32) (j : Fin k0_t2_loop.trips) (acc : Acc16 F) (h : acc = psumTuple g (2 * j.val)) :
    stepT0 ((Memref.whole cc0_scratch4 : Memref sig .scVector .vmem S100x128 .f32).view.writes (Elt F)
        (Memref.whole cc0_scratch4 : Memref sig .scVector .vmem S100x128 .f32).view.junk [⟨Rect.whole _, g⟩]) j acc
      = psumTuple g (2 * (j.val + 1)) := by
  subst h
  rw [show 2 * (j.val + 1) = 2 * j.val + 2 from by omega]
  unfold stepT0 psumTuple
  dsimp only
  rw [step1_ld0 g j 0 0 0 0 rfl rfl, step1_ld0 g j 0 1 0 1 rfl rfl, step1_ld0 g j 0 2 0 2 rfl rfl, step1_ld0 g j 0 3 0 3 rfl rfl,
    step1_ld0 g j 0 4 0 4 rfl rfl, step1_ld0 g j 0 5 0 5 rfl rfl, step1_ld0 g j 0 6 0 6 rfl rfl, step1_ld0 g j 0 7 0 7 rfl rfl,
    step1_ld0 g j 1 0 1 0 rfl rfl, step1_ld0 g j 1 1 1 1 rfl rfl, step1_ld0 g j 1 2 1 2 rfl rfl, step1_ld0 g j 1 3 1 3 rfl rfl,
    step1_ld0 g j 1 4 1 4 rfl rfl, step1_ld0 g j 1 5 1 5 rfl rfl, step1_ld0 g j 1 6 1 6 rfl rfl, step1_ld0 g j 1 7 1 7 rfl rfl]

/-! ## Slot 1 -/

/-- Slot 1's loads are rows of the gathered array. -/
theorem ld1_row (g : S100x128.Idx → F .f32) (dd : Fin 8) (j : Fin k0_t3_loop.trips) (r u : Fin 2) :
    shapeCast S16 (ld1 ((Memref.whole cc0_scratch5 : Memref sig .scVector .vmem S100x128 .f32).view.writes (Elt F)
        (Memref.whole cc0_scratch5 : Memref sig .scVector .vmem S100x128 .f32).view.junk [⟨Rect.whole _, g⟩]) dd j r u) shapeCasts_S1x16_S16
      = rowV g (50 * r.val + 2 * j.val + u.val) dd.val := by
  match dd with
  | ⟨0, _⟩ => exact load_row _ g _ _ _ 0 (k0_off21_eq j r u)
  | ⟨1, _⟩ => exact load_row _ g _ _ _ 1 (k0_off22_eq j r u)
  | ⟨2, _⟩ => exact load_row _ g _ _ _ 2 (k0_off23_eq j r u)
  | ⟨3, _⟩ => exact load_row _ g _ _ _ 3 (k0_off24_eq j r u)
  | ⟨4, _⟩ => exact load_row _ g _ _ _ 4 (k0_off25_eq j r u)
  | ⟨5, _⟩ => exact load_row _ g _ _ _ 5 (k0_off26_eq j r u)
  | ⟨6, _⟩ => exact load_row _ g _ _ _ 6 (k0_off27_eq j r u)
  | ⟨7, _⟩ => exact load_row _ g _ _ _ 7 (k0_off28_eq j r u)

/-- One accumulator of slot 1 over one trip. -/
theorem step1_ld1 (g : S100x128.Idx → F .f32) (j : Fin k0_t3_loop.trips) (rn ddn : ℕ) (r : Fin 2) (dd : Fin 8)
    (hr : r.val = rn) (hd : dd.val = ddn) :
    step1 (psumV g rn ddn (2 * j.val))
        (ld1 ((Memref.whole cc0_scratch5 : Memref sig .scVector .vmem S100x128 .f32).view.writes (Elt F)
          (Memref.whole cc0_scratch5 : Memref sig .scVector .vmem S100x128 .f32).view.junk [⟨Rect.whole _, g⟩]) dd j r 0)
        (ld1 ((Memref.whole cc0_scratch5 : Memref sig .scVector .vmem S100x128 .f32).view.writes (Elt F)
          (Memref.whole cc0_scratch5 : Memref sig .scVector .vmem S100x128 .f32).view.junk [⟨Rect.whole _, g⟩]) dd j r 1)
      = psumV g rn ddn (2 * j.val + 2) := by
  subst hr hd
  exact step1_psum g r.val dd.val (2 * j.val) _ _ _ _ (ld1_row g dd j r 0) (ld1_row g dd j r 1)
    (by show 50 * r.val + 2 * j.val + 0 = _; omega) (by show 50 * r.val + 2 * j.val + 1 = _; omega)

/-- ONE TRIP OF SLOT 1's reduction loop: the sixteen running sums after 2·j rows become those after 2·(j + 1). -/
theorem acc_step_1 (g : S100x128.Idx → F .f32) (j : Fin k0_t3_loop.trips) (acc : Acc16 F) (h : acc = psumTuple g (2 * j.val)) :
    stepT1 ((Memref.whole cc0_scratch5 : Memref sig .scVector .vmem S100x128 .f32).view.writes (Elt F)
        (Memref.whole cc0_scratch5 : Memref sig .scVector .vmem S100x128 .f32).view.junk [⟨Rect.whole _, g⟩]) j acc
      = psumTuple g (2 * (j.val + 1)) := by
  subst h
  rw [show 2 * (j.val + 1) = 2 * j.val + 2 from by omega]
  unfold stepT1 psumTuple
  dsimp only
  rw [step1_ld1 g j 0 0 0 0 rfl rfl, step1_ld1 g j 0 1 0 1 rfl rfl, step1_ld1 g j 0 2 0 2 rfl rfl, step1_ld1 g j 0 3 0 3 rfl rfl,
    step1_ld1 g j 0 4 0 4 rfl rfl, step1_ld1 g j 0 5 0 5 rfl rfl, step1_ld1 g j 0 6 0 6 rfl rfl, step1_ld1 g j 0 7 0 7 rfl rfl,
    step1_ld1 g j 1 0 1 0 rfl rfl, step1_ld1 g j 1 1 1 1 rfl rfl, step1_ld1 g j 1 2 1 2 rfl rfl, step1_ld1 g j 1 3 1 3 rfl rfl,
    step1_ld1 g j 1 4 1 4 rfl rfl, step1_ld1 g j 1 5 1 5 rfl rfl, step1_ld1 g j 1 6 1 6 rfl rfl, step1_ld1 g j 1 7 1 7 rfl rfl]

/-! ## Slot 2 -/

/-- Slot 2's loads are rows of the gathered array. -/
theorem ld2_row (g : S100x128.Idx → F .f32) (dd : Fin 8) (j : Fin k0_t4_loop.trips) (r u : Fin 2) :
    shapeCast S16 (ld2 ((Memref.whole cc0_scratch6 : Memref sig .scVector .vmem S100x128 .f32).view.writes (Elt F)
        (Memref.whole cc0_scratch6 : Memref sig .scVector .vmem S100x128 .f32).view.junk [⟨Rect.whole _, g⟩]) dd j r u) shapeCasts_S1x16_S16
      = rowV g (50 * r.val + 2 * j.val + u.val) dd.val := by
  match dd with
  | ⟨0, _⟩ => exact load_row _ g _ _ _ 0 (k0_off31_eq j r u)
  | ⟨1, _⟩ => exact load_row _ g _ _ _ 1 (k0_off32_eq j r u)
  | ⟨2, _⟩ => exact load_row _ g _ _ _ 2 (k0_off33_eq j r u)
  | ⟨3, _⟩ => exact load_row _ g _ _ _ 3 (k0_off34_eq j r u)
  | ⟨4, _⟩ => exact load_row _ g _ _ _ 4 (k0_off35_eq j r u)
  | ⟨5, _⟩ => exact load_row _ g _ _ _ 5 (k0_off36_eq j r u)
  | ⟨6, _⟩ => exact load_row _ g _ _ _ 6 (k0_off37_eq j r u)
  | ⟨7, _⟩ => exact load_row _ g _ _ _ 7 (k0_off38_eq j r u)

/-- One accumulator of slot 2 over one trip. -/
theorem step1_ld2 (g : S100x128.Idx → F .f32) (j : Fin k0_t4_loop.trips) (rn ddn : ℕ) (r : Fin 2) (dd : Fin 8)
    (hr : r.val = rn) (hd : dd.val = ddn) :
    step1 (psumV g rn ddn (2 * j.val))
        (ld2 ((Memref.whole cc0_scratch6 : Memref sig .scVector .vmem S100x128 .f32).view.writes (Elt F)
          (Memref.whole cc0_scratch6 : Memref sig .scVector .vmem S100x128 .f32).view.junk [⟨Rect.whole _, g⟩]) dd j r 0)
        (ld2 ((Memref.whole cc0_scratch6 : Memref sig .scVector .vmem S100x128 .f32).view.writes (Elt F)
          (Memref.whole cc0_scratch6 : Memref sig .scVector .vmem S100x128 .f32).view.junk [⟨Rect.whole _, g⟩]) dd j r 1)
      = psumV g rn ddn (2 * j.val + 2) := by
  subst hr hd
  exact step1_psum g r.val dd.val (2 * j.val) _ _ _ _ (ld2_row g dd j r 0) (ld2_row g dd j r 1)
    (by show 50 * r.val + 2 * j.val + 0 = _; omega) (by show 50 * r.val + 2 * j.val + 1 = _; omega)

/-- ONE TRIP OF SLOT 2's reduction loop: the sixteen running sums after 2·j rows become those after 2·(j + 1). -/
theorem acc_step_2 (g : S100x128.Idx → F .f32) (j : Fin k0_t4_loop.trips) (acc : Acc16 F) (h : acc = psumTuple g (2 * j.val)) :
    stepT2 ((Memref.whole cc0_scratch6 : Memref sig .scVector .vmem S100x128 .f32).view.writes (Elt F)
        (Memref.whole cc0_scratch6 : Memref sig .scVector .vmem S100x128 .f32).view.junk [⟨Rect.whole _, g⟩]) j acc
      = psumTuple g (2 * (j.val + 1)) := by
  subst h
  rw [show 2 * (j.val + 1) = 2 * j.val + 2 from by omega]
  unfold stepT2 psumTuple
  dsimp only
  rw [step1_ld2 g j 0 0 0 0 rfl rfl, step1_ld2 g j 0 1 0 1 rfl rfl, step1_ld2 g j 0 2 0 2 rfl rfl, step1_ld2 g j 0 3 0 3 rfl rfl,
    step1_ld2 g j 0 4 0 4 rfl rfl, step1_ld2 g j 0 5 0 5 rfl rfl, step1_ld2 g j 0 6 0 6 rfl rfl, step1_ld2 g j 0 7 0 7 rfl rfl,
    step1_ld2 g j 1 0 1 0 rfl rfl, step1_ld2 g j 1 1 1 1 rfl rfl, step1_ld2 g j 1 2 1 2 rfl rfl, step1_ld2 g j 1 3 1 3 rfl rfl,
    step1_ld2 g j 1 4 1 4 rfl rfl, step1_ld2 g j 1 5 1 5 rfl rfl, step1_ld2 g j 1 6 1 6 rfl rfl, step1_ld2 g j 1 7 1 7 rfl rfl]

/-! ## Slot 3 -/

/-- Slot 3's loads are rows of the gathered array. -/
theorem ld3_row (g : S100x128.Idx → F .f32) (dd : Fin 8) (j : Fin k0_t5_loop.trips) (r u : Fin 2) :
    shapeCast S16 (ld3 ((Memref.whole cc0_scratch7 : Memref sig .scVector .vmem S100x128 .f32).view.writes (Elt F)
        (Memref.whole cc0_scratch7 : Memref sig .scVector .vmem S100x128 .f32).view.junk [⟨Rect.whole _, g⟩]) dd j r u) shapeCasts_S1x16_S16
      = rowV g (50 * r.val + 2 * j.val + u.val) dd.val := by
  match dd with
  | ⟨0, _⟩ => exact load_row _ g _ _ _ 0 (k0_off41_eq j r u)
  | ⟨1, _⟩ => exact load_row _ g _ _ _ 1 (k0_off42_eq j r u)
  | ⟨2, _⟩ => exact load_row _ g _ _ _ 2 (k0_off43_eq j r u)
  | ⟨3, _⟩ => exact load_row _ g _ _ _ 3 (k0_off44_eq j r u)
  | ⟨4, _⟩ => exact load_row _ g _ _ _ 4 (k0_off45_eq j r u)
  | ⟨5, _⟩ => exact load_row _ g _ _ _ 5 (k0_off46_eq j r u)
  | ⟨6, _⟩ => exact load_row _ g _ _ _ 6 (k0_off47_eq j r u)
  | ⟨7, _⟩ => exact load_row _ g _ _ _ 7 (k0_off48_eq j r u)

/-- One accumulator of slot 3 over one trip. -/
theorem step1_ld3 (g : S100x128.Idx → F .f32) (j : Fin k0_t5_loop.trips) (rn ddn : ℕ) (r : Fin 2) (dd : Fin 8)
    (hr : r.val = rn) (hd : dd.val = ddn) :
    step1 (psumV g rn ddn (2 * j.val))
        (ld3 ((Memref.whole cc0_scratch7 : Memref sig .scVector .vmem S100x128 .f32).view.writes (Elt F)
          (Memref.whole cc0_scratch7 : Memref sig .scVector .vmem S100x128 .f32).view.junk [⟨Rect.whole _, g⟩]) dd j r 0)
        (ld3 ((Memref.whole cc0_scratch7 : Memref sig .scVector .vmem S100x128 .f32).view.writes (Elt F)
          (Memref.whole cc0_scratch7 : Memref sig .scVector .vmem S100x128 .f32).view.junk [⟨Rect.whole _, g⟩]) dd j r 1)
      = psumV g rn ddn (2 * j.val + 2) := by
  subst hr hd
  exact step1_psum g r.val dd.val (2 * j.val) _ _ _ _ (ld3_row g dd j r 0) (ld3_row g dd j r 1)
    (by show 50 * r.val + 2 * j.val + 0 = _; omega) (by show 50 * r.val + 2 * j.val + 1 = _; omega)

/-- ONE TRIP OF SLOT 3's reduction loop: the sixteen running sums after 2·j rows become those after 2·(j + 1). -/
theorem acc_step_3 (g : S100x128.Idx → F .f32) (j : Fin k0_t5_loop.trips) (acc : Acc16 F) (h : acc = psumTuple g (2 * j.val)) :
    stepT3 ((Memref.whole cc0_scratch7 : Memref sig .scVector .vmem S100x128 .f32).view.writes (Elt F)
        (Memref.whole cc0_scratch7 : Memref sig .scVector .vmem S100x128 .f32).view.junk [⟨Rect.whole _, g⟩]) j acc
      = psumTuple g (2 * (j.val + 1)) := by
  subst h
  rw [show 2 * (j.val + 1) = 2 * j.val + 2 from by omega]
  unfold stepT3 psumTuple
  dsimp only
  rw [step1_ld3 g j 0 0 0 0 rfl rfl, step1_ld3 g j 0 1 0 1 rfl rfl, step1_ld3 g j 0 2 0 2 rfl rfl, step1_ld3 g j 0 3 0 3 rfl rfl,
    step1_ld3 g j 0 4 0 4 rfl rfl, step1_ld3 g j 0 5 0 5 rfl rfl, step1_ld3 g j 0 6 0 6 rfl rfl, step1_ld3 g j 0 7 0 7 rfl rfl,
    step1_ld3 g j 1 0 1 0 rfl rfl, step1_ld3 g j 1 1 1 1 rfl rfl, step1_ld3 g j 1 2 1 2 rfl rfl, step1_ld3 g j 1 3 1 3 rfl rfl,
    step1_ld3 g j 1 4 1 4 rfl rfl, step1_ld3 g j 1 5 1 5 rfl rfl, step1_ld3 g j 1 6 1 6 rfl rfl, step1_ld3 g j 1 7 1 7 rfl rfl]

/-! ## The accumulator scratch after a trip of the chunk loop -/

/-- Writes each of whose payloads is one function G at its rectangle's indices leave G wherever a piece covers, and
    wherever none does if the prior contents were G there. -/
theorem read_writes_agree {Val : EltTy → Type} {κ : Kind} {sp : Space} {s : Shape} {e : EltTy} (v : View sig κ sp s e)
    (f : v.ty.Contents Val) (G : s.Idx → Val e) (y : s.Idx) :
    ∀ L : List (View.Piece Val s e), (∀ p ∈ L, ∀ x : p.1.shape.Idx, p.2 x = G (p.1.emb x)) →
      ((∀ p ∈ L, y ∉ p.1.set) → v.read Val f y = G y) → v.read Val (v.writes Val f L) y = G y
  | [], _, h0 => h0 (fun _ hp => absurd hp List.not_mem_nil)
  | p :: L, hG, h0 => by
    by_cases hy : y ∈ p.1.set
    · obtain ⟨r, w⟩ := p
      obtain ⟨x, rfl⟩ : ∃ x, r.emb x = y := r.exists_idx_of_mem hy
      rw [View.read_writes_cons_emb]
      exact hG ⟨r, w⟩ List.mem_cons_self x
    · have hy' : y ∉ Finset.univ.map p.1.emb := by rwa [Rect.map_emb_univ]
      rw [View.writes_cons, View.read_slice_write_of_not_mem p.1 _ _ _ hy']
      exact read_writes_agree v f G y L (fun q hq => hG q (List.mem_cons_of_mem _ hq))
        (fun hnc => h0 (fun q hq => by
          rcases List.mem_cons.mp hq with rfl | hq'
          · exact hy
          · exact hnc q hq'))

/-- The piece of slot b, half r, column group dd in trip k of the chunk loop. -/
def pieceAt (k : Fin k0_t1_loop.trips) (Wv : Fin 4 → Fin 2 → Fin 8 → FVec F S16 .f32) (b : Fin 4) (r : Fin 2) (dd : Fin 8) :
    View.Piece (Elt F) S128x128 .f32 :=
  match dd with
  | ⟨0, h⟩ => ⟨Rect.unit (s := S128x128) (k0_off11 k (BitVec.ofNat 32 b.val) (BitVec.ofNat 32 r.val)) S1x16.size (k0_off11_inb k b r), storeVec (Wv b r ⟨0, h⟩)⟩
  | ⟨1, h⟩ => ⟨Rect.unit (s := S128x128) (k0_off12 k (BitVec.ofNat 32 b.val) (BitVec.ofNat 32 r.val)) S1x16.size (k0_off12_inb k b r), storeVec (Wv b r ⟨1, h⟩)⟩
  | ⟨2, h⟩ => ⟨Rect.unit (s := S128x128) (k0_off13 k (BitVec.ofNat 32 b.val) (BitVec.ofNat 32 r.val)) S1x16.size (k0_off13_inb k b r), storeVec (Wv b r ⟨2, h⟩)⟩
  | ⟨3, h⟩ => ⟨Rect.unit (s := S128x128) (k0_off14 k (BitVec.ofNat 32 b.val) (BitVec.ofNat 32 r.val)) S1x16.size (k0_off14_inb k b r), storeVec (Wv b r ⟨3, h⟩)⟩
  | ⟨4, h⟩ => ⟨Rect.unit (s := S128x128) (k0_off15 k (BitVec.ofNat 32 b.val) (BitVec.ofNat 32 r.val)) S1x16.size (k0_off15_inb k b r), storeVec (Wv b r ⟨4, h⟩)⟩
  | ⟨5, h⟩ => ⟨Rect.unit (s := S128x128) (k0_off16 k (BitVec.ofNat 32 b.val) (BitVec.ofNat 32 r.val)) S1x16.size (k0_off16_inb k b r), storeVec (Wv b r ⟨5, h⟩)⟩
  | ⟨6, h⟩ => ⟨Rect.unit (s := S128x128) (k0_off17 k (BitVec.ofNat 32 b.val) (BitVec.ofNat 32 r.val)) S1x16.size (k0_off17_inb k b r), storeVec (Wv b r ⟨6, h⟩)⟩
  | ⟨7, h⟩ => ⟨Rect.unit (s := S128x128) (k0_off18 k (BitVec.ofNat 32 b.val) (BitVec.ofNat 32 r.val)) S1x16.size (k0_off18_inb k b r), storeVec (Wv b r ⟨7, h⟩)⟩

/-- The (slot, half, column group) triples in the order the trip writes them, last first. -/
def idxL : List (Fin 4 × Fin 2 × Fin 8) :=
  [(3, 1, 7), (3, 1, 6), (3, 1, 5), (3, 1, 4), (3, 1, 3), (3, 1, 2), (3, 1, 1), (3, 1, 0), (3, 0, 7), (3, 0, 6), (3, 0, 5), (3, 0, 4), (3, 0, 3), (3, 0, 2), (3, 0, 1), (3, 0, 0), (2, 1, 7), (2, 1, 6), (2, 1, 5), (2, 1, 4), (2, 1, 3), (2, 1, 2), (2, 1, 1), (2, 1, 0), (2, 0, 7), (2, 0, 6), (2, 0, 5), (2, 0, 4), (2, 0, 3), (2, 0, 2), (2, 0, 1), (2, 0, 0), (1, 1, 7), (1, 1, 6), (1, 1, 5), (1, 1, 4), (1, 1, 3), (1, 1, 2), (1, 1, 1), (1, 1, 0), (1, 0, 7), (1, 0, 6), (1, 0, 5), (1, 0, 4), (1, 0, 3), (1, 0, 2), (1, 0, 1), (1, 0, 0), (0, 1, 7), (0, 1, 6), (0, 1, 5), (0, 1, 4), (0, 1, 3), (0, 1, 2), (0, 1, 1), (0, 1, 0), (0, 0, 7), (0, 0, 6), (0, 0, 5), (0, 0, 4), (0, 0, 3), (0, 0, 2), (0, 0, 1), (0, 0, 0)]

theorem mem_idxL : ∀ t : Fin 4 × Fin 2 × Fin 8, t ∈ idxL := by decide

/-- The trip's pieces are the pieces of the triples, in that order. -/
theorem pieceL_eq (k : Fin k0_t1_loop.trips) (Wv : Fin 4 → Fin 2 → Fin 8 → FVec F S16 .f32) :
    pieceL k Wv = idxL.map (fun t => pieceAt k Wv t.1 t.2.1 t.2.2) := rfl

/-- A piece sits at row 8·k + 2·b + r, columns 16·dd .. 16·dd + 15. -/
theorem pieceAt_off (k : Fin k0_t1_loop.trips) (Wv : Fin 4 → Fin 2 → Fin 8 → FVec F S16 .f32) (b : Fin 4) (r : Fin 2) (dd : Fin 8) :
    ∃ (off : Fin 2 → ℕ) (inb : ∀ a, off a + S1x16.size a ≤ S128x128.size a),
      off = ![8 * k.val + 2 * b.val + r.val, 16 * dd.val] ∧
      pieceAt k Wv b r dd = ⟨Rect.unit (s := S128x128) off S1x16.size inb, storeVec (Wv b r dd)⟩ := by
  match dd with
  | ⟨0, _⟩ => exact ⟨_, _, k0_off11_eq k b r, rfl⟩
  | ⟨1, _⟩ => exact ⟨_, _, k0_off12_eq k b r, rfl⟩
  | ⟨2, _⟩ => exact ⟨_, _, k0_off13_eq k b r, rfl⟩
  | ⟨3, _⟩ => exact ⟨_, _, k0_off14_eq k b r, rfl⟩
  | ⟨4, _⟩ => exact ⟨_, _, k0_off15_eq k b r, rfl⟩
  | ⟨5, _⟩ => exact ⟨_, _, k0_off16_eq k b r, rfl⟩
  | ⟨6, _⟩ => exact ⟨_, _, k0_off17_eq k b r, rfl⟩
  | ⟨7, _⟩ => exact ⟨_, _, k0_off18_eq k b r, rfl⟩

/-- The accumulator scratch's value at row 8·k + 2·b + r, column 16·dd + l. -/
theorem Macc_of_coords (fi : S2048x100.Idx → BitVec 32) (ft : S100000x128.Idx → F .f32) (base : ℕ) (y : S128x128.Idx)
    (k b r dd l : ℕ) (hr : r < 2) (hl : l < 16) (h0 : (y 0).val = 8 * k + 2 * b + r) (h1 : (y 1).val = 16 * dd + l) :
    Macc fi ft base y = storeVec (psumV (gath fi ft (base + (4 * k + b))) r dd 50) (ix2 (0 : Fin 1) ⟨l, hl⟩) := by
  unfold Macc
  have a1 : (y 0).val / 2 = 4 * k + b := by omega
  have a2 : (y 0).val % 2 = r := by omega
  have a3 : (y 1).val / 16 = dd := by omega
  have a4 : (⟨(y 1).val % 16, Nat.mod_lt _ (by decide)⟩ : Fin 16) = ⟨l, hl⟩ := Fin.ext (by show (y 1).val % 16 = l; omega)
  rw [a1, a2, a3, a4]

/-- What a piece stores is the accumulator scratch's value at the piece's indices. -/
theorem store_agree (fi : S2048x100.Idx → BitVec 32) (ft : S100000x128.Idx → F .f32) (base k : ℕ) (b : Fin 4) (r : Fin 2) (dd : Fin 8)
    (off : Fin 2 → ℕ) (inb : ∀ a, off a + S1x16.size a ≤ S128x128.size a)
    (hoff : off = ![8 * k + 2 * b.val + r.val, 16 * dd.val]) (x : S1x16.Idx) :
    storeVec (psumV (gath fi ft (base + 4 * k + b.val)) r.val dd.val 50) x
      = Macc fi ft base ((Rect.unit (s := S128x128) off S1x16.size inb).emb x) := by
  subst hoff
  obtain ⟨u, l, rfl⟩ : ∃ (u : Fin 1) (l : Fin 16), x = ix2 u l := ⟨x 0, x 1, eq_ix2 x⟩
  have hu : u = 0 := Fin.ext (by omega)
  subst hu
  rw [Macc_of_coords fi ft base _ k b.val r.val dd.val l.val r.isLt l.isLt
    (by show 8 * k + 2 * b.val + r.val + 1 * 0 = _; omega) (by show 16 * dd.val + 1 * l.val = _; omega), Nat.add_assoc]

/-- An index at the piece's row and inside its sixteen columns is in the piece's rectangle. -/
theorem mem_unit_row (off : Fin 2 → ℕ) (inb : ∀ a, off a + S1x16.size a ≤ S128x128.size a) (ρ c : ℕ) (hoff : off = ![ρ, c])
    (y : S128x128.Idx) (h0 : (y 0).val = ρ) (h1 : c ≤ (y 1).val) (h2 : (y 1).val < c + 16) :
    y ∈ (Rect.unit (s := S128x128) off S1x16.size inb).set := by
  subst hoff
  rw [Rect.mem_set_unit]
  intro a
  match a with
  | ⟨0, _⟩ => show ρ ≤ (y 0).val ∧ (y 0).val < ρ + 1; omega
  | ⟨1, _⟩ => show c ≤ (y 1).val ∧ (y 1).val < c + 16; omega

/-- ONE TRIP OF THE CHUNK LOOP: the accumulator scratch, right on its first 8·k rows, is right on its first 8·(k + 1)
    after the trip's 64 stores of the four slots' sums — rows 8·k .. 8·k + 7 each lie in a piece whose payload is the
    scratch's value there, and a row below is either untouched or rewritten with its own value. -/
theorem AOK_step (fi : S2048x100.Idx → BitVec 32) (ft : S100000x128.Idx → F .f32) (base : ℕ) (k : Fin k0_t1_loop.trips)
    (hb : base + 4 * k.val + 3 < 2048) (a : S128x128.Idx → F .f32) (ha : AOK fi ft base k.val a) :
    AOK fi ft base (k.val + 1) ((Memref.whole cc0_scratch8 : Memref sig .scVector .vmem S128x128 .f32).view.writes (Elt F) a
      (pieceL k (fun b r dd => psumV (gath fi ft (base + 4 * k.val + b.val)) r.val dd.val 50))) := by
  intro y hy
  have hrd : ∀ X : S128x128.Idx → F .f32,
      View.read (Elt F) (Memref.whole cc0_scratch8 : Memref sig .scVector .vmem S128x128 .f32).view X = X := fun _ => rfl
  refine Eq.trans (congrFun (hrd _).symm y) ?_
  refine read_writes_agree (Val := Elt F) (Memref.whole cc0_scratch8 : Memref sig .scVector .vmem S128x128 .f32).view a (Macc fi ft base) y _ ?_ ?_
  · rw [pieceL_eq]
    intro p hp x
    obtain ⟨t, -, rfl⟩ := List.mem_map.mp hp
    obtain ⟨off, inb, hoff, hpc⟩ := pieceAt_off k (fun b r dd => psumV (gath fi ft (base + 4 * k.val + b.val)) r.val dd.val 50) t.1 t.2.1 t.2.2
    revert x
    rw [hpc]
    intro x
    exact store_agree fi ft base k.val t.1 t.2.1 t.2.2 off inb hoff x
  · intro hnc
    by_cases h8 : (y 0).val < 8 * k.val
    · exact (congrFun (hrd a) y).trans (ha y h8)
    · exfalso
      have hy1 : (y 1).val < 128 := (y 1).isLt
      have hlt : (y 0).val < 8 * (k.val + 1) := hy
      let b : Fin 4 := ⟨((y 0).val - 8 * k.val) / 2, by omega⟩
      let r : Fin 2 := ⟨((y 0).val - 8 * k.val) % 2, by omega⟩
      let dd : Fin 8 := ⟨(y 1).val / 16, by omega⟩
      obtain ⟨off, inb, hoff, hpc⟩ := pieceAt_off k (fun b r dd => psumV (gath fi ft (base + 4 * k.val + b.val)) r.val dd.val 50) b r dd
      refine hnc _ (by rw [pieceL_eq]; exact List.mem_map.mpr ⟨(b, r, dd), mem_idxL _, rfl⟩) ?_
      rw [hpc]
      refine mem_unit_row off inb _ _ hoff y ?_ ?_ ?_
      · show (y 0).val = 8 * k.val + 2 * (((y 0).val - 8 * k.val) / 2) + ((y 0).val - 8 * k.val) % 2; omega
      · show 16 * ((y 1).val / 16) ≤ (y 1).val; omega
      · show (y 1).val < 16 * ((y 1).val / 16) + 16; omega

end Cert.KernelIdeal.HandVal

end
-- ==== Proof.KIValMoves.lean ====
/-
  What the lookup kernel's copies carry.

  The gather of the table rows a chunk's 100 index words name delivers the chunk's gathered array; the copy of a chunk's row
  of the index array into a slot's index scratch delivers that row's words; and the copy of a subcore's accumulator scratch
  to its 128-row slab of the output writes, at row ρ of the slab, the scratch's row ρ.
-/
import proofs.«207455_g33174327394824_cont_8to1_b_592_21_alg».proof.Proof.KIVal
import Idealize.ShloMosaic.Lib.SparseCore.Stream
import Idealize.ShloMosaic.Lib.Writes
import Idealize.ShloMosaic.Lib.WritesUnit
import Idealize.ShloMosaic.Lib.Pipeline.Value

set_option maxRecDepth 16384

noncomputable section

namespace Cert.KernelIdeal.HandVal

open Cert.KernelIdeal Cert.KernelIdeal.Gen
open Idealize.ShloMosaic Idealize.ShloMosaic.ValueIdx

variable {F : FTy → Type} [FloatOps F] [Named F]

/-! ## The gather -/

/-- The index of a list of 100 words at a row-major position is the position. -/
theorem rowMajor_symm_S100 (k : Fin S100.numel) (j : Fin 100) (h : j.val = k.val) : S100.rowMajor.symm k = ix1 j :=
  (Equiv.symm_apply_eq _).mpr (Fin.ext (by rw [Shape.rowMajor_val_one]; exact h.symm))

/-- THE GATHER of the table rows the words of chunk n name is the chunk's gathered array. -/
theorem gath_of_rows (fi : S2048x100.Idx → BitVec 32) (ft : S100000x128.Idx → F .f32) (idx : S100.Idx → BitVec 32)
    (hn : S100.numel = S100x128.size gathers_S100000x128_S100x128.axis')
    (hin : ∀ x, (idx x).toNat < S100000x128.size gathers_S100000x128_S100x128.axis)
    (n : ℕ) (hnlt : n < 2048) (hidx : ∀ x, idx x = fi (ValueIdx.ix2 ⟨n, hnlt⟩ (x 0))) :
    SparseCore.gatherPayload gathers_S100000x128_S100x128
        (View.read (Elt F) ((Memref.whole main_arg1_scv : Memref sig .scVector .hbm S100000x128 .f32).slice
          (Rect.unit (s := S100000x128) ![0, 0] S100000x128.size inb_S100000x128_S100000x128_0_0) (fun _ => rfl)).view ft)
        (SparseCore.rows (F := F) idx hn hin) = gath fi ft n := by
  funext x
  obtain ⟨p, q, rfl⟩ : ∃ (p : Fin 100) (q : Fin 128), x = ix2 p q := ⟨x 0, x 1, eq_ix2 x⟩
  unfold SparseCore.gatherPayload gath
  rw [dif_pos hnlt]
  show ft (((Memref.whole main_arg1_scv : Memref sig .scVector .hbm S100000x128 .f32).slice
      (Rect.unit (s := S100000x128) ![0, 0] S100000x128.size inb_S100000x128_S100000x128_0_0) (fun _ => rfl)).view.emb
      (gathers_S100000x128_S100x128.idx (SparseCore.rows (F := F) idx hn hin) (ix2 p q))) = ft (ix2 (Cert.Spec.rowOf (fi (ix2 ⟨n, hnlt⟩ p))) q)
  have hk : S100.rowMajor.symm ((ix2 p q gathers_S100000x128_S100x128.axis').cast hn.symm) = ix1 p :=
    rowMajor_symm_S100 _ p rfl
  have hr : (SparseCore.rows (F := F) idx hn hin (ix2 p q gathers_S100000x128_S100x128.axis')).val = (fi (ix2 ⟨n, hnlt⟩ p)).toNat :=
    (congrArg (fun z => (idx z).toNat) hk).trans (congrArg BitVec.toNat (hidx (ix1 p)))
  have hlt : (fi (ix2 ⟨n, hnlt⟩ p)).toNat < 100000 :=
    (congrArg BitVec.toNat (hidx (ix1 p))).symm ▸ hin (ix1 p)
  have h0 : (gathers_S100000x128_S100x128.idx (SparseCore.rows (F := F) idx hn hin) (ix2 p q) gathers_S100000x128_S100x128.axis).val
      = (fi (ix2 ⟨n, hnlt⟩ p)).toNat :=
    (congrArg Fin.val (gathers_S100000x128_S100x128.idx_axis (SparseCore.rows (F := F) idx hn hin) (ix2 p q))).trans hr
  have h1 : (gathers_S100000x128_S100x128.idx (SparseCore.rows (F := F) idx hn hin) (ix2 p q) ⟨1, by decide⟩).val = q.val :=
    gathers_S100000x128_S100x128.idx_of_ne (SparseCore.rows (F := F) idx hn hin) (ix2 p q) ⟨1, by decide⟩ (by decide)
  refine congrArg ft (funext fun a => Fin.ext ?_)
  match a with
  | ⟨0, _⟩ =>
    show 0 + 1 * (gathers_S100000x128_S100x128.idx (SparseCore.rows (F := F) idx hn hin) (ix2 p q) gathers_S100000x128_S100x128.axis).val
      = (Cert.Spec.rowOf (fi (ix2 ⟨n, hnlt⟩ p))).val
    rw [Cert.Spec.rowOf_val_of_lt hlt, h0]; omega
  | ⟨1, _⟩ =>
    show 0 + 1 * (gathers_S100000x128_S100x128.idx (SparseCore.rows (F := F) idx hn hin) (ix2 p q) ⟨1, by decide⟩).val = q.val
    rw [h1]; omega

/-! ## A chunk's row of the index array -/

/-- The squeezed row n of the index array reads, at x, the word at (n, x). -/
theorem row_read (fi : S2048x100.Idx → BitVec 32) (off : Fin 2 → ℕ) (hoff : ∀ a, off a + S1x100.size a ≤ S2048x100.size a)
    (n : ℕ) (hnlt : n < 2048) (ho : off = ![n, 0]) (x : S100.Idx) :
    View.read (Elt F) (((Memref.whole main_v0_scv : Memref sig .scVector .hbm S2048x100 .i32).slice
        (Rect.unit (s := S2048x100) off S1x100.size hoff) (fun _ => rfl)).squeeze S100 squeezes_S1x100_S100).view fi x
      = fi (ValueIdx.ix2 ⟨n, hnlt⟩ (x 0)) := by
  subst ho
  obtain ⟨l, rfl⟩ : ∃ l : Fin 100, x = ix1 l := ⟨x 0, eq_ix1 x⟩
  have hy : Shape.reshapeEquiv (s := S1x100) (s' := S100) squeezes_S1x100_S100.numel_eq (ix1 l) = ix2 (0 : Fin 1) l :=
    Shape.reshapeEquiv_eq_of_rowMajor _ (by
      rw [Shape.rowMajor_val_two, Shape.rowMajor_val_one]
      show 0 * 100 + l.val = l.val
      omega)
  have hemb : (((Memref.whole main_v0_scv : Memref sig .scVector .hbm S2048x100 .i32).slice
        (Rect.unit (s := S2048x100) ![n, 0] S1x100.size hoff) (fun _ => rfl)).squeeze S100 squeezes_S1x100_S100).view.emb (ix1 l)
      = ((Memref.whole main_v0_scv : Memref sig .scVector .hbm S2048x100 .i32).slice
        (Rect.unit (s := S2048x100) ![n, 0] S1x100.size hoff) (fun _ => rfl)).view.emb
          (Shape.reshapeEquiv (s := S1x100) (s' := S100) squeezes_S1x100_S100.numel_eq (ix1 l)) := rfl
  show fi ((((Memref.whole main_v0_scv : Memref sig .scVector .hbm S2048x100 .i32).slice
      (Rect.unit (s := S2048x100) ![n, 0] S1x100.size hoff) (fun _ => rfl)).squeeze S100 squeezes_S1x100_S100).view.emb (ix1 l)) = _
  refine (congrArg fi (hemb.trans (congrArg _ hy))).trans (congrArg fi (funext fun a => Fin.ext ?_))
  match a with
  | ⟨0, _⟩ => show n + 1 * 0 = n; omega
  | ⟨1, _⟩ => show 0 + 1 * l.val = l.val; omega

theorem idx_row_0 (fi : S2048x100.Idx → BitVec 32) (off : Fin 2 → ℕ) (hoff : ∀ a, off a + S1x100.size a ≤ S2048x100.size a)
    (n : ℕ) (hnlt : n < 2048) (ho : off = ![n, 0]) (i0 : S100.Idx → BitVec 32) (x : S100.Idx) :
    View.read (Elt F) (Memref.whole cc0_scratch0 : Memref sig .scVector .vmem S100 .i32).view
        (View.write (Elt F) (Memref.whole cc0_scratch0 : Memref sig .scVector .vmem S100 .i32).view i0
          (ReadAs.same.apply (View.read (Elt F) (((Memref.whole main_v0_scv : Memref sig .scVector .hbm S2048x100 .i32).slice
            (Rect.unit (s := S2048x100) off S1x100.size hoff) (fun _ => rfl)).squeeze S100 squeezes_S1x100_S100).view fi)) Finset.univ) x
      = fi (ValueIdx.ix2 ⟨n, hnlt⟩ (x 0)) := by
  refine Eq.trans (congrFun (View.write_whole_univ (Val := Elt F) cc0_scratch0 i0 _) x) ?_
  exact row_read fi off hoff n hnlt ho x

theorem idx_row_1 (fi : S2048x100.Idx → BitVec 32) (off : Fin 2 → ℕ) (hoff : ∀ a, off a + S1x100.size a ≤ S2048x100.size a)
    (n : ℕ) (hnlt : n < 2048) (ho : off = ![n, 0]) (i0 : S100.Idx → BitVec 32) (x : S100.Idx) :
    View.read (Elt F) (Memref.whole cc0_scratch1 : Memref sig .scVector .vmem S100 .i32).view
        (View.write (Elt F) (Memref.whole cc0_scratch1 : Memref sig .scVector .vmem S100 .i32).view i0
          (ReadAs.same.apply (View.read (Elt F) (((Memref.whole main_v0_scv : Memref sig .scVector .hbm S2048x100 .i32).slice
            (Rect.unit (s := S2048x100) off S1x100.size hoff) (fun _ => rfl)).squeeze S100 squeezes_S1x100_S100).view fi)) Finset.univ) x
      = fi (ValueIdx.ix2 ⟨n, hnlt⟩ (x 0)) := by
  refine Eq.trans (congrFun (View.write_whole_univ (Val := Elt F) cc0_scratch1 i0 _) x) ?_
  exact row_read fi off hoff n hnlt ho x

theorem idx_row_2 (fi : S2048x100.Idx → BitVec 32) (off : Fin 2 → ℕ) (hoff : ∀ a, off a + S1x100.size a ≤ S2048x100.size a)
    (n : ℕ) (hnlt : n < 2048) (ho : off = ![n, 0]) (i0 : S100.Idx → BitVec 32) (x : S100.Idx) :
    View.read (Elt F) (Memref.whole cc0_scratch2 : Memref sig .scVector .vmem S100 .i32).view
        (View.write (Elt F) (Memref.whole cc0_scratch2 : Memref sig .scVector .vmem S100 .i32).view i0
          (ReadAs.same.apply (View.read (Elt F) (((Memref.whole main_v0_scv : Memref sig .scVector .hbm S2048x100 .i32).slice
            (Rect.unit (s := S2048x100) off S1x100.size hoff) (fun _ => rfl)).squeeze S100 squeezes_S1x100_S100).view fi)) Finset.univ) x
      = fi (ValueIdx.ix2 ⟨n, hnlt⟩ (x 0)) := by
  refine Eq.trans (congrFun (View.write_whole_univ (Val := Elt F) cc0_scratch2 i0 _) x) ?_
  exact row_read fi off hoff n hnlt ho x

theorem idx_row_3 (fi : S2048x100.Idx → BitVec 32) (off : Fin 2 → ℕ) (hoff : ∀ a, off a + S1x100.size a ≤ S2048x100.size a)
    (n : ℕ) (hnlt : n < 2048) (ho : off = ![n, 0]) (i0 : S100.Idx → BitVec 32) (x : S100.Idx) :
    View.read (Elt F) (Memref.whole cc0_scratch3 : Memref sig .scVector .vmem S100 .i32).view
        (View.write (Elt F) (Memref.whole cc0_scratch3 : Memref sig .scVector .vmem S100 .i32).view i0
          (ReadAs.same.apply (View.read (Elt F) (((Memref.whole main_v0_scv : Memref sig .scVector .hbm S2048x100 .i32).slice
            (Rect.unit (s := S2048x100) off S1x100.size hoff) (fun _ => rfl)).squeeze S100 squeezes_S1x100_S100).view fi)) Finset.univ) x
      = fi (ValueIdx.ix2 ⟨n, hnlt⟩ (x 0)) := by
  refine Eq.trans (congrFun (View.write_whole_univ (Val := Elt F) cc0_scratch3 i0 _) x) ?_
  exact row_read fi off hoff n hnlt ho x

/-! ## The accumulator scratch copied to its slab of the output -/

/-- THE SLAB a subcore writes: rows 256·s + 128·c .. + 127 of the output hold, after the copy, the accumulator scratch's
    rows — at row j of the output, row j % 128 of the scratch of the subcore whose first chunk is 64·(j / 128). -/
theorem out_slab (fi : S2048x100.Idx → BitVec 32) (ft : S100000x128.Idx → F .f32) (L : grid0.Coords) (fo : S4096x128.Idx → F .f32)
    (a : S128x128.Idx → F .f32) (ha : AOK fi ft (128 * (L 1).val + 64 * (L 0).val) 16 a) :
    ∀ j ∈ ((Memref.whole main_v1_scv : Memref sig .scVector .hbm S4096x128 .f32).slice
        (Rect.unit (s := S4096x128) (k0_off50 L) S128x128.size (k0_off50_inb L)) (fun _ => rfl)).view.set,
      (((Memref.whole main_v1_scv : Memref sig .scVector .hbm S4096x128 .f32).slice
          (Rect.unit (s := S4096x128) (k0_off50 L) S128x128.size (k0_off50_inb L)) (fun _ => rfl)).view.writes (Elt F) fo
        [⟨Rect.whole S128x128, ReadAs.same.apply (View.read (Elt F) (Memref.whole cc0_scratch8 : Memref sig .scVector .vmem S128x128 .f32).view a)⟩]) j
        = Macc fi ft (64 * ((j 0).val / 128)) (ValueIdx.ix2 ⟨(j 0).val % 128, Nat.mod_lt _ (by decide)⟩ (j 1)) := by
  intro j hj
  obtain ⟨y, hy⟩ : ∃ y : S128x128.Idx, ((Memref.whole main_v1_scv : Memref sig .scVector .hbm S4096x128 .f32).slice
      (Rect.unit (s := S4096x128) (k0_off50 L) S128x128.size (k0_off50_inb L)) (fun _ => rfl)).view.emb y = j :=
    View.exists_emb_of_mem_set _ hj
  subst hy
  have h50 : k0_off50 L 0 = 256 * (L 1).val + 128 * (L 0).val := congrFun (k0_off50_eq L) 0
  have h51 : k0_off50 L 1 = 0 := congrFun (k0_off50_eq L) 1
  have hL0 : (L 0).val < 2 := (L 0).isLt
  have hL1 : (L 1).val < 16 := (L 1).isLt
  have hy0 : (y 0).val < 128 := (y 0).isLt
  have e0 : ((((Memref.whole main_v1_scv : Memref sig .scVector .hbm S4096x128 .f32).slice
      (Rect.unit (s := S4096x128) (k0_off50 L) S128x128.size (k0_off50_inb L)) (fun _ => rfl)).view.emb y) 0).val
      = 256 * (L 1).val + 128 * (L 0).val + (y 0).val := by
    show k0_off50 L 0 + 1 * (y 0).val = _
    omega
  have e1 : ((((Memref.whole main_v1_scv : Memref sig .scVector .hbm S4096x128 .f32).slice
      (Rect.unit (s := S4096x128) (k0_off50 L) S128x128.size (k0_off50_inb L)) (fun _ => rfl)).view.emb y) 1) = y 1 := by
    apply Fin.ext
    show k0_off50 L 1 + 1 * (y 1).val = (y 1).val
    omega
  have hw := View.read_writes_cons_emb ((Memref.whole main_v1_scv : Memref sig .scVector .hbm S4096x128 .f32).slice
      (Rect.unit (s := S4096x128) (k0_off50 L) S128x128.size (k0_off50_inb L)) (fun _ => rfl)).view fo (Rect.whole S128x128)
      (ReadAs.same.apply (View.read (Elt F) (Memref.whole cc0_scratch8 : Memref sig .scVector .vmem S128x128 .f32).view a)) [] y
  have hw' := (congrArg (View.read (Elt F) ((Memref.whole main_v1_scv : Memref sig .scVector .hbm S4096x128 .f32).slice
      (Rect.unit (s := S4096x128) (k0_off50 L) S128x128.size (k0_off50_inb L)) (fun _ => rfl)).view
      (((Memref.whole main_v1_scv : Memref sig .scVector .hbm S4096x128 .f32).slice
        (Rect.unit (s := S4096x128) (k0_off50 L) S128x128.size (k0_off50_inb L)) (fun _ => rfl)).view.writes (Elt F) fo
        [⟨Rect.whole S128x128, ReadAs.same.apply (View.read (Elt F) (Memref.whole cc0_scratch8 : Memref sig .scVector .vmem S128x128 .f32).view a)⟩]))
      (Rect.emb_whole_apply S128x128 y)).symm.trans hw
  refine Eq.trans (show _ = View.read (Elt F) _ (_) y from rfl) (hw'.trans ?_)
  show a y = _
  rw [ha y (by omega)]
  have b0 : 64 * ((256 * (L 1).val + 128 * (L 0).val + (y 0).val) / 128) = 128 * (L 1).val + 64 * (L 0).val := by omega
  have b1 : (256 * (L 1).val + 128 * (L 0).val + (y 0).val) % 128 = (y 0).val := by omega
  rw [e0, e1, b0]
  refine congrArg (Macc fi ft _) (funext fun c => ?_)
  match c with
  | ⟨0, _⟩ => exact Fin.ext b1.symm
  | ⟨1, _⟩ => rfl

end Cert.KernelIdeal.HandVal

end
-- ==== Proof.KIVTrip.lean ====
/-
  One trip of the lookup kernel's chunk loop on one vector subcore, with the values.

  The subcore whose coordinates are (c, s) works on the 64 chunks from 128·s + 64·c on. Between two trips, after k of
  them, its accumulator scratch is right on its first 8·k rows, and while trips remain four gathers are in flight, slot
  b's to deliver the gathered table rows of chunk base + 4·k + b. During a slot's reduction loop the rows scratch stays as
  the gather left it and the sixteen accumulators are the running sums over the rows added so far. A trip takes the
  state after k trips to the state after k + 1.
-/
import proofs.«207455_g33174327394824_cont_8to1_b_592_21_alg».proof.Proof.KIShares
import proofs.«207455_g33174327394824_cont_8to1_b_592_21_alg».proof.Proof.KIValLemmas
import proofs.«207455_g33174327394824_cont_8to1_b_592_21_alg».proof.Proof.KIValMoves
noncomputable section
namespace Cert.KernelIdeal.Hand
open Cert.KernelIdeal Cert.KernelIdeal.Gen Cert.KernelIdeal.HandVal
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
local notation "𝕄" => MT nD τ sig (HIx 1) (Elt F) ℕ UU ℕ

local notation "idsW" => (Memref.whole Cert.KernelIdeal.main_v0_scv : Memref Cert.KernelIdeal.sig Kind.scVector Space.hbm Cert.KernelIdeal.S2048x100 EltTy.i32)
local notation "tblW" => (Memref.whole Cert.KernelIdeal.main_arg1_scv : Memref Cert.KernelIdeal.sig Kind.scVector Space.hbm Cert.KernelIdeal.S100000x128 EltTy.f32)
local notation "outW" => (Memref.whole Cert.KernelIdeal.main_v1_scv : Memref Cert.KernelIdeal.sig Kind.scVector Space.hbm Cert.KernelIdeal.S4096x128 EltTy.f32)
local notation "sI0" => (Memref.whole Cert.KernelIdeal.cc0_scratch0 : Memref Cert.KernelIdeal.sig Kind.scVector Space.vmem Cert.KernelIdeal.S100 EltTy.i32)
local notation "sI1" => (Memref.whole Cert.KernelIdeal.cc0_scratch1 : Memref Cert.KernelIdeal.sig Kind.scVector Space.vmem Cert.KernelIdeal.S100 EltTy.i32)
local notation "sI2" => (Memref.whole Cert.KernelIdeal.cc0_scratch2 : Memref Cert.KernelIdeal.sig Kind.scVector Space.vmem Cert.KernelIdeal.S100 EltTy.i32)
local notation "sI3" => (Memref.whole Cert.KernelIdeal.cc0_scratch3 : Memref Cert.KernelIdeal.sig Kind.scVector Space.vmem Cert.KernelIdeal.S100 EltTy.i32)
local notation "sR0" => (Memref.whole Cert.KernelIdeal.cc0_scratch4 : Memref Cert.KernelIdeal.sig Kind.scVector Space.vmem Cert.KernelIdeal.S100x128 EltTy.f32)
local notation "sR1" => (Memref.whole Cert.KernelIdeal.cc0_scratch5 : Memref Cert.KernelIdeal.sig Kind.scVector Space.vmem Cert.KernelIdeal.S100x128 EltTy.f32)
local notation "sR2" => (Memref.whole Cert.KernelIdeal.cc0_scratch6 : Memref Cert.KernelIdeal.sig Kind.scVector Space.vmem Cert.KernelIdeal.S100x128 EltTy.f32)
local notation "sR3" => (Memref.whole Cert.KernelIdeal.cc0_scratch7 : Memref Cert.KernelIdeal.sig Kind.scVector Space.vmem Cert.KernelIdeal.S100x128 EltTy.f32)
local notation "sA" => (Memref.whole Cert.KernelIdeal.cc0_scratch8 : Memref Cert.KernelIdeal.sig Kind.scVector Space.vmem Cert.KernelIdeal.S128x128 EltTy.f32)
abbrev tblS : Memref sig .scVector .hbm S100000x128 .f32 := (Memref.whole main_arg1_scv).slice (Rect.unit (s := S100000x128) ![0, 0] S100000x128.size inb_S100000x128_S100000x128_0_0) (fun _ => rfl)

/-- The first chunk of the subcore at `L`. -/
abbrev baseOf (L : grid0.Coords) : ℕ := 128 * (L 1).val + 64 * (L 0).val

theorem baseOf_lt (L : grid0.Coords) : baseOf L + 63 < 2048 := by
  have h0 : (L 0).val < 2 := (L 0).isLt
  have h1 : (L 1).val < 16 := (L 1).isLt
  unfold baseOf; omega

/-- What a tile holds between two trips of the chunk loop, with the values: the accumulator scratch right on its first 8·k
    rows; while trips remain, the four gathers in flight, slot b's to deliver the gathered rows of chunk base + 4·k + b. -/
def invV (d : Dev nD) (L : grid0.Coords) (q : PosShare TreeShare) (fi : Buf (Elt F) ((idsW).view.loc (thr d L))) (ft : Buf (Elt F) ((tblW).view.loc (thr d L)))
    (O : CellTallies nD τ sig (HIx 1)) (W : Waits sig (HIx 1)) (k : Nat) (_ : PUnit) : sProp 𝕄 :=
  iprop(Transfers.MayWaits (thr d L) (none : HIx 1) O ∗ ((idsW).view.loc (thr d L) ↦{q} fi)
    ∗ ((tblW).view.loc (thr d L) ↦{Transfers.shareDrop q 4} ft)
    ∗ (∃ a, ⌜AOK fi ft (baseOf L) k a⌝ ∗ ((sA).view.loc (thr d L) ↦{fullShare} a))
    ∗ semVal (thr d L, SemLoc.dma cc0_scratch13.sem) 0 ∗ semVal (thr d L, SemLoc.dma cc0_scratch14.sem) 0
    ∗ semVal (thr d L, SemLoc.dma cc0_scratch15.sem) 0 ∗ semVal (thr d L, SemLoc.dma cc0_scratch16.sem) 0
    ∗ (if k < 16 then
        iprop(((tblW).view.loc (thr d L) ↦[Finset.univ \ (tblS).view.set]{Transfers.shareTok q 4 0} ft)
          ∗ ((tblW).view.loc (thr d L) ↦[Finset.univ \ (tblS).view.set]{Transfers.shareTok q 4 1} ft)
          ∗ ((tblW).view.loc (thr d L) ↦[Finset.univ \ (tblS).view.set]{Transfers.shareTok q 4 2} ft)
          ∗ ((tblW).view.loc (thr d L) ↦[Finset.univ \ (tblS).view.set]{Transfers.shareTok q 4 3} ft)
          ∗ (∃ r0 i0, (Transfers.Flight Idealize.ShloMosaic.countersEmb (thr d L) (SemLoc.dma cc0_scratch9.sem) (default : HIx 1) 409600
        iprop((((sR0).view.loc (thr d L) ↦{fullShare} (sR0).view.writes (Elt F) r0 [⟨Rect.whole _, gath fi ft (baseOf L + 4 * k + 0)⟩])
            ∗ ((sI0).view.loc (thr d L) ↦{fullShare} i0))
          ∗ ((tblW).view.loc (thr d L) ↦[(tblS).view.set]{Transfers.shareTok q 4 0} ft)))) ∗ (∃ r1 i1, (Transfers.Flight Idealize.ShloMosaic.countersEmb (thr d L) (SemLoc.dma cc0_scratch10.sem) (default : HIx 1) 409600
        iprop((((sR1).view.loc (thr d L) ↦{fullShare} (sR1).view.writes (Elt F) r1 [⟨Rect.whole _, gath fi ft (baseOf L + 4 * k + 1)⟩])
            ∗ ((sI1).view.loc (thr d L) ↦{fullShare} i1))
          ∗ ((tblW).view.loc (thr d L) ↦[(tblS).view.set]{Transfers.shareTok q 4 1} ft))))
          ∗ (∃ r2 i2, (Transfers.Flight Idealize.ShloMosaic.countersEmb (thr d L) (SemLoc.dma cc0_scratch11.sem) (default : HIx 1) 409600
        iprop((((sR2).view.loc (thr d L) ↦{fullShare} (sR2).view.writes (Elt F) r2 [⟨Rect.whole _, gath fi ft (baseOf L + 4 * k + 2)⟩])
            ∗ ((sI2).view.loc (thr d L) ↦{fullShare} i2))
          ∗ ((tblW).view.loc (thr d L) ↦[(tblS).view.set]{Transfers.shareTok q 4 2} ft)))) ∗ (∃ r3 i3, (Transfers.Flight Idealize.ShloMosaic.countersEmb (thr d L) (SemLoc.dma cc0_scratch12.sem) (default : HIx 1) 409600
        iprop((((sR3).view.loc (thr d L) ↦{fullShare} (sR3).view.writes (Elt F) r3 [⟨Rect.whole _, gath fi ft (baseOf L + 4 * k + 3)⟩])
            ∗ ((sI3).view.loc (thr d L) ↦{fullShare} i3))
          ∗ ((tblW).view.loc (thr d L) ↦[(tblS).view.set]{Transfers.shareTok q 4 3} ft)))))
      else
        iprop(((∃ r, (sR0).view.loc (thr d L) ↦{fullShare} r) ∗ (∃ i, (sI0).view.loc (thr d L) ↦{fullShare} i) ∗ semVal (thr d L, SemLoc.dma cc0_scratch9.sem) 0 ∗ ((tblW).view.loc (thr d L) ↦{Transfers.shareTok q 4 0} ft))
          ∗ ((∃ r, (sR1).view.loc (thr d L) ↦{fullShare} r) ∗ (∃ i, (sI1).view.loc (thr d L) ↦{fullShare} i) ∗ semVal (thr d L, SemLoc.dma cc0_scratch10.sem) 0 ∗ ((tblW).view.loc (thr d L) ↦{Transfers.shareTok q 4 1} ft))
          ∗ ((∃ r, (sR2).view.loc (thr d L) ↦{fullShare} r) ∗ (∃ i, (sI2).view.loc (thr d L) ↦{fullShare} i) ∗ semVal (thr d L, SemLoc.dma cc0_scratch11.sem) 0 ∗ ((tblW).view.loc (thr d L) ↦{Transfers.shareTok q 4 2} ft))
          ∗ ((∃ r, (sR3).view.loc (thr d L) ↦{fullShare} r) ∗ (∃ i, (sI3).view.loc (thr d L) ↦{fullShare} i) ∗ semVal (thr d L, SemLoc.dma cc0_scratch12.sem) 0 ∗ ((tblW).view.loc (thr d L) ↦{Transfers.shareTok q 4 3} ft))))
    ∗ ∃ W', ⌜∀ p ∈ W', p ∈ W ∨ p.2 = none⌝ ∗ owes (thr d L) O W')

theorem waits_ins {W W' : Waits sig (HIx 1)} (h : ∀ p ∈ W', p ∈ W ∨ p.2 = none) (sm : SemLoc sig) :
    ∀ p ∈ insert (sm, (default : HIx 1)) W', p ∈ W ∨ p.2 = none := by
  intro p hp
  rcases Finset.mem_insert.mp hp with rfl | hp
  · exact .inr rfl
  · exact h p hp

/-- During slot 0's reduction loop the rows scratch stays as the gather left it and the sixteen accumulators are the running
    sums over the rows added so far. -/
def rinvV0 (d : Dev nD) (L : grid0.Coords) (g : S100x128.Idx → F .f32) (j : Nat) (acc : Acc16 F) : sProp 𝕄 :=
  iprop(((sR0).view.loc (thr d L) ↦{fullShare} (sR0).view.writes (Elt F) (sR0).view.junk [⟨Rect.whole _, g⟩]) ∗ ⌜acc = psumTuple g (2 * j)⌝)

/-- During slot 1's reduction loop the rows scratch stays as the gather left it and the sixteen accumulators are the running
    sums over the rows added so far. -/
def rinvV1 (d : Dev nD) (L : grid0.Coords) (g : S100x128.Idx → F .f32) (j : Nat) (acc : Acc16 F) : sProp 𝕄 :=
  iprop(((sR1).view.loc (thr d L) ↦{fullShare} (sR1).view.writes (Elt F) (sR1).view.junk [⟨Rect.whole _, g⟩]) ∗ ⌜acc = psumTuple g (2 * j)⌝)

/-- During slot 2's reduction loop the rows scratch stays as the gather left it and the sixteen accumulators are the running
    sums over the rows added so far. -/
def rinvV2 (d : Dev nD) (L : grid0.Coords) (g : S100x128.Idx → F .f32) (j : Nat) (acc : Acc16 F) : sProp 𝕄 :=
  iprop(((sR2).view.loc (thr d L) ↦{fullShare} (sR2).view.writes (Elt F) (sR2).view.junk [⟨Rect.whole _, g⟩]) ∗ ⌜acc = psumTuple g (2 * j)⌝)

/-- During slot 3's reduction loop the rows scratch stays as the gather left it and the sixteen accumulators are the running
    sums over the rows added so far. -/
def rinvV3 (d : Dev nD) (L : grid0.Coords) (g : S100x128.Idx → F .f32) (j : Nat) (acc : Acc16 F) : sProp 𝕄 :=
  iprop(((sR3).view.loc (thr d L) ↦{fullShare} (sR3).view.writes (Elt F) (sR3).view.junk [⟨Rect.whole _, g⟩]) ∗ ⌜acc = psumTuple g (2 * j)⌝)

set_option maxHeartbeats 4000000 in
theorem tripV_lt (d : Dev nD) (L : grid0.Coords) (q : PosShare TreeShare) (fi : Buf (Elt F) ((idsW).view.loc (thr d L))) (ft : Buf (Elt F) ((tblW).view.loc (thr d L)))
    (hin : ∀ j, (fi j).toNat < 100000)
    (O : CellTallies nD τ sig (HIx 1)) (W : Waits sig (HIx 1)) (v2 : BitVec 32) (k : Fin k0_t1_loop.trips) (hk : k.val < 15) :
    invV d L q fi ft O W k.val ⟨⟩
      ⊢ wp frame (wpE (defs₀ (F := F)) 𝒱₀ (thr d L) none) Set.univ
          (k0_t1_body L idsW (Memref.isWhole_whole _) tblW (Memref.isWhole_whole _) outW (Memref.isWhole_whole _)
            sI0 (Memref.isWhole_whole _) sI1 (Memref.isWhole_whole _) sI2 (Memref.isWhole_whole _) sI3 (Memref.isWhole_whole _)
            sR0 (Memref.isWhole_whole _) sR1 (Memref.isWhole_whole _) sR2 (Memref.isWhole_whole _) sR3 (Memref.isWhole_whole _)
            sA (Memref.isWhole_whole _) cc0_scratch9 cc0_scratch10 cc0_scratch11 cc0_scratch12 cc0_scratch13 cc0_scratch14 cc0_scratch15 cc0_scratch16 cc0_scoped0 v2 k ⟨⟩)
          (fun _ => invV d L q fi ft O W (k.val + 1) ⟨⟩) := by
  have hk16 : k.val < 16 := k.isLt
  have k0_h1 : k0_cond1 k = 1#1 := by revert k; decide
  have k0_h2 : k0_cond2 k = 1#1 := by revert k; decide
  have k0_h3 : k0_cond3 k = 1#1 := by revert k; decide
  have k0_h4 : k0_cond4 k = 1#1 := by revert k; decide
  have k0_h5 : k0_cond5 k = 1#1 := by revert k; decide
  have k0_h6 : k0_cond6 k = 1#1 := by revert k; decide
  have k0_h7 : k0_cond7 k = 1#1 := by revert k; decide
  have k0_h8 : k0_cond8 k = 1#1 := by revert k; decide
  have hL0 : ∀ (off : Fin 2 → Nat) (hoff : ∀ a, off a + S1x100.size a ≤ S2048x100.size a) (g : Buf (Elt F) ((sI0).view.loc (thr d L))) (x : cc0_scratch0.ty.shape.Idx),
      BitVec.toNat (View.read (Elt F) (sI0).view (View.write (Elt F) (sI0).view g
        (ReadAs.same.apply (View.read (Elt F) (((idsW).slice (Rect.unit (s := S2048x100) off S1x100.size hoff) (fun _ => rfl)).squeeze S100 squeezes_S1x100_S100).view fi)) Finset.univ) x) < 100000 := by
    intro off hoff g x
    simp only [Memref.view_whole, View.write_whole_univ, View.read_whole, ReadAs.apply_same, View.read_apply]
    exact hin _
  have hL1 : ∀ (off : Fin 2 → Nat) (hoff : ∀ a, off a + S1x100.size a ≤ S2048x100.size a) (g : Buf (Elt F) ((sI1).view.loc (thr d L))) (x : cc0_scratch1.ty.shape.Idx),
      BitVec.toNat (View.read (Elt F) (sI1).view (View.write (Elt F) (sI1).view g
        (ReadAs.same.apply (View.read (Elt F) (((idsW).slice (Rect.unit (s := S2048x100) off S1x100.size hoff) (fun _ => rfl)).squeeze S100 squeezes_S1x100_S100).view fi)) Finset.univ) x) < 100000 := by
    intro off hoff g x
    simp only [Memref.view_whole, View.write_whole_univ, View.read_whole, ReadAs.apply_same, View.read_apply]
    exact hin _
  have hL2 : ∀ (off : Fin 2 → Nat) (hoff : ∀ a, off a + S1x100.size a ≤ S2048x100.size a) (g : Buf (Elt F) ((sI2).view.loc (thr d L))) (x : cc0_scratch2.ty.shape.Idx),
      BitVec.toNat (View.read (Elt F) (sI2).view (View.write (Elt F) (sI2).view g
        (ReadAs.same.apply (View.read (Elt F) (((idsW).slice (Rect.unit (s := S2048x100) off S1x100.size hoff) (fun _ => rfl)).squeeze S100 squeezes_S1x100_S100).view fi)) Finset.univ) x) < 100000 := by
    intro off hoff g x
    simp only [Memref.view_whole, View.write_whole_univ, View.read_whole, ReadAs.apply_same, View.read_apply]
    exact hin _
  have hL3 : ∀ (off : Fin 2 → Nat) (hoff : ∀ a, off a + S1x100.size a ≤ S2048x100.size a) (g : Buf (Elt F) ((sI3).view.loc (thr d L))) (x : cc0_scratch3.ty.shape.Idx),
      BitVec.toNat (View.read (Elt F) (sI3).view (View.write (Elt F) (sI3).view g
        (ReadAs.same.apply (View.read (Elt F) (((idsW).slice (Rect.unit (s := S2048x100) off S1x100.size hoff) (fun _ => rfl)).squeeze S100 squeezes_S1x100_S100).view fi)) Finset.univ) x) < 100000 := by
    intro off hoff g x
    simp only [Memref.view_whole, View.write_whole_univ, View.read_whole, ReadAs.apply_same, View.read_apply]
    exact hin _
  unfold invV
  rw [if_pos hk16]
  iintro ⟨#Hmw, Hi, Htr, ⟨%a, %ha, A⟩, I0, I1, I2, I3, ⟨Hz0, Hz1, Hz2, Hz3, ⟨%r0, %i0, G0⟩, ⟨%r1, %i1, G1⟩, ⟨%r2, %i2, G2⟩, ⟨%r3, %i3, G3⟩⟩, %W', %hW', HO⟩
  unfold k0_t1_body
  sl_exec (disch := exact View.amount_pos _ _ (show 0 < S100.numel by decide))
  sl_for (rinvV0 d L (gath fi ft (baseOf L + 4 * k.val + 0))) $$ [G0_dst]
  case region =>
    intro j acc
    unfold rinvV0
    iintro ⟨HR, %hacc⟩
    obtain ⟨a0, a1, a2, a3, a4, a5, a6, a7, a8, a9, a10, a11, a12, a13, a14, a15⟩ := acc
    sl_exec
    sl_step
    isplitl [HR]; · iexact HR
    ipureintro
    exact acc_step_0 (gath fi ft (baseOf L + 4 * k.val + 0)) j _ hacc
  · unfold rinvV0
    isplitl [G0_dst]; · iexact G0_dst
    ipureintro
    exact (psumTuple_zero _).symm
  iintro %acc0 HR0
  unfold rinvV0
  icases HR0 with ⟨HR0, %hacc0⟩
  obtain ⟨w0, w1, w2, w3, w4, w5, w6, w7, w8, w9, w10, w11, w12, w13, w14, w15⟩ := acc0
  have h25_0 : Scf.trips k0_t2_loop.lb k0_t2_loop.ub k0_t2_loop.st = 25 := by decide
  rw [h25_0] at hacc0
  simp only [psumTuple, Prod.mk.injEq] at hacc0
  obtain ⟨rfl, rfl, rfl, rfl, rfl, rfl, rfl, rfl, rfl, rfl, rfl, rfl, rfl, rfl, rfl, rfl⟩ := hacc0
  sl_exec (disch := exact View.amount_pos _ _ (show 0 < S100.numel by decide))
  sl_for (rinvV1 d L (gath fi ft (baseOf L + 4 * k.val + 1))) $$ [G1_dst]
  case region =>
    intro j acc
    unfold rinvV1
    iintro ⟨HR, %hacc⟩
    obtain ⟨a0, a1, a2, a3, a4, a5, a6, a7, a8, a9, a10, a11, a12, a13, a14, a15⟩ := acc
    sl_exec
    sl_step
    isplitl [HR]; · iexact HR
    ipureintro
    exact acc_step_1 (gath fi ft (baseOf L + 4 * k.val + 1)) j _ hacc
  · unfold rinvV1
    isplitl [G1_dst]; · iexact G1_dst
    ipureintro
    exact (psumTuple_zero _).symm
  iintro %acc1 HR1
  unfold rinvV1
  icases HR1 with ⟨HR1, %hacc1⟩
  obtain ⟨w0, w1, w2, w3, w4, w5, w6, w7, w8, w9, w10, w11, w12, w13, w14, w15⟩ := acc1
  have h25_1 : Scf.trips k0_t3_loop.lb k0_t3_loop.ub k0_t3_loop.st = 25 := by decide
  rw [h25_1] at hacc1
  simp only [psumTuple, Prod.mk.injEq] at hacc1
  obtain ⟨rfl, rfl, rfl, rfl, rfl, rfl, rfl, rfl, rfl, rfl, rfl, rfl, rfl, rfl, rfl, rfl⟩ := hacc1
  sl_exec (disch := exact View.amount_pos _ _ (show 0 < S100.numel by decide))
  sl_for (rinvV2 d L (gath fi ft (baseOf L + 4 * k.val + 2))) $$ [G2_dst]
  case region =>
    intro j acc
    unfold rinvV2
    iintro ⟨HR, %hacc⟩
    obtain ⟨a0, a1, a2, a3, a4, a5, a6, a7, a8, a9, a10, a11, a12, a13, a14, a15⟩ := acc
    sl_exec
    sl_step
    isplitl [HR]; · iexact HR
    ipureintro
    exact acc_step_2 (gath fi ft (baseOf L + 4 * k.val + 2)) j _ hacc
  · unfold rinvV2
    isplitl [G2_dst]; · iexact G2_dst
    ipureintro
    exact (psumTuple_zero _).symm
  iintro %acc2 HR2
  unfold rinvV2
  icases HR2 with ⟨HR2, %hacc2⟩
  obtain ⟨w0, w1, w2, w3, w4, w5, w6, w7, w8, w9, w10, w11, w12, w13, w14, w15⟩ := acc2
  have h25_2 : Scf.trips k0_t4_loop.lb k0_t4_loop.ub k0_t4_loop.st = 25 := by decide
  rw [h25_2] at hacc2
  simp only [psumTuple, Prod.mk.injEq] at hacc2
  obtain ⟨rfl, rfl, rfl, rfl, rfl, rfl, rfl, rfl, rfl, rfl, rfl, rfl, rfl, rfl, rfl, rfl⟩ := hacc2
  sl_exec (disch := exact View.amount_pos _ _ (show 0 < S100.numel by decide))
  sl_for (rinvV3 d L (gath fi ft (baseOf L + 4 * k.val + 3))) $$ [G3_dst]
  case region =>
    intro j acc
    unfold rinvV3
    iintro ⟨HR, %hacc⟩
    obtain ⟨a0, a1, a2, a3, a4, a5, a6, a7, a8, a9, a10, a11, a12, a13, a14, a15⟩ := acc
    sl_exec
    sl_step
    isplitl [HR]; · iexact HR
    ipureintro
    exact acc_step_3 (gath fi ft (baseOf L + 4 * k.val + 3)) j _ hacc
  · unfold rinvV3
    isplitl [G3_dst]; · iexact G3_dst
    ipureintro
    exact (psumTuple_zero _).symm
  iintro %acc3 HR3
  unfold rinvV3
  icases HR3 with ⟨HR3, %hacc3⟩
  obtain ⟨w0, w1, w2, w3, w4, w5, w6, w7, w8, w9, w10, w11, w12, w13, w14, w15⟩ := acc3
  have h25_3 : Scf.trips k0_t5_loop.lb k0_t5_loop.ub k0_t5_loop.st = 25 := by decide
  rw [h25_3] at hacc3
  simp only [psumTuple, Prod.mk.injEq] at hacc3
  obtain ⟨rfl, rfl, rfl, rfl, rfl, rfl, rfl, rfl, rfl, rfl, rfl, rfl, rfl, rfl, rfl, rfl⟩ := hacc3
  sl_exec (disch := exact View.amount_pos _ _ (show 0 < S100.numel by decide))
  sl_step
  have hk1 : k.val + 1 < 16 := by omega
  rw [if_pos hk1]
  have e0 := gath_of_rows (F := F) fi ft _ rfl (hL0 (k0_off2 L k) (k0_off2_inb L k k0_h1) i0) (baseOf L + 4 * (k.val + 1) + 0) (by have := baseOf_lt L; omega)
    (fun x => idx_row_0 (F := F) fi (k0_off2 L k) (k0_off2_inb L k k0_h1) (baseOf L + 4 * (k.val + 1) + 0) (by have := baseOf_lt L; omega)
      (by rw [k0_off2_eq]; unfold baseOf; congr 1 <;> omega) i0 x)
  have e1 := gath_of_rows (F := F) fi ft _ rfl (hL1 (k0_off20 L k) (k0_off20_inb L k k0_h3) i1) (baseOf L + 4 * (k.val + 1) + 1) (by have := baseOf_lt L; omega)
    (fun x => idx_row_1 (F := F) fi (k0_off20 L k) (k0_off20_inb L k k0_h3) (baseOf L + 4 * (k.val + 1) + 1) (by have := baseOf_lt L; omega)
      (by rw [k0_off20_eq]; unfold baseOf; congr 1 <;> omega) i1 x)
  have e2 := gath_of_rows (F := F) fi ft _ rfl (hL2 (k0_off30 L k) (k0_off30_inb L k k0_h5) i2) (baseOf L + 4 * (k.val + 1) + 2) (by have := baseOf_lt L; omega)
    (fun x => idx_row_2 (F := F) fi (k0_off30 L k) (k0_off30_inb L k k0_h5) (baseOf L + 4 * (k.val + 1) + 2) (by have := baseOf_lt L; omega)
      (by rw [k0_off30_eq]; unfold baseOf; congr 1 <;> omega) i2 x)
  have e3 := gath_of_rows (F := F) fi ft _ rfl (hL3 (k0_off40 L k) (k0_off40_inb L k k0_h7) i3) (baseOf L + 4 * (k.val + 1) + 3) (by have := baseOf_lt L; omega)
    (fun x => idx_row_3 (F := F) fi (k0_off40 L k) (k0_off40_inb L k k0_h7) (baseOf L + 4 * (k.val + 1) + 3) (by have := baseOf_lt L; omega)
      (by rw [k0_off40_eq]; unfold baseOf; congr 1 <;> omega) i3 x)
  rw [← e0, ← e1, ← e2, ← e3]
  isplitr; · iexact Hmw
  isplitl [Hi]; · iexact Hi
  isplitl [Htr]; · iexact Htr
  isplitl [A]
  · iexists _; isplitr
    rotate_left
    · iexact A
    · ipureintro
      exact AOK_step fi ft (baseOf L) k (by have := baseOf_lt L; omega) a ha
  isplitl [I0]; · iexact I0
  isplitl [I1]; · iexact I1
  isplitl [I2]; · iexact I2
  isplitl [I3]; · iexact I3
  isplitl [Hz0 Hz1 Hz2 Hz3 G0 G1 G2 G3]
  · isplitl [Hz0]; · iexact Hz0
    isplitl [Hz1]; · iexact Hz1
    isplitl [Hz2]; · iexact Hz2
    isplitl [Hz3]; · iexact Hz3
    isplitl [G0]; · iexists ((sR0).view.writes (Elt F) (sR0).view.junk [⟨Rect.whole _, gath fi ft (baseOf L + 4 * k.val + 0)⟩]), _; iexact G0
    isplitl [G1]; · iexists ((sR1).view.writes (Elt F) (sR1).view.junk [⟨Rect.whole _, gath fi ft (baseOf L + 4 * k.val + 1)⟩]), _; iexact G1
    isplitl [G2]; · iexists ((sR2).view.writes (Elt F) (sR2).view.junk [⟨Rect.whole _, gath fi ft (baseOf L + 4 * k.val + 2)⟩]), _; iexact G2
    iexists ((sR3).view.writes (Elt F) (sR3).view.junk [⟨Rect.whole _, gath fi ft (baseOf L + 4 * k.val + 3)⟩]), _; iexact G3
  iexists _; isplitr
  rotate_left
  · iexact HO
  · ipureintro
    exact waits_ins (waits_ins (waits_ins (waits_ins (waits_ins (waits_ins (waits_ins (waits_ins hW' _) _) _) _) _) _) _) _

set_option maxHeartbeats 4000000 in
theorem tripV_last (d : Dev nD) (L : grid0.Coords) (q : PosShare TreeShare) (fi : Buf (Elt F) ((idsW).view.loc (thr d L))) (ft : Buf (Elt F) ((tblW).view.loc (thr d L)))
    (hin : ∀ j, (fi j).toNat < 100000)
    (O : CellTallies nD τ sig (HIx 1)) (W : Waits sig (HIx 1)) (v2 : BitVec 32) (k : Fin k0_t1_loop.trips) (hk : k.val = 15) :
    invV d L q fi ft O W k.val ⟨⟩
      ⊢ wp frame (wpE (defs₀ (F := F)) 𝒱₀ (thr d L) none) Set.univ
          (k0_t1_body L idsW (Memref.isWhole_whole _) tblW (Memref.isWhole_whole _) outW (Memref.isWhole_whole _)
            sI0 (Memref.isWhole_whole _) sI1 (Memref.isWhole_whole _) sI2 (Memref.isWhole_whole _) sI3 (Memref.isWhole_whole _)
            sR0 (Memref.isWhole_whole _) sR1 (Memref.isWhole_whole _) sR2 (Memref.isWhole_whole _) sR3 (Memref.isWhole_whole _)
            sA (Memref.isWhole_whole _) cc0_scratch9 cc0_scratch10 cc0_scratch11 cc0_scratch12 cc0_scratch13 cc0_scratch14 cc0_scratch15 cc0_scratch16 cc0_scoped0 v2 k ⟨⟩)
          (fun _ => invV d L q fi ft O W (k.val + 1) ⟨⟩) := by
  have hk16 : k.val < 16 := k.isLt
  have k0_h1 : ¬ k0_cond1 k = 1#1 := by revert k; decide
  have k0_h2 : ¬ k0_cond2 k = 1#1 := by revert k; decide
  have k0_h3 : ¬ k0_cond3 k = 1#1 := by revert k; decide
  have k0_h4 : ¬ k0_cond4 k = 1#1 := by revert k; decide
  have k0_h5 : ¬ k0_cond5 k = 1#1 := by revert k; decide
  have k0_h6 : ¬ k0_cond6 k = 1#1 := by revert k; decide
  have k0_h7 : ¬ k0_cond7 k = 1#1 := by revert k; decide
  have k0_h8 : ¬ k0_cond8 k = 1#1 := by revert k; decide
  have hL0 : ∀ (off : Fin 2 → Nat) (hoff : ∀ a, off a + S1x100.size a ≤ S2048x100.size a) (g : Buf (Elt F) ((sI0).view.loc (thr d L))) (x : cc0_scratch0.ty.shape.Idx),
      BitVec.toNat (View.read (Elt F) (sI0).view (View.write (Elt F) (sI0).view g
        (ReadAs.same.apply (View.read (Elt F) (((idsW).slice (Rect.unit (s := S2048x100) off S1x100.size hoff) (fun _ => rfl)).squeeze S100 squeezes_S1x100_S100).view fi)) Finset.univ) x) < 100000 := by
    intro off hoff g x
    simp only [Memref.view_whole, View.write_whole_univ, View.read_whole, ReadAs.apply_same, View.read_apply]
    exact hin _
  have hL1 : ∀ (off : Fin 2 → Nat) (hoff : ∀ a, off a + S1x100.size a ≤ S2048x100.size a) (g : Buf (Elt F) ((sI1).view.loc (thr d L))) (x : cc0_scratch1.ty.shape.Idx),
      BitVec.toNat (View.read (Elt F) (sI1).view (View.write (Elt F) (sI1).view g
        (ReadAs.same.apply (View.read (Elt F) (((idsW).slice (Rect.unit (s := S2048x100) off S1x100.size hoff) (fun _ => rfl)).squeeze S100 squeezes_S1x100_S100).view fi)) Finset.univ) x) < 100000 := by
    intro off hoff g x
    simp only [Memref.view_whole, View.write_whole_univ, View.read_whole, ReadAs.apply_same, View.read_apply]
    exact hin _
  have hL2 : ∀ (off : Fin 2 → Nat) (hoff : ∀ a, off a + S1x100.size a ≤ S2048x100.size a) (g : Buf (Elt F) ((sI2).view.loc (thr d L))) (x : cc0_scratch2.ty.shape.Idx),
      BitVec.toNat (View.read (Elt F) (sI2).view (View.write (Elt F) (sI2).view g
        (ReadAs.same.apply (View.read (Elt F) (((idsW).slice (Rect.unit (s := S2048x100) off S1x100.size hoff) (fun _ => rfl)).squeeze S100 squeezes_S1x100_S100).view fi)) Finset.univ) x) < 100000 := by
    intro off hoff g x
    simp only [Memref.view_whole, View.write_whole_univ, View.read_whole, ReadAs.apply_same, View.read_apply]
    exact hin _
  have hL3 : ∀ (off : Fin 2 → Nat) (hoff : ∀ a, off a + S1x100.size a ≤ S2048x100.size a) (g : Buf (Elt F) ((sI3).view.loc (thr d L))) (x : cc0_scratch3.ty.shape.Idx),
      BitVec.toNat (View.read (Elt F) (sI3).view (View.write (Elt F) (sI3).view g
        (ReadAs.same.apply (View.read (Elt F) (((idsW).slice (Rect.unit (s := S2048x100) off S1x100.size hoff) (fun _ => rfl)).squeeze S100 squeezes_S1x100_S100).view fi)) Finset.univ) x) < 100000 := by
    intro off hoff g x
    simp only [Memref.view_whole, View.write_whole_univ, View.read_whole, ReadAs.apply_same, View.read_apply]
    exact hin _
  unfold invV
  rw [if_pos hk16]
  iintro ⟨#Hmw, Hi, Htr, ⟨%a, %ha, A⟩, I0, I1, I2, I3, ⟨Hz0, Hz1, Hz2, Hz3, ⟨%r0, %i0, G0⟩, ⟨%r1, %i1, G1⟩, ⟨%r2, %i2, G2⟩, ⟨%r3, %i3, G3⟩⟩, %W', %hW', HO⟩
  unfold k0_t1_body
  sl_exec (disch := exact View.amount_pos _ _ (show 0 < S100.numel by decide))
  sl_for (rinvV0 d L (gath fi ft (baseOf L + 4 * k.val + 0))) $$ [G0_dst]
  case region =>
    intro j acc
    unfold rinvV0
    iintro ⟨HR, %hacc⟩
    obtain ⟨a0, a1, a2, a3, a4, a5, a6, a7, a8, a9, a10, a11, a12, a13, a14, a15⟩ := acc
    sl_exec
    sl_step
    isplitl [HR]; · iexact HR
    ipureintro
    exact acc_step_0 (gath fi ft (baseOf L + 4 * k.val + 0)) j _ hacc
  · unfold rinvV0
    isplitl [G0_dst]; · iexact G0_dst
    ipureintro
    exact (psumTuple_zero _).symm
  iintro %acc0 HR0
  unfold rinvV0
  icases HR0 with ⟨HR0, %hacc0⟩
  obtain ⟨w0, w1, w2, w3, w4, w5, w6, w7, w8, w9, w10, w11, w12, w13, w14, w15⟩ := acc0
  have h25_0 : Scf.trips k0_t2_loop.lb k0_t2_loop.ub k0_t2_loop.st = 25 := by decide
  rw [h25_0] at hacc0
  simp only [psumTuple, Prod.mk.injEq] at hacc0
  obtain ⟨rfl, rfl, rfl, rfl, rfl, rfl, rfl, rfl, rfl, rfl, rfl, rfl, rfl, rfl, rfl, rfl⟩ := hacc0
  sl_exec (disch := exact View.amount_pos _ _ (show 0 < S100.numel by decide))
  sl_for (rinvV1 d L (gath fi ft (baseOf L + 4 * k.val + 1))) $$ [G1_dst]
  case region =>
    intro j acc
    unfold rinvV1
    iintro ⟨HR, %hacc⟩
    obtain ⟨a0, a1, a2, a3, a4, a5, a6, a7, a8, a9, a10, a11, a12, a13, a14, a15⟩ := acc
    sl_exec
    sl_step
    isplitl [HR]; · iexact HR
    ipureintro
    exact acc_step_1 (gath fi ft (baseOf L + 4 * k.val + 1)) j _ hacc
  · unfold rinvV1
    isplitl [G1_dst]; · iexact G1_dst
    ipureintro
    exact (psumTuple_zero _).symm
  iintro %acc1 HR1
  unfold rinvV1
  icases HR1 with ⟨HR1, %hacc1⟩
  obtain ⟨w0, w1, w2, w3, w4, w5, w6, w7, w8, w9, w10, w11, w12, w13, w14, w15⟩ := acc1
  have h25_1 : Scf.trips k0_t3_loop.lb k0_t3_loop.ub k0_t3_loop.st = 25 := by decide
  rw [h25_1] at hacc1
  simp only [psumTuple, Prod.mk.injEq] at hacc1
  obtain ⟨rfl, rfl, rfl, rfl, rfl, rfl, rfl, rfl, rfl, rfl, rfl, rfl, rfl, rfl, rfl, rfl⟩ := hacc1
  sl_exec (disch := exact View.amount_pos _ _ (show 0 < S100.numel by decide))
  sl_for (rinvV2 d L (gath fi ft (baseOf L + 4 * k.val + 2))) $$ [G2_dst]
  case region =>
    intro j acc
    unfold rinvV2
    iintro ⟨HR, %hacc⟩
    obtain ⟨a0, a1, a2, a3, a4, a5, a6, a7, a8, a9, a10, a11, a12, a13, a14, a15⟩ := acc
    sl_exec
    sl_step
    isplitl [HR]; · iexact HR
    ipureintro
    exact acc_step_2 (gath fi ft (baseOf L + 4 * k.val + 2)) j _ hacc
  · unfold rinvV2
    isplitl [G2_dst]; · iexact G2_dst
    ipureintro
    exact (psumTuple_zero _).symm
  iintro %acc2 HR2
  unfold rinvV2
  icases HR2 with ⟨HR2, %hacc2⟩
  obtain ⟨w0, w1, w2, w3, w4, w5, w6, w7, w8, w9, w10, w11, w12, w13, w14, w15⟩ := acc2
  have h25_2 : Scf.trips k0_t4_loop.lb k0_t4_loop.ub k0_t4_loop.st = 25 := by decide
  rw [h25_2] at hacc2
  simp only [psumTuple, Prod.mk.injEq] at hacc2
  obtain ⟨rfl, rfl, rfl, rfl, rfl, rfl, rfl, rfl, rfl, rfl, rfl, rfl, rfl, rfl, rfl, rfl⟩ := hacc2
  sl_exec (disch := exact View.amount_pos _ _ (show 0 < S100.numel by decide))
  sl_for (rinvV3 d L (gath fi ft (baseOf L + 4 * k.val + 3))) $$ [G3_dst]
  case region =>
    intro j acc
    unfold rinvV3
    iintro ⟨HR, %hacc⟩
    obtain ⟨a0, a1, a2, a3, a4, a5, a6, a7, a8, a9, a10, a11, a12, a13, a14, a15⟩ := acc
    sl_exec
    sl_step
    isplitl [HR]; · iexact HR
    ipureintro
    exact acc_step_3 (gath fi ft (baseOf L + 4 * k.val + 3)) j _ hacc
  · unfold rinvV3
    isplitl [G3_dst]; · iexact G3_dst
    ipureintro
    exact (psumTuple_zero _).symm
  iintro %acc3 HR3
  unfold rinvV3
  icases HR3 with ⟨HR3, %hacc3⟩
  obtain ⟨w0, w1, w2, w3, w4, w5, w6, w7, w8, w9, w10, w11, w12, w13, w14, w15⟩ := acc3
  have h25_3 : Scf.trips k0_t5_loop.lb k0_t5_loop.ub k0_t5_loop.st = 25 := by decide
  rw [h25_3] at hacc3
  simp only [psumTuple, Prod.mk.injEq] at hacc3
  obtain ⟨rfl, rfl, rfl, rfl, rfl, rfl, rfl, rfl, rfl, rfl, rfl, rfl, rfl, rfl, rfl, rfl⟩ := hacc3
  sl_exec (disch := exact View.amount_pos _ _ (show 0 < S100.numel by decide))
  sl_step
  have hk1 : ¬ (k.val + 1 < 16) := by omega
  rw [if_neg hk1]
  isplitr; · iexact Hmw
  isplitl [Hi]; · iexact Hi
  isplitl [Htr]; · iexact Htr
  isplitl [A]
  · iexists _; isplitr
    rotate_left
    · iexact A
    · ipureintro
      exact AOK_step fi ft (baseOf L) k (by have := baseOf_lt L; omega) a ha
  isplitl [I0]; · iexact I0
  isplitl [I1]; · iexact I1
  isplitl [I2]; · iexact I2
  isplitl [I3]; · iexact I3
  isplitl [HR0 HR1 HR2 HR3 G0_dst_and G1_dst_and G2_dst_and G3_dst_and Hz0 Hz1 Hz2 Hz3 G0 G1 G2 G3]
  · isplitl [HR0 G0_dst_and Hz0 G0]
    · isplitl [HR0]; · iexists _; iexact HR0
      isplitl [G0_dst_and]; · iexists _; iexact G0_dst_and
      isplitl [G0]; · iexact G0
      iexact Hz0
    isplitl [HR1 G1_dst_and Hz1 G1]
    · isplitl [HR1]; · iexists _; iexact HR1
      isplitl [G1_dst_and]; · iexists _; iexact G1_dst_and
      isplitl [G1]; · iexact G1
      iexact Hz1
    isplitl [HR2 G2_dst_and Hz2 G2]
    · isplitl [HR2]; · iexists _; iexact HR2
      isplitl [G2_dst_and]; · iexists _; iexact G2_dst_and
      isplitl [G2]; · iexact G2
      iexact Hz2
    isplitl [HR3]; · iexists _; iexact HR3
    isplitl [G3_dst_and]; · iexists _; iexact G3_dst_and
    isplitl [G3]; · iexact G3
    iexact Hz3
  iexists _; isplitr
  rotate_left
  · iexact HO
  · ipureintro
    exact waits_ins (waits_ins (waits_ins (waits_ins hW' _) _) _) _

end Cert.KernelIdeal.Hand
end
-- ==== Proof.KIVTile.lean ====
/-
  One vector subcore's whole task of the lookup kernel, with the values.

  From index words that all name table rows: after the prologue, the sixteen trips of the chunk loop and the epilogue's
  copy of the accumulator scratch to the subcore's 128 rows of the result, every entry of those rows is the mean-row
  value of its chunk and half — the sum of the fifty gathered table rows of its half of the chunk, times the reciprocal
  constant.
-/
import proofs.«207455_g33174327394824_cont_8to1_b_592_21_alg».proof.Proof.KIVTrip
import proofs.«207455_g33174327394824_cont_8to1_b_592_21_alg».proof.Proof.KIValLemmas
import proofs.«207455_g33174327394824_cont_8to1_b_592_21_alg».proof.Proof.KIValMoves
noncomputable section
namespace Cert.KernelIdeal.Hand
open Cert.KernelIdeal Cert.KernelIdeal.Gen Cert.KernelIdeal.HandVal
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
local notation "𝕄" => MT nD τ sig (HIx 1) (Elt F) ℕ UU ℕ

local notation "idsW" => (Memref.whole Cert.KernelIdeal.main_v0_scv : Memref Cert.KernelIdeal.sig Kind.scVector Space.hbm Cert.KernelIdeal.S2048x100 EltTy.i32)
local notation "tblW" => (Memref.whole Cert.KernelIdeal.main_arg1_scv : Memref Cert.KernelIdeal.sig Kind.scVector Space.hbm Cert.KernelIdeal.S100000x128 EltTy.f32)
local notation "outW" => (Memref.whole Cert.KernelIdeal.main_v1_scv : Memref Cert.KernelIdeal.sig Kind.scVector Space.hbm Cert.KernelIdeal.S4096x128 EltTy.f32)
local notation "sI0" => (Memref.whole Cert.KernelIdeal.cc0_scratch0 : Memref Cert.KernelIdeal.sig Kind.scVector Space.vmem Cert.KernelIdeal.S100 EltTy.i32)
local notation "sI1" => (Memref.whole Cert.KernelIdeal.cc0_scratch1 : Memref Cert.KernelIdeal.sig Kind.scVector Space.vmem Cert.KernelIdeal.S100 EltTy.i32)
local notation "sI2" => (Memref.whole Cert.KernelIdeal.cc0_scratch2 : Memref Cert.KernelIdeal.sig Kind.scVector Space.vmem Cert.KernelIdeal.S100 EltTy.i32)
local notation "sI3" => (Memref.whole Cert.KernelIdeal.cc0_scratch3 : Memref Cert.KernelIdeal.sig Kind.scVector Space.vmem Cert.KernelIdeal.S100 EltTy.i32)
local notation "sR0" => (Memref.whole Cert.KernelIdeal.cc0_scratch4 : Memref Cert.KernelIdeal.sig Kind.scVector Space.vmem Cert.KernelIdeal.S100x128 EltTy.f32)
local notation "sR1" => (Memref.whole Cert.KernelIdeal.cc0_scratch5 : Memref Cert.KernelIdeal.sig Kind.scVector Space.vmem Cert.KernelIdeal.S100x128 EltTy.f32)
local notation "sR2" => (Memref.whole Cert.KernelIdeal.cc0_scratch6 : Memref Cert.KernelIdeal.sig Kind.scVector Space.vmem Cert.KernelIdeal.S100x128 EltTy.f32)
local notation "sR3" => (Memref.whole Cert.KernelIdeal.cc0_scratch7 : Memref Cert.KernelIdeal.sig Kind.scVector Space.vmem Cert.KernelIdeal.S100x128 EltTy.f32)
local notation "sA" => (Memref.whole Cert.KernelIdeal.cc0_scratch8 : Memref Cert.KernelIdeal.sig Kind.scVector Space.vmem Cert.KernelIdeal.S128x128 EltTy.f32)

set_option maxHeartbeats 4000000 in
/-- One vector subcore's whole task, with the values: every entry of its 128 rows of the result ends at the mean-row value
    of its chunk and half. -/
theorem tile_runV (d : Dev nD) (L : grid0.Coords) (q : PosShare TreeShare) (fi : Buf (Elt F) ((idsW).view.loc (thr d L))) (ft : Buf (Elt F) ((tblW).view.loc (thr d L)))
    (fo : Buf (Elt F) ((outSlice L).view.loc (thr d L))) (hin : ∀ j, (fi j).toNat < 100000)
    (O : CellTallies nD τ sig (HIx 1)) (W : Waits sig (HIx 1)) :
    (iprop(Transfers.MayWaits (thr d L) (none : HIx 1) O
        ∗ ((idsW).view.loc (thr d L) ↦{q} fi) ∗ ((tblW).view.loc (thr d L) ↦{q} ft)
        ∗ ((outSlice L).view.loc (thr d L) ↦[(outSlice L).view.set]{fullShare} fo)
        ∗ (∃ f, (sI0).view.loc (thr d L) ↦{fullShare} f) ∗ (∃ f, (sI1).view.loc (thr d L) ↦{fullShare} f) ∗ (∃ f, (sI2).view.loc (thr d L) ↦{fullShare} f) ∗ (∃ f, (sI3).view.loc (thr d L) ↦{fullShare} f) ∗ (∃ f, (sR0).view.loc (thr d L) ↦{fullShare} f) ∗ (∃ f, (sR1).view.loc (thr d L) ↦{fullShare} f) ∗ (∃ f, (sR2).view.loc (thr d L) ↦{fullShare} f) ∗ (∃ f, (sR3).view.loc (thr d L) ↦{fullShare} f) ∗ (∃ f, (sA).view.loc (thr d L) ↦{fullShare} f)
        ∗ semVal (thr d L, SemLoc.dma cc0_scratch9.sem) 0 ∗ semVal (thr d L, SemLoc.dma cc0_scratch10.sem) 0 ∗ semVal (thr d L, SemLoc.dma cc0_scratch11.sem) 0 ∗ semVal (thr d L, SemLoc.dma cc0_scratch12.sem) 0 ∗ semVal (thr d L, SemLoc.dma cc0_scratch13.sem) 0 ∗ semVal (thr d L, SemLoc.dma cc0_scratch14.sem) 0 ∗ semVal (thr d L, SemLoc.dma cc0_scratch15.sem) 0 ∗ semVal (thr d L, SemLoc.dma cc0_scratch16.sem) 0 ∗ semVal (thr d L, SemLoc.dma cc0_scoped0.sem) 0
        ∗ owes (thr d L) O W) : sProp 𝕄)
      ⊢ wp frame (wpE (defs₀ (F := F)) 𝒱₀ (thr d L) none) Set.univ
          (cc0__sc_mean_pool L idsW (Memref.isWhole_whole _) tblW (Memref.isWhole_whole _) outW (Memref.isWhole_whole _)
            sI0 (Memref.isWhole_whole _) sI1 (Memref.isWhole_whole _) sI2 (Memref.isWhole_whole _) sI3 (Memref.isWhole_whole _)
            sR0 (Memref.isWhole_whole _) sR1 (Memref.isWhole_whole _) sR2 (Memref.isWhole_whole _) sR3 (Memref.isWhole_whole _)
            sA (Memref.isWhole_whole _) cc0_scratch9 cc0_scratch10 cc0_scratch11 cc0_scratch12 cc0_scratch13 cc0_scratch14 cc0_scratch15 cc0_scratch16 cc0_scoped0)
          (fun _ => iprop(((idsW).view.loc (thr d L) ↦{q} fi) ∗ ((tblW).view.loc (thr d L) ↦{q} ft)
            ∗ (∃ f, ⌜∀ j ∈ (outSlice L).view.set, f j = Macc fi ft (64 * ((j 0).val / 128)) (ValueIdx.ix2 ⟨(j 0).val % 128, Nat.mod_lt _ (by decide)⟩ (j 1))⌝ ∗ ((outSlice L).view.loc (thr d L) ↦[(outSlice L).view.set]{fullShare} f))
            ∗ (∃ f, (sI0).view.loc (thr d L) ↦{fullShare} f) ∗ (∃ f, (sI1).view.loc (thr d L) ↦{fullShare} f) ∗ (∃ f, (sI2).view.loc (thr d L) ↦{fullShare} f) ∗ (∃ f, (sI3).view.loc (thr d L) ↦{fullShare} f) ∗ (∃ f, (sR0).view.loc (thr d L) ↦{fullShare} f) ∗ (∃ f, (sR1).view.loc (thr d L) ↦{fullShare} f) ∗ (∃ f, (sR2).view.loc (thr d L) ↦{fullShare} f) ∗ (∃ f, (sR3).view.loc (thr d L) ↦{fullShare} f) ∗ (∃ f, (sA).view.loc (thr d L) ↦{fullShare} f)
            ∗ semVal (thr d L, SemLoc.dma cc0_scratch9.sem) 0 ∗ semVal (thr d L, SemLoc.dma cc0_scratch10.sem) 0 ∗ semVal (thr d L, SemLoc.dma cc0_scratch11.sem) 0 ∗ semVal (thr d L, SemLoc.dma cc0_scratch12.sem) 0 ∗ semVal (thr d L, SemLoc.dma cc0_scratch13.sem) 0 ∗ semVal (thr d L, SemLoc.dma cc0_scratch14.sem) 0 ∗ semVal (thr d L, SemLoc.dma cc0_scratch15.sem) 0 ∗ semVal (thr d L, SemLoc.dma cc0_scratch16.sem) 0 ∗ semVal (thr d L, SemLoc.dma cc0_scoped0.sem) 0
            ∗ ∃ W', ⌜∀ p ∈ W', p ∈ W ∨ p.2 = none⌝ ∗ owes (thr d L) O W')) := by
  have htr : k0_t1_loop.trips = 16 := by decide
  sl_unfold [cc0__sc_mean_pool]
  iintro ⟨#Hmw, Hi, Ht, Ho, ⟨%f0, H0⟩, ⟨%f1, H1⟩, ⟨%f2, H2⟩, ⟨%f3, H3⟩, ⟨%r0, R0⟩, ⟨%r1, R1⟩, ⟨%r2, R2⟩, ⟨%r3, R3⟩, ⟨%a0, A⟩,
    G0, G1, G2, G3, I0, I1, I2, I3, Sc, HO⟩
  have hL0 : ∀ (off : Fin 2 → Nat) (hoff : ∀ a, off a + S1x100.size a ≤ S2048x100.size a) (g : Buf (Elt F) ((sI0).view.loc (thr d L))) (x : cc0_scratch0.ty.shape.Idx),
      BitVec.toNat (View.read (Elt F) (sI0).view (View.write (Elt F) (sI0).view g
        (ReadAs.same.apply (View.read (Elt F) (((idsW).slice (Rect.unit (s := S2048x100) off S1x100.size hoff) (fun _ => rfl)).squeeze S100 squeezes_S1x100_S100).view fi)) Finset.univ) x) < 100000 := by
    intro off hoff g x
    simp only [Memref.view_whole, View.write_whole_univ, View.read_whole, ReadAs.apply_same, View.read_apply]
    exact hin _
  have hL1 : ∀ (off : Fin 2 → Nat) (hoff : ∀ a, off a + S1x100.size a ≤ S2048x100.size a) (g : Buf (Elt F) ((sI1).view.loc (thr d L))) (x : cc0_scratch1.ty.shape.Idx),
      BitVec.toNat (View.read (Elt F) (sI1).view (View.write (Elt F) (sI1).view g
        (ReadAs.same.apply (View.read (Elt F) (((idsW).slice (Rect.unit (s := S2048x100) off S1x100.size hoff) (fun _ => rfl)).squeeze S100 squeezes_S1x100_S100).view fi)) Finset.univ) x) < 100000 := by
    intro off hoff g x
    simp only [Memref.view_whole, View.write_whole_univ, View.read_whole, ReadAs.apply_same, View.read_apply]
    exact hin _
  have hL2 : ∀ (off : Fin 2 → Nat) (hoff : ∀ a, off a + S1x100.size a ≤ S2048x100.size a) (g : Buf (Elt F) ((sI2).view.loc (thr d L))) (x : cc0_scratch2.ty.shape.Idx),
      BitVec.toNat (View.read (Elt F) (sI2).view (View.write (Elt F) (sI2).view g
        (ReadAs.same.apply (View.read (Elt F) (((idsW).slice (Rect.unit (s := S2048x100) off S1x100.size hoff) (fun _ => rfl)).squeeze S100 squeezes_S1x100_S100).view fi)) Finset.univ) x) < 100000 := by
    intro off hoff g x
    simp only [Memref.view_whole, View.write_whole_univ, View.read_whole, ReadAs.apply_same, View.read_apply]
    exact hin _
  have hL3 : ∀ (off : Fin 2 → Nat) (hoff : ∀ a, off a + S1x100.size a ≤ S2048x100.size a) (g : Buf (Elt F) ((sI3).view.loc (thr d L))) (x : cc0_scratch3.ty.shape.Idx),
      BitVec.toNat (View.read (Elt F) (sI3).view (View.write (Elt F) (sI3).view g
        (ReadAs.same.apply (View.read (Elt F) (((idsW).slice (Rect.unit (s := S2048x100) off S1x100.size hoff) (fun _ => rfl)).squeeze S100 squeezes_S1x100_S100).view fi)) Finset.univ) x) < 100000 := by
    intro off hoff g x
    simp only [Memref.view_whole, View.write_whole_univ, View.read_whole, ReadAs.apply_same, View.read_apply]
    exact hin _
  ihave Ht' := ((Transfers.pointsTo_toks_split (Ix := HIx 1) (Name := ℕ) (U := UU) (Lvl := ℕ) q 4).trans
    (show _ ⊢ iprop(((tblW).view.loc (thr d L) ↦{Transfers.shareDrop q 4} ft) ∗ ((tblW).view.loc (thr d L) ↦{Transfers.shareTok q 4 0} ft)
        ∗ ((tblW).view.loc (thr d L) ↦{Transfers.shareTok q 4 1} ft) ∗ ((tblW).view.loc (thr d L) ↦{Transfers.shareTok q 4 2} ft)
        ∗ ((tblW).view.loc (thr d L) ↦{Transfers.shareTok q 4 3} ft))
      from Entails.of_eq (by rw [bigSep_univ_eq_bigSepL [(0 : Fin 4), 1, 2, 3] (by decide) (by decide)]; rfl))) $$ Ht
  icases Ht' with ⟨Htr, Ht0, Ht1, Ht2, Ht3⟩
  sl_exec (disch := exact View.amount_pos _ _ (show 0 < S100.numel by decide))
  sl_for (invV d L q fi ft O W) $$ [Hi Htr A I0 I1 I2 I3 Ht0 Ht1 Ht2 Ht3 G0 G1 G2 G3 HO]
  case region =>
    intro k _
    by_cases hk : k.val < 15
    · exact tripV_lt d L q fi ft hin O W _ k hk
    · exact tripV_last d L q fi ft hin O W _ k (by have h : k.val < 16 := lt_of_lt_of_eq k.isLt htr; omega)
  · unfold invV
    rw [if_pos (by decide : (0 : ℕ) < 16)]
    have e0 := gath_of_rows (F := F) fi ft _ rfl (hL0 (k0_off1 L 0#32) (k0_off1_inb L 0) f0) (baseOf L + 4 * 0 + 0) (by have := baseOf_lt L; omega)
      (fun x => idx_row_0 (F := F) fi (k0_off1 L 0#32) (k0_off1_inb L 0) (baseOf L + 4 * 0 + 0) (by have := baseOf_lt L; omega)
        (by rw [show (0#32 : BitVec 32) = BitVec.ofNat 32 ((0 : Fin 4).val) from rfl, k0_off1_eq]; unfold baseOf; congr 1) f0 x)
    have e1 := gath_of_rows (F := F) fi ft _ rfl (hL1 (k0_off1 L 1#32) (k0_off1_inb L 1) f1) (baseOf L + 4 * 0 + 1) (by have := baseOf_lt L; omega)
      (fun x => idx_row_1 (F := F) fi (k0_off1 L 1#32) (k0_off1_inb L 1) (baseOf L + 4 * 0 + 1) (by have := baseOf_lt L; omega)
        (by rw [show (1#32 : BitVec 32) = BitVec.ofNat 32 ((1 : Fin 4).val) from rfl, k0_off1_eq]; unfold baseOf; congr 1) f1 x)
    have e2 := gath_of_rows (F := F) fi ft _ rfl (hL2 (k0_off1 L 2#32) (k0_off1_inb L 2) f2) (baseOf L + 4 * 0 + 2) (by have := baseOf_lt L; omega)
      (fun x => idx_row_2 (F := F) fi (k0_off1 L 2#32) (k0_off1_inb L 2) (baseOf L + 4 * 0 + 2) (by have := baseOf_lt L; omega)
        (by rw [show (2#32 : BitVec 32) = BitVec.ofNat 32 ((2 : Fin 4).val) from rfl, k0_off1_eq]; unfold baseOf; congr 1) f2 x)
    have e3 := gath_of_rows (F := F) fi ft _ rfl (hL3 (k0_off1 L 3#32) (k0_off1_inb L 3) f3) (baseOf L + 4 * 0 + 3) (by have := baseOf_lt L; omega)
      (fun x => idx_row_3 (F := F) fi (k0_off1 L 3#32) (k0_off1_inb L 3) (baseOf L + 4 * 0 + 3) (by have := baseOf_lt L; omega)
        (by rw [show (3#32 : BitVec 32) = BitVec.ofNat 32 ((3 : Fin 4).val) from rfl, k0_off1_eq]; unfold baseOf; congr 1) f3 x)
    rw [← e0, ← e1, ← e2, ← e3]
    isplitr; · iexact Hmw
    isplitl [Hi]; · iexact Hi
    isplitl [Htr]; · iexact Htr
    isplitl [A]
    · iexists _; isplitr
      rotate_left
      · iexact A
      · ipureintro; intro y hy; exact absurd hy (by omega)
    isplitl [I0]; · iexact I0
    isplitl [I1]; · iexact I1
    isplitl [I2]; · iexact I2
    isplitl [I3]; · iexact I3
    isplitl [Ht0 Ht1 Ht2 Ht3 G0 G1 G2 G3]
    · isplitl [Ht0]; · iexact Ht0
      isplitl [Ht1]; · iexact Ht1
      isplitl [Ht2]; · iexact Ht2
      isplitl [Ht3]; · iexact Ht3
      isplitl [G0]; · iexists _, _; iexact G0
      isplitl [G1]; · iexists _, _; iexact G1
      isplitl [G2]; · iexists _, _; iexact G2
      iexists _, _; iexact G3
    iexists _; isplitr
    rotate_left
    · iexact HO
    · ipureintro
      exact waits_ins (waits_ins (waits_ins (waits_ins (fun p hp => Or.inl hp) _) _) _) _
  iintro %_ HI
  unfold invV
  rw [if_neg (by rw [show Scf.trips k0_t1_loop.lb k0_t1_loop.ub k0_t1_loop.st = 16 from htr]; decide)]
  icases HI with ⟨-, Hi, Htr, ⟨%a, %ha, A⟩, I0, I1, I2, I3, ⟨⟨⟨%r0', R0⟩, ⟨%i0', H0⟩, G0, Ht0⟩, ⟨⟨%r1', R1⟩, ⟨%i1', H1⟩, G1, Ht1⟩, ⟨⟨%r2', R2⟩, ⟨%i2', H2⟩, G2, Ht2⟩, ⟨%r3', R3⟩, ⟨%i3', H3⟩, G3, Ht3⟩, %W', %hW', HO⟩
  rw [show Scf.trips k0_t1_loop.lb k0_t1_loop.ub k0_t1_loop.st = 16 from htr] at ha
  sl_exec (disch := exact View.amount_pos _ _ (show 0 < S128x128.numel by decide))
  sl_step
  isplitl [Hi]; · iexact Hi
  isplitl [Htr Ht0 Ht1 Ht2 Ht3]
  · iapply ((show iprop(((tblW).view.loc (thr d L) ↦{Transfers.shareDrop q 4} ft) ∗ ((tblW).view.loc (thr d L) ↦{Transfers.shareTok q 4 0} ft)
        ∗ ((tblW).view.loc (thr d L) ↦{Transfers.shareTok q 4 1} ft) ∗ ((tblW).view.loc (thr d L) ↦{Transfers.shareTok q 4 2} ft)
        ∗ ((tblW).view.loc (thr d L) ↦{Transfers.shareTok q 4 3} ft)) ⊢ _
        from Entails.of_eq (by rw [bigSep_univ_eq_bigSepL [(0 : Fin 4), 1, 2, 3] (by decide) (by decide)]; rfl)).trans
      (Transfers.pointsTo_toks_join (Ix := HIx 1) (Name := ℕ) (U := UU) (Lvl := ℕ) q 4))
    isplitl [Htr]; · iexact Htr
    isplitl [Ht0]; · iexact Ht0
    isplitl [Ht1]; · iexact Ht1
    isplitl [Ht2]; · iexact Ht2
    iexact Ht3
  isplitl [Ho]
  · iexists _; isplitr
    rotate_left
    · iexact Ho
    · ipureintro
      exact out_slab (F := F) fi ft L fo a ha
  isplitl [H0]; · iexists _; iexact H0
  isplitl [H1]; · iexists _; iexact H1
  isplitl [H2]; · iexists _; iexact H2
  isplitl [H3]; · iexists _; iexact H3
  isplitl [R0]; · iexists _; iexact R0
  isplitl [R1]; · iexists _; iexact R1
  isplitl [R2]; · iexists _; iexact R2
  isplitl [R3]; · iexists _; iexact R3
  isplitl [A]; · iexists _; iexact A
  isplitl [G0]; · iexact G0
  isplitl [G1]; · iexact G1
  isplitl [G2]; · iexact G2
  isplitl [G3]; · iexact G3
  isplitl [I0]; · iexact I0
  isplitl [I1]; · iexact I1
  isplitl [I2]; · iexact I2
  isplitl [I3]; · iexact I3
  isplitl [Sc]; · iexact Sc
  iexists _; isplitr
  rotate_left
  · iexact HO
  · ipureintro
    exact waits_ins hW' _

end Cert.KernelIdeal.Hand
end
-- ==== Proof.KILaunchParts3.lean ====
/-
  A vector subcore's own storage, the kernel's part named: its nine scratch buffers, each at some contents, beside the
  rest of its buffers; and its nine completion counters at zero beside the rest of its counters.
-/
import proofs.«207455_g33174327394824_cont_8to1_b_592_21_alg».proof.Proof.KIShares

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}
local notation "𝕄" => MT nD τ sig (HIx 1) (Elt F) ℕ UU ℕ

/-- The nine scratch buffers are among the subcore's own: its buffers are they, each at some contents, and the rest. -/
theorem ownBufs_V9 (d : Dev nD) (L : grid0.Coords) :
    (ownBufs (thr d L) : sProp 𝕄)
      = iprop((∃ f, (thr d L).loc cc0_scratch0 ↦{fullShare} f)
          ∗ (∃ f, (thr d L).loc cc0_scratch1 ↦{fullShare} f)
          ∗ (∃ f, (thr d L).loc cc0_scratch2 ↦{fullShare} f)
          ∗ (∃ f, (thr d L).loc cc0_scratch3 ↦{fullShare} f)
          ∗ (∃ f, (thr d L).loc cc0_scratch4 ↦{fullShare} f)
          ∗ (∃ f, (thr d L).loc cc0_scratch5 ↦{fullShare} f)
          ∗ (∃ f, (thr d L).loc cc0_scratch6 ↦{fullShare} f)
          ∗ (∃ f, (thr d L).loc cc0_scratch7 ↦{fullShare} f)
          ∗ (∃ f, (thr d L).loc cc0_scratch8 ↦{fullShare} f)
          ∗ bigSep ((((((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4)).erase ((Proc.scVector (cV L) (jV L)).devRef cc0_scratch5)).erase ((Proc.scVector (cV L) (jV L)).devRef cc0_scratch6)).erase ((Proc.scVector (cV L) (jV L)).devRef cc0_scratch7)).erase ((Proc.scVector (cV L) (jV L)).devRef cc0_scratch8))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := Proc.scVector (cV L) (jV L)) (b := (Proc.scVector (cV L) (jV L)).devRef cc0_scratch2) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := Proc.scVector (cV L) (jV L)) (b := (Proc.scVector (cV L) (jV L)).devRef cc0_scratch3) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := Proc.scVector (cV L) (jV L)) (b := (Proc.scVector (cV L) (jV L)).devRef cc0_scratch4) rfl⟩⟩⟩⟩),
    SparseCore.bigSep_erase' (Finset.mem_erase.mpr ⟨fun e => absurd (Proc.devRef_injective _ e) (show (cc0_scratch5 : Ref sig .scVector) ≠ cc0_scratch4 by decide), Finset.mem_erase.mpr ⟨fun e => absurd (Proc.devRef_injective _ e) (show (cc0_scratch5 : Ref sig .scVector) ≠ cc0_scratch3 by decide), Finset.mem_erase.mpr ⟨fun e => absurd (Proc.devRef_injective _ e) (show (cc0_scratch5 : Ref sig .scVector) ≠ cc0_scratch2 by decide), Finset.mem_erase.mpr ⟨fun e => absurd (Proc.devRef_injective _ e) (show (cc0_scratch5 : Ref sig .scVector) ≠ cc0_scratch1 by decide), Finset.mem_erase.mpr ⟨fun e => absurd (Proc.devRef_injective _ e) (show (cc0_scratch5 : Ref sig .scVector) ≠ cc0_scratch0 by decide), SparseCore.Cfg.mem_ownRefs_of_owner (p := Proc.scVector (cV L) (jV L)) (b := (Proc.scVector (cV L) (jV L)).devRef cc0_scratch5) rfl⟩⟩⟩⟩⟩),
    SparseCore.bigSep_erase' (Finset.mem_erase.mpr ⟨fun e => absurd (Proc.devRef_injective _ e) (show (cc0_scratch6 : Ref sig .scVector) ≠ cc0_scratch5 by decide), Finset.mem_erase.mpr ⟨fun e => absurd (Proc.devRef_injective _ e) (show (cc0_scratch6 : Ref sig .scVector) ≠ cc0_scratch4 by decide), Finset.mem_erase.mpr ⟨fun e => absurd (Proc.devRef_injective _ e) (show (cc0_scratch6 : Ref sig .scVector) ≠ cc0_scratch3 by decide), Finset.mem_erase.mpr ⟨fun e => absurd (Proc.devRef_injective _ e) (show (cc0_scratch6 : Ref sig .scVector) ≠ cc0_scratch2 by decide), Finset.mem_erase.mpr ⟨fun e => absurd (Proc.devRef_injective _ e) (show (cc0_scratch6 : Ref sig .scVector) ≠ cc0_scratch1 by decide), Finset.mem_erase.mpr ⟨fun e => absurd (Proc.devRef_injective _ e) (show (cc0_scratch6 : Ref sig .scVector) ≠ cc0_scratch0 by decide), SparseCore.Cfg.mem_ownRefs_of_owner (p := Proc.scVector (cV L) (jV L)) (b := (Proc.scVector (cV L) (jV L)).devRef cc0_scratch6) rfl⟩⟩⟩⟩⟩⟩),
    SparseCore.bigSep_erase' (Finset.mem_erase.mpr ⟨fun e => absurd (Proc.devRef_injective _ e) (show (cc0_scratch7 : Ref sig .scVector) ≠ cc0_scratch6 by decide), Finset.mem_erase.mpr ⟨fun e => absurd (Proc.devRef_injective _ e) (show (cc0_scratch7 : Ref sig .scVector) ≠ cc0_scratch5 by decide), Finset.mem_erase.mpr ⟨fun e => absurd (Proc.devRef_injective _ e) (show (cc0_scratch7 : Ref sig .scVector) ≠ cc0_scratch4 by decide), Finset.mem_erase.mpr ⟨fun e => absurd (Proc.devRef_injective _ e) (show (cc0_scratch7 : Ref sig .scVector) ≠ cc0_scratch3 by decide), Finset.mem_erase.mpr ⟨fun e => absurd (Proc.devRef_injective _ e) (show (cc0_scratch7 : Ref sig .scVector) ≠ cc0_scratch2 by decide), Finset.mem_erase.mpr ⟨fun e => absurd (Proc.devRef_injective _ e) (show (cc0_scratch7 : Ref sig .scVector) ≠ cc0_scratch1 by decide), Finset.mem_erase.mpr ⟨fun e => absurd (Proc.devRef_injective _ e) (show (cc0_scratch7 : Ref sig .scVector) ≠ cc0_scratch0 by decide), SparseCore.Cfg.mem_ownRefs_of_owner (p := Proc.scVector (cV L) (jV L)) (b := (Proc.scVector (cV L) (jV L)).devRef cc0_scratch7) rfl⟩⟩⟩⟩⟩⟩⟩),
    SparseCore.bigSep_erase' (Finset.mem_erase.mpr ⟨fun e => absurd (Proc.devRef_injective _ e) (show (cc0_scratch8 : Ref sig .scVector) ≠ cc0_scratch7 by decide), Finset.mem_erase.mpr ⟨fun e => absurd (Proc.devRef_injective _ e) (show (cc0_scratch8 : Ref sig .scVector) ≠ cc0_scratch6 by decide), Finset.mem_erase.mpr ⟨fun e => absurd (Proc.devRef_injective _ e) (show (cc0_scratch8 : Ref sig .scVector) ≠ cc0_scratch5 by decide), Finset.mem_erase.mpr ⟨fun e => absurd (Proc.devRef_injective _ e) (show (cc0_scratch8 : Ref sig .scVector) ≠ cc0_scratch4 by decide), Finset.mem_erase.mpr ⟨fun e => absurd (Proc.devRef_injective _ e) (show (cc0_scratch8 : Ref sig .scVector) ≠ cc0_scratch3 by decide), Finset.mem_erase.mpr ⟨fun e => absurd (Proc.devRef_injective _ e) (show (cc0_scratch8 : Ref sig .scVector) ≠ cc0_scratch2 by decide), Finset.mem_erase.mpr ⟨fun e => absurd (Proc.devRef_injective _ e) (show (cc0_scratch8 : Ref sig .scVector) ≠ cc0_scratch1 by decide), Finset.mem_erase.mpr ⟨fun e => absurd (Proc.devRef_injective _ e) (show (cc0_scratch8 : Ref sig .scVector) ≠ cc0_scratch0 by decide), SparseCore.Cfg.mem_ownRefs_of_owner (p := Proc.scVector (cV L) (jV L)) (b := (Proc.scVector (cV L) (jV L)).devRef cc0_scratch8) rfl⟩⟩⟩⟩⟩⟩⟩⟩)]

/-- The nine completion counters are among the subcore's own: its counters at zero are they and the rest. -/
theorem ownSems0_V9 (d : Dev nD) (L : grid0.Coords) :
    (ownSems0 (thr d L) : sProp 𝕄)
      = iprop(semVal (thr d L, SemLoc.dma cc0_scratch9.sem) 0
          ∗ semVal (thr d L, SemLoc.dma cc0_scratch10.sem) 0
          ∗ semVal (thr d L, SemLoc.dma cc0_scratch11.sem) 0
          ∗ semVal (thr d L, SemLoc.dma cc0_scratch12.sem) 0
          ∗ semVal (thr d L, SemLoc.dma cc0_scratch13.sem) 0
          ∗ semVal (thr d L, SemLoc.dma cc0_scratch14.sem) 0
          ∗ semVal (thr d L, SemLoc.dma cc0_scratch15.sem) 0
          ∗ semVal (thr d L, SemLoc.dma cc0_scratch16.sem) 0
          ∗ semVal (thr d L, SemLoc.dma cc0_scoped0.sem) 0
          ∗ bigSep ((((((((((ownCells (thr d L)).erase ((thr d L, SemLoc.dma cc0_scratch9.sem) : GSem nD τ sig)).erase ((thr d L, SemLoc.dma cc0_scratch10.sem) : GSem nD τ sig)).erase ((thr d L, SemLoc.dma cc0_scratch11.sem) : GSem nD τ sig)).erase ((thr d L, SemLoc.dma cc0_scratch12.sem) : GSem nD τ sig)).erase ((thr d L, SemLoc.dma cc0_scratch13.sem) : GSem nD τ sig)).erase ((thr d L, SemLoc.dma cc0_scratch14.sem) : GSem nD τ sig)).erase ((thr d L, SemLoc.dma cc0_scratch15.sem) : GSem nD τ sig)).erase ((thr d L, SemLoc.dma cc0_scratch16.sem) : GSem nD τ sig)).erase ((thr d L, SemLoc.dma cc0_scoped0.sem) : GSem nD τ sig))
              fun g => semVal g 0) := by
  unfold SparseCore.Cfg.ownSems0
  rw [SparseCore.bigSep_erase' ((mem_ownCells (g := ((thr d L, SemLoc.dma cc0_scratch9.sem) : GSem nD τ sig))).mpr ⟨rfl, by show (SemLoc.dma cc0_scratch9.sem : SemLoc sig).isScoped .scVector = true; decide⟩),
    SparseCore.bigSep_erase' (Finset.mem_erase.mpr ⟨fun e => absurd (Prod.mk.inj e).2 (show (SemLoc.dma cc0_scratch10.sem : SemLoc sig) ≠ SemLoc.dma cc0_scratch9.sem by decide), (mem_ownCells (g := ((thr d L, SemLoc.dma cc0_scratch10.sem) : GSem nD τ sig))).mpr ⟨rfl, by show (SemLoc.dma cc0_scratch10.sem : SemLoc sig).isScoped .scVector = true; decide⟩⟩),
    SparseCore.bigSep_erase' (Finset.mem_erase.mpr ⟨fun e => absurd (Prod.mk.inj e).2 (show (SemLoc.dma cc0_scratch11.sem : SemLoc sig) ≠ SemLoc.dma cc0_scratch10.sem by decide), Finset.mem_erase.mpr ⟨fun e => absurd (Prod.mk.inj e).2 (show (SemLoc.dma cc0_scratch11.sem : SemLoc sig) ≠ SemLoc.dma cc0_scratch9.sem by decide), (mem_ownCells (g := ((thr d L, SemLoc.dma cc0_scratch11.sem) : GSem nD τ sig))).mpr ⟨rfl, by show (SemLoc.dma cc0_scratch11.sem : SemLoc sig).isScoped .scVector = true; decide⟩⟩⟩),
    SparseCore.bigSep_erase' (Finset.mem_erase.mpr ⟨fun e => absurd (Prod.mk.inj e).2 (show (SemLoc.dma cc0_scratch12.sem : SemLoc sig) ≠ SemLoc.dma cc0_scratch11.sem by decide), Finset.mem_erase.mpr ⟨fun e => absurd (Prod.mk.inj e).2 (show (SemLoc.dma cc0_scratch12.sem : SemLoc sig) ≠ SemLoc.dma cc0_scratch10.sem by decide), Finset.mem_erase.mpr ⟨fun e => absurd (Prod.mk.inj e).2 (show (SemLoc.dma cc0_scratch12.sem : SemLoc sig) ≠ SemLoc.dma cc0_scratch9.sem by decide), (mem_ownCells (g := ((thr d L, SemLoc.dma cc0_scratch12.sem) : GSem nD τ sig))).mpr ⟨rfl, by show (SemLoc.dma cc0_scratch12.sem : SemLoc sig).isScoped .scVector = true; decide⟩⟩⟩⟩),
    SparseCore.bigSep_erase' (Finset.mem_erase.mpr ⟨fun e => absurd (Prod.mk.inj e).2 (show (SemLoc.dma cc0_scratch13.sem : SemLoc sig) ≠ SemLoc.dma cc0_scratch12.sem by decide), Finset.mem_erase.mpr ⟨fun e => absurd (Prod.mk.inj e).2 (show (SemLoc.dma cc0_scratch13.sem : SemLoc sig) ≠ SemLoc.dma cc0_scratch11.sem by decide), Finset.mem_erase.mpr ⟨fun e => absurd (Prod.mk.inj e).2 (show (SemLoc.dma cc0_scratch13.sem : SemLoc sig) ≠ SemLoc.dma cc0_scratch10.sem by decide), Finset.mem_erase.mpr ⟨fun e => absurd (Prod.mk.inj e).2 (show (SemLoc.dma cc0_scratch13.sem : SemLoc sig) ≠ SemLoc.dma cc0_scratch9.sem by decide), (mem_ownCells (g := ((thr d L, SemLoc.dma cc0_scratch13.sem) : GSem nD τ sig))).mpr ⟨rfl, by show (SemLoc.dma cc0_scratch13.sem : SemLoc sig).isScoped .scVector = true; decide⟩⟩⟩⟩⟩),
    SparseCore.bigSep_erase' (Finset.mem_erase.mpr ⟨fun e => absurd (Prod.mk.inj e).2 (show (SemLoc.dma cc0_scratch14.sem : SemLoc sig) ≠ SemLoc.dma cc0_scratch13.sem by decide), Finset.mem_erase.mpr ⟨fun e => absurd (Prod.mk.inj e).2 (show (SemLoc.dma cc0_scratch14.sem : SemLoc sig) ≠ SemLoc.dma cc0_scratch12.sem by decide), Finset.mem_erase.mpr ⟨fun e => absurd (Prod.mk.inj e).2 (show (SemLoc.dma cc0_scratch14.sem : SemLoc sig) ≠ SemLoc.dma cc0_scratch11.sem by decide), Finset.mem_erase.mpr ⟨fun e => absurd (Prod.mk.inj e).2 (show (SemLoc.dma cc0_scratch14.sem : SemLoc sig) ≠ SemLoc.dma cc0_scratch10.sem by decide), Finset.mem_erase.mpr ⟨fun e => absurd (Prod.mk.inj e).2 (show (SemLoc.dma cc0_scratch14.sem : SemLoc sig) ≠ SemLoc.dma cc0_scratch9.sem by decide), (mem_ownCells (g := ((thr d L, SemLoc.dma cc0_scratch14.sem) : GSem nD τ sig))).mpr ⟨rfl, by show (SemLoc.dma cc0_scratch14.sem : SemLoc sig).isScoped .scVector = true; decide⟩⟩⟩⟩⟩⟩),
    SparseCore.bigSep_erase' (Finset.mem_erase.mpr ⟨fun e => absurd (Prod.mk.inj e).2 (show (SemLoc.dma cc0_scratch15.sem : SemLoc sig) ≠ SemLoc.dma cc0_scratch14.sem by decide), Finset.mem_erase.mpr ⟨fun e => absurd (Prod.mk.inj e).2 (show (SemLoc.dma cc0_scratch15.sem : SemLoc sig) ≠ SemLoc.dma cc0_scratch13.sem by decide), Finset.mem_erase.mpr ⟨fun e => absurd (Prod.mk.inj e).2 (show (SemLoc.dma cc0_scratch15.sem : SemLoc sig) ≠ SemLoc.dma cc0_scratch12.sem by decide), Finset.mem_erase.mpr ⟨fun e => absurd (Prod.mk.inj e).2 (show (SemLoc.dma cc0_scratch15.sem : SemLoc sig) ≠ SemLoc.dma cc0_scratch11.sem by decide), Finset.mem_erase.mpr ⟨fun e => absurd (Prod.mk.inj e).2 (show (SemLoc.dma cc0_scratch15.sem : SemLoc sig) ≠ SemLoc.dma cc0_scratch10.sem by decide), Finset.mem_erase.mpr ⟨fun e => absurd (Prod.mk.inj e).2 (show (SemLoc.dma cc0_scratch15.sem : SemLoc sig) ≠ SemLoc.dma cc0_scratch9.sem by decide), (mem_ownCells (g := ((thr d L, SemLoc.dma cc0_scratch15.sem) : GSem nD τ sig))).mpr ⟨rfl, by show (SemLoc.dma cc0_scratch15.sem : SemLoc sig).isScoped .scVector = true; decide⟩⟩⟩⟩⟩⟩⟩),
    SparseCore.bigSep_erase' (Finset.mem_erase.mpr ⟨fun e => absurd (Prod.mk.inj e).2 (show (SemLoc.dma cc0_scratch16.sem : SemLoc sig) ≠ SemLoc.dma cc0_scratch15.sem by decide), Finset.mem_erase.mpr ⟨fun e => absurd (Prod.mk.inj e).2 (show (SemLoc.dma cc0_scratch16.sem : SemLoc sig) ≠ SemLoc.dma cc0_scratch14.sem by decide), Finset.mem_erase.mpr ⟨fun e => absurd (Prod.mk.inj e).2 (show (SemLoc.dma cc0_scratch16.sem : SemLoc sig) ≠ SemLoc.dma cc0_scratch13.sem by decide), Finset.mem_erase.mpr ⟨fun e => absurd (Prod.mk.inj e).2 (show (SemLoc.dma cc0_scratch16.sem : SemLoc sig) ≠ SemLoc.dma cc0_scratch12.sem by decide), Finset.mem_erase.mpr ⟨fun e => absurd (Prod.mk.inj e).2 (show (SemLoc.dma cc0_scratch16.sem : SemLoc sig) ≠ SemLoc.dma cc0_scratch11.sem by decide), Finset.mem_erase.mpr ⟨fun e => absurd (Prod.mk.inj e).2 (show (SemLoc.dma cc0_scratch16.sem : SemLoc sig) ≠ SemLoc.dma cc0_scratch10.sem by decide), Finset.mem_erase.mpr ⟨fun e => absurd (Prod.mk.inj e).2 (show (SemLoc.dma cc0_scratch16.sem : SemLoc sig) ≠ SemLoc.dma cc0_scratch9.sem by decide), (mem_ownCells (g := ((thr d L, SemLoc.dma cc0_scratch16.sem) : GSem nD τ sig))).mpr ⟨rfl, by show (SemLoc.dma cc0_scratch16.sem : SemLoc sig).isScoped .scVector = true; decide⟩⟩⟩⟩⟩⟩⟩⟩),
    SparseCore.bigSep_erase' (Finset.mem_erase.mpr ⟨fun e => absurd (Prod.mk.inj e).2 (show (SemLoc.dma cc0_scoped0.sem : SemLoc sig) ≠ SemLoc.dma cc0_scratch16.sem by decide), Finset.mem_erase.mpr ⟨fun e => absurd (Prod.mk.inj e).2 (show (SemLoc.dma cc0_scoped0.sem : SemLoc sig) ≠ SemLoc.dma cc0_scratch15.sem by decide), Finset.mem_erase.mpr ⟨fun e => absurd (Prod.mk.inj e).2 (show (SemLoc.dma cc0_scoped0.sem : SemLoc sig) ≠ SemLoc.dma cc0_scratch14.sem by decide), Finset.mem_erase.mpr ⟨fun e => absurd (Prod.mk.inj e).2 (show (SemLoc.dma cc0_scoped0.sem : SemLoc sig) ≠ SemLoc.dma cc0_scratch13.sem by decide), Finset.mem_erase.mpr ⟨fun e => absurd (Prod.mk.inj e).2 (show (SemLoc.dma cc0_scoped0.sem : SemLoc sig) ≠ SemLoc.dma cc0_scratch12.sem by decide), Finset.mem_erase.mpr ⟨fun e => absurd (Prod.mk.inj e).2 (show (SemLoc.dma cc0_scoped0.sem : SemLoc sig) ≠ SemLoc.dma cc0_scratch11.sem by decide), Finset.mem_erase.mpr ⟨fun e => absurd (Prod.mk.inj e).2 (show (SemLoc.dma cc0_scoped0.sem : SemLoc sig) ≠ SemLoc.dma cc0_scratch10.sem by decide), Finset.mem_erase.mpr ⟨fun e => absurd (Prod.mk.inj e).2 (show (SemLoc.dma cc0_scoped0.sem : SemLoc sig) ≠ SemLoc.dma cc0_scratch9.sem by decide), (mem_ownCells (g := ((thr d L, SemLoc.dma cc0_scoped0.sem) : GSem nD τ sig))).mpr ⟨rfl, by show (SemLoc.dma cc0_scoped0.sem : SemLoc sig).isScoped .scVector = true; decide⟩⟩⟩⟩⟩⟩⟩⟩⟩)]

end Cert.KernelIdeal.Hand

end
-- ==== Proof.KILaunchParts.lean ====
/-
  The lookup kernel's launch: what the handshakes carry, and the wrapper that turns a statement about one vector
  subcore's run of the kernel body into the launch theorem's obligation for that subcore.

  The index array the kernel reads is the launch index array in its second shape (2048 rows of 100 words). Each
  SparseCore is handed a read share of the index array and of the table and the result rows of its sixteen subcores;
  each subcore a share of that share and its own 128 result rows, which it hands back holding entries that satisfy the
  stated predicate.
-/
import proofs.«207455_g33174327394824_cont_8to1_b_592_21_alg».proof.Proof.KICommon
import proofs.«207455_g33174327394824_cont_8to1_b_592_21_alg».proof.Proof.KIShares

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig (HIx 1) (Elt F) ℕ UU ℕ

/-! ## What the handshakes carry -/

/-- The index array as the kernel reads it: the launch index array in its second shape. -/
def idsC (m : (ℓ : Loc nD τ sig) → Buf (Elt F) ℓ) (d : Dev nD) : Buf (Elt F) (idsLoc d) :=
  shapeCast S2048x100 (m ((SparseCore.T d).loc main_arg0)) shapeCasts_S4096x50_S2048x100

/-- The one call hands each SparseCore its shares and rows, each subcore its shares and rows, and takes them back with
    the rows at entries satisfying `Gd`; the kernel has no cells of its own to be dealt. -/
def P (Gd : S4096x128.Idx → Elt F .f32 → Prop) (m : (ℓ : Loc nD τ sig) → Buf (Elt F) ℓ) :
    (K (F := F)).Pay (nD := nD) (Val := Elt F) (Name := ℕ) (U := UU) where
  st := fun q d c => match q with
    | 0 => stRes d (idsC m d) (m (tblLoc d)) (m (outLoc d)) (Fin.cast nCore_zero c)
  dn := fun q d c => match q with
    | 0 => dnRes Gd d (idsC m d) (m (tblLoc d)) (Fin.cast nCore_zero c)
  go := fun q d c i => match q with
    | 0 => goRes d (idsC m d) (m (tblLoc d)) (m (outLoc d)) (Fin.cast nCore_zero c) (Fin.cast nSub_zero i)
  td := fun q d c i => match q with
    | 0 => tdRes Gd d (idsC m d) (m (tblLoc d)) (Fin.cast nCore_zero c) (Fin.cast nSub_zero i)
  x := fun _ _ => iprop(emp)

instance P_storable (Gd : S4096x128.Idx → Elt F .f32 → Prop) (m : (ℓ : Loc nD τ sig) → Buf (Elt F) ℓ) :
    (P (F := F) Gd m).IsStorable where
  st q d c := match q with
    | 0 => by
      show BI.Storable (upEmb : UEmb _ 𝕄) (stRes d (idsC m d) (m (tblLoc d)) (m (outLoc d)) (Fin.cast nCore_zero c))
      unfold stRes; infer_instance
  dn q d c := match q with
    | 0 => by
      show BI.Storable (upEmb : UEmb _ 𝕄) (dnRes Gd d (idsC m d) (m (tblLoc d)) (Fin.cast nCore_zero c))
      unfold dnRes; infer_instance
  go q d c i := match q with
    | 0 => by
      show BI.Storable (upEmb : UEmb _ 𝕄) (goRes d (idsC m d) (m (tblLoc d)) (m (outLoc d)) (Fin.cast nCore_zero c) (Fin.cast nSub_zero i))
      unfold goRes; infer_instance
  td q d c i := match q with
    | 0 => by
      show BI.Storable (upEmb : UEmb _ 𝕄) (tdRes Gd d (idsC m d) (m (tblLoc d)) (Fin.cast nCore_zero c) (Fin.cast nSub_zero i))
      unfold tdRes; infer_instance

/-! ## The launch theorem's obligation for one vector subcore -/

theorem defs₀_vector (c : Fin τ.nSC) (s : Fin τ.nSub) :
    defs₀ (F := F) (.scVector c s) 0 ()
      = SparseCore.onTile hcore0 hsub0 (fun c s => cc0__sc_mean_pool (coordsV c s) (Memref.whole main_v0_scv) (Memref.isWhole_whole _) (Memref.whole main_arg1_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scoped0) ⟨⟩ c s := rfl

omit [FloatOps F] [Named F] in
theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- From the body's run on every subcore — for any shares and contents of the two read arrays whose index words name
    table rows, and the subcore's own result rows — to the launch theorem's obligation. -/
theorem tileObl_of (Gd : S4096x128.Idx → Elt F .f32 → Prop) (m : (ℓ : Loc nD τ sig) → Buf (Elt F) ℓ) (hF : (K (F := F)).Facts)
    (hpre : ∀ (d : Dev nD) j, (idsC m d j).toNat < 100000)
    (hbody : ∀ (d : Dev nD) (L : grid0.Coords) (q : PosShare TreeShare) (fi : Buf (Elt F) (idsLoc d)) (ft : Buf (Elt F) (tblLoc d))
        (fo : Buf (Elt F) (outLoc d)), (∀ j, (fi j).toNat < 100000) →
        ∀ (O : CellTallies nD τ sig (HIx 1)) (W : Waits sig (HIx 1)), (∀ g, O g none = 0) →
          (iprop(levAts (K (F := F)).L (K (F := F)).lev ∗ emp
              ∗ ((idsLoc d ↦{q} fi) ∗ (tblLoc d ↦{q} ft) ∗ (outLoc d ↦[slab L]{fullShare} fo))
              ∗ scopedBufs (thr d L) ∗ scopedSems0 (thr d L) ∗ owes (thr d L) O W) : sProp 𝕄)
            ⊢ wp frame (wpE (defs₀ (F := F)) 𝒱₀ (thr d L) none) Set.univ
                (cc0__sc_mean_pool L (Memref.whole main_v0_scv) (Memref.isWhole_whole _) (Memref.whole main_arg1_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scoped0)
                fun _ => iprop(((idsLoc d ↦{q} fi) ∗ (tblLoc d ↦{q} ft)
                    ∗ ∃ f : Buf (Elt F) (outLoc d), ⌜∀ j ∈ slab L, Gd j (f j)⌝ ∗ (outLoc d ↦[slab L]{fullShare} f))
                  ∗ scopedBufs (thr d L) ∗ scopedSems0 (thr d L)
                  ∗ ∃ W', ⌜∀ p ∈ W', p ∈ W ∨ p.2 = none⌝ ∗ owes (thr d L) O W')) :
    (K (F := F)).TileObl (D (F := F)) 𝒱 (P Gd m) v₀ 0 := by
  intro d c i O W hO _ _
  simp only [show (P Gd m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) (qT (Fin.cast nCore_zero c) (Fin.cast nSub_zero i)) (idsC m d) (m (tblLoc d))
    (m (outLoc d)) (hpre d) O W hO).trans (wp_mono frame _ _ fun _ => obl_post)

end Cert.KernelIdeal.Hand

end
-- ==== Proof.KIVTileBody.lean ====
/-
  The subcore's task with the values, as the launch asks for it.

  The value predicate on the mean rows says that entry j is the accumulator value of the chunk and half its row number
  names. At the launch contents of the index array, the table and the result array, the task run on the subcore's opened
  scoped storage leaves every entry of the subcore's 128 rows satisfying that predicate, and closes the storage again.
-/
import proofs.«207455_g33174327394824_cont_8to1_b_592_21_alg».proof.Proof.KIVTile
import proofs.«207455_g33174327394824_cont_8to1_b_592_21_alg».proof.Proof.KILaunchParts3
import proofs.«207455_g33174327394824_cont_8to1_b_592_21_alg».proof.Proof.KILaunchParts
import proofs.«207455_g33174327394824_cont_8to1_b_592_21_alg».proof.Proof.KIValLemmas
import proofs.«207455_g33174327394824_cont_8to1_b_592_21_alg».proof.Proof.KIValMoves
noncomputable section
namespace Cert.KernelIdeal.Hand
open Cert.KernelIdeal Cert.KernelIdeal.Gen Cert.KernelIdeal.HandVal
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]
local notation "𝕄" => MT nD τ sig (HIx 1) (Elt F) ℕ UU ℕ

local notation "idsW" => (Memref.whole Cert.KernelIdeal.main_v0_scv : Memref Cert.KernelIdeal.sig Kind.scVector Space.hbm Cert.KernelIdeal.S2048x100 EltTy.i32)
local notation "tblW" => (Memref.whole Cert.KernelIdeal.main_arg1_scv : Memref Cert.KernelIdeal.sig Kind.scVector Space.hbm Cert.KernelIdeal.S100000x128 EltTy.f32)
local notation "outW" => (Memref.whole Cert.KernelIdeal.main_v1_scv : Memref Cert.KernelIdeal.sig Kind.scVector Space.hbm Cert.KernelIdeal.S4096x128 EltTy.f32)
local notation "sI0" => (Memref.whole Cert.KernelIdeal.cc0_scratch0 : Memref Cert.KernelIdeal.sig Kind.scVector Space.vmem Cert.KernelIdeal.S100 EltTy.i32)
local notation "sI1" => (Memref.whole Cert.KernelIdeal.cc0_scratch1 : Memref Cert.KernelIdeal.sig Kind.scVector Space.vmem Cert.KernelIdeal.S100 EltTy.i32)
local notation "sI2" => (Memref.whole Cert.KernelIdeal.cc0_scratch2 : Memref Cert.KernelIdeal.sig Kind.scVector Space.vmem Cert.KernelIdeal.S100 EltTy.i32)
local notation "sI3" => (Memref.whole Cert.KernelIdeal.cc0_scratch3 : Memref Cert.KernelIdeal.sig Kind.scVector Space.vmem Cert.KernelIdeal.S100 EltTy.i32)
local notation "sR0" => (Memref.whole Cert.KernelIdeal.cc0_scratch4 : Memref Cert.KernelIdeal.sig Kind.scVector Space.vmem Cert.KernelIdeal.S100x128 EltTy.f32)
local notation "sR1" => (Memref.whole Cert.KernelIdeal.cc0_scratch5 : Memref Cert.KernelIdeal.sig Kind.scVector Space.vmem Cert.KernelIdeal.S100x128 EltTy.f32)
local notation "sR2" => (Memref.whole Cert.KernelIdeal.cc0_scratch6 : Memref Cert.KernelIdeal.sig Kind.scVector Space.vmem Cert.KernelIdeal.S100x128 EltTy.f32)
local notation "sR3" => (Memref.whole Cert.KernelIdeal.cc0_scratch7 : Memref Cert.KernelIdeal.sig Kind.scVector Space.vmem Cert.KernelIdeal.S100x128 EltTy.f32)
local notation "sA" => (Memref.whole Cert.KernelIdeal.cc0_scratch8 : Memref Cert.KernelIdeal.sig Kind.scVector Space.vmem Cert.KernelIdeal.S128x128 EltTy.f32)

/-- The value predicate on the mean rows: entry j is the accumulator value of its subcore's chunk and half. -/
def GdV (m : (ℓ : Loc nD τ sig) → Buf (Elt F) ℓ) : S4096x128.Idx → Elt F .f32 → Prop :=
  fun j v => v = Macc (idsC m (0 : Dev nD)) (m (tblLoc (0 : Dev nD))) (64 * ((j 0).val / 128)) (ValueIdx.ix2 ⟨(j 0).val % 128, Nat.mod_lt _ (by decide)⟩ (j 1))

/-- The task with the values, as the launch theorem asks for it. -/
theorem tile_bodyV (m : (ℓ : Loc nD τ sig) → Buf (Elt F) ℓ) (hpre : ∀ (d : Dev nD) j, (idsC m d j).toNat < 100000)
    (hF : (K (F := F)).Facts) (d : Dev nD) (L : grid0.Coords) (q : PosShare TreeShare)
    (O : CellTallies nD τ sig (HIx 1)) (W : Waits sig (HIx 1)) (hO : ∀ g, O g none = 0) :
    (iprop(levAts (K (F := F)).L (K (F := F)).lev ∗ emp ∗ ((idsLoc d ↦{q} idsC m d) ∗ (tblLoc d ↦{q} m (tblLoc d)) ∗ (outLoc d ↦[slab L]{fullShare} m (outLoc d)))
        ∗ scopedBufs (thr d L) ∗ scopedSems0 (thr d L) ∗ owes (thr d L) O W) : sProp 𝕄)
      ⊢ wp frame (wpE (defs₀ (F := F)) 𝒱₀ (thr d L) none) Set.univ
          (cc0__sc_mean_pool L idsW (Memref.isWhole_whole _) tblW (Memref.isWhole_whole _) outW (Memref.isWhole_whole _)
            sI0 (Memref.isWhole_whole _) sI1 (Memref.isWhole_whole _) sI2 (Memref.isWhole_whole _) sI3 (Memref.isWhole_whole _)
            sR0 (Memref.isWhole_whole _) sR1 (Memref.isWhole_whole _) sR2 (Memref.isWhole_whole _) sR3 (Memref.isWhole_whole _)
            sA (Memref.isWhole_whole _) cc0_scratch9 cc0_scratch10 cc0_scratch11 cc0_scratch12 cc0_scratch13 cc0_scratch14 cc0_scratch15 cc0_scratch16 cc0_scoped0)
          fun _ => iprop(((idsLoc d ↦{q} idsC m d) ∗ (tblLoc d ↦{q} m (tblLoc d)) ∗ ∃ f : Buf (Elt F) (outLoc d), ⌜∀ j ∈ slab L, GdV m j (f j)⌝ ∗ (outLoc d ↦[slab L]{fullShare} f))
            ∗ scopedBufs (thr d L) ∗ scopedSems0 (thr d L) ∗ ∃ W', ⌜∀ p ∈ W', p ∈ W ∨ p.2 = none⌝ ∗ owes (thr d L) O W') := by
  obtain rfl : d = (0 : Dev nD) := Subsingleton.elim _ _
  rw [(K (F := F)).scopedBufs_V hF (0 : Dev nD) (cV L) (jV L), SparseCore.Cfg.scopedSems0_V (Val := Elt F) (0 : Dev nD) (cV L) (jV L), ownSems0_V9, ownBufs_V9]
  iintro ⟨#Hlv, -, ⟨Hi, Ht, Ho⟩, ⟨B0, B1, B2, B3, B4, B5, B6, B7, B8, Hbufs⟩, ⟨S0, S1, S2, S3, S4, S5, S6, S7, S8, Hsems⟩, HO⟩
  ihave Hmw := ((K (F := F)).mayWaits_none (thr := thr (0 : Dev nD) L) hO) $$ Hlv
  iapply (wp_wand_r frame _ _)
  isplitr [Hbufs Hsems]
  · iapply (tile_runV (0 : Dev nD) L q (idsC m (0 : Dev nD)) (m (tblLoc (0 : Dev nD))) (m (outLoc (0 : Dev nD))) (hpre (0 : Dev nD)) O W)
    isplitl [Hmw]; · iexact Hmw
    isplitl [Hi]; · iexact Hi
    isplitl [Ht]; · iexact Ht
    isplitl [Ho]; · iexact Ho
    isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact HO
  · iintro %_ ⟨Hi, Ht, ⟨%f, %hf, Ho⟩, B0, B1, B2, B3, B4, B5, B6, B7, B8, S0, S1, S2, S3, S4, S5, S6, S7, S8, HO⟩
    isplitl [Hi Ht Ho]
    · isplitl [Hi]; · iexact Hi
      isplitl [Ht]; · iexact Ht
      iexists f; isplitr
      · ipureintro; exact hf
      · iexact Ho
    isplitl [B0 B1 B2 B3 B4 B5 B6 B7 B8 Hbufs]
    · isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      iexact Hbufs
    isplitl [S0 S1 S2 S3 S4 S5 S6 S7 S8 Hsems]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact Hsems
    iexact HO

end Cert.KernelIdeal.Hand
end
-- ==== Proof.KILaunchParts5.lean ====
/-
  The launch theorem's obligation for one vector subcore, from a statement about the kernel body at exactly the contents
  the handshakes hand out: the reshaped launch index array, the launch table, the launch result array.
-/
import proofs.«207455_g33174327394824_cont_8to1_b_592_21_alg».proof.Proof.KILaunchParts

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig (HIx 1) (Elt F) ℕ UU ℕ

/-- From the body's run on every subcore at the launch contents of the three arrays to the launch theorem's obligation. -/
theorem tileObl_of' (Gd : S4096x128.Idx → Elt F .f32 → Prop) (m : (ℓ : Loc nD τ sig) → Buf (Elt F) ℓ) (hF : (K (F := F)).Facts)
    (hbody : ∀ (d : Dev nD) (L : grid0.Coords) (q : PosShare TreeShare)
        (O : CellTallies nD τ sig (HIx 1)) (W : Waits sig (HIx 1)), (∀ g, O g none = 0) →
          (iprop(levAts (K (F := F)).L (K (F := F)).lev ∗ emp
              ∗ ((idsLoc d ↦{q} idsC m d) ∗ (tblLoc d ↦{q} m (tblLoc d)) ∗ (outLoc d ↦[slab L]{fullShare} m (outLoc d)))
              ∗ scopedBufs (thr d L) ∗ scopedSems0 (thr d L) ∗ owes (thr d L) O W) : sProp 𝕄)
            ⊢ wp frame (wpE (defs₀ (F := F)) 𝒱₀ (thr d L) none) Set.univ
                (cc0__sc_mean_pool L (Memref.whole main_v0_scv) (Memref.isWhole_whole _) (Memref.whole main_arg1_scv) (Memref.isWhole_whole _) (Memref.whole main_v1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15 cc0_scratch16 cc0_scoped0)
                fun _ => iprop(((idsLoc d ↦{q} idsC m d) ∗ (tblLoc d ↦{q} m (tblLoc d))
                    ∗ ∃ f : Buf (Elt F) (outLoc d), ⌜∀ j ∈ slab L, Gd j (f j)⌝ ∗ (outLoc d ↦[slab L]{fullShare} f))
                  ∗ scopedBufs (thr d L) ∗ scopedSems0 (thr d L)
                  ∗ ∃ W', ⌜∀ p ∈ W', p ∈ W ∨ p.2 = none⌝ ∗ owes (thr d L) O W')) :
    (K (F := F)).TileObl (D (F := F)) 𝒱 (P Gd m) v₀ 0 := by
  intro d c i O W hO _ _
  simp only [show (P Gd m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (hbody d (coordsV ⟨_, hc.1⟩ ⟨_, hc.2⟩) (qT (Fin.cast nCore_zero c) (Fin.cast nSub_zero i)) O W hO).trans
    (wp_mono frame _ _ fun _ => obl_post)

end Cert.KernelIdeal.Hand

end
-- ==== Proof.KILaunchParts2.lean ====
/-
  One SparseCore's operands dealt to its sixteen vector subcores and gathered back.

  The SparseCore's read share of the index array and of the table is cut into sixteen subcore shares and a remainder;
  the remainder waits, and rejoins the sixteen when they come back. The SparseCore's result rows are the union of its
  subcores' slabs: subcore s of SparseCore c owns rows 256·s + 128·c to 256·s + 128·c + 127, so two slabs of one
  SparseCore are at least 256 rows apart and never meet; held slab by slab at contents whose entries satisfy the
  predicate, they join into the union at contents that agree with each slab's on that slab, so every entry of the union
  satisfies it.
-/
import proofs.«207455_g33174327394824_cont_8to1_b_592_21_alg».proof.Proof.KILaunchParts

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig (HIx 1) (Elt F) ℕ UU ℕ

/-! ## The slabs of one SparseCore -/

/-- The result rows of subcore `i` of SparseCore `c`. -/
abbrev slabOf (c : Fin 2) (i : Fin 16) : Finset S4096x128.Idx :=
  slab (coordsV (Fin.cast bound_zero.symm c) (Fin.cast bound_one.symm i))

omit [FloatOps F] [Named F] in
/-- A slab is the rectangle of 128 whole rows at the kernel's row offset. -/
theorem slab_eq (L : grid0.Coords) :
    slab L = (Rect.unit (s := S4096x128) (k0_off50 L) S128x128.size (k0_off50_inb L)).set :=
  View.set_slice_whole _ _

omit [FloatOps F] [Named F] in
/-- Two different subcores of one SparseCore own rows at least 256 apart: their slabs are disjoint. -/
theorem slabOf_disjoint (c : Fin 2) :
    ∀ i ∈ (Finset.univ : Finset (Fin 16)), ∀ i' ∈ (Finset.univ : Finset (Fin 16)), i ≠ i' → Disjoint (slabOf c i) (slabOf c i') := by
  intro i _ i' _ h
  unfold slabOf
  rw [slab_eq, slab_eq]
  refine Rect.disjoint_of_separated _ _ 0 ?_
  simp only [Rect.off_unit, Rect.size_unit, Rect.stride_unit, Nat.one_mul, k0_off50_eq]
  have hs : i.val ≠ i'.val := fun e => h (Fin.ext e)
  show (128 = 0 ∨ 256 * i.val + 128 * c.val + (128 - 1) < 256 * i'.val + 128 * c.val)
    ∨ (128 = 0 ∨ 256 * i'.val + 128 * c.val + (128 - 1) < 256 * i.val + 128 * c.val)
  omega

omit [FloatOps F] [Named F] in
/-- A SparseCore's rows are the union of its subcores' slabs. -/
theorem coreSlabs_eq (c : Fin 2) : coreSlabs (Fin.cast bound_zero.symm c) = Finset.univ.biUnion (slabOf c) := rfl

omit [FloatOps F] [Named F] in
/-- The tasks of the call are the sixteen subcores. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] [Named F] in
/-- A SparseCore's rows held at one contents are its subcores' slabs held at it. -/
theorem out_rows (d : Dev nD) (f : Buf (Elt F) (outLoc d)) (c : Fin 2) :
    (outLoc d ↦[coreSlabs (Fin.cast bound_zero.symm c)]{fullShare} f : sProp 𝕄)
      = bigSep Finset.univ fun i : Fin 16 => outLoc d ↦[slabOf c i]{fullShare} f := by
  rw [coreSlabs_eq, pointsTo_biUnion Finset.univ (ℓ := outLoc d) (slabOf c) (slabOf_disjoint c)]

/-- The slabs, each held at contents whose entries on it satisfy `Gd`, join into the SparseCore's rows held at
    contents whose entries on them all satisfy `Gd`. -/
theorem out_join (Gd : S4096x128.Idx → Elt F .f32 → Prop) (d : Dev nD) (c : Fin 2) :
    (bigSep Finset.univ fun i : Fin 16 =>
        iprop(∃ f : Buf (Elt F) (outLoc d), ⌜∀ j ∈ slabOf c i, Gd j (f j)⌝ ∗ (outLoc d ↦[slabOf c i]{fullShare} f)))
      ⊢ (iprop(∃ f : Buf (Elt F) (outLoc d), ⌜∀ j ∈ coreSlabs (Fin.cast bound_zero.symm c), Gd j (f j)⌝
          ∗ (outLoc d ↦[coreSlabs (Fin.cast bound_zero.symm c)]{fullShare} f)) : sProp 𝕄) := by
  refine (bigSep_exists_pi Finset.univ (fun (i : Fin 16) (f : Buf (Elt F) (outLoc d)) =>
    iprop(⌜∀ j ∈ slabOf c i, Gd j (f j)⌝ ∗ (outLoc d ↦[slabOf c i]{fullShare} f)))).trans ?_
  iintro ⟨%fs, H⟩
  ihave H' := (bigSep_pure_sep Finset.univ (fun i : Fin 16 => ∀ j ∈ slabOf c i, Gd j (fs i j))
    (fun i : Fin 16 => (outLoc d ↦[slabOf c i]{fullShare} fs i : sProp 𝕄))) $$ H
  icases H' with ⟨%hG, H⟩
  ihave H'' := (pointsTo_biUnion_join Finset.univ (slabOf c) fs (fs 0) (slabOf_disjoint c)) $$ H
  icases H'' with ⟨%g, %hg, Hg⟩
  iexists g
  isplitr
  · ipureintro
    intro j hj
    rw [coreSlabs_eq] at hj
    obtain ⟨i, hi, hji⟩ := Finset.mem_biUnion.mp hj
    rw [hg i hi j hji]
    exact hG i hi j hji
  · rw [coreSlabs_eq]; iexact Hg

/-! ## The split -/

/-- One SparseCore's operands to its sixteen subcores, and back. -/
theorem split16 (Gd : S4096x128.Idx → Elt F .f32 → Prop) (d : Dev nD) (I : Buf (Elt F) (idsLoc d)) (Tb : Buf (Elt F) (tblLoc d))
    (O0 : Buf (Elt F) (outLoc d)) (c : Fin 2) :
    (stRes d I Tb O0 c : sProp 𝕄) ⊢ |={Set.univ}=> iprop((bigSep Finset.univ fun i : Fin 16 => goRes d I Tb O0 c i)
      ∗ ((bigSep Finset.univ fun i : Fin 16 => tdRes Gd d I Tb c i) -∗ dnRes Gd d I Tb c)) := by
  unfold stRes goRes tdRes dnRes qT
  rw [bigSep_sep', bigSep_sep', bigSep_sep', bigSep_sep']
  iintro ⟨Hi, Ht, Ho⟩
  ihave Hi' := (Transfers.pointsTo_toks_split (qC c) 16) $$ Hi
  icases Hi' with ⟨Hir, Hit⟩
  ihave Ht' := (Transfers.pointsTo_toks_split (qC c) 16) $$ Ht
  icases Ht' with ⟨Htr, Htt⟩
  ihave Ho' := (Entails.of_eq (out_rows (F := F) d O0 c)) $$ Ho
  imodintro
  isplitl [Hit Htt Ho']
  · isplitl [Hit]; · iexact Hit
    isplitl [Htt]; · iexact Htt
    iexact Ho'
  iintro ⟨Hit, Htt, Ho⟩
  isplitl [Hir Hit]
  · iapply (Transfers.pointsTo_toks_join (qC c) 16)
    isplitl [Hir]; · iexact Hir
    iexact Hit
  isplitl [Htr Htt]
  · iapply (Transfers.pointsTo_toks_join (qC c) 16)
    isplitl [Htr]; · iexact Htr
    iexact Htt
  iapply (out_join Gd d c); iexact Ho

theorem vecSplit (Gd : S4096x128.Idx → Elt F .f32 → Prop) (m : (ℓ : Loc nD τ sig) → Buf (Elt F) ℓ) :
    (K (F := F)).VecSplit' (P Gd m) 0 := by
  intro d c
  show (stRes d (idsC m d) (m (tblLoc d)) (m (outLoc d)) (Fin.cast nCore_zero c) : sProp 𝕄) ⊢ |={Set.univ}=> iprop(
      (bigSep Finset.univ fun i : Fin ((K (F := F)).nSub 0) =>
        goRes d (idsC m d) (m (tblLoc d)) (m (outLoc d)) (Fin.cast nCore_zero c) (Fin.cast nSub_zero i))
      ∗ ((bigSep Finset.univ fun i : Fin ((K (F := F)).nSub 0) =>
          tdRes Gd d (idsC m d) (m (tblLoc d)) (Fin.cast nCore_zero c) (Fin.cast nSub_zero i))
        -∗ dnRes Gd d (idsC m d) (m (tblLoc d)) (Fin.cast nCore_zero c)))
  rw [bigSep_tasks (F := F) (fun i => goRes d (idsC m d) (m (tblLoc d)) (m (outLoc d)) (Fin.cast nCore_zero c) i),
    bigSep_tasks (F := F) (fun i => tdRes Gd d (idsC m d) (m (tblLoc d)) (Fin.cast nCore_zero c) i)]
  exact split16 Gd d _ _ _ _

end Cert.KernelIdeal.Hand

end
-- ==== Proof.KIRows.lean ====
/-
  The result rows of the lookup, dealt between the two SparseCores and gathered back.

  Subcore s of SparseCore c owns rows 256·s + 128·c to 256·s + 128·c + 127: the thirty-two slabs are the thirty-two
  runs of 128 rows, pairwise disjoint, and together every row. So the two SparseCores' row sets are disjoint and cover
  the array; held at one contents the array is the two row sets held at it, and the two row sets, each held at contents
  whose entries on it satisfy the predicate, join into the whole array at contents all of whose entries satisfy it.
-/
import proofs.«207455_g33174327394824_cont_8to1_b_592_21_alg».proof.Proof.KILaunchParts2

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig (HIx 1) (Elt F) ℕ UU ℕ

/-! ## The thirty-two slabs -/

omit [FloatOps F] [Named F] in
/-- Two different subcores, of one SparseCore or of two, own disjoint rows. -/
theorem slabOf_disjoint_all (c c' : Fin 2) (i i' : Fin 16) (h : c ≠ c' ∨ i ≠ i') : Disjoint (slabOf c i) (slabOf c' i') := by
  unfold slabOf
  rw [slab_eq, slab_eq]
  refine Rect.disjoint_of_separated _ _ 0 ?_
  simp only [Rect.off_unit, Rect.size_unit, Rect.stride_unit, Nat.one_mul, k0_off50_eq]
  have hs : c.val ≠ c'.val ∨ i.val ≠ i'.val := h.imp (fun h e => h (Fin.ext e)) (fun h e => h (Fin.ext e))
  have hc := c.isLt
  have hc' := c'.isLt
  show (128 = 0 ∨ 256 * i.val + 128 * c.val + (128 - 1) < 256 * i'.val + 128 * c'.val)
    ∨ (128 = 0 ∨ 256 * i'.val + 128 * c'.val + (128 - 1) < 256 * i.val + 128 * c.val)
  omega

omit [FloatOps F] [Named F] in
/-- Every entry of the array lies in the slab its row number names. -/
theorem exists_mem_slabOf (j : S4096x128.Idx) : ∃ (c : Fin 2) (i : Fin 16), j ∈ slabOf c i := by
  have hr : (j 0).val < 4096 := (j 0).isLt
  have he : (j 1).val < 128 := (j 1).isLt
  refine ⟨⟨(j 0).val % 256 / 128, by omega⟩, ⟨(j 0).val / 256, by omega⟩, ?_⟩
  unfold slabOf
  rw [slab_eq, Rect.mem_set_unit]
  intro a
  rw [k0_off50_eq]
  match a with
  | ⟨0, _⟩ =>
    show 256 * ((j 0).val / 256) + 128 * ((j 0).val % 256 / 128) ≤ (j 0).val
      ∧ (j 0).val < 256 * ((j 0).val / 256) + 128 * ((j 0).val % 256 / 128) + 128
    omega
  | ⟨1, _⟩ =>
    show 0 ≤ (j 1).val ∧ (j 1).val < 0 + 128
    omega

/-- The rows of SparseCore `c`. -/
abbrev coreRows (c : Fin 2) : Finset S4096x128.Idx := coreSlabs (Fin.cast bound_zero.symm c)

omit [FloatOps F] [Named F] in
theorem coreRows_disjoint :
    ∀ c ∈ (Finset.univ : Finset (Fin 2)), ∀ c' ∈ (Finset.univ : Finset (Fin 2)), c ≠ c' → Disjoint (coreRows c) (coreRows c') := by
  intro c _ c' _ h
  unfold coreRows
  rw [coreSlabs_eq, coreSlabs_eq, Finset.disjoint_biUnion_left]
  intro i _
  rw [Finset.disjoint_biUnion_right]
  intro i' _
  exact slabOf_disjoint_all c c' i i' (.inl h)

omit [FloatOps F] [Named F] in
theorem coreRows_cover : (Finset.univ : Finset (Fin 2)).biUnion coreRows = Finset.univ := by
  ext j
  simp only [Finset.mem_biUnion, Finset.mem_univ, true_and, iff_true]
  obtain ⟨c, i, h⟩ := exists_mem_slabOf j
  refine ⟨c, ?_⟩
  unfold coreRows
  rw [coreSlabs_eq]
  exact Finset.mem_biUnion.mpr ⟨i, Finset.mem_univ i, h⟩

/-! ## The array between the two SparseCores -/

omit [FloatOps F] [Named F] in
/-- The whole array held at one contents is the two SparseCores' rows held at it. -/
theorem out_cores (d : Dev nD) (f : Buf (Elt F) (outLoc d)) :
    (outLoc d ↦{fullShare} f : sProp 𝕄) = iprop((outLoc d ↦[coreRows 0]{fullShare} f) ∗ (outLoc d ↦[coreRows 1]{fullShare} f)) := by
  rw [← bigSep_univ_two (fun c : Fin 2 => (outLoc d ↦[coreRows c]{fullShare} f : sProp 𝕄)),
    ← pointsTo_biUnion Finset.univ (ℓ := outLoc d) coreRows coreRows_disjoint, coreRows_cover]

/-- The two SparseCores' rows, each held at contents whose entries on them satisfy `Gd`, join into the whole array held
    at contents all of whose entries satisfy `Gd`. -/
theorem out_cores_join (Gd : S4096x128.Idx → Elt F .f32 → Prop) (d : Dev nD) :
    iprop((∃ f : Buf (Elt F) (outLoc d), ⌜∀ j ∈ coreRows 0, Gd j (f j)⌝ ∗ (outLoc d ↦[coreRows 0]{fullShare} f))
        ∗ (∃ f : Buf (Elt F) (outLoc d), ⌜∀ j ∈ coreRows 1, Gd j (f j)⌝ ∗ (outLoc d ↦[coreRows 1]{fullShare} f)))
      ⊢ (iprop(∃ f : Buf (Elt F) (outLoc d), ⌜∀ j, Gd j (f j)⌝ ∗ (outLoc d ↦{fullShare} f)) : sProp 𝕄) := by
  rw [← bigSep_univ_two (fun c : Fin 2 =>
    (iprop(∃ f : Buf (Elt F) (outLoc d), ⌜∀ j ∈ coreRows c, Gd j (f j)⌝ ∗ (outLoc d ↦[coreRows c]{fullShare} f)) : sProp 𝕄))]
  refine (bigSep_exists_pi Finset.univ (fun (c : Fin 2) (f : Buf (Elt F) (outLoc d)) =>
    iprop(⌜∀ j ∈ coreRows c, Gd j (f j)⌝ ∗ (outLoc d ↦[coreRows c]{fullShare} f)))).trans ?_
  iintro ⟨%fs, H⟩
  ihave H' := (bigSep_pure_sep Finset.univ (fun c : Fin 2 => ∀ j ∈ coreRows c, Gd j (fs c j))
    (fun c : Fin 2 => (outLoc d ↦[coreRows c]{fullShare} fs c : sProp 𝕄))) $$ H
  icases H' with ⟨%hG, H⟩
  ihave H'' := (pointsTo_biUnion_join Finset.univ coreRows fs (fs 0) coreRows_disjoint) $$ H
  icases H'' with ⟨%g, %hg, Hg⟩
  iexists g
  isplitr
  · ipureintro
    intro j
    have hj : j ∈ (Finset.univ : Finset (Fin 2)).biUnion coreRows := by rw [coreRows_cover]; exact Finset.mem_univ j
    obtain ⟨c, hc, hjc⟩ := Finset.mem_biUnion.mp hj
    rw [hg c hc j hjc]
    exact hG c hc j hjc
  · rw [coreRows_cover]; iexact Hg

end Cert.KernelIdeal.Hand

end
-- ==== Proof.KILaunchParts4.lean ====
/-
  The launch element of the ghost state, and what it is dealt into.

  The element is a triple: the handshakes' rounds at their launch cells and tokens, the staging semaphores' rounds at
  theirs, and the unit of the counters. Owning it is owning each part through its own embedding; the handshakes' part is
  handed on as it is, the staging part is spent for every device's staging cells and launch tokens, and the lookup kernel
  is dealt nothing, having no cells of its own.
-/
import proofs.«207455_g33174327394824_cont_8to1_b_592_21_alg».proof.Proof.KILaunchParts

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig (HIx 1) (Elt F) ℕ UU ℕ

/-- The launch element: handshakes, staging semaphores, counters. -/
def u₀ : UU :=
  (initOf (K (F := F)).hsCells (K (F := F)).hsToks,
    (initOf (Pipeline.cells (nD := nD) (τ := τ) cfgs cellOf_inj) (Pipeline.launchToks (nD := nD) (τ := τ) cfgs cellOf_inj), 1))

omit [FloatOps F] [Named F] in
theorem bigSep_emp' {I : Type} (s : Finset I) : (bigSep s fun _ => iprop(emp)) = (iprop(emp) : sProp 𝕄) := bigSep_emp_const s

omit [FloatOps F] [Named F] in
/-- The staging part of the launch element, owned through the right factor's left injection, is owned through the
    staging embedding: the two embeddings are one function. -/
theorem ownP_eq (b : UP) :
    (BI.own (((Emb.inl : Emb UP (UP × Counters)).trans
        (embR : Emb (UP × Counters) (MT nD τ sig (HIx 1) (Elt F) ℕ UU ℕ))) b) : sProp 𝕄) = BI.own ((EP (F := F)) b) := rfl

omit [FloatOps F] [Named F] in
/-- The staging part is spent for every device's staging cells and launch tokens. -/
theorem ghost_deal :
    (BI.own ((EP (F := F)) (initOf (Pipeline.cells (nD := nD) (τ := τ) cfgs cellOf_inj) (Pipeline.launchToks (nD := nD) (τ := τ) cfgs cellOf_inj))) : sProp 𝕄)
      ⊢ iprop(|==> bigSep Finset.univ fun d : Dev nD => iprop(Pipeline.cellsGhost cfgs EP 0 d ∗ Pipeline.toksInit cfgs EP 0 d)) := by
  refine (Pipeline.fund_ghost cfgs (EP (F := F)) cellOf_inj).trans (bupd_mono ?_)
  rw [bigSep_sep',
    bigSep_congr (s := (Finset.univ : Finset (Dev nD))) (Φ := fun c => bigSep Finset.univ fun p : Fin 1 => Pipeline.cellsGhost cfgs (EP (F := F)) p c)
      fun d _ => bigSep_univ_of_subsingleton (0 : Fin 1),
    bigSep_congr (s := (Finset.univ : Finset (Dev nD))) (Φ := fun c => bigSep Finset.univ fun p : Fin 1 => (Pipeline.toksInit cfgs (EP (F := F)) p c : sProp 𝕄))
      fun d _ => bigSep_univ_of_subsingleton (0 : Fin 1)]
  exact .refl _

omit [FloatOps F] [Named F] in
theorem ghost_deal' :
    (BI.own (((Emb.inl : Emb UP (UP × Counters)).trans (embR : Emb (UP × Counters) (MT nD τ sig (HIx 1) (Elt F) ℕ UU ℕ)))
        (initOf (Pipeline.cells (nD := nD) (τ := τ) cfgs cellOf_inj) (Pipeline.launchToks (nD := nD) (τ := τ) cfgs cellOf_inj))) : sProp 𝕄)
      ⊢ iprop(|==> bigSep Finset.univ fun d : Dev nD => iprop(Pipeline.cellsGhost cfgs EP 0 d ∗ Pipeline.toksInit cfgs EP 0 d)) :=
  (Entails.of_eq (ownP_eq (F := F) _)).trans ghost_deal

theorem hu₀ (Gd : S4096x128.Idx → Elt F .f32 → Prop) (m : (ℓ : Loc nD τ sig) → Buf (Elt F) ℓ) :
    (ownU (u₀ (F := F)) : sProp 𝕄)
      ⊢ |={Set.univ}=> iprop(BI.own (EH (initOf (K (F := F)).hsCells (K (F := F)).hsToks))
          ∗ (bigSep Finset.univ fun d : Dev nD => iprop(Pipeline.cellsGhost cfgs EP 0 d ∗ Pipeline.toksInit cfgs EP 0 d))
          ∗ bigSep Finset.univ fun thr : Thread nD τ => bigSep Finset.univ fun q : Fin 1 => (P Gd m).x q thr) := by
  unfold u₀
  iintro Hu
  ihave H := (ownU_pair _ _) $$ Hu
  icases H with ⟨HH, HR⟩
  ihave HR' := (own_pair_emb embR _ _) $$ HR
  icases HR' with ⟨HP, -⟩
  imod (ghost_deal' (F := F)) $$ HP with Hg
  imodintro
  isplitl [HH]; · iexact HH
  isplitl [Hg]; · iexact Hg
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

end Cert.KernelIdeal.Hand

end
-- ==== Proof.KIMain.lean ====
/-
  @main on the TensorCore, around the lookup call and the dense region.

  @main reshapes the index array, calls the lookup on the two SparseCores, converts and reshapes the dense layers'
  weights and biases, and runs the dense region. The thirteen arrays it names are held whole throughout, at a valuation
  each host operation updates at its result. For the call the reshaped index array and the table are lent as read shares
  to the two SparseCores and the result array by row sets; they come back whole, the result at contents every entry of
  which satisfies the stated predicate. The dense region is taken as a hypothesis about its own step.
-/
import proofs.«207455_g33174327394824_cont_8to1_b_592_21_alg».proof.Proof.KIRows
import proofs.«207455_g33174327394824_cont_8to1_b_592_21_alg».proof.Proof.KILaunchParts4

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig (HIx 1) (Elt F) ℕ UU ℕ
open Idealize.ShloMosaic.StableHlo (held held_split held_sdiff_result held_sub_split held_congr wp_hlo_within)

/-! ## The arrays and the host operations -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev a4' : DevRef τ sig := Proc.devRef .tc (main_arg4 : Ref sig .tc)
abbrev a5' : DevRef τ sig := Proc.devRef .tc (main_arg5 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)

/-- The TensorCore's thirteen arrays, all unscoped. -/
abbrev S13 : Finset (DevRef τ sig) := {a0', a1', a2', a3', a4', a5', v0', v1', v2', v3', v4', v5', v6'}
/-- The three the lookup call takes. -/
abbrev T3 : Finset (DevRef τ sig) := {v0', a1', v1'}

abbrev op0 : HloOp τ sig (Elt F) := StableHlo.reshape main_arg0 main_v0 rfl shapeCasts_S4096x50_S2048x100
abbrev op2 : HloOp τ sig (Elt F) :=
  StableHlo.unary main_arg2 main_v2 ((truncf .bf16 · bitsLt_bf16_f32) : (⟨S128x512, .f32⟩ : BufTy).Contents (Elt F) → (⟨S128x512, .bf16⟩ : BufTy).Contents (Elt F))
abbrev op3 : HloOp τ sig (Elt F) := StableHlo.reshape main_arg3 main_v3 rfl shapeCasts_S512_S1x512
abbrev op4 : HloOp τ sig (Elt F) :=
  StableHlo.unary main_arg4 main_v4 ((truncf .bf16 · bitsLt_bf16_f32) : (⟨S512x1000, .f32⟩ : BufTy).Contents (Elt F) → (⟨S512x1000, .bf16⟩ : BufTy).Contents (Elt F))
abbrev op5 : HloOp τ sig (Elt F) := StableHlo.reshape main_arg5 main_v5 rfl shapeCasts_S1000_S1x1000

omit [Named F] in
theorem h0 : (op0 (F := F)).bufs ⊆ S13 := show ({a0', v0'} : Finset (DevRef τ sig)) ⊆ S13 by decide
omit [Named F] in
theorem h2 : (op2 (F := F)).bufs ⊆ S13 := show ({a2', v2'} : Finset (DevRef τ sig)) ⊆ S13 by decide
omit [Named F] in
theorem h3 : (op3 (F := F)).bufs ⊆ S13 := show ({a3', v3'} : Finset (DevRef τ sig)) ⊆ S13 by decide
omit [Named F] in
theorem h4 : (op4 (F := F)).bufs ⊆ S13 := show ({a4', v4'} : Finset (DevRef τ sig)) ⊆ S13 by decide
omit [Named F] in
theorem h5 : (op5 (F := F)).bufs ⊆ S13 := show ({a5', v5'} : Finset (DevRef τ sig)) ⊆ S13 by decide

/-- What the four host operations after the call write: the weights converted, the biases reshaped. -/
abbrev w2 (m : (ℓ : Loc nD τ sig) → Buf (Elt F) ℓ) (d : Dev nD) : Buf (Elt F) ((SparseCore.T d : Thread nD τ).loc main_v2) :=
  truncf .bf16 (m ((SparseCore.T d : Thread nD τ).loc main_arg2) : FVec F S128x512 .f32) bitsLt_bf16_f32
abbrev w3 (m : (ℓ : Loc nD τ sig) → Buf (Elt F) ℓ) (d : Dev nD) : Buf (Elt F) ((SparseCore.T d : Thread nD τ).loc main_v3) :=
  shapeCast S1x512 (m ((SparseCore.T d : Thread nD τ).loc main_arg3) : FVec F S512 .f32) shapeCasts_S512_S1x512
abbrev w4 (m : (ℓ : Loc nD τ sig) → Buf (Elt F) ℓ) (d : Dev nD) : Buf (Elt F) ((SparseCore.T d : Thread nD τ).loc main_v4) :=
  truncf .bf16 (m ((SparseCore.T d : Thread nD τ).loc main_arg4) : FVec F S512x1000 .f32) bitsLt_bf16_f32
abbrev w5 (m : (ℓ : Loc nD τ sig) → Buf (Elt F) ℓ) (d : Dev nD) : Buf (Elt F) ((SparseCore.T d : Thread nD τ).loc main_v5) :=
  shapeCast S1x1000 (m ((SparseCore.T d : Thread nD τ).loc main_arg5) : FVec F S1000 .f32) shapeCasts_S1000_S1x1000

/-! ## The valuations -/

section Vals

variable (m : (ℓ : Loc nD τ sig) → Buf (Elt F) ℓ)

/-- At launch; after the reshape; after the call, the result at what the lookup left; after the four host operations. -/
abbrev V0 (d : Dev nD) : Valuation τ sig (Elt F) := fun b => m (d, b)
abbrev V1 (d : Dev nD) : Valuation τ sig (Elt F) := (op0 (F := F)).result (V0 m d)
abbrev V2 (d : Dev nD) (f : Buf (Elt F) (outLoc d)) : Valuation τ sig (Elt F) := Function.update (V1 m d) v1' f
abbrev V6 (d : Dev nD) (f : Buf (Elt F) (outLoc d)) : Valuation τ sig (Elt F) :=
  (op5 (F := F)).result ((op4 (F := F)).result ((op3 (F := F)).result ((op2 (F := F)).result (V2 m d f))))

omit [Named F] in
theorem V1_v0 (d : Dev nD) : V1 m d v0' = idsC m d := by
  unfold V1
  rw [StableHlo.reshape_result]
  rfl
omit [Named F] in
theorem V1_ne (d : Dev nD) {r : Ref sig .tc} (h : r ≠ main_v0) : V1 m d (Proc.devRef .tc r) = m ((SparseCore.T d : Thread nD τ).loc r) := by
  unfold V1
  rw [StableHlo.reshape_result_ne _ _ _ _ _ _ _ h]
omit [Named F] in
theorem V2_v1 (d : Dev nD) (f : Buf (Elt F) (outLoc d)) : V2 m d f v1' = f := Function.update_self _ _ _
omit [Named F] in
theorem V2_v0 (d : Dev nD) (f : Buf (Elt F) (outLoc d)) : V2 m d f v0' = idsC m d := by
  unfold V2
  rw [Function.update_of_ne (show v0' ≠ v1' by decide), V1_v0]
omit [Named F] in
theorem V2_ne (d : Dev nD) (f : Buf (Elt F) (outLoc d)) {r : Ref sig .tc} (h : r ≠ main_v1) (h' : r ≠ main_v0) :
    V2 m d f (Proc.devRef .tc r) = m ((SparseCore.T d : Thread nD τ).loc r) := by
  unfold V2
  rw [Function.update_of_ne (StableHlo.devRef_ne_of_ne h), V1_ne m d h']

/-! ## The call's operands between the two SparseCores -/

omit [FloatOps F] [Named F] in
theorem out_cores' (d : Dev nD) (f : Buf (Elt F) (outLoc d)) :
    (outLoc d ↦{fullShare} f : sProp 𝕄) = bigSep Finset.univ fun c : Fin 2 => outLoc d ↦[coreRows c]{fullShare} f := by
  rw [bigSep_univ_two]; exact out_cores d f

theorem out_cores_join' (Gd : S4096x128.Idx → Elt F .f32 → Prop) (d : Dev nD) :
    (bigSep Finset.univ fun c : Fin 2 =>
        iprop(∃ f : Buf (Elt F) (outLoc d), ⌜∀ j ∈ coreRows c, Gd j (f j)⌝ ∗ (outLoc d ↦[coreRows c]{fullShare} f)))
      ⊢ (iprop(∃ f : Buf (Elt F) (outLoc d), ⌜∀ j, Gd j (f j)⌝ ∗ (outLoc d ↦{fullShare} f)) : sProp 𝕄) := by
  rw [bigSep_univ_two]; exact out_cores_join Gd d

/-- The three arrays of the call, whole, to the two SparseCores' shares and row sets, and back: the remainder of each
    read share waits inside, and the result comes back whole at contents all of whose entries satisfy `Gd`. -/
theorem cores_split (Gd : S4096x128.Idx → Elt F .f32 → Prop) (d : Dev nD) (I : Buf (Elt F) (idsLoc d)) (Tb : Buf (Elt F) (tblLoc d))
    (O0 : Buf (Elt F) (outLoc d)) :
    (iprop((idsLoc d ↦{fullShare} I) ∗ (tblLoc d ↦{fullShare} Tb) ∗ (outLoc d ↦{fullShare} O0)) : sProp 𝕄)
      ⊢ iprop((bigSep Finset.univ fun c : Fin 2 => stRes d I Tb O0 c)
          ∗ ((bigSep Finset.univ fun c : Fin 2 => dnRes Gd d I Tb c)
            -∗ iprop((idsLoc d ↦{fullShare} I) ∗ (tblLoc d ↦{fullShare} Tb)
                ∗ ∃ f : Buf (Elt F) (outLoc d), ⌜∀ j, Gd j (f j)⌝ ∗ (outLoc d ↦{fullShare} f)))) := by
  unfold stRes dnRes qC
  rw [bigSep_sep', bigSep_sep', bigSep_sep', bigSep_sep']
  iintro ⟨Hi, Ht, Ho⟩
  ihave Hi' := (Transfers.pointsTo_toks_split fullShare 2) $$ Hi
  icases Hi' with ⟨Hir, Hit⟩
  ihave Ht' := (Transfers.pointsTo_toks_split fullShare 2) $$ Ht
  icases Ht' with ⟨Htr, Htt⟩
  ihave Ho' := (Entails.of_eq (out_cores' (F := F) d O0)) $$ Ho
  isplitl [Hit Htt Ho']
  · isplitl [Hit]; · iexact Hit
    isplitl [Htt]; · iexact Htt
    iexact Ho'
  iintro ⟨Hit, Htt, Ho⟩
  isplitl [Hir Hit]
  · iapply (Transfers.pointsTo_toks_join fullShare 2)
    isplitl [Hir]; · iexact Hir
    iexact Hit
  isplitl [Htr Htt]
  · iapply (Transfers.pointsTo_toks_join fullShare 2)
    isplitl [Htr]; · iexact Htr
    iexact Htt
  iapply (out_cores_join' Gd d); iexact Ho

/-- The call's SparseCores are the two. -/
theorem st0_eq (Gd : S4096x128.Idx → Elt F .f32 → Prop) (d : Dev nD) :
    (bigSep Finset.univ fun c : Fin ((K (F := F)).nCore 0) => (P Gd m).st 0 d c)
      = bigSep Finset.univ fun c : Fin 2 => stRes d (idsC m d) (m (tblLoc d)) (m (outLoc d)) c :=
  bigSep_congr fun _ _ => rfl
theorem dn0_eq (Gd : S4096x128.Idx → Elt F .f32 → Prop) (d : Dev nD) :
    (bigSep Finset.univ fun c : Fin ((K (F := F)).nCore 0) => (P Gd m).dn 0 d c)
      = bigSep Finset.univ fun c : Fin 2 => dnRes Gd d (idsC m d) (m (tblLoc d)) c :=
  bigSep_congr fun _ _ => rfl

/-! ## The thirteen arrays held, and parts of them taken out -/

abbrev R6 : Finset (DevRef τ sig) := {v1', v2', v3', v4', v5', v6'}
abbrev A6 : Finset (DevRef τ sig) := {a0', a1', a2', a3', a4', a5'}

omit [FloatOps F] [Named F] in
theorem held_T3 (d : Dev nD) (W : Valuation τ sig (Elt F)) :
    (held (SparseCore.T d) T3 W : sProp 𝕄)
      = iprop((idsLoc d ↦{fullShare} W v0') ∗ (tblLoc d ↦{fullShare} W a1') ∗ (outLoc d ↦{fullShare} W v1')) := by
  unfold held T3
  rw [SparseCore.bigSep_insert' (by decide), SparseCore.bigSep_insert' (by decide), bigSep_singleton]

omit [FloatOps F] [Named F] in
theorem held_R6 (d : Dev nD) (W : Valuation τ sig (Elt F)) :
    (held (SparseCore.T d) R6 W : sProp 𝕄)
      = iprop(((SparseCore.T d : Thread nD τ).loc main_v1 ↦{fullShare} W v1') ∗ ((SparseCore.T d : Thread nD τ).loc main_v2 ↦{fullShare} W v2') ∗ ((SparseCore.T d : Thread nD τ).loc main_v3 ↦{fullShare} W v3')
          ∗ ((SparseCore.T d : Thread nD τ).loc main_v4 ↦{fullShare} W v4') ∗ ((SparseCore.T d : Thread nD τ).loc main_v5 ↦{fullShare} W v5') ∗ ((SparseCore.T d : Thread nD τ).loc main_v6 ↦{fullShare} W v6')) := by
  unfold held R6
  rw [SparseCore.bigSep_insert' (by decide), SparseCore.bigSep_insert' (by decide), SparseCore.bigSep_insert' (by decide), SparseCore.bigSep_insert' (by decide), SparseCore.bigSep_insert' (by decide), bigSep_singleton]

omit [FloatOps F] [Named F] in
theorem held_A6 (d : Dev nD) (W : Valuation τ sig (Elt F)) :
    (held (SparseCore.T d) A6 W : sProp 𝕄)
      = iprop(((SparseCore.T d : Thread nD τ).loc main_arg0 ↦{fullShare} W a0') ∗ ((SparseCore.T d : Thread nD τ).loc main_arg1 ↦{fullShare} W a1') ∗ ((SparseCore.T d : Thread nD τ).loc main_arg2 ↦{fullShare} W a2')
          ∗ ((SparseCore.T d : Thread nD τ).loc main_arg3 ↦{fullShare} W a3') ∗ ((SparseCore.T d : Thread nD τ).loc main_arg4 ↦{fullShare} W a4') ∗ ((SparseCore.T d : Thread nD τ).loc main_arg5 ↦{fullShare} W a5')) := by
  unfold held A6
  rw [SparseCore.bigSep_insert' (by decide), SparseCore.bigSep_insert' (by decide), SparseCore.bigSep_insert' (by decide), SparseCore.bigSep_insert' (by decide), SparseCore.bigSep_insert' (by decide), bigSep_singleton]

omit [FloatOps F] [Named F] in
/-- What the launch hands the TensorCore of its arrays is the thirteen held at the launch valuation. -/
theorem unscoped_held (d : Dev nD) :
    (unscopedBufs d (fun b => m ((SparseCore.T d : Thread nD τ).loc b)) : sProp 𝕄) = held (SparseCore.T d) S13 (V0 m d) := by
  unfold unscopedBufs held S13
  rw [show (Finset.univ.filter fun b : Ref sig .tc => ¬ b.isScoped) = {main_arg0, main_arg1, main_arg2, main_arg3, main_arg4, main_arg5, main_v0, main_v1, main_v2, main_v3, main_v4, main_v5, main_v6} by decide]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [Named F] in
/-- Before the call: the call's three arrays out of the thirteen. -/
theorem held_before_call (d : Dev nD) :
    (held (SparseCore.T d) S13 (V1 m d) : sProp 𝕄)
      = iprop(((idsLoc d ↦{fullShare} idsC m d) ∗ (tblLoc d ↦{fullShare} m (tblLoc d)) ∗ (outLoc d ↦{fullShare} m (outLoc d)))
          ∗ held (SparseCore.T d) (S13 \ T3) (V1 m d)) := by
  rw [held_sub_split (SparseCore.T d) (show T3 ⊆ S13 by decide) (V1 m d), held_T3, V1_v0,
    V1_ne m d (r := main_arg1) (by decide), V1_ne m d (r := main_v1) (by decide)]

omit [Named F] in
theorem held_rest_V2 (d : Dev nD) (f : Buf (Elt F) (outLoc d)) :
    (held (SparseCore.T d) (S13 \ T3) (V2 m d f) : sProp 𝕄) = held (SparseCore.T d) (S13 \ T3) (V1 m d) :=
  held_congr (SparseCore.T d) fun b hb => by
    unfold V2
    refine Function.update_of_ne (fun e => (Finset.mem_sdiff.mp hb).2 ?_) _ _
    rw [e]; decide

omit [Named F] in
/-- After the call: the three back among the thirteen, the result at what the lookup left. -/
theorem held_after_call (d : Dev nD) (f : Buf (Elt F) (outLoc d)) :
    (held (SparseCore.T d) S13 (V2 m d f) : sProp 𝕄)
      = iprop(((idsLoc d ↦{fullShare} idsC m d) ∗ (tblLoc d ↦{fullShare} m (tblLoc d)) ∗ (outLoc d ↦{fullShare} f))
          ∗ held (SparseCore.T d) (S13 \ T3) (V1 m d)) := by
  rw [held_sub_split (SparseCore.T d) (show T3 ⊆ S13 by decide) (V2 m d f), held_T3, V2_v0, V2_v1,
    V2_ne m d f (r := main_arg1) (by decide) (by decide), held_rest_V2]

/-! ## What the arrays hold after the four host operations -/

omit [Named F] in
theorem V6_eq (d : Dev nD) (f : Buf (Elt F) (outLoc d)) :
    V6 m d f = StableHlo.after [op2 (F := F), op3, op4, op5] (V2 m d f) := rfl

omit [Named F] in
theorem V6_v1 (d : Dev nD) (f : Buf (Elt F) (outLoc d)) : V6 m d f v1' = f := by
  rw [V6_eq]; after_results; exact V2_v1 m d f
omit [Named F] in
theorem V6_v2 (d : Dev nD) (f : Buf (Elt F) (outLoc d)) : V6 m d f v2' = w2 m d := by
  rw [V6_eq]; after_results; rw [V2_ne m d f (r := main_arg2) (by decide) (by decide)]
omit [Named F] in
theorem V6_v3 (d : Dev nD) (f : Buf (Elt F) (outLoc d)) : V6 m d f v3' = w3 m d := by
  rw [V6_eq]; after_results; rw [V2_ne m d f (r := main_arg3) (by decide) (by decide)]; rfl
omit [Named F] in
theorem V6_v4 (d : Dev nD) (f : Buf (Elt F) (outLoc d)) : V6 m d f v4' = w4 m d := by
  rw [V6_eq]; after_results; rw [V2_ne m d f (r := main_arg4) (by decide) (by decide)]
omit [Named F] in
theorem V6_v5 (d : Dev nD) (f : Buf (Elt F) (outLoc d)) : V6 m d f v5' = w5 m d := by
  rw [V6_eq]; after_results; rw [V2_ne m d f (r := main_arg5) (by decide) (by decide)]; rfl
omit [Named F] in
theorem V6_v6 (d : Dev nD) (f : Buf (Elt F) (outLoc d)) : V6 m d f v6' = m ((SparseCore.T d : Thread nD τ).loc main_v6) := by
  rw [V6_eq]; after_results; exact V2_ne m d f (r := main_v6) (by decide) (by decide)
omit [Named F] in
theorem V6_a0 (d : Dev nD) (f : Buf (Elt F) (outLoc d)) : V6 m d f a0' = m ((SparseCore.T d : Thread nD τ).loc main_arg0) := by
  rw [V6_eq]; after_results; exact V2_ne m d f (r := main_arg0) (by decide) (by decide)
omit [Named F] in
theorem V6_a1 (d : Dev nD) (f : Buf (Elt F) (outLoc d)) : V6 m d f a1' = m ((SparseCore.T d : Thread nD τ).loc main_arg1) := by
  rw [V6_eq]; after_results; exact V2_ne m d f (r := main_arg1) (by decide) (by decide)
omit [Named F] in
theorem V6_a2 (d : Dev nD) (f : Buf (Elt F) (outLoc d)) : V6 m d f a2' = m ((SparseCore.T d : Thread nD τ).loc main_arg2) := by
  rw [V6_eq]; after_results; exact V2_ne m d f (r := main_arg2) (by decide) (by decide)
omit [Named F] in
theorem V6_a3 (d : Dev nD) (f : Buf (Elt F) (outLoc d)) : V6 m d f a3' = m ((SparseCore.T d : Thread nD τ).loc main_arg3) := by
  rw [V6_eq]; after_results; exact V2_ne m d f (r := main_arg3) (by decide) (by decide)
omit [Named F] in
theorem V6_a4 (d : Dev nD) (f : Buf (Elt F) (outLoc d)) : V6 m d f a4' = m ((SparseCore.T d : Thread nD τ).loc main_arg4) := by
  rw [V6_eq]; after_results; exact V2_ne m d f (r := main_arg4) (by decide) (by decide)
omit [Named F] in
theorem V6_a5 (d : Dev nD) (f : Buf (Elt F) (outLoc d)) : V6 m d f a5' = m ((SparseCore.T d : Thread nD τ).loc main_arg5) := by
  rw [V6_eq]; after_results; exact V2_ne m d f (r := main_arg5) (by decide) (by decide)

omit [Named F] in
/-- After the host operations: the dense region's six arrays and the six arguments out of the thirteen. -/
theorem held_final (d : Dev nD) (f : Buf (Elt F) (outLoc d)) :
    (held (SparseCore.T d) S13 (V6 m d f) : sProp 𝕄)
      = iprop((((SparseCore.T d : Thread nD τ).loc main_v1 ↦{fullShare} f) ∗ ((SparseCore.T d : Thread nD τ).loc main_v2 ↦{fullShare} w2 m d) ∗ ((SparseCore.T d : Thread nD τ).loc main_v3 ↦{fullShare} w3 m d) ∗ ((SparseCore.T d : Thread nD τ).loc main_v4 ↦{fullShare} w4 m d) ∗ ((SparseCore.T d : Thread nD τ).loc main_v5 ↦{fullShare} w5 m d) ∗ ((SparseCore.T d : Thread nD τ).loc main_v6 ↦{fullShare} m ((SparseCore.T d : Thread nD τ).loc main_v6)))
          ∗ (((SparseCore.T d : Thread nD τ).loc main_arg0 ↦{fullShare} m ((SparseCore.T d : Thread nD τ).loc main_arg0)) ∗ ((SparseCore.T d : Thread nD τ).loc main_arg1 ↦{fullShare} m ((SparseCore.T d : Thread nD τ).loc main_arg1)) ∗ ((SparseCore.T d : Thread nD τ).loc main_arg2 ↦{fullShare} m ((SparseCore.T d : Thread nD τ).loc main_arg2)) ∗ ((SparseCore.T d : Thread nD τ).loc main_arg3 ↦{fullShare} m ((SparseCore.T d : Thread nD τ).loc main_arg3)) ∗ ((SparseCore.T d : Thread nD τ).loc main_arg4 ↦{fullShare} m ((SparseCore.T d : Thread nD τ).loc main_arg4)) ∗ ((SparseCore.T d : Thread nD τ).loc main_arg5 ↦{fullShare} m ((SparseCore.T d : Thread nD τ).loc main_arg5)))
          ∗ held (SparseCore.T d) ((S13 \ R6) \ A6) (V6 m d f)) := by
  rw [held_sub_split (SparseCore.T d) (show R6 ⊆ S13 by decide) (V6 m d f),
    held_sub_split (SparseCore.T d) (show A6 ⊆ S13 \ R6 by decide) (V6 m d f), held_R6, held_A6,
    V6_v1, V6_v2, V6_v3, V6_v4, V6_v5, V6_v6, V6_a0, V6_a1, V6_a2, V6_a3, V6_a4, V6_a5]

end Vals

/-! ## @main -/

/-- What @main leaves the claim: the six arguments at their launch contents, and the result at the dense region's value
    of the lookup's result — some contents all of whose entries satisfy `Gd` — and the converted weights and biases. -/
def FIN (Gd : S4096x128.Idx → Elt F .f32 → Prop) (m : (ℓ : Loc nD τ sig) → Buf (Elt F) ℓ)
    (mlp : ∀ d : Dev nD, Buf (Elt F) ((SparseCore.T d : Thread nD τ).loc main_v1) → Buf (Elt F) ((SparseCore.T d : Thread nD τ).loc main_v2) → Buf (Elt F) ((SparseCore.T d : Thread nD τ).loc main_v3) → Buf (Elt F) ((SparseCore.T d : Thread nD τ).loc main_v4) → Buf (Elt F) ((SparseCore.T d : Thread nD τ).loc main_v5) → Buf (Elt F) ((SparseCore.T d : Thread nD τ).loc main_v6))
    (d : Dev nD) : sProp 𝕄 :=
  iprop(((SparseCore.T d : Thread nD τ).loc main_arg0 ↦{fullShare} m ((SparseCore.T d : Thread nD τ).loc main_arg0))
    ∗ ((SparseCore.T d : Thread nD τ).loc main_arg1 ↦{fullShare} m ((SparseCore.T d : Thread nD τ).loc main_arg1))
    ∗ ((SparseCore.T d : Thread nD τ).loc main_arg2 ↦{fullShare} m ((SparseCore.T d : Thread nD τ).loc main_arg2))
    ∗ ((SparseCore.T d : Thread nD τ).loc main_arg3 ↦{fullShare} m ((SparseCore.T d : Thread nD τ).loc main_arg3))
    ∗ ((SparseCore.T d : Thread nD τ).loc main_arg4 ↦{fullShare} m ((SparseCore.T d : Thread nD τ).loc main_arg4))
    ∗ ((SparseCore.T d : Thread nD τ).loc main_arg5 ↦{fullShare} m ((SparseCore.T d : Thread nD τ).loc main_arg5))
    ∗ ∃ f : Buf (Elt F) (outLoc d), ⌜∀ j, Gd j (f j)⌝
        ∗ ((SparseCore.T d : Thread nD τ).loc main_v6 ↦{fullShare} mlp d f (w2 m d) (w3 m d) (w4 m d) (w5 m d)))

omit [FloatOps F] [Named F] in
/-- The TensorCore's state after the one call: it owes nothing more. -/
theorem tcSt_one (d : Dev nD) : ∃ R : sProp 𝕄, (K (F := F)).tcSt EH d ((0 : Fin 1).val + 1)
    = iprop((∃ W, ⌜(K (F := F)).WBelow (SparseCore.T d) W (8 * ((0 : Fin 1).val + 1))⌝ ∗ owes (SparseCore.T d) 0 W) ∗ R) :=
  ⟨_, by unfold SparseCore.Cfg.tcSt; rw [(K (F := F)).Otc_end d (n := (0 : Fin 1).val + 1) le_rfl]⟩

/-- The dense region's step, as @main needs it: from the six arrays the region names, whole, the TensorCore owing nothing,
    the staging cells and tokens of the launch — to the result array at `mlp` of the other five, the five unchanged, the
    waits it records all at the index of no call. -/
abbrev RegionHyp (mlp : ∀ d : Dev nD, Buf (Elt F) ((SparseCore.T d : Thread nD τ).loc main_v1) → Buf (Elt F) ((SparseCore.T d : Thread nD τ).loc main_v2) → Buf (Elt F) ((SparseCore.T d : Thread nD τ).loc main_v3) → Buf (Elt F) ((SparseCore.T d : Thread nD τ).loc main_v4) → Buf (Elt F) ((SparseCore.T d : Thread nD τ).loc main_v5) → Buf (Elt F) ((SparseCore.T d : Thread nD τ).loc main_v6)) : Prop :=
  ∀ (d : Dev nD) (x1 : Buf (Elt F) ((SparseCore.T d : Thread nD τ).loc main_v1)) (x2 : Buf (Elt F) ((SparseCore.T d : Thread nD τ).loc main_v2)) (x3 : Buf (Elt F) ((SparseCore.T d : Thread nD τ).loc main_v3)) (x4 : Buf (Elt F) ((SparseCore.T d : Thread nD τ).loc main_v4)) (x5 : Buf (Elt F) ((SparseCore.T d : Thread nD τ).loc main_v5)) (x6 : Buf (Elt F) ((SparseCore.T d : Thread nD τ).loc main_v6))
    (W0 : Waits sig (HIx 1)) (Q : PUnit → sProp 𝕄),
    (iprop(((boundary (SparseCore.T d) ∗ ((SparseCore.T d : Thread nD τ).loc main_v1 ↦{fullShare} x1) ∗ ((SparseCore.T d : Thread nD τ).loc main_v2 ↦{fullShare} x2) ∗ ((SparseCore.T d : Thread nD τ).loc main_v3 ↦{fullShare} x3) ∗ ((SparseCore.T d : Thread nD τ).loc main_v4 ↦{fullShare} x4) ∗ ((SparseCore.T d : Thread nD τ).loc main_v5 ↦{fullShare} x5) ∗ ((SparseCore.T d : Thread nD τ).loc main_v6 ↦{fullShare} mlp d x1 x2 x3 x4 x5)
              ∗ ∃ W, ⌜∀ p ∈ W, p ∈ W0 ∨ p.2 = none⌝ ∗ owes (SparseCore.T d) 0 W) -∗ Q ⟨⟩)
          ∗ boundary (SparseCore.T d) ∗ ((SparseCore.T d : Thread nD τ).loc main_v1 ↦{fullShare} x1) ∗ ((SparseCore.T d : Thread nD τ).loc main_v2 ↦{fullShare} x2) ∗ ((SparseCore.T d : Thread nD τ).loc main_v3 ↦{fullShare} x3) ∗ ((SparseCore.T d : Thread nD τ).loc main_v4 ↦{fullShare} x4) ∗ ((SparseCore.T d : Thread nD τ).loc main_v5 ↦{fullShare} x5) ∗ ((SparseCore.T d : Thread nD τ).loc main_v6 ↦{fullShare} x6)
          ∗ owes (SparseCore.T d) 0 W0
          ∗ levAts (K (F := F)).L (K (F := F)).lev ∗ Pipeline.cellsGhost cfgs EP 0 d ∗ Pipeline.toksInit cfgs EP 0 d) : sProp 𝕄)
      ⊢ wp frame (wpE (D (F := F)) 𝒱 (SparseCore.T d) none) Set.univ (.op (.customCall (Pipeline.entry 0) ()) fun _ => .ret ⟨⟩) Q

/-- The same step under the launch's extended body table, as @main's last statement spells it. -/
theorem region_step (mlp : ∀ d : Dev nD, Buf (Elt F) ((SparseCore.T d : Thread nD τ).loc main_v1) → Buf (Elt F) ((SparseCore.T d : Thread nD τ).loc main_v2) → Buf (Elt F) ((SparseCore.T d : Thread nD τ).loc main_v3) → Buf (Elt F) ((SparseCore.T d : Thread nD τ).loc main_v4) → Buf (Elt F) ((SparseCore.T d : Thread nD τ).loc main_v5) → Buf (Elt F) ((SparseCore.T d : Thread nD τ).loc main_v6)) (hregion : RegionHyp (F := F) mlp)
    (d : Dev nD) (x1 : Buf (Elt F) ((SparseCore.T d : Thread nD τ).loc main_v1)) (x2 : Buf (Elt F) ((SparseCore.T d : Thread nD τ).loc main_v2)) (x3 : Buf (Elt F) ((SparseCore.T d : Thread nD τ).loc main_v3)) (x4 : Buf (Elt F) ((SparseCore.T d : Thread nD τ).loc main_v4)) (x5 : Buf (Elt F) ((SparseCore.T d : Thread nD τ).loc main_v5)) (x6 : Buf (Elt F) ((SparseCore.T d : Thread nD τ).loc main_v6))
    (W0 : Waits sig (HIx 1)) (Q : PUnit → sProp 𝕄) :
    (iprop(((boundary (SparseCore.T d) ∗ ((SparseCore.T d : Thread nD τ).loc main_v1 ↦{fullShare} x1) ∗ ((SparseCore.T d : Thread nD τ).loc main_v2 ↦{fullShare} x2) ∗ ((SparseCore.T d : Thread nD τ).loc main_v3 ↦{fullShare} x3) ∗ ((SparseCore.T d : Thread nD τ).loc main_v4 ↦{fullShare} x4) ∗ ((SparseCore.T d : Thread nD τ).loc main_v5 ↦{fullShare} x5) ∗ ((SparseCore.T d : Thread nD τ).loc main_v6 ↦{fullShare} mlp d x1 x2 x3 x4 x5)
              ∗ ∃ W, ⌜∀ p ∈ W, p ∈ W0 ∨ p.2 = none⌝ ∗ owes (SparseCore.T d) 0 W) -∗ Q ⟨⟩)
          ∗ boundary (SparseCore.T d) ∗ ((SparseCore.T d : Thread nD τ).loc main_v1 ↦{fullShare} x1) ∗ ((SparseCore.T d : Thread nD τ).loc main_v2 ↦{fullShare} x2) ∗ ((SparseCore.T d : Thread nD τ).loc main_v3 ↦{fullShare} x3) ∗ ((SparseCore.T d : Thread nD τ).loc main_v4 ↦{fullShare} x4) ∗ ((SparseCore.T d : Thread nD τ).loc main_v5 ↦{fullShare} x5) ∗ ((SparseCore.T d : Thread nD τ).loc main_v6 ↦{fullShare} x6)
          ∗ owes (SparseCore.T d) 0 W0
          ∗ levAts (K (F := F)).L (K (F := F)).lev ∗ Pipeline.cellsGhost cfgs EP 0 d ∗ Pipeline.toksInit cfgs EP 0 d) : sProp 𝕄)
      ⊢ wp frame (wpE ((K (F := F)).defs (D (F := F))) 𝒱 (SparseCore.T d) none) Set.univ
          (Prog.lift (TpuEff.customCall (SparseCore.inner (Pipeline.entry 0)) ())) Q :=
  (hregion d x1 x2 x3 x4 x5 x6 W0 Q).trans ((K (F := F)).wp_liftProg (D (F := F)) 𝒱 (SparseCore.T d) Set.univ none _ Q)

theorem hmain_of (Gd : S4096x128.Idx → Elt F .f32 → Prop) (m : (ℓ : Loc nD τ sig) → Buf (Elt F) ℓ) (ρ : Dev nD → PrngReg)
    (mlp : ∀ d : Dev nD, Buf (Elt F) ((SparseCore.T d : Thread nD τ).loc main_v1) → Buf (Elt F) ((SparseCore.T d : Thread nD τ).loc main_v2) → Buf (Elt F) ((SparseCore.T d : Thread nD τ).loc main_v3) → Buf (Elt F) ((SparseCore.T d : Thread nD τ).loc main_v4) → Buf (Elt F) ((SparseCore.T d : Thread nD τ).loc main_v5) → Buf (Elt F) ((SparseCore.T d : Thread nD τ).loc main_v6))
    (hregion : RegionHyp (F := F) mlp)
    (κ : GSem nD τ sig → ℕ) (d : Dev nD) :
    iprop((K (F := F)).ctx EH (P Gd m) κ ∗ (K (F := F)).tcSt EH d 0 ∗ (K (F := F)).tcRes m ρ d
        ∗ iprop(Pipeline.cellsGhost cfgs EP 0 d ∗ Pipeline.toksInit cfgs EP 0 d))
      ⊢ wp frame (wpE ((K (F := F)).defs (D (F := F))) 𝒱 (SparseCore.T d) none) Set.univ (main d)
          fun _ => iprop((K (F := F)).tcSt EH d 1 ∗ FIN Gd m mlp d) := by
  obtain ⟨R1, hR1⟩ := tcSt_one (F := F) d
  unfold SparseCore.Cfg.tcRes
  rw [unscoped_held]
  simp only [main, wp_bind, wp_pure]
  iintro ⟨#Hctx, Hst, ⟨Hb, Hheld, -, -⟩, ⟨Hcg, Hti⟩⟩
  iapply (wp_hlo_within 𝒱 (SparseCore.T d) none Set.univ (op := op0) (S := S13) h0 (V := V0 m d)) $$ [Hb Hheld]
  · isplitl [Hb]; · iexact Hb
    iexact Hheld
  iintro ⟨Hb, Hheld⟩
  rw [wp_ret]; imodintro
  -- the call: the reshaped index array, the table and the result array lent to the two SparseCores and taken back
  ihave Hh := (Entails.of_eq (held_before_call (F := F) m d)) $$ Hheld
  icases Hh with ⟨⟨Hi, Ht, Ho⟩, Hrest⟩
  ihave Hsp := (cores_split Gd d (idsC m d) (m (tblLoc d)) (m (outLoc d))) $$ [Hi Ht Ho]
  · isplitl [Hi]; · iexact Hi
    isplitl [Ht]; · iexact Ht
    iexact Ho
  icases Hsp with ⟨Hst2, Hback⟩
  iapply ((K (F := F)).wp_run (D (F := F)) 𝒱 (EH := EH) (P := P Gd m) κ d 0) $$ [Hst Hst2 Hback Hb Hrest Hcg Hti]
  isplitr; · iexact Hctx
  isplitl [Hst]; · iexact Hst
  isplitl [Hst2]
  · rw [st0_eq]; iexact Hst2
  iintro ⟨Hst, Hdn⟩
  ihave Hdn' := (Entails.of_eq (dn0_eq (F := F) m Gd d)) $$ Hdn
  ispecialize Hback $$ Hdn'
  icases Hback with ⟨Hi, Ht, %f, %hG, Ho⟩
  ihave Hheld := (Entails.of_eq (held_after_call (F := F) m d f).symm) $$ [Hi Ht Ho Hrest]
  · isplitl [Hi Ht Ho]
    · isplitl [Hi]; · iexact Hi
      isplitl [Ht]; · iexact Ht
      iexact Ho
    iexact Hrest
  -- the four host operations: the weights converted, the biases reshaped
  iapply (wp_hlo_within 𝒱 (SparseCore.T d) none Set.univ (op := op2) (S := S13) h2 (V := V2 m d f)) $$ [Hb Hheld]
  · isplitl [Hb]; · iexact Hb
    iexact Hheld
  iintro ⟨Hb, Hheld⟩
  rw [wp_ret]; imodintro
  iapply (wp_hlo_within 𝒱 (SparseCore.T d) none Set.univ (op := op3) (S := S13) h3 (V := (op2 (F := F)).result (V2 m d f))) $$ [Hb Hheld]
  · isplitl [Hb]; · iexact Hb
    iexact Hheld
  iintro ⟨Hb, Hheld⟩
  rw [wp_ret]; imodintro
  iapply (wp_hlo_within 𝒱 (SparseCore.T d) none Set.univ (op := op4) (S := S13) h4 (V := (op3 (F := F)).result ((op2 (F := F)).result (V2 m d f)))) $$ [Hb Hheld]
  · isplitl [Hb]; · iexact Hb
    iexact Hheld
  iintro ⟨Hb, Hheld⟩
  rw [wp_ret]; imodintro
  iapply (wp_hlo_within 𝒱 (SparseCore.T d) none Set.univ (op := op5) (S := S13) h5 (V := (op4 (F := F)).result ((op3 (F := F)).result ((op2 (F := F)).result (V2 m d f))))) $$ [Hb Hheld]
  · isplitl [Hb]; · iexact Hb
    iexact Hheld
  iintro ⟨Hb, Hheld⟩
  rw [wp_ret]; imodintro
  -- the dense region, on the six arrays it names; the TensorCore owes nothing more
  ihave Hh := (Entails.of_eq (held_final (F := F) m d f)) $$ Hheld
  icases Hh with ⟨⟨H1, H2, H3, H4, H5, H6⟩, ⟨Ha0, Ha1, Ha2, Ha3, Ha4, Ha5⟩, -⟩
  ihave Hst' := (Entails.of_eq hR1) $$ Hst
  icases Hst' with ⟨⟨%W0, %hW0, HO⟩, HR⟩
  ihave Hlev := ((K (F := F)).ctx_levAts κ) $$ Hctx
  have hR1' : (K (F := F)).tcSt EH d 1
      = iprop((∃ W, ⌜(K (F := F)).WBelow (SparseCore.T d) W (8 * 1)⌝ ∗ owes (SparseCore.T d) 0 W) ∗ R1) := hR1
  iapply (region_step mlp hregion d f (w2 m d) (w3 m d) (w4 m d) (w5 m d) (m ((SparseCore.T d : Thread nD τ).loc main_v6)) W0 _) $$ [Hcg Hti Hb H1 H2 H3 H4 H5 H6 Ha0 Ha1 Ha2 Ha3 Ha4 Ha5 HO HR]
  isplitl [Ha0 Ha1 Ha2 Ha3 Ha4 Ha5 HR]
  · iintro ⟨Hb, H1, H2, H3, H4, H5, H6, %W, %hW, HO⟩
    imodintro
    isplitl [HO HR]
    · iapply (Entails.of_eq hR1'.symm)
      isplitl [HO]
      · iexists W; isplitr
        · ipureintro
          intro p hp
          rcases hW p hp with h | h
          · exact hW0 p h
          · show (K (F := F)).lev _ p.2 ≤ _
            rw [h]; exact Nat.zero_le _
        · iexact HO
      · iexact HR
    · unfold FIN
      isplitl [Ha0]; · iexact Ha0
      isplitl [Ha1]; · iexact Ha1
      isplitl [Ha2]; · iexact Ha2
      isplitl [Ha3]; · iexact Ha3
      isplitl [Ha4]; · iexact Ha4
      isplitl [Ha5]; · iexact Ha5
      iexists f; isplitr
      · ipureintro; exact hG
      · iexact H6
  isplitl [Hb]; · iexact Hb
  isplitl [H1]; · iexact H1
  isplitl [H2]; · iexact H2
  isplitl [H3]; · iexact H3
  isplitl [H4]; · iexact H4
  isplitl [H5]; · iexact H5
  isplitl [H6]; · iexact H6
  isplitl [HO]; · iexact HO
  isplitr; · iexact Hlev
  isplitl [Hcg]; · iexact Hcg
  iexact Hti

/-- What the claim reads off the final state: the six arguments unchanged, the result the dense region's value. -/
def fq (Gd : S4096x128.Idx → Elt F .f32 → Prop) (m : (ℓ : Loc nD τ sig) → Buf (Elt F) ℓ)
    (mlp : ∀ d : Dev nD, Buf (Elt F) ((SparseCore.T d : Thread nD τ).loc main_v1) → Buf (Elt F) ((SparseCore.T d : Thread nD τ).loc main_v2) → Buf (Elt F) ((SparseCore.T d : Thread nD τ).loc main_v3) → Buf (Elt F) ((SparseCore.T d : Thread nD τ).loc main_v4) → Buf (Elt F) ((SparseCore.T d : Thread nD τ).loc main_v5) → Buf (Elt F) ((SparseCore.T d : Thread nD τ).loc main_v6))
    (d : Dev nD) (s' : Phys nD τ sig (Elt F)) : Prop :=
  s'.mem.mem ((SparseCore.T d : Thread nD τ).loc main_arg0) = m ((SparseCore.T d : Thread nD τ).loc main_arg0)
  ∧ s'.mem.mem ((SparseCore.T d : Thread nD τ).loc main_arg1) = m ((SparseCore.T d : Thread nD τ).loc main_arg1)
  ∧ s'.mem.mem ((SparseCore.T d : Thread nD τ).loc main_arg2) = m ((SparseCore.T d : Thread nD τ).loc main_arg2)
  ∧ s'.mem.mem ((SparseCore.T d : Thread nD τ).loc main_arg3) = m ((SparseCore.T d : Thread nD τ).loc main_arg3)
  ∧ s'.mem.mem ((SparseCore.T d : Thread nD τ).loc main_arg4) = m ((SparseCore.T d : Thread nD τ).loc main_arg4)
  ∧ s'.mem.mem ((SparseCore.T d : Thread nD τ).loc main_arg5) = m ((SparseCore.T d : Thread nD τ).loc main_arg5)
  ∧ ∃ f : Buf (Elt F) (outLoc d), (∀ j, Gd j (f j))
      ∧ s'.mem.mem ((SparseCore.T d : Thread nD τ).loc main_v6) = mlp d f (w2 m d) (w3 m d) (w4 m d) (w5 m d)

theorem hfin_of (Gd : S4096x128.Idx → Elt F .f32 → Prop) (m : (ℓ : Loc nD τ sig) → Buf (Elt F) ℓ)
    (mlp : ∀ d : Dev nD, Buf (Elt F) ((SparseCore.T d : Thread nD τ).loc main_v1) → Buf (Elt F) ((SparseCore.T d : Thread nD τ).loc main_v2) → Buf (Elt F) ((SparseCore.T d : Thread nD τ).loc main_v3) → Buf (Elt F) ((SparseCore.T d : Thread nD τ).loc main_v4) → Buf (Elt F) ((SparseCore.T d : Thread nD τ).loc main_v5) → Buf (Elt F) ((SparseCore.T d : Thread nD τ).loc main_v6))
    (d : Dev nD) (s' : Phys nD τ sig (Elt F)) :
    iprop(FIN Gd m mlp d ∗ SI s') ⊢ (⌜fq Gd m mlp d s'⌝ : sProp 𝕄) := by
  unfold FIN
  iintro ⟨⟨Ha0, Ha1, Ha2, Ha3, Ha4, Ha5, %f, %hG, H6⟩, HSI⟩
  ihave H := (persistent_entails_right (SI_pointsTo_agree (st := s') (ℓ := (SparseCore.T d : Thread nD τ).loc main_arg0) (I := Finset.univ) (q := fullShare)
    (f := m ((SparseCore.T d : Thread nD τ).loc main_arg0)))) $$ [HSI Ha0]
  · isplitl [HSI] <;> iassumption
  icases H with ⟨%h0, HSI, -⟩
  ihave H := (persistent_entails_right (SI_pointsTo_agree (st := s') (ℓ := (SparseCore.T d : Thread nD τ).loc main_arg1) (I := Finset.univ) (q := fullShare)
    (f := m ((SparseCore.T d : Thread nD τ).loc main_arg1)))) $$ [HSI Ha1]
  · isplitl [HSI] <;> iassumption
  icases H with ⟨%h1, HSI, -⟩
  ihave H := (persistent_entails_right (SI_pointsTo_agree (st := s') (ℓ := (SparseCore.T d : Thread nD τ).loc main_arg2) (I := Finset.univ) (q := fullShare)
    (f := m ((SparseCore.T d : Thread nD τ).loc main_arg2)))) $$ [HSI Ha2]
  · isplitl [HSI] <;> iassumption
  icases H with ⟨%h2, HSI, -⟩
  ihave H := (persistent_entails_right (SI_pointsTo_agree (st := s') (ℓ := (SparseCore.T d : Thread nD τ).loc main_arg3) (I := Finset.univ) (q := fullShare)
    (f := m ((SparseCore.T d : Thread nD τ).loc main_arg3)))) $$ [HSI Ha3]
  · isplitl [HSI] <;> iassumption
  icases H with ⟨%h3, HSI, -⟩
  ihave H := (persistent_entails_right (SI_pointsTo_agree (st := s') (ℓ := (SparseCore.T d : Thread nD τ).loc main_arg4) (I := Finset.univ) (q := fullShare)
    (f := m ((SparseCore.T d : Thread nD τ).loc main_arg4)))) $$ [HSI Ha4]
  · isplitl [HSI] <;> iassumption
  icases H with ⟨%h4, HSI, -⟩
  ihave H := (persistent_entails_right (SI_pointsTo_agree (st := s') (ℓ := (SparseCore.T d : Thread nD τ).loc main_arg5) (I := Finset.univ) (q := fullShare)
    (f := m ((SparseCore.T d : Thread nD τ).loc main_arg5)))) $$ [HSI Ha5]
  · isplitl [HSI] <;> iassumption
  icases H with ⟨%h5, HSI, -⟩
  ihave H := (SI_pointsTo_agree (st := s') (ℓ := (SparseCore.T d : Thread nD τ).loc main_v6) (I := Finset.univ) (q := fullShare)
    (f := mlp d f (w2 m d) (w3 m d) (w4 m d) (w5 m d))) $$ [HSI H6]
  · isplitl [HSI] <;> iassumption
  icases H with %h6
  ipureintro
  exact ⟨funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i),
    f, hG, funext fun i => h6 i (Finset.mem_univ i)⟩

end Cert.KernelIdeal.Hand

end
-- ==== Proof.KIRegionBody.lean ====
/-
  The dense layers' kernel body as a function of the blocks it reads.

  The body loads its five input blocks whole — a 512 × 128 block of mean rows, the 128 × 512 first-layer weights, the
  1 × 512 first-layer bias row, the 512 × 1000 second-layer weights and the 1 × 1000 second-layer bias row — and stores
  one 512 × 1000 block over the whole output buffer. `outBlk` is what the output buffer then holds, as the canonical
  form of that one store over its payload; the triple says the body, run on whole staging memrefs holding the five
  blocks, leaves the inputs as they were and the output at `outBlk` of them, whatever the output buffer held before.
-/
import proofs.«207455_g33174327394824_cont_8to1_b_592_21_alg».proof.Proof.KICommon
import Idealize.ShloMosaic.Lib.Pipeline.FrameBody
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)

variable {F : FTy → Type} [FloatOps F] [Named F]

local notation "𝕄" => MT nD τ sig (HIx 1) (Elt F) ℕ UU ℕ

/-! ## The body's accesses: each the whole of its buffer -/

abbrev rb0 : Rect S512x128 := Rect.unit (s := S512x128) ![0, 0] S512x128.size inb_S512x128_S512x128_0_0
abbrev rb1 : Rect S128x512 := Rect.unit (s := S128x512) ![0, 0] S128x512.size inb_S128x512_S128x512_0_0
abbrev rb2 : Rect S1x512 := Rect.unit (s := S1x512) ![0, 0] S1x512.size inb_S1x512_S1x512_0_0
abbrev rb3 : Rect S512x1000 := Rect.unit (s := S512x1000) ![0, 0] S512x1000.size inb_S512x1000_S512x1000_0_0
abbrev rb4 : Rect S1x1000 := Rect.unit (s := S1x1000) ![0, 0] S1x1000.size inb_S1x1000_S1x1000_0_0

/-! ## What the body leaves in the output buffer -/

/-- The output buffer after the body, from the five input blocks: its one store as a piece over the whole buffer,
    the stored value the payload at the blocks as loaded. -/
def outBlk (x0 : Vec F S512x128 .f32) (x1 : Vec F S128x512 .bf16) (x2 : Vec F S1x512 .f32)
    (x3 : Vec F S512x1000 .bf16) (x4 : Vec F S1x1000 .f32) : Vec F S512x1000 .f32 :=
  View.canon [⟨rb3, k1_pay1 (View.ld x0 rb0) (View.ld x1 rb1) (View.ld x2 rb2) (View.ld x3 rb3) (View.ld x4 rb4)⟩]

/-- The one store covers the buffer. -/
theorem cover_out (p0 : Vec F S512x1000 .f32) (y : S512x1000.Idx) :
    ∃ pc ∈ ([⟨rb3, p0⟩] : List (View.Piece (Elt F) S512x1000 .f32)), y ∈ pc.1.set :=
  View.cover_of_tiled [⟨rb3, p0⟩] S512x1000.size (by rfl) y

/-! ## The body's triple -/

set_option maxHeartbeats 1000000 in
/-- The body on whole staging memrefs, the inputs' at contents `x0 … x4` and the output's at anything, runs to the
    continuation holding the inputs' as they were and the output's at `outBlk` of them. -/
theorem sound_kernel (c : Dev nD) (E : Set ℕ) (i : grid1.Coords)
    (arg1 : Memref sig .tc .vmem S512x128 .f32) (harg1 : arg1.IsWhole)
    (arg2 : Memref sig .tc .vmem S128x512 .bf16) (harg2 : arg2.IsWhole)
    (arg3 : Memref sig .tc .vmem S1x512 .f32) (harg3 : arg3.IsWhole)
    (arg4 : Memref sig .tc .vmem S512x1000 .bf16) (harg4 : arg4.IsWhole)
    (arg5 : Memref sig .tc .vmem S1x1000 .f32) (harg5 : arg5.IsWhole)
    (arg6 : Memref sig .tc .vmem S512x1000 .f32) (harg6 : arg6.IsWhole)
    (x0 : Vec F S512x128 .f32) (x1 : Vec F S128x512 .bf16) (x2 : Vec F S1x512 .f32)
    (x3 : Vec F S512x1000 .bf16) (x4 : Vec F S1x1000 .f32) (Q : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (outBlk x0 x1 x2 x3 x4)) -∗ Q ⟨⟩))
      ⊢ wp frame (wpE (defs₀ (F := F)) 𝒱₀ c none) E
          (cc1__mlp_body i arg1 harg1 arg2 harg2 arg3 harg3 arg4 harg4 arg5 harg5 arg6 harg6) Q := by
  simp only [cc1__mlp_body_eq_skeleton]; unfold cc1__mlp_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_out _)

end Cert.KernelIdeal.Hand

end
-- ==== Proof.KIRegionData.lean ====
/-
  The dense layers' pipeline: its proof data and body obligation.

  The pipeline has six windows over a grid of eight points: the mean rows (blocks of 512 rows, one per point), the two
  weight matrices and the two bias rows (each whole, the same block at every point), and the output (blocks of 512
  rows, one per point, written back at every point). The arrays' contents when the region is entered are parameters
  `x1 … x6`. After the body at point `t` each input's staging buffer holds its block of the entry contents and the
  output's holds `outBlk` of the five input blocks; nothing is owed and every array is held whole.
-/
import proofs.«207455_g33174327394824_cont_8to1_b_592_21_alg».proof.Proof.KIRegionBody

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F] [Named F]

local notation "𝕄" => MT nD τ sig (HIx 1) (Elt F) ℕ UU ℕ

/- The entry contents are stated at their literal shapes: an array's contents are a function of its indices alone,
   the same type on every core. -/
variable (c : Dev nD)
  (x1 : Vec F S4096x128 .f32) (x2 : Vec F S128x512 .bf16) (x3 : Vec F S1x512 .f32)
  (x4 : Vec F S512x1000 .bf16) (x5 : Vec F S1x1000 .f32) (x6 : Vec F S4096x1000 .f32)
  (W0 : Waits sig (HIx 1))

/-! ## The arrays at entry and the windows' blocks -/

/-- The six windowed arrays' contents when the region is entered, by window. -/
def entryArr : (w : Fin cfg1.W) → Buf (Elt F) ((cfg1.win w).arr.view.loc (c.tc : Thread nD τ))
  | ⟨0, _⟩ => x1
  | ⟨1, _⟩ => x2
  | ⟨2, _⟩ => x3
  | ⟨3, _⟩ => x4
  | ⟨4, _⟩ => x5
  | ⟨5, _⟩ => x6

/-- Window `w`'s block at point `t`, read off its array as the region finds it. -/
def iblk (w : Fin cfg1.W) (t : Fin cfg1.N) : ((cfg1.win w).xblock (cfg1.grid.coords t)).Idx → Elt F (cfg1.win w).elt :=
  ((cfg1.win w).blk t).view.read (Elt F) (entryArr c x1 x2 x3 x4 x5 x6 w)

/-! ## The proof data -/

/-- The proof data on core `c`: the arrays as the region finds them; after the body at point `t` each input's buffer
    at its block and the output's at `outBlk` of the input blocks; the invariant the scoped buffers no window stages,
    untouched; nothing owed; full shares; the pairs the core's waits have recorded, the loop's own apart, are those
    recorded before the region, `W0` (the body waits on nothing). -/
def dats : Dat τ (Elt F) (HIx 1) ℕ UU ℕ cfg1 c where
  A := entryArr c x1 x2 x3 x4 x5 x6
  after w t := match w with
    | ⟨0, _⟩ => iblk c x1 x2 x3 x4 x5 x6 0 t
    | ⟨1, _⟩ => iblk c x1 x2 x3 x4 x5 x6 1 t
    | ⟨2, _⟩ => iblk c x1 x2 x3 x4 x5 x6 2 t
    | ⟨3, _⟩ => iblk c x1 x2 x3 x4 x5 x6 3 t
    | ⟨4, _⟩ => iblk c x1 x2 x3 x4 x5 x6 4 t
    | ⟨5, _⟩ => outBlk (iblk c x1 x2 x3 x4 x5 x6 0 t) (iblk c x1 x2 x3 x4 x5 x6 1 t) (iblk c x1 x2 x3 x4 x5 x6 2 t)
        (iblk c x1 x2 x3 x4 x5 x6 3 t) (iblk c x1 x2 x3 x4 x5 x6 4 t)
  Φ _ := Pipeline.scopedRest (Ix := HIx 1) (Name := ℕ) (U := UU) (Lvl := ℕ) (Val := Elt F) spec1 c
  q _ := fullShare
  owed _ := 0
  recorded _ := (↑W0 : Set (SemLoc sig × HIx 1))

theorem A_eq (w : Fin cfg1.W) : (dats c x1 x2 x3 x4 x5 x6 W0).A w = entryArr c x1 x2 x3 x4 x5 x6 w := by
  dsimp only [dats]

theorem after_0 (t : Fin cfg1.N) : (dats c x1 x2 x3 x4 x5 x6 W0).after 0 t = iblk c x1 x2 x3 x4 x5 x6 0 t := by dsimp only [dats]
theorem after_1 (t : Fin cfg1.N) : (dats c x1 x2 x3 x4 x5 x6 W0).after 1 t = iblk c x1 x2 x3 x4 x5 x6 1 t := by dsimp only [dats]
theorem after_2 (t : Fin cfg1.N) : (dats c x1 x2 x3 x4 x5 x6 W0).after 2 t = iblk c x1 x2 x3 x4 x5 x6 2 t := by dsimp only [dats]
theorem after_3 (t : Fin cfg1.N) : (dats c x1 x2 x3 x4 x5 x6 W0).after 3 t = iblk c x1 x2 x3 x4 x5 x6 3 t := by dsimp only [dats]
theorem after_4 (t : Fin cfg1.N) : (dats c x1 x2 x3 x4 x5 x6 W0).after 4 t = iblk c x1 x2 x3 x4 x5 x6 4 t := by dsimp only [dats]
theorem after_5 (t : Fin cfg1.N) : (dats c x1 x2 x3 x4 x5 x6 W0).after 5 t
    = outBlk (iblk c x1 x2 x3 x4 x5 x6 0 t) (iblk c x1 x2 x3 x4 x5 x6 1 t) (iblk c x1 x2 x3 x4 x5 x6 2 t)
        (iblk c x1 x2 x3 x4 x5 x6 3 t) (iblk c x1 x2 x3 x4 x5 x6 4 t) := by dsimp only [dats]

/-! ## What each input's staging buffer holds when the body runs

An input window's current buffer holds its block at every point, fetched there or not: where the pipeline does not
fetch, the block index has not moved and the body left the block in place. -/

theorem before_0 (t : Fin cfg1.N) (d) : (dats c x1 x2 x3 x4 x5 x6 W0).before 0 t d = iblk c x1 x2 x3 x4 x5 x6 0 t :=
  ((dats c x1 x2 x3 x4 x5 x6 W0).before_in_eq_fetched 0 rfl (fun _ => rfl) (fun _ _ _ => rfl)
      (fun t => by rw [after_0]; unfold Dat.blockOf iblk; rw [A_eq]; try rfl) t d).trans
    (by unfold Dat.fetched Dat.blockOf iblk; rw [A_eq]; try rfl)
theorem before_1 (t : Fin cfg1.N) (d) : (dats c x1 x2 x3 x4 x5 x6 W0).before 1 t d = iblk c x1 x2 x3 x4 x5 x6 1 t :=
  ((dats c x1 x2 x3 x4 x5 x6 W0).before_in_eq_fetched 1 rfl (fun _ => rfl) (fun _ _ _ => rfl)
      (fun t => by rw [after_1]; unfold Dat.blockOf iblk; rw [A_eq]; try rfl) t d).trans
    (by unfold Dat.fetched Dat.blockOf iblk; rw [A_eq]; try rfl)
theorem before_2 (t : Fin cfg1.N) (d) : (dats c x1 x2 x3 x4 x5 x6 W0).before 2 t d = iblk c x1 x2 x3 x4 x5 x6 2 t :=
  ((dats c x1 x2 x3 x4 x5 x6 W0).before_in_eq_fetched 2 rfl (fun _ => rfl) (fun _ _ _ => rfl)
      (fun t => by rw [after_2]; unfold Dat.blockOf iblk; rw [A_eq]; try rfl) t d).trans
    (by unfold Dat.fetched Dat.blockOf iblk; rw [A_eq]; try rfl)
theorem before_3 (t : Fin cfg1.N) (d) : (dats c x1 x2 x3 x4 x5 x6 W0).before 3 t d = iblk c x1 x2 x3 x4 x5 x6 3 t :=
  ((dats c x1 x2 x3 x4 x5 x6 W0).before_in_eq_fetched 3 rfl (fun _ => rfl) (fun _ _ _ => rfl)
      (fun t => by rw [after_3]; unfold Dat.blockOf iblk; rw [A_eq]; try rfl) t d).trans
    (by unfold Dat.fetched Dat.blockOf iblk; rw [A_eq]; try rfl)
theorem before_4 (t : Fin cfg1.N) (d) : (dats c x1 x2 x3 x4 x5 x6 W0).before 4 t d = iblk c x1 x2 x3 x4 x5 x6 4 t :=
  ((dats c x1 x2 x3 x4 x5 x6 W0).before_in_eq_fetched 4 rfl (fun _ => rfl) (fun _ _ _ => rfl)
      (fun t => by rw [after_4]; unfold Dat.blockOf iblk; rw [A_eq]; try rfl) t d).trans
    (by unfold Dat.fetched Dat.blockOf iblk; rw [A_eq]; try rfl)

/-! ## The body obligation -/

/-- What the body is called with at point `t`, the windows one by one, -/
def bodyPre (t : Fin cfg1.N) : sProp 𝕄 :=
  iprop((dats c x1 x2 x3 x4 x5 x6 W0).Φ t.castSucc ∗ (dats c x1 x2 x3 x4 x5 x6 W0).owesAt (none : HIx 1) t.castSucc
    ∗ (∃ d, owns (c : Thread nD τ) (st1_0 t) fullShare ((dats c x1 x2 x3 x4 x5 x6 W0).before 0 t d))
    ∗ (∃ d, owns (c : Thread nD τ) (st1_1 t) fullShare ((dats c x1 x2 x3 x4 x5 x6 W0).before 1 t d))
    ∗ (∃ d, owns (c : Thread nD τ) (st1_2 t) fullShare ((dats c x1 x2 x3 x4 x5 x6 W0).before 2 t d))
    ∗ (∃ d, owns (c : Thread nD τ) (st1_3 t) fullShare ((dats c x1 x2 x3 x4 x5 x6 W0).before 3 t d))
    ∗ (∃ d, owns (c : Thread nD τ) (st1_4 t) fullShare ((dats c x1 x2 x3 x4 x5 x6 W0).before 4 t d))
    ∗ (∃ d, owns (c : Thread nD τ) (st1_5 t) fullShare ((dats c x1 x2 x3 x4 x5 x6 W0).before 5 t d)))

/-- and what it returns. -/
def bodyPost (t : Fin cfg1.N) : sProp 𝕄 :=
  iprop((dats c x1 x2 x3 x4 x5 x6 W0).Φ t.succ ∗ (dats c x1 x2 x3 x4 x5 x6 W0).owesAt (none : HIx 1) t.succ
    ∗ owns (c : Thread nD τ) (st1_0 t) fullShare ((dats c x1 x2 x3 x4 x5 x6 W0).after 0 t)
    ∗ owns (c : Thread nD τ) (st1_1 t) fullShare ((dats c x1 x2 x3 x4 x5 x6 W0).after 1 t)
    ∗ owns (c : Thread nD τ) (st1_2 t) fullShare ((dats c x1 x2 x3 x4 x5 x6 W0).after 2 t)
    ∗ owns (c : Thread nD τ) (st1_3 t) fullShare ((dats c x1 x2 x3 x4 x5 x6 W0).after 3 t)
    ∗ owns (c : Thread nD τ) (st1_4 t) fullShare ((dats c x1 x2 x3 x4 x5 x6 W0).after 4 t)
    ∗ owns (c : Thread nD τ) (st1_5 t) fullShare ((dats c x1 x2 x3 x4 x5 x6 W0).after 5 t))

/-- The body at any point: the inputs' memrefs hold their blocks, so the body's triple applies; the invariant and the
    core's `owes` pass through unread. -/
theorem sound_body (t : Fin cfg1.N) :
    bodyPre c x1 x2 x3 x4 x5 x6 W0 t ⊢ wp frame (wpE (defs₀ (F := F)) 𝒱₀ c none) Set.univ (bodyAt1 t)
      (fun _ => bodyPost c x1 x2 x3 x4 x5 x6 W0 t) := by
  unfold bodyPre bodyPost bodyAt1
  simp only [before_0, before_1, before_2, before_3, before_4]
  rw [show (dats c x1 x2 x3 x4 x5 x6 W0).Φ t.succ = (dats c x1 x2 x3 x4 x5 x6 W0).Φ t.castSucc from rfl,
    show (dats c x1 x2 x3 x4 x5 x6 W0).owesAt (none : HIx 1) t.succ = (dats c x1 x2 x3 x4 x5 x6 W0).owesAt (none : HIx 1) t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk c x1 x2 x3 x4 x5 x6 0 t) (iblk c x1 x2 x3 x4 x5 x6 1 t)
    (iblk c x1 x2 x3 x4 x5 x6 2 t) (iblk c x1 x2 x3 x4 x5 x6 3 t) (iblk c x1 x2 x3 x4 x5 x6 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation : BodyObligation (dats c x1 x2 x3 x4 x5 x6 W0) (defs₀ (F := F)) 𝒱₀ (none : HIx 1) Set.univ := fun t => by
  rw [bigSep_W1, bigSep_W1]
  exact sound_body c x1 x2 x3 x4 x5 x6 W0 t

end Cert.KernelIdeal.Hand

end
-- ==== Proof.KIRegionArr.lean ====
/-
  The output array after the dense layers' region, as one function of the five input arrays.

  Row r of the output lies in block r / 512, at row r % 512 of that block; block q of the output is the body's result
  on block q of the mean rows (rows 512·q … 512·q + 511) and the whole of the two weight matrices and bias rows. The
  pipeline writes every block back, and the eight blocks tile the array, so after the last point the array holds
  `mlpOut` of the entry contents of the five inputs.
-/
import proofs.«207455_g33174327394824_cont_8to1_b_592_21_alg».proof.Proof.KIRegionData
import Idealize.ShloMosaic.Lib.Pipeline.Value
import Idealize.ShloMosaic.Lib.ValueIdx

set_option maxRecDepth 16384

noncomputable section

namespace Cert.KernelIdeal.Hand

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F] [Named F]

/-! ## The closed form -/

/-- Block `q` of the mean rows: rows 512·q … 512·q + 511. -/
def rowBlk (x1 : Vec F S4096x128 .f32) (q : Fin 8) : Vec F S512x128 .f32 :=
  fun y => x1 (ix2 (⟨512 * q.val + (y 0).val, by have h1 : (y 0).val < 512 := (y 0).isLt; have h2 : q.val < 8 := q.isLt; omega⟩ : Fin 4096) (y 1))

/-- The block a row of the output lies in, -/
def blkOf (i : S4096x1000.Idx) : Fin 8 := ⟨(i 0).val / 512, by have : (i 0).val < 4096 := (i 0).isLt; omega⟩

/-- and the index inside the block. -/
def inBlk (i : S4096x1000.Idx) : S512x1000.Idx :=
  ix2 (⟨(i 0).val % 512, Nat.mod_lt _ (by decide)⟩ : Fin 512) (i 1)

/-- THE OUTPUT ARRAY after the region, from the five input arrays: at row r, the body's result on block r / 512 of the
    mean rows, at row r % 512. -/
def mlpOut (x1 : Vec F S4096x128 .f32) (x2 : Vec F S128x512 .bf16) (x3 : Vec F S1x512 .f32)
    (x4 : Vec F S512x1000 .bf16) (x5 : Vec F S1x1000 .f32) : Vec F S4096x1000 .f32 :=
  fun i => outBlk (rowBlk x1 (blkOf i)) x2 x3 x4 x5 (inBlk i)

/-- An index of the array at offset `j` inside block `q` reads the body's result on block `q` at `j`. -/
theorem mlpOut_at_blk (x1 : Vec F S4096x128 .f32) (x2 : Vec F S128x512 .bf16) (x3 : Vec F S1x512 .f32)
    (x4 : Vec F S512x1000 .bf16) (x5 : Vec F S1x1000 .f32) (q : Fin 8) (j : S512x1000.Idx) (i : S4096x1000.Idx)
    (h0 : (i 0).val = q.val * 512 + 1 * (j 0).val) (h1 : (i 1).val = 0 * 1000 + 1 * (j 1).val) :
    mlpOut x1 x2 x3 x4 x5 i = outBlk (rowBlk x1 q) x2 x3 x4 x5 j := by
  have hj0 : (j 0).val < 512 := (j 0).isLt
  have hq : blkOf i = q := Fin.ext (by show (i 0).val / 512 = q.val; omega)
  have hj : inBlk i = j := funext fun a => Fin.ext (by
    match a with
    | ⟨0, _⟩ => show (i 0).val % 512 = (j 0).val; omega
    | ⟨1, _⟩ => show (i 1).val = (j 1).val; omega)
  unfold mlpOut; rw [hq, hj]

variable (c : Dev nD)
  (x1 : Vec F S4096x128 .f32) (x2 : Vec F S128x512 .bf16) (x3 : Vec F S1x512 .f32)
  (x4 : Vec F S512x1000 .bf16) (x5 : Vec F S1x1000 .f32) (x6 : Vec F S4096x1000 .f32)
  (W0 : Waits sig (HIx 1))

/-! ## The windows' blocks, read off the entry contents -/

/-- The printed index maps over the grid: the mean rows' and the output's block index is the point, the others' zero. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 8 := Nat.lt_of_lt_of_eq t.isLt N_1

/-- The mean rows' block at point `t` is block `t` of the entry contents. -/
theorem iblk_0 (t : Fin cfg1.N) : iblk c x1 x2 x3 x4 x5 x6 0 t = rowBlk x1 ⟨t.val, t_lt t⟩ := by
  obtain ⟨e0, e1, -⟩ := idx_facts t
  funext y
  show x1 (((cfg1.win 0).blk t).view.emb y) = x1 _
  refine congrArg x1 (funext fun a => Fin.ext ?_)
  match a with
  | ⟨0, _⟩ => show win1_0.index t (0 : Fin 2) * 512 + 1 * (y 0).val = 512 * t.val + (y 0).val; omega
  | ⟨1, _⟩ => show win1_0.index t (1 : Fin 2) * 128 + 1 * (y 1).val = (y 1).val; omega

/-- The whole-array windows' blocks are the arrays. -/
theorem iblk_1 (t : Fin cfg1.N) : iblk c x1 x2 x3 x4 x5 x6 1 t = x2 := by
  obtain ⟨-, -, e0, e1, -⟩ := idx_facts t
  funext y
  show x2 (((cfg1.win 1).blk t).view.emb y) = x2 y
  refine congrArg x2 (funext fun a => Fin.ext ?_)
  match a with
  | ⟨0, _⟩ => show win1_1.index t (0 : Fin 2) * 128 + 1 * (y 0).val = (y 0).val; omega
  | ⟨1, _⟩ => show win1_1.index t (1 : Fin 2) * 512 + 1 * (y 1).val = (y 1).val; omega
theorem iblk_2 (t : Fin cfg1.N) : iblk c x1 x2 x3 x4 x5 x6 2 t = x3 := by
  obtain ⟨-, -, -, -, e0, e1, -⟩ := idx_facts t
  funext y
  show x3 (((cfg1.win 2).blk t).view.emb y) = x3 y
  refine congrArg x3 (funext fun a => Fin.ext ?_)
  match a with
  | ⟨0, _⟩ => show win1_2.index t (0 : Fin 2) * 1 + 1 * (y 0).val = (y 0).val; omega
  | ⟨1, _⟩ => show win1_2.index t (1 : Fin 2) * 512 + 1 * (y 1).val = (y 1).val; omega
theorem iblk_3 (t : Fin cfg1.N) : iblk c x1 x2 x3 x4 x5 x6 3 t = x4 := by
  obtain ⟨-, -, -, -, -, -, e0, e1, -⟩ := idx_facts t
  funext y
  show x4 (((cfg1.win 3).blk t).view.emb y) = x4 y
  refine congrArg x4 (funext fun a => Fin.ext ?_)
  match a with
  | ⟨0, _⟩ => show win1_3.index t (0 : Fin 2) * 512 + 1 * (y 0).val = (y 0).val; omega
  | ⟨1, _⟩ => show win1_3.index t (1 : Fin 2) * 1000 + 1 * (y 1).val = (y 1).val; omega
theorem iblk_4 (t : Fin cfg1.N) : iblk c x1 x2 x3 x4 x5 x6 4 t = x5 := by
  obtain ⟨-, -, -, -, -, -, -, -, e0, e1, -⟩ := idx_facts t
  funext y
  show x5 (((cfg1.win 4).blk t).view.emb y) = x5 y
  refine congrArg x5 (funext fun a => Fin.ext ?_)
  match a with
  | ⟨0, _⟩ => show win1_4.index t (0 : Fin 2) * 1 + 1 * (y 0).val = (y 0).val; omega
  | ⟨1, _⟩ => show win1_4.index t (1 : Fin 2) * 1000 + 1 * (y 1).val = (y 1).val; omega

/-! ## From blocks to the array -/

/-- The output window is uncut: what a write-back moves of a staging buffer's contents is all of them, -/
theorem cut_out (t : Fin cfg1.N) (A : Vec F S512x1000 .f32) : (cfg1.win 5).cut (grid1.coords t) A = A := rfl

/-- and its block at point `t`, read off an array's contents `G`, is `G` at the block's indices. -/
theorem read_blk_out (t : Fin cfg1.N) (G : Vec F S4096x1000 .f32) (j : S512x1000.Idx) :
    ((cfg1.win 5).blk t).view.read (Elt F) G j = G (((cfg1.win 5).blk t).view.emb j) := rfl

/-- WHAT POINT `t` WRITES BACK is block `t` of `mlpOut` of the entry contents. -/
theorem flushed_eq (t : Fin cfg1.N) :
    (dats c x1 x2 x3 x4 x5 x6 W0).flushed 5 t = ((cfg1.win 5).blk t).view.read (Elt F) (mlpOut x1 x2 x3 x4 x5) := by
  show (cfg1.win 5).cut (grid1.coords t) ((dats c x1 x2 x3 x4 x5 x6 W0).after 5 t) = _
  rw [after_5, iblk_0, iblk_1, iblk_2, iblk_3, iblk_4]
  obtain ⟨-, -, -, -, -, -, -, -, -, -, e0, e1⟩ := idx_facts t
  funext j
  refine (congrFun (cut_out t _) j).trans ?_
  refine Eq.trans ?_ (read_blk_out t (mlpOut x1 x2 x3 x4 x5) j).symm
  refine (mlpOut_at_blk x1 x2 x3 x4 x5 ⟨t.val, t_lt t⟩ j _ ?_ ?_).symm
  · show win1_5.index t (0 : Fin 2) * 512 + 1 * (j 0).val = t.val * 512 + 1 * (j 0).val; rw [e0]
  · show win1_5.index t (1 : Fin 2) * 1000 + 1 * (j 1).val = 0 * 1000 + 1 * (j 1).val; rw [e1]

/-- An index of the array is in point `t`'s block iff each coordinate is in the block's range on its axis. -/
theorem mem_blk (t : Fin cfg1.N) (i : S4096x1000.Idx) :
    i ∈ ((cfg1.win 5).blk t).view.set ↔ ∀ a : Fin 2, win1_5.index t a * S512x1000.size a ≤ (i a).val ∧ (i a).val < win1_5.index t a * S512x1000.size a + S512x1000.size a := by
  show i ∈ ((View.whole main_v6).slice (win1_5.rect t)).set ↔ _
  rw [View.set_slice_whole, Rect.mem_set_unit]
  exact Iff.rfl

/-- Every index of the output array is in the block of the point its row's block names. -/
theorem cover (i : S4096x1000.Idx) : ∃ t : Fin cfg1.N, (cfg1.win 5).flush t = true ∧ i ∈ ((cfg1.win 5).blk t).view.set := by
  have hi0 : (i 0).val < 4096 := (i 0).isLt
  have hi1 : (i 1).val < 1000 := (i 1).isLt
  refine ⟨⟨(i 0).val / 512, by rw [show cfg1.N = 8 from N_1]; omega⟩, flush1_5 _, ?_⟩
  rw [mem_blk]
  obtain ⟨-, -, -, -, -, -, -, -, -, -, e0, e1⟩ := idx_facts ⟨(i 0).val / 512, by rw [show cfg1.N = 8 from N_1]; omega⟩
  intro a
  match a with
  | ⟨0, _⟩ =>
    show win1_5.index _ (0 : Fin 2) * 512 ≤ (i 0).val ∧ (i 0).val < win1_5.index _ (0 : Fin 2) * 512 + 512
    rw [e0]; show (i 0).val / 512 * 512 ≤ (i 0).val ∧ (i 0).val < (i 0).val / 512 * 512 + 512; omega
  | ⟨1, _⟩ =>
    show win1_5.index _ (1 : Fin 2) * 1000 ≤ (i 1).val ∧ (i 1).val < win1_5.index _ (1 : Fin 2) * 1000 + 1000
    rw [e1]; omega

/-- THE OUTPUT ARRAY after the last point: `mlpOut` of the five inputs' entry contents. -/
theorem arrAt_out : (dats c x1 x2 x3 x4 x5 x6 W0).arrAt 5 cfg1.N = mlpOut x1 x2 x3 x4 x5 :=
  (dats c x1 x2 x3 x4 x5 x6 W0).arrAt_eq_of_cover 5 (mlpOut x1 x2 x3 x4 x5) (fun t _ => flushed_eq c x1 x2 x3 x4 x5 x6 W0 t)
    (cover)

end Cert.KernelIdeal.Hand

end
-- ==== Proof.KIRegion.lean ====
/-
  The dense layers' region as one step of the program's TensorCore thread.

  From the region boundary, the six windowed arrays held whole at contents `x1 … x6`, the thread owing nothing, the level
  facts and the pipeline's ghost state, the region's call runs to the boundary, the five input arrays as they were, the
  output array at `mlpOut` of the five inputs, and the thread owing nothing. The region record's four entailments sort
  the arrays into the pipeline's proof data at entry and out of it at exit; the kernel has no semaphores of its own, no
  prefetched tables and no scoped buffers besides the staging buffers.
-/
import proofs.«207455_g33174327394824_cont_8to1_b_592_21_alg».proof.Proof.KIRegionArr

set_option maxRecDepth 16384

noncomputable section

namespace Cert.KernelIdeal.Hand

open Cert.KernelIdeal Cert.KernelIdeal.Gen

open Idealize.ShloMosaic Idealize.ShloMosaic.TcCoe Idealize.ShloMosaic.Tactic
open Idealize.ShloMosaic.SparseCore (S V T)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.Cfg (HIx)
open Idealize.ShloMosaic.Pipeline (Dat Cfg Window BodyObligation cellOf)

variable {F : FTy → Type} [FloatOps F] [Named F]

local notation "𝕄" => MT nD τ sig (HIx 1) (Elt F) ℕ UU ℕ

variable (x1 : Vec F S4096x128 .f32) (x2 : Vec F S128x512 .bf16) (x3 : Vec F S1x512 .f32)
  (x4 : Vec F S512x1000 .bf16) (x5 : Vec F S1x1000 .f32) (x6 : Vec F S4096x1000 .f32)
  (W0 : Waits sig (HIx 1))

/-! ## The pipeline family and its proof data -/

/-- The one admissible contents of a pipeline without prefetched tables. -/
abbrev adm : (p : Fin 1) → (pcfgs (F := F) p).Adm := fun p => (cfgs p).toPCfg_adm

/-- The proof data of the program's one pipeline, on every core at the same entry contents. -/
def pdats : (p : Fin 1) → (c : Dev nD) → Dat τ (Elt F) (HIx 1) ℕ UU ℕ (Pipeline.pin (pcfgs (F := F)) adm p) c :=
  fun _ c => dats c x1 x2 x3 x4 x5 x6 W0

/-- The six windowed arrays held whole on core `c`. -/
abbrev held (c : Dev nD) (y1 : Vec F S4096x128 .f32) (y2 : Vec F S128x512 .bf16) (y3 : Vec F S1x512 .f32)
    (y4 : Vec F S512x1000 .bf16) (y5 : Vec F S1x1000 .f32) (y6 : Vec F S4096x1000 .f32) : sProp 𝕄 :=
  iprop((((c.tc : Thread nD τ).loc main_v1) ↦{fullShare} y1) ∗ (((c.tc : Thread nD τ).loc main_v2) ↦{fullShare} y2)
    ∗ (((c.tc : Thread nD τ).loc main_v3) ↦{fullShare} y3) ∗ (((c.tc : Thread nD τ).loc main_v4) ↦{fullShare} y4)
    ∗ (((c.tc : Thread nD τ).loc main_v5) ↦{fullShare} y5) ∗ (((c.tc : Thread nD τ).loc main_v6) ↦{fullShare} y6))

theorem share_full (c : Dev nD) (w : Fin cfg1.W) : (dats c x1 x2 x3 x4 x5 x6 W0).share w = fullShare :=
  (dats c x1 x2 x3 x4 x5 x6 W0).share_full (fun _ => rfl) w

/-- The proof data's arrays at contents given window by window are the six arrays held whole at them. -/
theorem arrays_held (c : Dev nD) (y1 : Vec F S4096x128 .f32) (y2 : Vec F S128x512 .bf16) (y3 : Vec F S1x512 .f32)
    (y4 : Vec F S512x1000 .bf16) (y5 : Vec F S1x1000 .f32) (y6 : Vec F S4096x1000 .f32) :
    (dats c x1 x2 x3 x4 x5 x6 W0).arrays (entryArr c y1 y2 y3 y4 y5 y6) = held c y1 y2 y3 y4 y5 y6 := by
  rw [Pipeline.arrays_eq cfgs (fun _ c => dats c x1 x2 x3 x4 x5 x6 W0) 0 c arr_whole1 (share_full x1 x2 x3 x4 x5 x6 W0 c), bigSep_W1]
  rfl

/-- The contents given window by window, at each window. -/
theorem entryArr_0 (c : Dev nD) (y1 : Vec F S4096x128 .f32) (y2 : Vec F S128x512 .bf16) (y3 : Vec F S1x512 .f32)
    (y4 : Vec F S512x1000 .bf16) (y5 : Vec F S1x1000 .f32) (y6 : Vec F S4096x1000 .f32) : entryArr c y1 y2 y3 y4 y5 y6 0 = y1 := rfl
theorem entryArr_1 (c : Dev nD) (y1 : Vec F S4096x128 .f32) (y2 : Vec F S128x512 .bf16) (y3 : Vec F S1x512 .f32)
    (y4 : Vec F S512x1000 .bf16) (y5 : Vec F S1x1000 .f32) (y6 : Vec F S4096x1000 .f32) : entryArr c y1 y2 y3 y4 y5 y6 1 = y2 := rfl
theorem entryArr_2 (c : Dev nD) (y1 : Vec F S4096x128 .f32) (y2 : Vec F S128x512 .bf16) (y3 : Vec F S1x512 .f32)
    (y4 : Vec F S512x1000 .bf16) (y5 : Vec F S1x1000 .f32) (y6 : Vec F S4096x1000 .f32) : entryArr c y1 y2 y3 y4 y5 y6 2 = y3 := rfl
theorem entryArr_3 (c : Dev nD) (y1 : Vec F S4096x128 .f32) (y2 : Vec F S128x512 .bf16) (y3 : Vec F S1x512 .f32)
    (y4 : Vec F S512x1000 .bf16) (y5 : Vec F S1x1000 .f32) (y6 : Vec F S4096x1000 .f32) : entryArr c y1 y2 y3 y4 y5 y6 3 = y4 := rfl
theorem entryArr_4 (c : Dev nD) (y1 : Vec F S4096x128 .f32) (y2 : Vec F S128x512 .bf16) (y3 : Vec F S1x512 .f32)
    (y4 : Vec F S512x1000 .bf16) (y5 : Vec F S1x1000 .f32) (y6 : Vec F S4096x1000 .f32) : entryArr c y1 y2 y3 y4 y5 y6 4 = y5 := rfl
theorem entryArr_5 (c : Dev nD) (y1 : Vec F S4096x128 .f32) (y2 : Vec F S128x512 .bf16) (y3 : Vec F S1x512 .f32)
    (y4 : Vec F S512x1000 .bf16) (y5 : Vec F S1x1000 .f32) (y6 : Vec F S4096x1000 .f32) : entryArr c y1 y2 y3 y4 y5 y6 5 = y6 := rfl

attribute [local irreducible] mlpOut outBlk

/-- The arrays after the last point, window by window: the inputs as entered, the output at `mlpOut` of them. -/
theorem arrAt_last (c : Dev nD) (w : Fin cfg1.W) :
    (dats c x1 x2 x3 x4 x5 x6 W0).arrAt w cfg1.N = entryArr c x1 x2 x3 x4 x5 (mlpOut x1 x2 x3 x4 x5) w := by
  match w with
  | ⟨0, _⟩ => exact (((dats c x1 x2 x3 x4 x5 x6 W0).arrAt_in 0 rfl _).trans (A_eq c x1 x2 x3 x4 x5 x6 W0 0)).trans ((entryArr_0 c x1 x2 x3 x4 x5 x6).trans (entryArr_0 c x1 x2 x3 x4 x5 (mlpOut x1 x2 x3 x4 x5)).symm)
  | ⟨1, _⟩ => exact (((dats c x1 x2 x3 x4 x5 x6 W0).arrAt_in 1 rfl _).trans (A_eq c x1 x2 x3 x4 x5 x6 W0 1)).trans ((entryArr_1 c x1 x2 x3 x4 x5 x6).trans (entryArr_1 c x1 x2 x3 x4 x5 (mlpOut x1 x2 x3 x4 x5)).symm)
  | ⟨2, _⟩ => exact (((dats c x1 x2 x3 x4 x5 x6 W0).arrAt_in 2 rfl _).trans (A_eq c x1 x2 x3 x4 x5 x6 W0 2)).trans ((entryArr_2 c x1 x2 x3 x4 x5 x6).trans (entryArr_2 c x1 x2 x3 x4 x5 (mlpOut x1 x2 x3 x4 x5)).symm)
  | ⟨3, _⟩ => exact (((dats c x1 x2 x3 x4 x5 x6 W0).arrAt_in 3 rfl _).trans (A_eq c x1 x2 x3 x4 x5 x6 W0 3)).trans ((entryArr_3 c x1 x2 x3 x4 x5 x6).trans (entryArr_3 c x1 x2 x3 x4 x5 (mlpOut x1 x2 x3 x4 x5)).symm)
  | ⟨4, _⟩ => exact (((dats c x1 x2 x3 x4 x5 x6 W0).arrAt_in 4 rfl _).trans (A_eq c x1 x2 x3 x4 x5 x6 W0 4)).trans ((entryArr_4 c x1 x2 x3 x4 x5 x6).trans (entryArr_4 c x1 x2 x3 x4 x5 (mlpOut x1 x2 x3 x4 x5)).symm)
  | ⟨5, _⟩ => exact (arrAt_out c x1 x2 x3 x4 x5 x6 W0).trans (entryArr_5 c x1 x2 x3 x4 x5 (mlpOut x1 x2 x3 x4 x5)).symm

/-! ## The region record -/

/-- The dense layers' region: entered with the six arrays held at `x1 … x6` and the thread owing nothing, left with
    the output array at `mlpOut` of the inputs. Nothing enters the invariant, nothing bypasses the region. -/
def seg : Pipeline.RegionSeg (pcfgs (F := F)) adm (pdats x1 x2 x3 x4 x5 x6 W0) (none : HIx 1) (defs₀ (F := F)) 𝒱₀
    (K (F := F)).L (K (F := F)).lev (0 : Fin 1) where
  win := winFacts1.to₀
  block_pos := block_pos1
  stage_whole := stage_whole1
  K := PEmpty
  osem := fun k => k.elim
  ho := Pipeline.OwnSemFacts.none _
  hbody := fun c => (body_obligation c x1 x2 x3 x4 x5 x6 W0).loose
  hwaits := fun c => Pipeline.hwaits_of_owed_zero _ _ _ _ _ _ 0 (fun _ _ => rfl) c
  pre := fun c => iprop(held c x1 x2 x3 x4 x5 x6 ∗ owes (c.tc : Thread nD τ) 0 W0)
  post := fun c => iprop(held c x1 x2 x3 x4 x5 (mlpOut x1 x2 x3 x4 x5)
    ∗ ∃ W : Waits sig (HIx 1), ⌜∀ p ∈ W, p ∈ W0 ∨ p.2 = none⌝ ∗ owes (c.tc : Thread nD τ) (0 : CellTallies nD τ sig (HIx 1)) W)
  X := fun _ => iprop(emp)
  Y := fun _ => iprop(emp)
  Z := fun _ => iprop(emp)
  hentry := fun c => by
    iintro ⟨⟨Ha, Ho⟩, -, -⟩
    imodintro
    isplitl [Ha]
    · iapply (Entails.of_eq (arrays_held x1 x2 x3 x4 x5 x6 W0 c x1 x2 x3 x4 x5 x6).symm)
      iexact Ha
    isplitr
    · unfold Pipeline.prefHeld; rw [Finset.univ_eq_empty, BI.bigSep_empty]; iempintro
    isplitl [Ho]
    · iexists W0; isplitr
      · ipureintro; exact fun _ h => Or.inl h
      iexact Ho
    isplitr <;> iempintro
  hin := fun c => by
    show _ ⊢ Pipeline.scopedRest (Ix := HIx 1) (Name := ℕ) (U := UU) (Lvl := ℕ) (Val := Elt F) spec1 c
    iintro ⟨-, -, H⟩; iexact H
  hout := fun c => by
    rw [Pipeline.ownSems0_none]
    show Pipeline.scopedRest (Ix := HIx 1) (Name := ℕ) (U := UU) (Lvl := ℕ) (Val := Elt F) spec1 c ⊢ _
    iintro H
    isplitr; · iempintro
    isplitr; · iempintro
    iexact H
  hexit := fun c => by
    iintro ⟨Ha, ⟨%W, %hW, Ho⟩, -, -⟩
    imodintro
    isplitl [Ha]
    · iapply (Entails.of_eq (arrays_held x1 x2 x3 x4 x5 x6 W0 c x1 x2 x3 x4 x5 (mlpOut x1 x2 x3 x4 x5)))
      iapply (Entails.of_eq (congrArg (dats c x1 x2 x3 x4 x5 x6 W0).arrays (funext (arrAt_last x1 x2 x3 x4 x5 x6 W0 c))))
      iexact Ha
    iexists W; isplitr
    · ipureintro
      exact fun p hp => (hW (Finset.mem_coe.mpr hp)).elim (fun h => Or.inl (Finset.mem_coe.mp h))
        (fun ⟨_, _, e⟩ => Or.inr (by rw [e]))
    iexact Ho

/-! ## The step -/

/-- The staging cells of the pipeline family at its one admissible contents are the program's, pairwise distinct. -/
theorem cells_inj : Function.Injective (Pipeline.cellOf (nD := nD) (τ := τ) (Pipeline.pin (pcfgs (F := F)) adm)) := cellOf_inj

set_option maxHeartbeats 400000 in
/-- The region's step on core `d`, in the region record's own terms. -/
theorem region_wp_seg (d : Dev nD) (Q : PUnit → sProp 𝕄) :
    iprop((iprop(boundary (d.tc : Thread nD τ) ∗ (seg x1 x2 x3 x4 x5 x6 W0).post d)
            -∗ wp frame (wpE (D (F := F)) 𝒱 (d.tc : Thread nD τ) none) Set.univ (.ret ⟨⟩) Q)
        ∗ boundary (d.tc : Thread nD τ) ∗ (seg x1 x2 x3 x4 x5 x6 W0).pre d ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (.op (.customCall (Pipeline.entry 0) ()) fun _ => .ret ⟨⟩) Q :=
  Pipeline.RegionSeg.wp (pcfgs (F := F)) adm (pdats x1 x2 x3 x4 x5 x6 W0) (none : HIx 1) cells_inj EP (defs₀ (F := F)) 𝒱₀
    (K (F := F)).L (K (F := F)).lev (seg x1 x2 x3 x4 x5 x6 W0) d none (fun _ h => nomatch h) (fun _ => .ret ⟨⟩) Q

/-- The region's thread states, spelt out. -/
theorem seg_pre (d : Dev nD) : (seg x1 x2 x3 x4 x5 x6 W0).pre d
    = iprop(held d x1 x2 x3 x4 x5 x6 ∗ owes (d.tc : Thread nD τ) (0 : CellTallies nD τ sig (HIx 1)) W0) := rfl
theorem seg_post (d : Dev nD) : (seg x1 x2 x3 x4 x5 x6 W0).post d
    = iprop(held d x1 x2 x3 x4 x5 (mlpOut x1 x2 x3 x4 x5)
        ∗ ∃ W : Waits sig (HIx 1), ⌜∀ p ∈ W, p ∈ W0 ∨ p.2 = none⌝ ∗ owes (d.tc : Thread nD τ) (0 : CellTallies nD τ sig (HIx 1)) W) := rfl

/-- The pipeline's ghost state at the family is the program's. -/
theorem ghost_eq (d : Dev nD) :
    (iprop(Pipeline.cellsGhost (Pipeline.pin (pcfgs (F := F)) adm) EP 0 d ∗ Pipeline.toksInit (Pipeline.pin (pcfgs (F := F)) adm) EP 0 d) : sProp 𝕄)
      = iprop(Pipeline.cellsGhost cfgs EP 0 d ∗ Pipeline.toksInit cfgs EP 0 d) := rfl

/-- THE REGION'S STEP on core `d`: from the boundary, the six arrays held whole at `x1 … x6`, the thread owing nothing
    with recorded pairs `W0`, the level facts and the pipeline's ghost state, the region's call runs to the boundary, the
    inputs as they were, the output array at `mlpOut` of them and the thread owing nothing, every pair it has recorded
    since being at the index `none`. -/
theorem region_wp (d : Dev nD) (Q : PUnit → sProp 𝕄) :
    iprop((iprop(boundary (SparseCore.T d) ∗ ((SparseCore.T d).loc main_v1 ↦{fullShare} x1) ∗ ((SparseCore.T d).loc main_v2 ↦{fullShare} x2)
              ∗ ((SparseCore.T d).loc main_v3 ↦{fullShare} x3) ∗ ((SparseCore.T d).loc main_v4 ↦{fullShare} x4)
              ∗ ((SparseCore.T d).loc main_v5 ↦{fullShare} x5) ∗ ((SparseCore.T d).loc main_v6 ↦{fullShare} mlpOut x1 x2 x3 x4 x5)
              ∗ ∃ W : Waits sig (HIx 1), ⌜∀ p ∈ W, p ∈ W0 ∨ p.2 = none⌝ ∗ owes (SparseCore.T d) (0 : CellTallies nD τ sig (HIx 1)) W) -∗ Q ⟨⟩)
          ∗ boundary (SparseCore.T d) ∗ ((SparseCore.T d).loc main_v1 ↦{fullShare} x1) ∗ ((SparseCore.T d).loc main_v2 ↦{fullShare} x2)
          ∗ ((SparseCore.T d).loc main_v3 ↦{fullShare} x3) ∗ ((SparseCore.T d).loc main_v4 ↦{fullShare} x4)
          ∗ ((SparseCore.T d).loc main_v5 ↦{fullShare} x5) ∗ ((SparseCore.T d).loc main_v6 ↦{fullShare} x6)
          ∗ owes (SparseCore.T d) (0 : CellTallies nD τ sig (HIx 1)) W0
          ∗ levAts (K (F := F)).L (K (F := F)).lev ∗ Pipeline.cellsGhost cfgs EP 0 d ∗ Pipeline.toksInit cfgs EP 0 d)
      ⊢ wp frame (wpE (D (F := F)) 𝒱 (SparseCore.T d) none) Set.univ (.op (.customCall (Pipeline.entry 0) ()) fun _ => .ret ⟨⟩) Q := by
  refine .trans ?_ (region_wp_seg x1 x2 x3 x4 x5 x6 W0 d Q)
  rw [seg_pre, seg_post]
  iintro ⟨HQ, Hb, H1, H2, H3, H4, H5, H6, Ho, Hl, Hgt⟩
  isplitl [HQ]
  · iintro ⟨Hb, ⟨H1, H2, H3, H4, H5, H6⟩, Ho⟩
    rw [wp_ret]
    imodintro
    iapply HQ
    isplitl [Hb]; · iexact Hb
    isplitl [H1]; · iexact H1
    isplitl [H2]; · iexact H2
    isplitl [H3]; · iexact H3
    isplitl [H4]; · iexact H4
    isplitl [H5]; · iexact H5
    isplitl [H6]; · iexact H6
    iexact Ho
  isplitl [Hb]; · iexact Hb
  isplitl [H1 H2 H3 H4 H5 H6 Ho]
  · isplitr [Ho]
    · isplitl [H1]; · iexact H1
      isplitl [H2]; · iexact H2
      isplitl [H3]; · iexact H3
      isplitl [H4]; · iexact H4
      isplitl [H5]; · iexact H5
      iexact H6
    iexact Ho
  isplitl [Hl]; · iexact Hl
  iapply (Entails.of_eq (ghost_eq d).symm)
  iexact Hgt

end Cert.KernelIdeal.Hand

end
-- ==== Proof.KIVRun.lean ====
/-
  The whole program's run: the launch theorem applied to the lookup kernel's task, the split of its operands, @main on the
  TensorCore with the dense layers' region, and what the final memory holds.
-/
import proofs.«207455_g33174327394824_cont_8to1_b_592_21_alg».proof.Proof.KIVTileBody
import proofs.«207455_g33174327394824_cont_8to1_b_592_21_alg».proof.Proof.KILaunchParts5
import proofs.«207455_g33174327394824_cont_8to1_b_592_21_alg».proof.Proof.KILaunchParts2
import proofs.«207455_g33174327394824_cont_8to1_b_592_21_alg».proof.Proof.KIMain
import proofs.«207455_g33174327394824_cont_8to1_b_592_21_alg».proof.Proof.KIRegion
import proofs.«207455_g33174327394824_cont_8to1_b_592_21_alg».proof.Proof.PreRange

noncomputable section

namespace Cert.KernelIdeal.Hand

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]
local notation "𝕄" => MT nD τ sig (HIx 1) (Elt F) ℕ UU ℕ

attribute [local irreducible] mlpOut outBlk

/-- The dense layers' whole-array function at each device's arrays. -/
abbrev mlpV : ∀ d : Dev nD, Buf (Elt F) ((SparseCore.T d : Thread nD τ).loc main_v1) → Buf (Elt F) ((SparseCore.T d : Thread nD τ).loc main_v2) → Buf (Elt F) ((SparseCore.T d : Thread nD τ).loc main_v3) → Buf (Elt F) ((SparseCore.T d : Thread nD τ).loc main_v4) → Buf (Elt F) ((SparseCore.T d : Thread nD τ).loc main_v5) → Buf (Elt F) ((SparseCore.T d : Thread nD τ).loc main_v6) :=
  fun _ x1 x2 x3 x4 x5 => mlpOut x1 x2 x3 x4 x5

theorem regionHypV : RegionHyp (F := F) mlpV := fun d x1 x2 x3 x4 x5 x6 W0 Q => region_wp x1 x2 x3 x4 x5 x6 W0 d Q

theorem run_mainV [∀ e, Nonempty (Elt F e)] (m : (ℓ : Loc nD τ sig) → Buf (Elt F) ℓ) (ρ : Dev nD → PrngReg)
    (hpre : ∀ (d : Dev nD) j, (idsC m d j).toNat < 100000) :
    θ_run (Cert.KernelIdeal.defs (F := F)) (Cert.KernelIdeal.threads (F := F)) ⟨m, fun _ => 0, ρ⟩
      (fun r => ∀ d : Dev nD, ∃ s' : Phys nD τ sig (Elt F), s'.mem = r.2 ∧ fq (GdV m) m mlpV d s') :=
  SparseCore.Cfg.θ_run_sc (K := K (F := F)) (D := D (F := F)) (𝒱 := 𝒱) (EH := EH) (P := P (GdV m) m) facts v₀
    (fun q hq => match q with | 0 => nomatch hq)
    (fun q _ => match q with | 0 => tileObl_of' (GdV m) m facts (fun d L q O W hO => tile_bodyV m hpre facts d L q O W hO))
    (fun q _ => match q with | 0 => SparseCore.Cfg.VecSplit.of_plain (vecSplit (GdV m) m))
    m ρ main (fun d => iprop(Pipeline.cellsGhost cfgs EP 0 d ∗ Pipeline.toksInit cfgs EP 0 d)) (FIN (GdV m) m mlpV) (u₀ (F := F))
    (sep_elim_left.trans (hu₀ (GdV m) m)) (hmain_of (GdV m) m ρ mlpV regionHypV) (fq (GdV m) m mlpV) (hfin_of (GdV m) m mlpV)
    _ (fun s' h d => ⟨s', rfl, h d⟩)

end Cert.KernelIdeal.Hand

end
-- ==== Proof.RefTerm.lean ====
/-
  The reference's value as one function of its six argument arrays, stage by stage.

  The lookup wraps a negative index word by the table's extent, gathers the named table row (the gather clamps the row
  number into the table), and keeps the gathered entry where the wrapped word lies in [0, 99999], a fill value elsewhere;
  the 50 looked-up rows of a batch entry are summed from zero and divided by 50; two dense layers follow, the first with
  a bias and a maximum with zero, the second with a bias. Each stage is a definition over arrays of the literal shapes,
  so that a later statement can speak of one stage at a time.
-/
import proofs.«207455_g33174327394824_cont_8to1_b_592_21_alg».proof.ReferenceIdeal
import proofs.«207455_g33174327394824_cont_8to1_b_592_21_alg».proof.Proof.Gen.ReferenceIdeal

noncomputable section

namespace Cert.ReferenceIdeal.RefValue

open Cert.ReferenceIdeal Idealize.ShloMosaic
open Cert.ReferenceIdeal.Facts₀

variable {F : FTy → Type} [FloatOps F]

/-- The index words with a negative word moved up by the table's extent. -/
def wrapIds (ids : IVec S4096x50 32) : IVec S4096x50 32 :=
  select (cmpi .slt ids (broadcastInDim S4096x50 ![] bcast_S_S4096x50 (constantI S_ 32 0#32)))
    (addi ids (broadcastInDim S4096x50 ![] bcast_S_S4096x50 (constantI S_ 32 100000#32))) ids

/-- The wrapped words as start indices of length one. -/
def startIdx (ids : IVec S4096x50 32) : IVec S4096x50x1 32 :=
  broadcastInDim S4096x50x1 ![0, 1] bcast_S4096x50_S4096x50x1_0_1 (wrapIds ids)

/-- Per position, whether the wrapped word lies in [0, 99999]. -/
def inRange (ids : IVec S4096x50 32) : IVec S4096x50 1 :=
  Host.reduce IntOp.andi
    (andi (cmpi .sge (startIdx ids) (broadcastInDim S4096x50x1 ![] bcast_S_S4096x50x1 (constantI S_ 32 0#32)))
      (cmpi .sle (startIdx ids) (broadcastInDim S4096x50x1 ![0, 1, 2] bcast_S1x1x1_S4096x50x1_0_1_2
        (broadcastInDim S1x1x1 ![2] bcast_S1_S1x1x1_2 (constantI S1 32 99999#32)))))
    (constantI S_ 1 1#1) reducesTo_S4096x50x1_S4096x50_d2 h_S_

/-- The looked-up rows: the gathered entry where the word is in range, the fill value elsewhere. -/
def taken (ids : IVec S4096x50 32) (tbl : FVec F S100000x128 .f32) : FVec F S4096x50x128 .f32 :=
  select (broadcastInDim S4096x50x128 ![0, 1] bcast_S4096x50_S4096x50x128_0_1 (inRange ids))
    (Host.gather gather_S100000x128_S4096x50x1_S4096x50x128_2_0_n_n_0_2_1128 tbl (startIdx ids))
    (broadcastInDim S4096x50x128 ![] bcast_S_S4096x50x128 (constant S_ .f32 0x7FC00000#32))

/-- The 50 looked-up rows of each batch entry summed from zero. -/
def summed (ids : IVec S4096x50 32) (tbl : FVec F S100000x128 .f32) : FVec F S4096x128 .f32 :=
  Host.reduceAdd (taken ids tbl) (constant S_ .f32 0x00000000#32) reducesTo_S4096x50x128_S4096x128_d1 h_S_

/-- The sums divided by 50. -/
def meanRows (ids : IVec S4096x50 32) (tbl : FVec F S100000x128 .f32) : FVec F S4096x128 .f32 :=
  Host.divf (summed ids tbl) (broadcastInDim S4096x128 ![] bcast_S_S4096x128 (constant S_ .f32 0x42480000#32))

/-- The hidden layer of any array of mean rows. -/
def hidden (x : FVec F S4096x128 .f32) (W1 : FVec F S128x512 .f32) (b1 : FVec F S512 .f32) : FVec F S4096x512 .f32 :=
  maximumf
    (addf (Host.dotGeneral dot_S4096x128_S128x512_S4096x512_1_0_0_1_n_n none x W1)
      (broadcastInDim S4096x512 ![0, 1] bcast_S1x512_S4096x512_0_1 (broadcastInDim S1x512 ![1] bcast_S512_S1x512_1 b1)))
    (broadcastInDim S4096x512 ![] bcast_S_S4096x512 (constant S_ .f32 0x00000000#32))

/-- The output layer of any hidden array. -/
def output (h : FVec F S4096x512 .f32) (W2 : FVec F S512x1000 .f32) (b2 : FVec F S1000 .f32) : FVec F S4096x1000 .f32 :=
  addf (Host.dotGeneral dot_S4096x512_S512x1000_S4096x1000_1_0_0_1_n_n none h W2)
    (broadcastInDim S4096x1000 ![0, 1] bcast_S1x1000_S4096x1000_0_1 (broadcastInDim S1x1000 ![1] bcast_S1000_S1x1000_1 b2))

/-- The reference's result as a function of its six arguments. -/
def refOut (ids : IVec S4096x50 32) (tbl : FVec F S100000x128 .f32) (W1 : FVec F S128x512 .f32) (b1 : FVec F S512 .f32)
    (W2 : FVec F S512x1000 .f32) (b2 : FVec F S1000 .f32) : FVec F S4096x1000 .f32 :=
  output (hidden (meanRows ids tbl) W1 b1) W2 b2

end Cert.ReferenceIdeal.RefValue

end
-- ==== Proof.RefOps.lean ====
/-
  The reference's @main as a straight line of host operations, and its run.

  The lookup function and the selection function it calls are unfolded at their call sites, each operation over the
  buffers of that call's record, so that @main is one list of thirty-nine operations. From any launch memory every
  fair execution terminates, and every buffer ends at the operations' fold over the launch contents; at the result
  buffer that fold is the reference's value as the function of the six arguments stated beside it, and the argument
  buffers are left as they were.
-/
import proofs.«207455_g33174327394824_cont_8to1_b_592_21_alg».proof.Proof.RefTerm
import Idealize.ShloMosaic.Lib.StableHlo.Run

noncomputable section

namespace Cert.ReferenceIdeal.RefValue

open Cert.ReferenceIdeal Idealize.ShloMosaic Idealize.ShloMosaic.TcCoe Idealize.SL.Sem
  Idealize.ShloMosaic.StableHlo
open Cert.ReferenceIdeal.Facts₀

variable {F : FTy → Type} [FloatOps F]

/-- The table argument and the index argument as the typed references the lookup function is called with. -/
abbrev aTbl : TRef sig ⟨S100000x128, .f32⟩ := .of main_arg1
abbrev aIds : TRef sig ⟨S4096x50, .i32⟩ := .of main_arg0

/-- @main's thirty-nine operations in order, the two calls unfolded: the lookup's twenty-three (the selection's one
    among them), then @main's own sixteen. -/
abbrev ops : List (HloOp τ sig (Elt F)) :=
  [
    TRef.nullary main_call0.c (constantI S_ 32 0#32),
    TRef.unary main_call0.c main_call0.v0 (broadcastInDim S4096x50 ![] bcast_S_S4096x50),
    TRef.binary aIds main_call0.v0 main_call0.v1 (cmpi .slt),
    TRef.nullary main_call0.c_0 (constantI S_ 32 100000#32),
    TRef.unary main_call0.c_0 main_call0.v2 (broadcastInDim S4096x50 ![] bcast_S_S4096x50),
    TRef.binary aIds main_call0.v2 main_call0.v3 addi,
    TRef.ternary main_call0.v1 main_call0.v3 aIds main_call0.call0.v0 select,
    TRef.unary main_call0.call0.v0 main_call0.v5 (broadcastInDim S4096x50x1 ![0, 1] bcast_S4096x50_S4096x50x1_0_1),
    TRef.nullary main_call0.c_1 (constantI S1 32 99999#32),
    TRef.nullary main_call0.c_2 (constantI S_ 32 0#32),
    TRef.unary main_call0.c_2 main_call0.v6 (broadcastInDim S4096x50x1 ![] bcast_S_S4096x50x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x50x1 ![0, 1, 2] bcast_S1x1x1_S4096x50x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x50x1_S4096x50_d2 h_S_),
    TRef.binary aTbl main_call0.v5 main_call0.v13 (fun x i => Host.gather gather_S100000x128_S4096x50x1_S4096x50x128_2_0_n_n_0_2_1128 x i),
    TRef.unary main_call0.v12 main_call0.v14 (broadcastInDim S4096x50x128 ![0, 1] bcast_S4096x50_S4096x50x128_0_1),
    TRef.nullary main_call0.cst (constant S_ .f32 0x7FC00000#32),
    TRef.unary main_call0.cst main_call0.v15 (broadcastInDim S4096x50x128 ![] bcast_S_S4096x50x128),
    TRef.ternary main_call0.v14 main_call0.v13 main_call0.v15 main_call0.v16 select,
    nullary main_cst (constant S_ .f32 0x00000000#32),
    binary main_v0 main_cst main_v1 ((fun x v => Host.reduceAdd x v reducesTo_S4096x50x128_S4096x128_d1 h_S_) : (⟨S4096x50x128, .f32⟩ : BufTy).Contents (Elt F) → (⟨S_, .f32⟩ : BufTy).Contents (Elt F) → (⟨S4096x128, .f32⟩ : BufTy).Contents (Elt F)),
    nullary main_cst_0 (constant S_ .f32 0x42480000#32),
    unary main_cst_0 main_v2 (broadcastInDim S4096x128 ![] bcast_S_S4096x128 : (⟨S_, .f32⟩ : BufTy).Contents (Elt F) → (⟨S4096x128, .f32⟩ : BufTy).Contents (Elt F)),
    binary main_v1 main_v2 main_v3 (Host.divf : (⟨S4096x128, .f32⟩ : BufTy).Contents (Elt F) → (⟨S4096x128, .f32⟩ : BufTy).Contents (Elt F) → (⟨S4096x128, .f32⟩ : BufTy).Contents (Elt F)),
    binary main_v3 main_arg2 main_v4 ((fun l r => Host.dotGeneral dot_S4096x128_S128x512_S4096x512_1_0_0_1_n_n none l r) : (⟨S4096x128, .f32⟩ : BufTy).Contents (Elt F) → (⟨S128x512, .f32⟩ : BufTy).Contents (Elt F) → (⟨S4096x512, .f32⟩ : BufTy).Contents (Elt F)),
    unary main_arg3 main_v5 (broadcastInDim S1x512 ![1] bcast_S512_S1x512_1 : (⟨S512, .f32⟩ : BufTy).Contents (Elt F) → (⟨S1x512, .f32⟩ : BufTy).Contents (Elt F)),
    unary main_v5 main_v6 (broadcastInDim S4096x512 ![0, 1] bcast_S1x512_S4096x512_0_1 : (⟨S1x512, .f32⟩ : BufTy).Contents (Elt F) → (⟨S4096x512, .f32⟩ : BufTy).Contents (Elt F)),
    binary main_v4 main_v6 main_v7 (addf : (⟨S4096x512, .f32⟩ : BufTy).Contents (Elt F) → (⟨S4096x512, .f32⟩ : BufTy).Contents (Elt F) → (⟨S4096x512, .f32⟩ : BufTy).Contents (Elt F)),
    nullary main_cst_1 (constant S_ .f32 0x00000000#32),
    unary main_cst_1 main_v8 (broadcastInDim S4096x512 ![] bcast_S_S4096x512 : (⟨S_, .f32⟩ : BufTy).Contents (Elt F) → (⟨S4096x512, .f32⟩ : BufTy).Contents (Elt F)),
    binary main_v7 main_v8 main_v9 (maximumf : (⟨S4096x512, .f32⟩ : BufTy).Contents (Elt F) → (⟨S4096x512, .f32⟩ : BufTy).Contents (Elt F) → (⟨S4096x512, .f32⟩ : BufTy).Contents (Elt F)),
    binary main_v9 main_arg4 main_v10 ((fun l r => Host.dotGeneral dot_S4096x512_S512x1000_S4096x1000_1_0_0_1_n_n none l r) : (⟨S4096x512, .f32⟩ : BufTy).Contents (Elt F) → (⟨S512x1000, .f32⟩ : BufTy).Contents (Elt F) → (⟨S4096x1000, .f32⟩ : BufTy).Contents (Elt F)),
    unary main_arg5 main_v11 (broadcastInDim S1x1000 ![1] bcast_S1000_S1x1000_1 : (⟨S1000, .f32⟩ : BufTy).Contents (Elt F) → (⟨S1x1000, .f32⟩ : BufTy).Contents (Elt F)),
    unary main_v11 main_v12 (broadcastInDim S4096x1000 ![0, 1] bcast_S1x1000_S4096x1000_0_1 : (⟨S1x1000, .f32⟩ : BufTy).Contents (Elt F) → (⟨S4096x1000, .f32⟩ : BufTy).Contents (Elt F)),
    binary main_v10 main_v12 main_v13 (addf : (⟨S4096x1000, .f32⟩ : BufTy).Contents (Elt F) → (⟨S4096x1000, .f32⟩ : BufTy).Contents (Elt F) → (⟨S4096x1000, .f32⟩ : BufTy).Contents (Elt F)) ]

set_option maxRecDepth 1024 in
/-- @main is that straight line: the two functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., nullary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

/-- From any memory with zero counters every fair execution of @main terminates with each buffer at the operations'
    fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.gather Host.reduceAdd Host.divf in
set_option maxRecDepth 8192 in
set_option maxHeartbeats 400000 in
/-- The fold at the result buffer is the reference's value as the function of the six argument buffers' contents. -/
theorem out_eq (V : Valuation τ sig (Elt F)) :
    after ops V (main_v13 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  after_results_simp
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

end Cert.ReferenceIdeal.RefValue

end
-- ==== Proof.RefTake.lean ====
/-
  The lookup stage read at an index, for index words in range.

  When every index word reads, signed, in [0, 99999]: wrapping leaves the words as they are; the in-range test holds at
  every position, so the selection keeps the gathered entry and the fill value is never read; the gather's clamp of the
  row number into the table does nothing; and the looked-up array at (r, l, e) is the table at (row named by word (r, l), e).
-/
import proofs.«207455_g33174327394824_cont_8to1_b_592_21_alg».proof.Proof.RefTerm
import proofs.«207455_g33174327394824_cont_8to1_b_592_21_alg».proof.Proof.Spec
import Idealize.ShloMosaic.Lib.ReduceAll
import Idealize.ShloMosaic.Lib.ValueIdx
import Idealize.ShloMosaic.Lib.Pipeline.Value
import Idealize.ShloMosaic.Lib.StableHlo.Run

noncomputable section

namespace Cert.ReferenceIdeal.RefValue

open Cert.ReferenceIdeal Idealize.ShloMosaic Idealize.ShloMosaic.ValueIdx
open Cert.ReferenceIdeal.Facts₀

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by `and` from 1 of an array of ones is 1 at every result index. -/
theorem reduce_andi_of_all {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl, hi]
  exact foldl_andi_one x _ fun n _ => hx n

variable [Facts₀]

local notation "gd" => gather_S100000x128_S4096x50x1_S4096x50x128_2_0_n_n_0_2_1128

/-- The gather of table rows read at (r, l, e): the table at the start word (r, l, 0), read signed and clamped into the
    table, and column e. -/
theorem gather_rows_apply {α : Type} (x : S100000x128.Idx → α) (idx : IVec S4096x50x1 32) (r : Fin 4096) (l : Fin 50)
    (e : Fin 128) :
    Host.gather gather_S100000x128_S4096x50x1_S4096x50x128_2_0_n_n_0_2_1128 x idx (ix3 r l e)
      = x (ix2 (⟨min (idx (ix3 r l (0 : Fin 1))).toInt.toNat 99999, by omega⟩ : Fin 100000) e) := by
  unfold Host.gather
  refine congrArg x (funext fun a => Fin.ext ?_)
  match a with
  | ⟨0, _⟩ =>
    show GatherDims.start gd (ix3 r l e) idx 0 + GatherDims.batchCoord gd (ix3 r l e) 0 + GatherDims.offCoord gd (ix3 r l e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (GatherDims.startIndexMap gd) from List.mem_singleton.mpr rfl)]
    have hsi : GatherDims.siIdx gd (ix3 r l e) ⟨List.idxOf (0 : Fin 2) (GatherDims.startIndexMap gd),
        List.idxOf_lt_length_iff.2 (List.mem_singleton.mpr rfl)⟩ = ix3 r l (0 : Fin 1) := by
      funext b; refine Fin.ext ?_
      match b with
      | ⟨0, _⟩ => rfl
      | ⟨1, _⟩ => rfl
      | ⟨2, _⟩ => rfl
    rw [hsi]
    rfl
  | ⟨1, _⟩ =>
    have hmem : (1 : Fin 2) ∈ (GatherDims.sKept gd) := by
      show (1 : Fin 2) ∈ Shape.kept S100000x128 ([0] ++ [])
      decide
    show GatherDims.start gd (ix3 r l e) idx 1 + GatherDims.batchCoord gd (ix3 r l e) 1 + GatherDims.offCoord gd (ix3 r l e) 1 = e.val
    rw [GatherDims.batchCoord_eq_zero _ _ _ List.not_mem_nil]
    unfold GatherDims.start GatherDims.offCoord
    have hns : (1 : Fin 2) ∉ GatherDims.startIndexMap gd := by
      show (1 : Fin 2) ∉ ([0] : List (Fin 2))
      decide
    rw [dif_neg hns, dif_pos hmem]
    simp only [Nat.zero_add, Nat.add_zero]
    rfl

section InRange

variable (ids : IVec S4096x50 32) (hr : ∀ j, 0 ≤ (ids j).toInt ∧ (ids j).toInt ≤ 99999)
include hr

/-- No word is negative, so wrapping leaves every word as it is. -/
theorem wrapIds_eq : wrapIds ids = ids := by
  funext j
  show Scalar.select (IntOp.cmpi .slt (ids j) 0#32) (IntOp.addi (ids j) 100000#32) (ids j) = ids j
  have h : ¬ IntOp.cmpi .slt (ids j) 0#32 = 1#1 := fun h => by
    have h' := IntOp.cmpi_slt.1 h
    rw [show (0#32 : BitVec 32).toInt = 0 from by decide] at h'
    have := (hr j).1
    omega
  rw [eq_zero_of_ne_one h, select_zero]

/-- The start index at (r, l, 0) is the index word (r, l). -/
theorem startIdx_apply (r : Fin 4096) (l : Fin 50) (z : Fin 1) : startIdx ids (ix3 r l z) = ids (ix2 r l) := by
  unfold startIdx
  rw [wrapIds_eq ids hr]
  refine broadcastInDim_apply _ _ ids (ix3 r l z) (ix2 r l) fun a => ?_
  match a with
  | ⟨0, _⟩ => rfl
  | ⟨1, _⟩ => rfl

/-- The in-range test holds at every position. -/
theorem inRange_eq (j : S4096x50.Idx) : inRange ids j = 1#1 := by
  unfold inRange
  refine reduce_andi_of_all _ _ _ _ (fun i => ?_) rfl j
  obtain ⟨r, l, z, rfl⟩ : ∃ (r : Fin 4096) (l : Fin 50) (z : Fin 1), i = ix3 r l z := ⟨i 0, i 1, i 2, eq_ix3 i⟩
  show IntOp.andi (IntOp.cmpi .sge (startIdx ids (ix3 r l z)) 0#32) (IntOp.cmpi .sle (startIdx ids (ix3 r l z)) 99999#32) = 1#1
  rw [startIdx_apply ids hr]
  refine IntOp.andi_eq_one.2 ⟨IntOp.cmpi_sge.2 ?_, IntOp.cmpi_sle.2 ?_⟩
  · rw [show (0#32 : BitVec 32).toInt = 0 from by decide]; exact (hr _).1
  · rw [show (99999#32 : BitVec 32).toInt = 99999 from by decide]; exact (hr _).2

/-- The looked-up array at (r, l, e) is the table at the row word (r, l) names and column e — at every float instance. -/
theorem taken_apply {F : FTy → Type} [FloatOps F] (tbl : FVec F S100000x128 .f32) (r : Fin 4096) (l : Fin 50) (e : Fin 128) :
    taken ids tbl (ix3 r l e) = tbl (ix2 (Cert.Spec.rowOf (ids (ix2 r l))) e) := by
  unfold taken
  rw [select_apply]
  have hm : broadcastInDim S4096x50x128 ![0, 1] bcast_S4096x50_S4096x50x128_0_1 (inRange ids) (ix3 r l e) = 1#1 := by
    unfold broadcastInDim; exact inRange_eq ids hr _
  rw [hm, select_one, gather_rows_apply]
  refine congrArg tbl (congrArg (fun q => ix2 q e) (Fin.ext ?_))
  show min (startIdx ids (ix3 r l (0 : Fin 1))).toInt.toNat 99999 = (ids (ix2 r l)).toNat % 100000
  rw [startIdx_apply ids hr]
  have h := hr (ix2 r l)
  have hc := BitVec.toInt_eq_toNat_cond (ids (ix2 r l))
  have hl := (ids (ix2 r l)).isLt
  split at hc <;> omega

end InRange

end Cert.ReferenceIdeal.RefValue

end
-- ==== Proof.RefConsts.lean ====
/-
  The float constants the reference spells, as the extended reals their bit patterns denote.
-/
import Idealize.ShloMosaic.PureOps.Ideal.Laws

noncomputable section

namespace Cert.ReferenceIdeal.RefValue

open Idealize.ShloMosaic

/-- The pattern 0x42480000 denotes the real 50. -/
theorem ofBits_50 : Ideal.ofBits .f32 0x42480000#32 = ((50 : ℝ) : EReal) := by
  simp [Ideal.ofBits, Ideal.ieee, -EReal.coe_mul]; norm_num

/-- Dividing by the pattern of 50 is multiplying by the exact 1/50, on every extended real. -/
theorem div_ofBits_50 (x : EReal) : Ideal.div x (Ideal.ofBits .f32 0x42480000#32) = x * ((1 / 50 : ℝ) : EReal) := by
  rw [ofBits_50, Ideal.div_coe (by norm_num : (50 : ℝ) ≠ 0)]

end Cert.ReferenceIdeal.RefValue

end
-- ==== Proof.LibPlainMatmul.lean ====
/-
  A plain matrix product read at an index, at the ideal values.

  For the dimension numbers of an ordinary product — an [A, K] matrix times a [K, B] matrix, contracting the left
  operand's columns with the right operand's rows, no batch axis — a `tpu.matmul` into the zero accumulator is, at
  (p, e), the sum over k of L(p, k) · R(k, e): a sum indexed by `Fin K`, with both operands read at indices written by
  coordinates. The contraction index of the library's general statement is re-indexed through its one coordinate, and
  the operand indices it names are computed axis by axis.
-/
import Idealize.ShloMosaic.PureOps.Ideal.Laws
import Idealize.ShloMosaic.Lib.ValueIdx

noncomputable section

namespace Idealize.ShloMosaic.ValueIdx

open Idealize.ShloMosaic

/-- The left operand's index at result index (p, e) and contraction coordinate k is (p, k). -/
theorem plain_lhsIdx (A K B : Nat) (p : Fin A) (e : Fin B) (k : Fin K) :
    (DotDims.plain A K B).lhsIdx (ix2 p e) ((contrEquiv1 (DotDims.plain A K B) K rfl rfl).symm k) = ix2 p k :=
  funext fun a => Fin.ext (by
    match a with
    | ⟨0, _⟩ => rfl
    | ⟨1, _⟩ =>
      exact ((DotDims.plain A K B).lhsIdx_val_of_single (cl := 1) rfl _ _).trans
        (contrEquiv1_symm_val (DotDims.plain A K B) K rfl rfl k))

/-- The right operand's index there is (k, e). -/
theorem plain_rhsIdx (A K B : Nat) (p : Fin A) (e : Fin B) (k : Fin K) :
    (DotDims.plain A K B).rhsIdx (ix2 p e) ((contrEquiv1 (DotDims.plain A K B) K rfl rfl).symm k) = ix2 k e :=
  funext fun a => Fin.ext (by
    match a with
    | ⟨0, _⟩ =>
      exact ((DotDims.plain A K B).rhsIdx_val_of_single (cr := 0) rfl _ _).trans
        (contrEquiv1_symm_val (DotDims.plain A K B) K rfl rfl k)
    | ⟨1, _⟩ => rfl)

/-- A plain [A, K] × [K, B] `tpu.matmul` into the zero accumulator, read at (p, e): Σ_k L(p, k) · R(k, e). -/
theorem matmul_plain_zero_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    FloatOps.matmul (DotDims.plain A K B) prec lhs rhs (constant ⟨2, ![A, B]⟩ .f32 0x00000000#32) (ix2 p e)
      = ∑ k : Fin K, lhs (ix2 p k) * rhs (ix2 k e) := by
  rw [Ideal.matmul_constant_zero_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibPlainDot.lean ====
/-
  The host's plain matrix product read at an index, at the ideal values.

  For the ordinary dimension numbers — an [A, K] matrix times a [K, B] matrix, the left operand's columns contracted with
  the right operand's rows, no batch axis — the host's `dot_general` is, at (p, e), the sum over k of L(p, k) · R(k, e):
  the same `Fin K`-indexed sum a `tpu.matmul` into the zero accumulator gives, so the two meet term by term.
-/
import Idealize.ShloMosaic.PureOps.Ideal.Laws
import Idealize.ShloMosaic.Lib.ValueIdx
import proofs.«207455_g33174327394824_cont_8to1_b_592_21_alg».proof.Proof.LibPlainMatmul

noncomputable section

namespace Idealize.ShloMosaic.ValueIdx

open Idealize.ShloMosaic

/-- A plain [A, K] × [K, B] host `dot_general`, read at (p, e): Σ_k L(p, k) · R(k, e). -/
theorem dotGeneral_plain_apply (A K B : Nat) {φ₁ φ₂ : FTy} (prec : Option ContractPrecision)
    (lhs : FVec Ideal ⟨2, ![A, K]⟩ φ₁) (rhs : FVec Ideal ⟨2, ![K, B]⟩ φ₂) (p : Fin A) (e : Fin B) :
    Host.dotGeneral (DotDims.plain A K B) prec lhs rhs (ix2 p e)
      = ∑ k : Fin K, lhs (ix2 p k) * rhs (ix2 k e) := by
  show FloatOps.dotGeneral (DotDims.plain A K B) prec .single lhs rhs (ix2 p e) = _
  rw [Ideal.dotGeneral_apply, ← Equiv.sum_comp (contrEquiv1 (DotDims.plain A K B) K rfl rfl).symm]
  refine Finset.sum_congr rfl fun k _ => ?_
  rw [plain_lhsIdx, plain_rhsIdx]

end Idealize.ShloMosaic.ValueIdx

end
-- ==== Proof.LibRowBias.lean ====
/-
  A bias row laid over the rows of a matrix, in the forms a kernel body and a host program print it, read at an index:
  • the host's `broadcast_in_dim` of a row [1, b] along both axes to [a, b] reads, at (p, c), the row's entry c;
  • the host's `broadcast_in_dim` of a vector [b] onto the last axis of [1, b] reads, at (u, c), the vector's entry c;
  • so a vector cast to the row [1, b] and the vector broadcast to [1, b] are one array;
  • a layer's epilogue  max (x + row, z)  in the body's form (identity casts, `vector.broadcast` of the row, a splat z)
    and in the host's form (`broadcast_in_dim` of the row, of a rank-0 constant) read at (p, c) as
    max (x(p, c) + row(0, c), z).
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibRowBias

open Idealize.ShloMosaic Idealize.ShloMosaic.ValueIdx

variable {α : Type}

/-- A row [1, b] broadcast by the host along both axes to [a, b] reads, at (p, c), the row's entry c. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector [b] broadcast by the host onto the last axis of [1, b] reads, at (u, c), the vector's entry c. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A vector cast to the row [1, b] is the vector broadcast to [1, b]: both hold the vector's entry c at (u, c). -/
theorem shapeCast_row_eq_broadcastInDim {b : ℕ} (x : (⟨1, ![b]⟩ : Shape).Idx → α)
    (h1 : (⟨1, ![b]⟩ : Shape).ShapeCasts ⟨2, ![1, b]⟩) (h2 : (⟨1, ![b]⟩ : Shape).BroadcastsInDim ⟨2, ![1, b]⟩ ![1]) :
    shapeCast ⟨2, ![1, b]⟩ x h1 = broadcastInDim ⟨2, ![1, b]⟩ ![1] h2 x := by
  funext j
  obtain ⟨u, c, rfl⟩ : ∃ (u : Fin 1) (c : Fin b), j = ix2 u c := ⟨j 0, j 1, eq_ix2 j⟩
  rw [shapeCast_a_1a_apply, broadcastInDim_b_1b_apply]

/-- The body's epilogue max (x + row, z) — identity casts of both operands, the row laid over the a rows by
    `vector.broadcast`, z a splat — read at (p, c). -/
theorem body_biasMax_apply {a b : ℕ} (x : FVec Ideal ⟨2, ![a, b]⟩ .f32) (v : FVec Ideal ⟨2, ![1, b]⟩ .f32)
    (h1 : (⟨2, ![a, b]⟩ : Shape).ShapeCasts ⟨2, ![a, b]⟩) (h2 : (⟨2, ![1, b]⟩ : Shape).ShapeCasts ⟨2, ![1, b]⟩)
    (h3 : (⟨2, ![1, b]⟩ : Shape).Broadcasts ⟨2, ![a, b]⟩) (z : Ideal .f32) (p : Fin a) (c : Fin b) :
    maximumf (addf (shapeCast ⟨2, ![a, b]⟩ x h1) (broadcastTo ⟨2, ![a, b]⟩ (shapeCast ⟨2, ![1, b]⟩ v h2) h3))
        (broadcast ⟨2, ![a, b]⟩ z) (ix2 p c)
      = max (x (ix2 p c) + v (ix2 (0 : Fin 1) c)) z := by
  rw [shapeCast_self, shapeCast_self]
  show max (x (ix2 p c) + broadcastTo ⟨2, ![a, b]⟩ v h3 (ix2 p c)) z = _
  rw [broadcastTo_1b_ab_apply]

/-- The host's epilogue max (x + row, z) — the row laid over the a rows by `broadcast_in_dim`, z a rank-0 constant
    broadcast to every entry — read at (p, c). -/
theorem host_biasMax_apply {a b : ℕ} (x : FVec Ideal ⟨2, ![a, b]⟩ .f32) (v : FVec Ideal ⟨2, ![1, b]⟩ .f32)
    (h4 : (⟨2, ![1, b]⟩ : Shape).BroadcastsInDim ⟨2, ![a, b]⟩ ![0, 1])
    (h0 : (⟨0, ![]⟩ : Shape).BroadcastsInDim ⟨2, ![a, b]⟩ ![]) (z : FVec Ideal ⟨0, ![]⟩ .f32) (p : Fin a) (c : Fin b) :
    maximumf (addf x (broadcastInDim ⟨2, ![a, b]⟩ ![0, 1] h4 v)) (broadcastInDim ⟨2, ![a, b]⟩ ![] h0 z) (ix2 p c)
      = max (x (ix2 p c) + v (ix2 (0 : Fin 1) c)) (z ix0) := by
  show max (x (ix2 p c) + broadcastInDim ⟨2, ![a, b]⟩ ![0, 1] h4 v (ix2 p c)) (broadcastInDim ⟨2, ![a, b]⟩ ![] h0 z (ix2 p c)) = _
  rw [broadcastInDim_1b_ab_apply, broadcastInDim_apply ![] h0 z (ix2 p c) ix0 (fun ax => ax.elim0)]

end Cert.LibRowBias

end
-- ==== Proof.RefDense.lean ====
/-
  The reference's value is the specification, index by index, for index words in range.

  The 50 looked-up rows of batch entry r, summed by the host from the zero word, are 0 + Σ_l table(row(r, l), e), and
  0 + x = x; dividing by the word of 50 is multiplying by the exact 1/50 on every extended real; each dense layer's
  product is the plain sum over its contraction index, its bias row laid over the batch, the first layer's maximum taken
  with the zero word. Only the laws of a commutative monoid and the division law are used, so no finiteness is asked.
-/
import proofs.«207455_g33174327394824_cont_8to1_b_592_21_alg».proof.Proof.RefTake
import proofs.«207455_g33174327394824_cont_8to1_b_592_21_alg».proof.Proof.RefConsts
import proofs.«207455_g33174327394824_cont_8to1_b_592_21_alg».proof.Proof.LibPlainDot
import proofs.«207455_g33174327394824_cont_8to1_b_592_21_alg».proof.Proof.LibRowBias
import Idealize.ShloMosaic.Lib.IdealHost

noncomputable section

namespace Cert.ReferenceIdeal.RefValue

open Cert.ReferenceIdeal Idealize.ShloMosaic Idealize.ShloMosaic.ValueIdx
open Cert.ReferenceIdeal.Facts₀

/-- Any hidden unit of the reference's first layer is the specification's, for every array of mean rows. -/
theorem hidden_apply (x : FVec Ideal S4096x128 .f32) (W1 : FVec Ideal S128x512 .f32) (b1 : FVec Ideal S512 .f32)
    (r : Fin 4096) (j : Fin 512) : hidden x W1 b1 (ix2 r j) = Cert.Spec.hidOf W1 b1 x r j := by
  unfold hidden
  rw [Cert.LibRowBias.host_biasMax_apply, Cert.LibRowBias.broadcastInDim_b_1b_apply,
    show dot_S4096x128_S128x512_S4096x512_1_0_0_1_n_n = DotDims.plain 4096 128 512 from rfl,
    dotGeneral_plain_apply, constant_apply, Ideal.ofBits_zero_f32]
  rfl

/-- Any entry of the reference's second layer: Σ_j h(r, j) · W2(j, n) + b2(n). -/
theorem output_apply (h : FVec Ideal S4096x512 .f32) (W2 : FVec Ideal S512x1000 .f32) (b2 : FVec Ideal S1000 .f32)
    (r : Fin 4096) (n : Fin 1000) :
    output h W2 b2 (ix2 r n) = (∑ j : Fin 512, h (ix2 r j) * W2 (ix2 j n)) + b2 (ix1 n) := by
  unfold output
  rw [addf_apply, Cert.LibRowBias.broadcastInDim_1b_ab_apply, Cert.LibRowBias.broadcastInDim_b_1b_apply,
    show dot_S4096x512_S512x1000_S4096x1000_1_0_0_1_n_n = DotDims.plain 4096 512 1000 from rfl,
    dotGeneral_plain_apply]

section InRange

variable (ids : IVec S4096x50 32) (hr : ∀ j, 0 ≤ (ids j).toInt ∧ (ids j).toInt ≤ 99999)
include hr

/-- The host's sum of the 50 looked-up rows from the zero word is the specification's row sum. -/
theorem summed_apply (tbl : FVec Ideal S100000x128 .f32) (r : Fin 4096) (e : Fin 128) :
    summed ids tbl (ix2 r e) = Cert.Spec.rowSum ids tbl r e := by
  have hR : S4096x50x128.Reduces [1] S4096x128 := by decide
  unfold summed
  rw [hostReduceAdd_apply, Ideal.hostReduceAdd_single _ hR, constant_apply, Ideal.ofBits_zero_f32, zero_add]
  show ∑ l : Fin 50, taken ids tbl (hR.lift (ix2 r e) l) = ∑ l : Fin 50, tbl (ix2 (Cert.Spec.rowOf (ids (ix2 r l))) e)
  refine Finset.sum_congr rfl fun l _ => ?_
  have hl : hR.lift (ix2 r e) l = ix3 r l e := by
    funext c
    refine Fin.ext ?_
    match c with
    | ⟨0, _⟩ => rfl
    | ⟨1, _⟩ => rfl
    | ⟨2, _⟩ => rfl
  rw [hl, taken_apply ids hr]

/-- The reference's mean rows are the specification's. -/
theorem meanRows_eq (tbl : FVec Ideal S100000x128 .f32) : meanRows ids tbl = Cert.Spec.meanArr ids tbl := by
  funext j
  obtain ⟨r, e, rfl⟩ : ∃ (r : Fin 4096) (e : Fin 128), j = ix2 r e := ⟨j 0, j 1, eq_ix2 j⟩
  show Ideal.div (summed ids tbl (ix2 r e)) (Ideal.ofBits .f32 0x42480000#32) = Cert.Spec.rowSum ids tbl r e * ((1 / 50 : ℝ) : EReal)
  rw [div_ofBits_50, summed_apply ids hr]

/-- The reference's value is the specification of its six arguments. -/
theorem refOut_eq (tbl : FVec Ideal S100000x128 .f32) (W1 : FVec Ideal S128x512 .f32) (b1 : FVec Ideal S512 .f32)
    (W2 : FVec Ideal S512x1000 .f32) (b2 : FVec Ideal S1000 .f32) :
    refOut ids tbl W1 b1 W2 b2 = Cert.Spec.out ids tbl W1 b1 W2 b2 := by
  funext i
  obtain ⟨r, n, rfl⟩ : ∃ (r : Fin 4096) (n : Fin 1000), i = ix2 r n := ⟨i 0, i 1, eq_ix2 i⟩
  unfold refOut
  rw [output_apply, meanRows_eq ids hr]
  show _ = (∑ j : Fin 512, Cert.Spec.hidOf W1 b1 (Cert.Spec.meanArr ids tbl) r j * W2 (ix2 j n)) + b2 (ix1 n)
  refine congrArg (· + b2 (ix1 n)) (Finset.sum_congr rfl fun j _ => ?_)
  rw [hidden_apply]

end InRange

end Cert.ReferenceIdeal.RefValue

end
-- ==== Proof.RefRun.lean ====
/-
  The reference's run with its result named as the specification.

  Under the input-domain predicate every index word reads, signed, in [0, 99999]; the reference's value, which the run
  leaves at the result buffer, is then the specification of the six argument arrays, and the arguments end as they were.
  The frame claim is the same run with the value conjunct dropped.
-/
import proofs.«207455_g33174327394824_cont_8to1_b_592_21_alg».proof.Defs
import proofs.«207455_g33174327394824_cont_8to1_b_592_21_alg».proof.Proof.Gen.ReferenceIdeal
import proofs.«207455_g33174327394824_cont_8to1_b_592_21_alg».proof.Proof.Gen.Pre_input_domain
import proofs.«207455_g33174327394824_cont_8to1_b_592_21_alg».proof.Proof.RefOps
import proofs.«207455_g33174327394824_cont_8to1_b_592_21_alg».proof.Proof.RefDense
import proofs.«207455_g33174327394824_cont_8to1_b_592_21_alg».proof.Proof.PreRange

noncomputable section

namespace Cert.ReferenceIdeal.RefValue

open Cert.ReferenceIdeal Idealize.ShloMosaic Idealize.ShloMosaic.TcCoe Idealize.SL.Sem Idealize.ShloMosaic.StableHlo

/-- From any memory of which the input-domain predicate holds, with zero counters: every fair execution of the
    reference terminates with the result buffer at the specification of the six arguments and the arguments unchanged. -/
theorem run (m : (ℓ : Loc nD τ sig) → Buf (Elt Ideal) ℓ) (ρ : Dev nD → PrngReg) (hpre : Cert.Pre_ReferenceIdeal m) :
    θ_run (defs (F := Ideal)) (onTc (τ := τ) (main (F := Ideal))) ⟨m, fun _ => 0, ρ⟩ (fun r => ∀ c : Dev nD,
      r.2.mem ((c.tc : Thread nD τ).loc main_v13)
          = Cert.Spec.out (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run _ _ _).mono (fun _ h c =>
      ⟨(h c main_v13).trans ((out_eq _).trans
          (refOut_eq _ (Cert.PreRange.ids_int _ _ _ _ _ _ (hpre c)) _ _ _ _ _)),
        (h c main_arg0).trans (arg0_eq _), (h c main_arg1).trans (arg1_eq _), (h c main_arg2).trans (arg2_eq _),
        (h c main_arg3).trans (arg3_eq _), (h c main_arg4).trans (arg4_eq _), (h c main_arg5).trans (arg5_eq _)⟩)
    (run_main m ρ)

/-- The reference runs and leaves its arguments unchanged. -/
theorem frame : Cert.frame_ReferenceIdeal := fun m g hpre =>
  (θ_run _ _ _).mono (fun _ h c => (h c).2) (run m g hpre)

end Cert.ReferenceIdeal.RefValue

end
-- ==== Proof.KIRegionValue.lean ====
/-
  The dense layers' output array is the specification's function, at the ideal values.

  The body's result on a block is its payload (one covering store, whole-buffer loads); the payload at an index is the
  two-layer formula over the block; and the array assembled from the eight blocks reads, at row r, the formula at row r
  of the mean rows.
-/
import proofs.«207455_g33174327394824_cont_8to1_b_592_21_alg».proof.Proof.KIRegionArr
import proofs.«207455_g33174327394824_cont_8to1_b_592_21_alg».proof.Proof.Spec
import proofs.«207455_g33174327394824_cont_8to1_b_592_21_alg».proof.Proof.LibPlainMatmul
import proofs.«207455_g33174327394824_cont_8to1_b_592_21_alg».proof.Proof.LibRowBias
import Idealize.ShloMosaic.PureOps.Ideal.Laws
import Idealize.ShloMosaic.Lib.Pipeline.Value

set_option maxRecDepth 16384

noncomputable section

namespace Cert.KernelIdeal.HandValue
open Cert.KernelIdeal Cert.KernelIdeal.Gen Cert.KernelIdeal.Hand
open Idealize.ShloMosaic Idealize.ShloMosaic.ValueIdx

/-- The zero offsets, however spelt. -/
theorem hz2 : (![0, 0] : Fin 2 → Nat) = fun _ => 0 := funext fun a => by fin_cases a <;> rfl

/-- The two printed dimension records are the plain products' [512, 128] × [128, 512] and [512, 512] × [512, 1000]. -/
theorem dot1_eq : dot_S512x128_S128x512_S512x512_1_0_0_1_n_n = DotDims.plain 512 128 512 := rfl
theorem dot2_eq : dot_S512x512_S512x1000_S512x1000_1_0_0_1_n_n = DotDims.plain 512 512 1000 := rfl

/-- The one store covers the output buffer from offset zero and each load reads its whole buffer: what the body leaves
    is its payload at the five blocks. -/
theorem outBlk_eq (x0 : Vec Ideal S512x128 .f32) (x1 : Vec Ideal S128x512 .bf16) (x2 : Vec Ideal S1x512 .f32)
    (x3 : Vec Ideal S512x1000 .bf16) (x4 : Vec Ideal S1x1000 .f32) :
    outBlk (F := Ideal) x0 x1 x2 x3 x4 = k1_pay1 x0 x1 x2 x3 x4 := by
  unfold outBlk
  rw [View.canon_unit_zero hz2]
  simp only [View.ld_unit_zero (S := S512x128) hz2, View.ld_unit_zero (S := S128x512) hz2, View.ld_unit_zero (S := S1x512) hz2,
    View.ld_unit_zero (S := S512x1000) hz2, View.ld_unit_zero (S := S1x1000) hz2]

set_option maxHeartbeats 400000 in
/-- THE PAYLOAD AT AN INDEX, at the ideal values: at (p, n), Σ_k max(Σ_e x(p, e) · W1(e, k) + b1(0, k), 0) · W2(k, n) + b2(0, n) —
    the roundings to bf16 are the identity, the two products are sums over the contraction index, the bias rows are laid
    over the rows, the zero splat is 0. -/
theorem pay_apply (v0 : Vec Ideal S512x128 .f32) (v3 : Vec Ideal S128x512 .bf16) (v6 : Vec Ideal S1x512 .f32)
    (v13 : Vec Ideal S512x1000 .bf16) (v16 : Vec Ideal S1x1000 .f32) (p : Fin 512) (n : Fin 1000) :
    k1_pay1 (F := Ideal) v0 v3 v6 v13 v16 (ix2 p n)
      = (∑ k : Fin 512, max ((∑ e : Fin 128, v0 (ix2 p e) * v3 (ix2 e k)) + v6 (ix2 (0 : Fin 1) k)) 0 * v13 (ix2 k n))
          + v16 (ix2 (0 : Fin 1) n) := by
  unfold k1_pay1
  simp only [shapeCast_self]
  have hz : (FloatOps.ofBits (F := Idealize.ShloMosaic.Ideal) FTy.f32 0#32) = 0 := Ideal.ofBits_zero_f32
  rw [addf_apply, broadcastTo_1b_ab_apply, dot2_eq]
  refine congrArg (· + v16 (ix2 (0 : Fin 1) n)) ?_
  refine (matmul_plain_zero_apply 512 512 1000 (φ₁ := .bf16) (φ₂ := .bf16) none _ _ p n).trans (Finset.sum_congr rfl fun k _ => ?_)
  refine congrArg (· * v13 (ix2 k n)) ?_
  rw [truncf_apply, maximumf_apply, addf_apply, broadcast_apply, broadcastTo_1b_ab_apply, dot1_eq, hz]
  refine congrArg (fun s => max (s + v6 (ix2 (0 : Fin 1) k)) 0) ?_
  exact (matmul_plain_zero_apply 512 128 512 (φ₁ := .bf16) (φ₂ := .bf16) none _ _ p k).trans (Finset.sum_congr rfl fun e _ => by rw [truncf_apply])

/-- THE OUTPUT ARRAY IS THE SPECIFICATION'S: for mean rows X and the weights and biases as the program's host operations
    hand them to the region (the weights rounded to bf16, the identity here; the biases cast to rows), the array the region
    leaves is the dense layers' function of X, index by index — row r is row r % 512 of block r / 512, and
    512 · (r / 512) + r % 512 = r. -/
theorem mlpOut_eq_spec (X : S4096x128.Idx → EReal) (W1 : S128x512.Idx → EReal) (b1 : S512.Idx → EReal) (W2 : S512x1000.Idx → EReal) (b2 : S1000.Idx → EReal) :
    mlpOut (F := Idealize.ShloMosaic.Ideal) X
        (truncf .bf16 (W1 : FVec Idealize.ShloMosaic.Ideal S128x512 .f32) bitsLt_bf16_f32 : FVec Idealize.ShloMosaic.Ideal S128x512 .bf16)
        (shapeCast S1x512 b1 shapeCasts_S512_S1x512)
        (truncf .bf16 (W2 : FVec Idealize.ShloMosaic.Ideal S512x1000 .f32) bitsLt_bf16_f32 : FVec Idealize.ShloMosaic.Ideal S512x1000 .bf16)
        (shapeCast S1x1000 b2 shapeCasts_S1000_S1x1000)
      = Cert.Spec.outOf W1 b1 W2 b2 X := by
  funext i
  obtain ⟨r, n, rfl⟩ : ∃ (r : Fin 4096) (n : Fin 1000), i = ix2 r n := ⟨i 0, i 1, eq_ix2 i⟩
  unfold mlpOut
  rw [outBlk_eq]
  have hin : inBlk (ix2 r n) = ix2 (⟨r.val % 512, Nat.mod_lt _ (by decide)⟩ : Fin 512) n := rfl
  rw [hin, pay_apply]
  have hrow : ∀ e : Fin 128, rowBlk (F := Idealize.ShloMosaic.Ideal) X (blkOf (ix2 r n)) (ix2 (⟨r.val % 512, Nat.mod_lt _ (by decide)⟩ : Fin 512) e) = X (ix2 r e) := fun e => by
    unfold rowBlk
    refine congrArg X (funext fun a => Fin.ext ?_)
    match a with
    | ⟨0, _⟩ => show 512 * (r.val / 512) + r.val % 512 = r.val; omega
    | ⟨1, _⟩ => rfl
  simp only [hrow, truncf_apply, shapeCast_a_1a_apply]
  rfl

end Cert.KernelIdeal.HandValue
end
-- ==== Proof.KIValSpec.lean ====
/-
  The accumulator scratch is the specification's mean rows, at the ideal values.

  The index array reshaped from [4096, 50] to [2048, 100] holds, at (n, c), the word of batch row 2·n + c / 50 at position
  c % 50; so half r of chunk n gathers the 50 table rows batch row 2·n + r names. A running sum at the ideal values is the
  zero word's 0 plus the sum of its rows, the reciprocal constant is the real 1/50, and row ρ of the scratch of the subcore
  whose first chunk is `base` holds the mean of batch row 2·base + ρ.
-/
import proofs.«207455_g33174327394824_cont_8to1_b_592_21_alg».proof.Proof.KIVal
import proofs.«207455_g33174327394824_cont_8to1_b_592_21_alg».proof.Proof.Spec
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value

set_option maxRecDepth 16384

noncomputable section

namespace Cert.KernelIdeal.HandValI

open Cert.KernelIdeal Cert.KernelIdeal.Gen Cert.KernelIdeal.HandVal
open Idealize.ShloMosaic Idealize.ShloMosaic.ValueIdx

local notation "𝕀" => Idealize.ShloMosaic.Ideal

/-- The reciprocal constant is the real 1/50. -/
theorem inv50c_ideal : inv50c (F := 𝕀) = ((1 / 50 : ℝ) : EReal) :=
  IdealRules.named_const.ideal_named_scalar _ _ _ _ rfl

/-- The reshaped index array at (n, c): the word of batch row 2·n + c / 50 at position c % 50. -/
theorem reshape_ids (ids : S4096x50.Idx → BitVec 32) (n : Fin 2048) (c : Fin 100) (R : Fin 4096) (p : Fin 50)
    (hR : R.val = 2 * n.val + c.val / 50) (hp : p.val = c.val % 50) :
    shapeCast S2048x100 ids shapeCasts_S4096x50_S2048x100 (ix2 n c) = ids (ix2 R p) :=
  shapeCast_apply ids _ _ _ (by
    rw [Shape.rowMajor_val_two, Shape.rowMajor_val_two]
    show R.val * 50 + p.val = n.val * 100 + c.val
    omega)

/-- A running sum at an index: the sum of its rows. -/
theorem psumV_apply (g : S100x128.Idx → 𝕀 .f32) (r dd n : ℕ) (lane : S16.Idx) :
    psumV (F := 𝕀) g r dd n lane = ∑ i ∈ Finset.range n, rowV (F := 𝕀) g (50 * r + i) dd lane := by
  induction n with
  | zero =>
    rw [Finset.sum_range_zero]
    exact Ideal.ofBits_zero_f32
  | succ n ih =>
    rw [Finset.sum_range_succ, ← ih]
    rfl

/-- Lane l of sixteen lanes of a row inside the array. -/
theorem rowV_apply (g : S100x128.Idx → 𝕀 .f32) (ρ dd : ℕ) (l : Fin 16) (h1 : ρ < 100) (h2 : 16 * dd + l.val < 128) :
    rowV (F := 𝕀) g ρ dd (ix1 l) = g (ix2 ⟨ρ, h1⟩ ⟨16 * dd + l.val, h2⟩) := by
  unfold rowV
  exact dif_pos ⟨h1, h2⟩

/-- A gathered row of a chunk inside the index array. -/
theorem gath_apply (fi : S2048x100.Idx → BitVec 32) (ft : S100000x128.Idx → 𝕀 .f32) (n : ℕ) (h : n < 2048) (x : S100x128.Idx) :
    gath (F := 𝕀) fi ft n x = ft (ix2 (Cert.Spec.rowOf (fi (ix2 ⟨n, h⟩ (x 0)))) (x 1)) := by
  unfold gath
  exact dif_pos h

/-- What is stored for an accumulator, at lane l: the lane times the reciprocal constant. -/
theorem storeVec_apply (w : FVec 𝕀 S16 .f32) (l : Fin 16) :
    storeVec (F := 𝕀) w (ix2 (0 : Fin 1) l) = w (ix1 l) * inv50c (F := 𝕀) := by
  unfold storeVec
  rw [shapeCast_a_1a_apply]
  rfl

/-- ROW ρ OF THE ACCUMULATOR SCRATCH of the subcore whose first chunk is `base` IS THE MEAN ROW of batch row 2·base + ρ. -/
theorem Macc_eq_mean (ids : S4096x50.Idx → BitVec 32) (tbl : S100000x128.Idx → EReal) (base : ℕ) (hb : base + 63 < 2048)
    (y : S128x128.Idx) (hR : 2 * base + (y 0).val < 4096) :
    Macc (F := 𝕀) (shapeCast S2048x100 ids shapeCasts_S4096x50_S2048x100) tbl base y
      = Cert.Spec.mean ids tbl ⟨2 * base + (y 0).val, hR⟩ (y 1) := by
  have hy0 : (y 0).val < 128 := (y 0).isLt
  have hy1 : (y 1).val < 128 := (y 1).isLt
  have hn : base + (y 0).val / 2 < 2048 := by omega
  unfold Macc
  rw [storeVec_apply, psumV_apply, inv50c_ideal]
  unfold Cert.Spec.mean Cert.Spec.rowSum
  refine congrArg (· * ((1 / 50 : ℝ) : EReal)) ?_
  rw [← Fin.sum_univ_eq_sum_range (fun i => rowV (F := 𝕀) (gath (F := 𝕀) (shapeCast S2048x100 ids shapeCasts_S4096x50_S2048x100) tbl
    (base + (y 0).val / 2)) (50 * ((y 0).val % 2) + i) ((y 1).val / 16) (ix1 ⟨(y 1).val % 16, Nat.mod_lt _ (by decide)⟩)) 50]
  refine Finset.sum_congr rfl fun i _ => ?_
  have hi : i.val < 50 := i.isLt
  rw [rowV_apply _ _ _ _ (by omega) (by show 16 * ((y 1).val / 16) + (y 1).val % 16 < 128; omega), gath_apply _ _ _ hn]
  rw [reshape_ids ids ⟨base + (y 0).val / 2, hn⟩ _ ⟨2 * base + (y 0).val, hR⟩ i
    (by show 2 * base + (y 0).val = 2 * (base + (y 0).val / 2) + (50 * ((y 0).val % 2) + i.val) / 50; omega)
    (by show i.val = (50 * ((y 0).val % 2) + i.val) % 50; omega)]
  refine congrArg tbl (congrArg (ix2 _) (Fin.ext ?_))
  show 16 * ((y 1).val / 16) + (y 1).val % 16 = (y 1).val
  omega

end Cert.KernelIdeal.HandValI

end
-- ==== Proof.KIAlg.lean ====
/-
  At the ideal values the program's result and the reference's are one function of the arguments.

  The program's run ends with the result array at the dense layers' function of an array whose row j is row j % 128 of the
  accumulator scratch of the subcore whose first chunk is 64·(j / 128) — the array of mean rows — and of the weights and biases
  as the host operations hand them on; that is the specification of the six arguments. The reference's run ends with its
  result at the specification of its own arguments, which are the program's. The input-domain predicate, which names only the
  arguments, holds of the reference's memory because it holds of the program's.
-/
import proofs.«207455_g33174327394824_cont_8to1_b_592_21_alg».proof.Defs
import proofs.«207455_g33174327394824_cont_8to1_b_592_21_alg».proof.Proof.Gen.KernelIdeal
import proofs.«207455_g33174327394824_cont_8to1_b_592_21_alg».proof.Proof.Gen.ReferenceIdeal
import proofs.«207455_g33174327394824_cont_8to1_b_592_21_alg».proof.Proof.Gen.Pre_input_domain
import proofs.«207455_g33174327394824_cont_8to1_b_592_21_alg».proof.Proof.PreRange
import proofs.«207455_g33174327394824_cont_8to1_b_592_21_alg».proof.Proof.Spec
import proofs.«207455_g33174327394824_cont_8to1_b_592_21_alg».proof.Proof.KIVRun
import proofs.«207455_g33174327394824_cont_8to1_b_592_21_alg».proof.Proof.KIRegionValue
import proofs.«207455_g33174327394824_cont_8to1_b_592_21_alg».proof.Proof.KIValSpec
import proofs.«207455_g33174327394824_cont_8to1_b_592_21_alg».proof.Proof.RefRun

set_option maxRecDepth 16384

noncomputable section

namespace Cert.Proof.Alg

open Idealize.ShloMosaic Idealize.SL.Sem
open Cert.KernelIdeal Cert.KernelIdeal.Gen
open Cert.KernelIdeal.HandVal Cert.KernelIdeal.HandValI

attribute [local irreducible] Cert.KernelIdeal.Hand.mlpOut Cert.KernelIdeal.Hand.outBlk

/-- An array that holds, at row j, row j % 128 of the accumulator scratch of the subcore whose first chunk is 64·(j / 128)
    is the array of mean rows: 2·64·(j / 128) + j % 128 = j. -/
theorem eq_meanArr (ids : S4096x50.Idx → BitVec 32) (tbl : S100000x128.Idx → EReal) (f : S4096x128.Idx → EReal)
    (hf : ∀ j : S4096x128.Idx, f j = Macc (F := Idealize.ShloMosaic.Ideal) (shapeCast S2048x100 ids shapeCasts_S4096x50_S2048x100) tbl
      (64 * ((j 0).val / 128)) (ValueIdx.ix2 ⟨(j 0).val % 128, Nat.mod_lt _ (by decide)⟩ (j 1))) :
    f = Cert.Spec.meanArr ids tbl := by
  funext j
  obtain ⟨p, q, rfl⟩ : ∃ (p : Fin 4096) (q : Fin 128), j = ValueIdx.ix2 p q := ⟨j 0, j 1, ValueIdx.eq_ix2 j⟩
  have hp : p.val < 4096 := p.isLt
  refine (hf (ValueIdx.ix2 p q)).trans ?_
  have hR : 2 * (64 * (p.val / 128)) + p.val % 128 < 4096 := by omega
  refine (Macc_eq_mean ids tbl (64 * (p.val / 128)) (by omega) (ValueIdx.ix2 ⟨p.val % 128, Nat.mod_lt _ (by decide)⟩ q) hR).trans ?_
  show Cert.Spec.mean ids tbl ⟨2 * (64 * (p.val / 128)) + p.val % 128, hR⟩ q = Cert.Spec.mean ids tbl p q
  exact congrArg (fun R => Cert.Spec.mean ids tbl R q) (Fin.ext (by show 2 * (64 * (p.val / 128)) + p.val % 128 = p.val; omega))

/-- Under the predicate every word of the reshaped index array names a table row. -/
theorem ids_lt (m : (ℓ : Loc Cert.KernelIdeal.nD Cert.KernelIdeal.τ Cert.KernelIdeal.sig) → Buf (Elt Idealize.ShloMosaic.Ideal) ℓ)
    (h : Cert.Pre_KernelIdeal m) :
    ∀ (d : Dev Cert.KernelIdeal.nD) j, (Cert.KernelIdeal.Hand.idsC m d j).toNat < 100000 := by
  intro d j
  unfold Cert.KernelIdeal.Hand.idsC shapeCast
  exact Cert.PreRange.ids_lt (F := Idealize.ShloMosaic.Ideal) _ _ _ _ _ _ (h d) _

/-- The predicate names only the six arguments: it holds of a memory that agrees with one it holds of. -/
theorem pre_ref (m : (ℓ : Loc Cert.KernelIdeal.nD Cert.KernelIdeal.τ Cert.KernelIdeal.sig) → Buf (Elt Idealize.ShloMosaic.Ideal) ℓ)
    (m' : (ℓ : Loc Cert.ReferenceIdeal.nD Cert.ReferenceIdeal.τ Cert.ReferenceIdeal.sig) → Buf (Elt Idealize.ShloMosaic.Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.Pre_ReferenceIdeal m' := by
  intro c
  obtain ⟨e0, e1, e2, e3, e4, e5⟩ := hagree c
  have h := hpre c
  simp only [e0, e1, e2, e3, e4, e5]
  exact h

/-- THE ALGEBRAIC CLAIM: from memories agreeing on the six arguments, of which the input-domain predicate holds, the
    program and the reference both run, leave their arguments unchanged, and end with the same result array — the
    specification of the arguments. -/
theorem algebraic : Cert.algebraic_KernelIdeal_ReferenceIdeal := by
  intro m ρ m' ρ' hpre hagree
  refine ⟨fun c => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run _ _ _).mono (fun r h c => ?_)
      (Cert.KernelIdeal.Hand.run_mainV (F := Idealize.ShloMosaic.Ideal) m ρ (ids_lt m hpre))
    obtain ⟨s', hs, h0, h1, h2, h3, h4, h5, f, hf, hv⟩ := h c
    rw [← hs]
    refine ⟨?_, h0, h1, h2, h3, h4, h5⟩
    have hc : c = 0 := Subsingleton.elim _ _
    subst hc
    have hfm : f = Cert.Spec.meanArr (m ((SparseCore.T (0 : Dev Cert.KernelIdeal.nD) : Thread Cert.KernelIdeal.nD Cert.KernelIdeal.τ).loc Cert.KernelIdeal.main_arg0))
        (m ((SparseCore.T (0 : Dev Cert.KernelIdeal.nD) : Thread Cert.KernelIdeal.nD Cert.KernelIdeal.τ).loc Cert.KernelIdeal.main_arg1)) :=
      eq_meanArr _ _ f hf
    refine hv.trans ?_
    rw [hfm]
    exact Cert.KernelIdeal.HandValue.mlpOut_eq_spec _ _ _ _ _
  · refine (θ_run _ _ _).mono (fun r h c => ?_)
      (Cert.ReferenceIdeal.RefValue.run m' ρ' (pre_ref m m' hpre hagree))
    obtain ⟨hv, h0, h1, h2, h3, h4, h5⟩ := h c
    obtain ⟨e0, e1, e2, e3, e4, e5⟩ := hagree c
    refine ⟨hv.trans ?_, h0, h1, h2, h3, h4, h5⟩
    rw [e0, e1, e2, e3, e4, e5]

end Cert.Proof.Alg

end
-- ==== Proof.lean ====
/-
  The certificate's claims assembled.

  Under the input-domain predicate every index word names a table row, which is what the lookup kernel's run asks of the
  launch memory; the program as printed and its idealization then run to the end with the six argument arrays unchanged,
  and so does the reference, whose result is the specification of its arguments. Each named constant of the idealization
  is the exact 1/50 where the printed program has its rounding. At the ideal values the program's result and the
  reference's are the same function of the arguments, entry by entry.
-/
import proofs.«207455_g33174327394824_cont_8to1_b_592_21_alg».proof.Defs
import proofs.«207455_g33174327394824_cont_8to1_b_592_21_alg».proof.Proof.Gen.Kernel
import proofs.«207455_g33174327394824_cont_8to1_b_592_21_alg».proof.Proof.Gen.KernelIdeal
import proofs.«207455_g33174327394824_cont_8to1_b_592_21_alg».proof.Proof.Gen.ReferenceIdeal
import proofs.«207455_g33174327394824_cont_8to1_b_592_21_alg».proof.Proof.Gen.Pre_input_domain
import proofs.«207455_g33174327394824_cont_8to1_b_592_21_alg».proof.Proof.PreRange
import proofs.«207455_g33174327394824_cont_8to1_b_592_21_alg».proof.Proof.KRun
import proofs.«207455_g33174327394824_cont_8to1_b_592_21_alg».proof.Proof.KIVRun
import proofs.«207455_g33174327394824_cont_8to1_b_592_21_alg».proof.Proof.RefRun
import proofs.«207455_g33174327394824_cont_8to1_b_592_21_alg».proof.Proof.KIAlg

noncomputable section

namespace Cert.Proof

open Idealize.ShloMosaic Idealize.SL.Sem

/-- Under the predicate every word of the reshaped index array names a table row (the idealized program's memory). -/
theorem hpre_KI (m : (ℓ : Loc Cert.KernelIdeal.nD Cert.KernelIdeal.τ Cert.KernelIdeal.sig) → Buf (Elt Ideal) ℓ)
    (h : Cert.Pre_KernelIdeal m) :
    ∀ (d : Dev Cert.KernelIdeal.nD) j, (Cert.KernelIdeal.Hand.idsC m d j).toNat < 100000 := by
  intro d j
  unfold Cert.KernelIdeal.Hand.idsC shapeCast
  exact Cert.PreRange.ids_lt (F := Ideal) _ _ _ _ _ _ (h d) _

/-- The same for the program as printed. -/
theorem hpre_K (m : (ℓ : Loc Cert.Kernel.nD Cert.Kernel.τ Cert.Kernel.sig) → Buf (Elt Bits) ℓ)
    (h : Cert.Pre_Kernel m) :
    ∀ (d : Dev Cert.Kernel.nD) j, (Cert.Kernel.Hand.idsC m d j).toNat < 100000 := by
  intro d j
  unfold Cert.Kernel.Hand.idsC shapeCast
  exact Cert.PreRange.ids_lt (F := Bits) _ _ _ _ _ _ (h d) _

/-- The program as printed runs and leaves its arguments unchanged. -/
theorem frame_K : Cert.frame_Kernel := fun m ρ hpre =>
  (θ_run _ _ _).mono (fun r h c => by
      obtain ⟨s', hs, h0, h1, h2, h3, h4, h5, -⟩ := h c
      rw [← hs]
      exact ⟨h0, h1, h2, h3, h4, h5⟩)
    (Cert.Kernel.Hand.run_main (F := Bits) m ρ (hpre_K m hpre))

/-- Its idealization runs and leaves its arguments unchanged. -/
theorem frame_KI : Cert.frame_KernelIdeal := fun m ρ hpre =>
  (θ_run _ _ _).mono (fun r h c => by
      obtain ⟨s', hs, h0, h1, h2, h3, h4, h5, -⟩ := h c
      rw [← hs]
      exact ⟨h0, h1, h2, h3, h4, h5⟩)
    (Cert.KernelIdeal.Hand.run_mainV (F := Ideal) m ρ (hpre_KI m hpre))

/-- The reference runs and leaves its arguments unchanged. -/
theorem frame_R : Cert.frame_ReferenceIdeal := Cert.ReferenceIdeal.RefValue.frame

/-- Every named constant of the idealization stands for the exact 1/50. -/
theorem preserves : Cert.preserves_Kernel_KernelIdeal := by
  have h := IdealRules.named_const.statement Cert.KernelIdeal.κ "inv_50" .f32 0x3CA3D70A#32 ((1 / 50 : ℝ) : EReal) rfl
  unfold Cert.preserves_Kernel_KernelIdeal
  exact ⟨h, h, h, h, h, h, h, h, h, h, h, h, h, h, h, h, h, h, h, h, h, h, h, h, h, h, h, h, h, h, h, h, h, h, h, h, h, h, h, h, h, h, h, h, h, h, h, h, h, h, h, h, h, h, h, h, h, h, h, h, h, h, h, h⟩

theorem claim : Cert.Claim :=
  ⟨Cert.Kernel.Gen.facts, Cert.KernelIdeal.Gen.facts, Cert.ReferenceIdeal.Gen.facts, Cert.Pre_input_domain.Gen.facts,
    frame_K, frame_KI, frame_R, preserves, Cert.Proof.Alg.algebraic⟩

end Cert.Proof

end
